-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S512x2048 : Shape := ⟨2, ![512, 2048]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S512x512 .f32) (main_arg1 : FVec F S512x2048 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  main_v8
-- ==== Pre_finite_inputs_ReferenceIdeal.lean ====
abbrev S1024x512 : Shape := ⟨2, ![1024, 512]⟩
abbrev S1024x2048 : Shape := ⟨2, ![1024, 2048]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S1024x512 .f32) (main_arg1 : FVec F S1024x2048 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S512x512 : Shape := ⟨2, ![512, 512]⟩
abbrev S512x2048 : Shape := ⟨2, ![512, 2048]⟩
abbrev S256x2048 : Shape := ⟨2, ![256, 2048]⟩
abbrev S256x1024 : Shape := ⟨2, ![256, 1024]⟩
abbrev S8 : Shape := ⟨1, ![8]⟩
abbrev S512x256 : Shape := ⟨2, ![512, 256]⟩
abbrev S512x128 : Shape := ⟨2, ![512, 128]⟩
abbrev S256x128 : Shape := ⟨2, ![256, 128]⟩
abbrev S_ : Shape := ⟨0, ![]⟩
abbrev S1 : Shape := ⟨1, ![1]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .f32⟩
  | .local _ .vmem, ⟨0, _⟩ => ⟨S512x512, .f32⟩
  | .local _ .vmem, ⟨1, _⟩ => ⟨S512x2048, .f32⟩
  | .local _ .vmem, ⟨2, _⟩ => ⟨S256x2048, .f32⟩
  | .local _ .vmem, ⟨3, _⟩ => ⟨S256x1024, .bf16⟩
  | .local _ .vmem, ⟨4, _⟩ => ⟨S256x1024, .f32⟩
  | .local _ .vmem, ⟨5, _⟩ => ⟨S256x1024, .bf16⟩
  | .local _ .vmem, ⟨6, _⟩ => ⟨S256x2048, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  { ofTc nBuf bufTy 1 35 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_mult1 (d0 : Dev nD) : BitVec 32 :=
  let c1024_i32 : BitVec 32 := 1024#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.muli c1024_i32 v5
  v11
def k0_mult2 (d0 : Dev nD) : BitVec 32 :=
  let c1024_i32_5 : BitVec 32 := 1024#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let v14 : BitVec 32 := Scalar.muli c1024_i32_5 v13
  v14
def k0_mult3 (d0 : Dev nD) : BitVec 32 :=
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.subi c1_i32_6 v2
  let c256_i32 : BitVec 32 := 256#32
  let v17 : BitVec 32 := Scalar.muli v16 c256_i32
  v17
def k0_mult4 (d0 : Dev nD) : BitVec 32 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v19 : BitVec 32 := Scalar.muli v2 c256_i32_7
  v19
def k0_off1 (d0 : Dev nD) : Fin 2 → Nat :=
  let c0 : Index := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.subi c1_i32_6 v2
  let c256_i32 : BitVec 32 := 256#32
  let v17 : BitVec 32 := Scalar.muli v16 c256_i32
  let v18 : BitVec 32 := v17
  let v22 : Index := Scalar.indexCast v18
  ![0, v22.toNat]
def k0_off2 (d0 : Dev nD) (c0_i32 : BitVec 32) : Fin 2 → Nat :=
  let c0_8 : Index := 0#32
  let c1024_i32 : BitVec 32 := 1024#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.muli c1024_i32 v5
  let v12 : BitVec 32 := v11
  let v21 : BitVec 32 := Scalar.addi v12 c0_i32
  let v25 : Index := Scalar.indexCast v21
  ![0, v25.toNat]
def k0_dev1 (d0 : Dev nD) : Nat :=
  let c0_i32_42 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_41 : BitVec 32 := 8#32
  let v118 : BitVec 32 := Scalar.muli v9 c8_i32_41
  let v119 : BitVec 32 := Scalar.addi c0_i32_42 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v120 : BitVec 32 := Scalar.muli v5 c4_i32_43
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v122 : BitVec 32 := Scalar.muli v8 c1_i32_44
  let v123 : BitVec 32 := Scalar.addi v121 v122
  v123.toNat
def k0_dev2 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v124 : BitVec 32 := Scalar.muli v2 c8_i32_46
  let v125 : BitVec 32 := Scalar.addi c0_i32_47 v124
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_48 : BitVec 32 := 4#32
  let v126 : BitVec 32 := Scalar.muli v10 c4_i32_48
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v128 : BitVec 32 := Scalar.muli v8 c1_i32_49
  let v129 : BitVec 32 := Scalar.addi v127 v128
  v129.toNat
def k0_dev3 (d0 : Dev nD) : Nat :=
  let c0_i32_54 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_53 : BitVec 32 := 8#32
  let v130 : BitVec 32 := Scalar.muli v9 c8_i32_53
  let v131 : BitVec 32 := Scalar.addi c0_i32_54 v130
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_55 : BitVec 32 := 4#32
  let v132 : BitVec 32 := Scalar.muli v5 c4_i32_55
  let v133 : BitVec 32 := Scalar.addi v131 v132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v134 : BitVec 32 := Scalar.muli v8 c1_i32_56
  let v135 : BitVec 32 := Scalar.addi v133 v134
  v135.toNat
def k0_dev4 (d0 : Dev nD) : Nat :=
  let c0_i32_64 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_63 : BitVec 32 := 8#32
  let v142 : BitVec 32 := Scalar.muli v9 c8_i32_63
  let v143 : BitVec 32 := Scalar.addi c0_i32_64 v142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_65 : BitVec 32 := 4#32
  let v144 : BitVec 32 := Scalar.muli v5 c4_i32_65
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v146 : BitVec 32 := Scalar.muli v8 c1_i32_66
  let v147 : BitVec 32 := Scalar.addi v145 v146
  v147.toNat
def k0_dev5 (d0 : Dev nD) : Nat :=
  let c0_i32_74 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_73 : BitVec 32 := 8#32
  let v154 : BitVec 32 := Scalar.muli v9 c8_i32_73
  let v155 : BitVec 32 := Scalar.addi c0_i32_74 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v156 : BitVec 32 := Scalar.muli v5 c4_i32_75
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v158 : BitVec 32 := Scalar.muli v8 c1_i32_76
  let v159 : BitVec 32 := Scalar.addi v157 v158
  v159.toNat
def k0_dev6 (d0 : Dev nD) : Nat :=
  let c0_i32_83 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_82 : BitVec 32 := 8#32
  let v166 : BitVec 32 := Scalar.muli v9 c8_i32_82
  let v167 : BitVec 32 := Scalar.addi c0_i32_83 v166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v168 : BitVec 32 := Scalar.muli v5 c4_i32_84
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v170 : BitVec 32 := Scalar.muli v8 c1_i32_85
  let v171 : BitVec 32 := Scalar.addi v169 v170
  v171.toNat
def k0_dev7 (d0 : Dev nD) : Nat :=
  let c0_i32_93 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_92 : BitVec 32 := 8#32
  let v178 : BitVec 32 := Scalar.muli v9 c8_i32_92
  let v179 : BitVec 32 := Scalar.addi c0_i32_93 v178
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_94 : BitVec 32 := 4#32
  let v180 : BitVec 32 := Scalar.muli v5 c4_i32_94
  let v181 : BitVec 32 := Scalar.addi v179 v180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v182 : BitVec 32 := Scalar.muli v8 c1_i32_95
  let v183 : BitVec 32 := Scalar.addi v181 v182
  v183.toNat
def k0_dev8 (d0 : Dev nD) : Nat :=
  let c0_i32_102 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_101 : BitVec 32 := 8#32
  let v190 : BitVec 32 := Scalar.muli v9 c8_i32_101
  let v191 : BitVec 32 := Scalar.addi c0_i32_102 v190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v192 : BitVec 32 := Scalar.muli v5 c4_i32_103
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v194 : BitVec 32 := Scalar.muli v8 c1_i32_104
  let v195 : BitVec 32 := Scalar.addi v193 v194
  v195.toNat
def k0_dev9 (d0 : Dev nD) : Nat :=
  let c0_i32_111 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_110 : BitVec 32 := 8#32
  let v202 : BitVec 32 := Scalar.muli v9 c8_i32_110
  let v203 : BitVec 32 := Scalar.addi c0_i32_111 v202
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_112 : BitVec 32 := 4#32
  let v204 : BitVec 32 := Scalar.muli v5 c4_i32_112
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v206 : BitVec 32 := Scalar.muli v8 c1_i32_113
  let v207 : BitVec 32 := Scalar.addi v205 v206
  v207.toNat
def k0_dev10 (d0 : Dev nD) : Nat :=
  let c0_i32_120 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_119 : BitVec 32 := 8#32
  let v214 : BitVec 32 := Scalar.muli v9 c8_i32_119
  let v215 : BitVec 32 := Scalar.addi c0_i32_120 v214
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_121 : BitVec 32 := 4#32
  let v216 : BitVec 32 := Scalar.muli v5 c4_i32_121
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v218 : BitVec 32 := Scalar.muli v8 c1_i32_122
  let v219 : BitVec 32 := Scalar.addi v217 v218
  v219.toNat
def k0_off3 (d0 : Dev nD) : Fin 2 → Nat :=
  let c0_127 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_7 : BitVec 32 := 256#32
  let v19 : BitVec 32 := Scalar.muli v2 c256_i32_7
  let v20 : BitVec 32 := v19
  let v226 : Index := Scalar.indexCast v20
  ![0, v226.toNat]
def k0_off4 (d0 : Dev nD) : Fin 2 → Nat :=
  let c0_128 : Index := 0#32
  let c1024_i32 : BitVec 32 := 1024#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.muli c1024_i32 v5
  let v12 : BitVec 32 := v11
  let v229 : Index := Scalar.indexCast v12
  ![0, v229.toNat]
def k0_off5 (d0 : Dev nD) (c0_i32_146 : BitVec 32) : Fin 2 → Nat :=
  let c0_147 : Index := 0#32
  let c1024_i32 : BitVec 32 := 1024#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.muli c1024_i32 v5
  let v12 : BitVec 32 := v11
  let v250 : BitVec 32 := Scalar.addi v12 c0_i32_146
  let v251 : Index := Scalar.indexCast v250
  ![0, v251.toNat]
def k0_off6 (d0 : Dev nD) (c0_i32_151 : BitVec 32) : Fin 2 → Nat :=
  let c0_i32_158 : BitVec 32 := 0#32
  let c1024_i32 : BitVec 32 := 1024#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.muli c1024_i32 v5
  let v12 : BitVec 32 := v11
  let v260 : BitVec 32 := Scalar.addi v12 c0_i32_151
  ![0, v260.toNat]
def k0_dev11 (d0 : Dev nD) : Nat :=
  let c0_i32_155 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_154 : BitVec 32 := 8#32
  let v261 : BitVec 32 := Scalar.muli v2 c8_i32_154
  let v262 : BitVec 32 := Scalar.addi c0_i32_155 v261
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_156 : BitVec 32 := 4#32
  let v263 : BitVec 32 := Scalar.muli v10 c4_i32_156
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v265 : BitVec 32 := Scalar.muli v8 c1_i32_157
  let v266 : BitVec 32 := Scalar.addi v264 v265
  v266.toNat
def k0_dev12 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v298 : BitVec 32 := Scalar.muli v2 c8_i32_182
  let v299 : BitVec 32 := Scalar.addi c0_i32_183 v298
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_184 : BitVec 32 := 4#32
  let v300 : BitVec 32 := Scalar.muli v10 c4_i32_184
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v302 : BitVec 32 := Scalar.muli v8 c1_i32_185
  let v303 : BitVec 32 := Scalar.addi v301 v302
  v303.toNat
def k0_dev13 (d0 : Dev nD) : Nat :=
  let c0_i32_211 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_210 : BitVec 32 := 8#32
  let v335 : BitVec 32 := Scalar.muli v2 c8_i32_210
  let v336 : BitVec 32 := Scalar.addi c0_i32_211 v335
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_212 : BitVec 32 := 4#32
  let v337 : BitVec 32 := Scalar.muli v10 c4_i32_212
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v339 : BitVec 32 := Scalar.muli v8 c1_i32_213
  let v340 : BitVec 32 := Scalar.addi v338 v339
  v340.toNat
def k0_dev14 (d0 : Dev nD) : Nat :=
  let c0_i32_239 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_238 : BitVec 32 := 8#32
  let v372 : BitVec 32 := Scalar.muli v2 c8_i32_238
  let v373 : BitVec 32 := Scalar.addi c0_i32_239 v372
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_240 : BitVec 32 := 4#32
  let v374 : BitVec 32 := Scalar.muli v10 c4_i32_240
  let v375 : BitVec 32 := Scalar.addi v373 v374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v376 : BitVec 32 := Scalar.muli v8 c1_i32_241
  let v377 : BitVec 32 := Scalar.addi v375 v376
  v377.toNat
def k0_dev15 (d0 : Dev nD) : Nat :=
  let c0_i32_267 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_266 : BitVec 32 := 8#32
  let v409 : BitVec 32 := Scalar.muli v2 c8_i32_266
  let v410 : BitVec 32 := Scalar.addi c0_i32_267 v409
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_268 : BitVec 32 := 4#32
  let v411 : BitVec 32 := Scalar.muli v10 c4_i32_268
  let v412 : BitVec 32 := Scalar.addi v410 v411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_269 : BitVec 32 := 1#32
  let v413 : BitVec 32 := Scalar.muli v8 c1_i32_269
  let v414 : BitVec 32 := Scalar.addi v412 v413
  v414.toNat
def k0_dev16 (d0 : Dev nD) : Nat :=
  let c0_i32_295 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_294 : BitVec 32 := 8#32
  let v446 : BitVec 32 := Scalar.muli v2 c8_i32_294
  let v447 : BitVec 32 := Scalar.addi c0_i32_295 v446
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_296 : BitVec 32 := 4#32
  let v448 : BitVec 32 := Scalar.muli v10 c4_i32_296
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v450 : BitVec 32 := Scalar.muli v8 c1_i32_297
  let v451 : BitVec 32 := Scalar.addi v449 v450
  v451.toNat
def k0_dev17 (d0 : Dev nD) : Nat :=
  let c0_i32_323 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_322 : BitVec 32 := 8#32
  let v483 : BitVec 32 := Scalar.muli v2 c8_i32_322
  let v484 : BitVec 32 := Scalar.addi c0_i32_323 v483
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_324 : BitVec 32 := 4#32
  let v485 : BitVec 32 := Scalar.muli v10 c4_i32_324
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v487 : BitVec 32 := Scalar.muli v8 c1_i32_325
  let v488 : BitVec 32 := Scalar.addi v486 v487
  v488.toNat
def k0_dev18 (d0 : Dev nD) : Nat :=
  let c0_i32_351 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_350 : BitVec 32 := 8#32
  let v520 : BitVec 32 := Scalar.muli v2 c8_i32_350
  let v521 : BitVec 32 := Scalar.addi c0_i32_351 v520
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_352 : BitVec 32 := 4#32
  let v522 : BitVec 32 := Scalar.muli v10 c4_i32_352
  let v523 : BitVec 32 := Scalar.addi v521 v522
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_353 : BitVec 32 := 1#32
  let v524 : BitVec 32 := Scalar.muli v8 c1_i32_353
  let v525 : BitVec 32 := Scalar.addi v523 v524
  v525.toNat
def k0_off7 (d0 : Dev nD) (c0_i32_357 : BitVec 32) : Fin 2 → Nat :=
  let c0_i32_364 : BitVec 32 := 0#32
  let c1024_i32_5 : BitVec 32 := 1024#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let v14 : BitVec 32 := Scalar.muli c1024_i32_5 v13
  let v15 : BitVec 32 := v14
  let v533 : BitVec 32 := Scalar.addi v15 c0_i32_357
  ![0, v533.toNat]
def k0_off8 (d0 : Dev nD) (c0_i32_366 : BitVec 32) : Fin 2 → Nat :=
  let c0_367 : Index := 0#32
  let c1024_i32_5 : BitVec 32 := 1024#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_4 v5
  let v14 : BitVec 32 := Scalar.muli c1024_i32_5 v13
  let v15 : BitVec 32 := v14
  let v544 : BitVec 32 := Scalar.addi v15 c0_i32_366
  let v545 : Index := Scalar.indexCast v544
  ![0, v545.toNat]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  h_S512x256 : 0 < S512x256.numel
  shapeCasts_S512x256_S512x256 : S512x256.ShapeCasts S512x256
  h_S512x128 : 0 < S512x128.numel
  shapeCasts_S512x128_S512x128 : S512x128.ShapeCasts S512x128
  bitsLt_bf16_f32 : FTy.bits .bf16 < FTy.bits .f32
  inb_S256x1024_S256x128_0_0 : ∀ a, (![0, 0] : Fin 2 → Nat) a + S256x128.size a ≤ S256x1024.size a
  h_S256x128 : 0 < S256x128.numel
  shapeCasts_S256x128_S256x128 : S256x128.ShapeCasts S256x128
  packedbf16_S256x1024_S256x128_0_0 : (Rect.unit (s := S256x1024) ![0, 0] S256x128.size inb_S256x1024_S256x128_0_0).PackedRows (EltTy.packing .bf16)
  inb_S256x1024_S256x128_0_128 : ∀ a, (![0, 128] : Fin 2 → Nat) a + S256x128.size a ≤ S256x1024.size a
  packedbf16_S256x1024_S256x128_0_128 : (Rect.unit (s := S256x1024) ![0, 128] S256x128.size inb_S256x1024_S256x128_0_128).PackedRows (EltTy.packing .bf16)
  inb_S256x1024_S256x128_0_256 : ∀ a, (![0, 256] : Fin 2 → Nat) a + S256x128.size a ≤ S256x1024.size a
  packedbf16_S256x1024_S256x128_0_256 : (Rect.unit (s := S256x1024) ![0, 256] S256x128.size inb_S256x1024_S256x128_0_256).PackedRows (EltTy.packing .bf16)
  inb_S256x1024_S256x128_0_384 : ∀ a, (![0, 384] : Fin 2 → Nat) a + S256x128.size a ≤ S256x1024.size a
  packedbf16_S256x1024_S256x128_0_384 : (Rect.unit (s := S256x1024) ![0, 384] S256x128.size inb_S256x1024_S256x128_0_384).PackedRows (EltTy.packing .bf16)
  inb_S256x1024_S256x128_0_512 : ∀ a, (![0, 512] : Fin 2 → Nat) a + S256x128.size a ≤ S256x1024.size a
  packedbf16_S256x1024_S256x128_0_512 : (Rect.unit (s := S256x1024) ![0, 512] S256x128.size inb_S256x1024_S256x128_0_512).PackedRows (EltTy.packing .bf16)
  inb_S256x1024_S256x128_0_640 : ∀ a, (![0, 640] : Fin 2 → Nat) a + S256x128.size a ≤ S256x1024.size a
  packedbf16_S256x1024_S256x128_0_640 : (Rect.unit (s := S256x1024) ![0, 640] S256x128.size inb_S256x1024_S256x128_0_640).PackedRows (EltTy.packing .bf16)
  inb_S256x1024_S256x128_0_768 : ∀ a, (![0, 768] : Fin 2 → Nat) a + S256x128.size a ≤ S256x1024.size a
  packedbf16_S256x1024_S256x128_0_768 : (Rect.unit (s := S256x1024) ![0, 768] S256x128.size inb_S256x1024_S256x128_0_768).PackedRows (EltTy.packing .bf16)
  inb_S256x1024_S256x128_0_896 : ∀ a, (![0, 896] : Fin 2 → Nat) a + S256x128.size a ≤ S256x1024.size a
  packedbf16_S256x1024_S256x128_0_896 : (Rect.unit (s := S256x1024) ![0, 896] S256x128.size inb_S256x1024_S256x128_0_896).PackedRows (EltTy.packing .bf16)
  hamt_1 : (1#32 : BitVec 32).msb = false
  hamt_2 : (2#32 : BitVec 32).msb = false
  inb_S8_S1_0 : ∀ a, (![0] : Fin 1 → Nat) a + S1.size a ≤ S8.size a
  squeezes_S1_S_ : S1.Squeezes S_
  wordsbf16_S256x1024_S256x128_0_0 : (Rect.unit (s := S256x1024) ![0, 0] S256x128.size inb_S256x1024_S256x128_0_0).WholeWords (EltTy.packing .bf16)
  inb_S8_S1_1 : ∀ a, (![1] : Fin 1 → Nat) a + S1.size a ≤ S8.size a
  wordsbf16_S256x1024_S256x128_0_128 : (Rect.unit (s := S256x1024) ![0, 128] S256x128.size inb_S256x1024_S256x128_0_128).WholeWords (EltTy.packing .bf16)
  inb_S8_S1_2 : ∀ a, (![2] : Fin 1 → Nat) a + S1.size a ≤ S8.size a
  wordsbf16_S256x1024_S256x128_0_256 : (Rect.unit (s := S256x1024) ![0, 256] S256x128.size inb_S256x1024_S256x128_0_256).WholeWords (EltTy.packing .bf16)
  inb_S8_S1_3 : ∀ a, (![3] : Fin 1 → Nat) a + S1.size a ≤ S8.size a
  wordsbf16_S256x1024_S256x128_0_384 : (Rect.unit (s := S256x1024) ![0, 384] S256x128.size inb_S256x1024_S256x128_0_384).WholeWords (EltTy.packing .bf16)
  inb_S8_S1_4 : ∀ a, (![4] : Fin 1 → Nat) a + S1.size a ≤ S8.size a
  wordsbf16_S256x1024_S256x128_0_512 : (Rect.unit (s := S256x1024) ![0, 512] S256x128.size inb_S256x1024_S256x128_0_512).WholeWords (EltTy.packing .bf16)
  inb_S8_S1_5 : ∀ a, (![5] : Fin 1 → Nat) a + S1.size a ≤ S8.size a
  wordsbf16_S256x1024_S256x128_0_640 : (Rect.unit (s := S256x1024) ![0, 640] S256x128.size inb_S256x1024_S256x128_0_640).WholeWords (EltTy.packing .bf16)
  inb_S8_S1_6 : ∀ a, (![6] : Fin 1 → Nat) a + S1.size a ≤ S8.size a
  wordsbf16_S256x1024_S256x128_0_768 : (Rect.unit (s := S256x1024) ![0, 768] S256x128.size inb_S256x1024_S256x128_0_768).WholeWords (EltTy.packing .bf16)
  inb_S8_S1_7 : ∀ a, (![7] : Fin 1 → Nat) a + S1.size a ≤ S8.size a
  wordsbf16_S256x1024_S256x128_0_896 : (Rect.unit (s := S256x1024) ![0, 896] S256x128.size inb_S256x1024_S256x128_0_896).WholeWords (EltTy.packing .bf16)
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  dot_S512x256_S512x128_S256x128_0_0_1_1_n_n_wf : DotDims.WF S512x256 S512x128 S256x128 [0] [0] [1] [1] [] []
  dot_S512x256_S512x1024_S256x1024_0_0_1_1_n_n_wf : DotDims.WF S512x256 S512x1024 S256x1024 [0] [0] [1] [1] [] []
  hcc0_scratch4 : 3 + S8.numel ≤ 35
  hcc0_scratch5 : 11 + S8.numel ≤ 35
  hcc0_scratch6 : 19 + S8.numel ≤ 35
  hcc0_scratch7 : 27 + S8.numel ≤ 35
  k0_mult1_dvd : ∀ d0 : Dev nD, 1024 ∣ (k0_mult1 d0).toNat
  k0_mult2_dvd : ∀ d0 : Dev nD, 1024 ∣ (k0_mult2 d0).toNat
  k0_mult3_dvd : ∀ d0 : Dev nD, 256 ∣ (k0_mult3 d0).toNat
  k0_mult4_dvd : ∀ d0 : Dev nD, 256 ∣ (k0_mult4 d0).toNat
  k0_off1_inb : ∀ d0 : Dev nD, ∀ a, (k0_off1 d0) a + S512x256.size a ≤ S512x512.size a
  k0_off2_inb : ∀ d0 : Dev nD, ∀ (r : Fin 8), ∀ a, (k0_off2 d0 (BitVec.ofNat 32 (128 * r.val))) a + S512x128.size a ≤ S512x2048.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off3_inb : ∀ d0 : Dev nD, ∀ a, (k0_off3 d0) a + S512x256.size a ≤ S512x512.size a
  k0_off4_inb : ∀ d0 : Dev nD, ∀ a, (k0_off4 d0) a + S512x1024.size a ≤ S512x2048.size a
  k0_off5_inb : ∀ d0 : Dev nD, ∀ (r : Fin 8), ∀ a, (k0_off5 d0 (BitVec.ofNat 32 (128 * r.val))) a + S256x128.size a ≤ S256x2048.size a
  k0_off5_packedbf16 : ∀ d0 : Dev nD, ∀ (r : Fin 8), (Rect.unit (s := S256x2048) (k0_off5 d0 (BitVec.ofNat 32 (128 * r.val))) S256x128.size (k0_off5_inb d0 r)).PackedRows (EltTy.packing .bf16)
  k0_off6_inb : ∀ d0 : Dev nD, ∀ (r : Fin 8), ∀ a, (k0_off6 d0 (BitVec.ofNat 32 (128 * r.val))) a + S256x128.size a ≤ S256x2048.size a
  k0_off6_wordsbf16 : ∀ d0 : Dev nD, ∀ (r : Fin 8), (Rect.unit (s := S256x2048) (k0_off6 d0 (BitVec.ofNat 32 (128 * r.val))) S256x128.size (k0_off6_inb d0 r)).WholeWords (EltTy.packing .bf16)
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off7_inb : ∀ d0 : Dev nD, ∀ (r : Fin 8), ∀ a, (k0_off7 d0 (BitVec.ofNat 32 (128 * r.val))) a + S256x128.size a ≤ S256x2048.size a
  k0_off7_wordsbf16 : ∀ d0 : Dev nD, ∀ (r : Fin 8), (Rect.unit (s := S256x2048) (k0_off7 d0 (BitVec.ofNat 32 (128 * r.val))) S256x128.size (k0_off7_inb d0 r)).WholeWords (EltTy.packing .bf16)
  k0_off8_inb : ∀ d0 : Dev nD, ∀ (r : Fin 8), ∀ a, (k0_off8 d0 (BitVec.ofNat 32 (128 * r.val))) a + S256x128.size a ≤ S256x2048.size a
  hstage0_0 : ∀ j, (stage0_0 j).IsWhole
  hstage0_1 : ∀ j, (stage0_1 j).IsWhole
  hstage0_2 : ∀ j, (stage0_2 j).IsWhole

variable [Facts₀]

abbrev cc0_scratch4 : DmaSems sig S8 := SemArray.consecutive 3 S8 hcc0_scratch4
abbrev cc0_scratch5 : DmaSems sig S8 := SemArray.consecutive 11 S8 hcc0_scratch5
abbrev cc0_scratch6 : DmaSems sig S8 := SemArray.consecutive 19 S8 hcc0_scratch6
abbrev cc0_scratch7 : DmaSems sig S8 := SemArray.consecutive 27 S8 hcc0_scratch7
def dot_S512x256_S512x128_S256x128_0_0_1_1_n_n : DotDims S512x256 S512x128 S256x128 where
  lhsContracting := [0]
  rhsContracting := [0]
  lhsNonContracting := [1]
  rhsNonContracting := [1]
  lhsBatch := []
  rhsBatch := []
  wf := dot_S512x256_S512x128_S256x128_0_0_1_1_n_n_wf
def dot_S512x256_S512x1024_S256x1024_0_0_1_1_n_n : DotDims S512x256 S512x1024 S256x1024 where
  lhsContracting := [0]
  rhsContracting := [0]
  lhsNonContracting := [1]
  rhsNonContracting := [1]
  lhsBatch := []
  rhsBatch := []
  wf := dot_S512x256_S512x1024_S256x1024_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S1024x512_S512x1024_1_0 : S1024x512.Transposes [1, 0] S512x1024
  dot_S512x1024_S1024x2048_S512x2048_1_0_0_1_n_n_wf : DotDims.WF S512x1024 S1024x2048 S512x2048 [1] [0] [0] [1] [] []

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

class Facts : Prop extends Facts₀ where

variable [Facts]
-- ==== Proof.Partners.lean ====
/-
  The mesh is 2 × 2 × 4; device number d has coordinates (d / 8, (d / 4) % 2, d % 4). Every device talks to two
  others: the one that differs from it in the first coordinate only, and the one that differs in the second
  coordinate only. Both maps are involutions without fixed points, they commute, and they never meet. Every
  device number the kernel computes for a signal or a copy is one of the two.
-/
import proofs.«900391_g7700000000000392_dist_rsdw_v7x_xyz2x2x4_x_m512_d512_f2048_f32_1_alg».proof.Proof.Gen.KernelIdeal

noncomputable section

namespace Cert.KernelIdeal.Rs

open Cert.KernelIdeal Cert.KernelIdeal.Gen
open Idealize.ShloMosaic

/-- The device across the first mesh axis: first coordinate flipped, the others kept. -/
def xp (c : Dev nD) : Dev nD := ⟨k0_dev1 c, k0_dev1_lt c⟩
/-- The device across the second mesh axis: second coordinate flipped, the others kept. -/
def yn (c : Dev nD) : Dev nD := ⟨k0_dev2 c, k0_dev2_lt c⟩

theorem xp_val (c : Dev nD) : (xp c).val = (4 * ((c.val / 4) % 2) + (c.val % 4) + 8) - 8 * (c.val / 8) := k0_dev1_eq c
theorem yn_val (c : Dev nD) : (yn c).val = (8 * (c.val / 8) + (c.val % 4) + 4) - 4 * ((c.val / 4) % 2) := k0_dev2_eq c

theorem xp_xp (c : Dev nD) : xp (xp c) = c := by
  apply Fin.ext; rw [xp_val, xp_val]; have h : c.val < 16 := c.isLt; omega
theorem yn_yn (c : Dev nD) : yn (yn c) = c := by
  apply Fin.ext; rw [yn_val, yn_val]; have h : c.val < 16 := c.isLt; omega
theorem xp_yn (c : Dev nD) : xp (yn c) = yn (xp c) := by
  apply Fin.ext; rw [xp_val, yn_val, yn_val, xp_val]; have h : c.val < 16 := c.isLt; omega
theorem xp_ne (c : Dev nD) : xp c ≠ c := fun e => by
  have := congrArg Fin.val e; rw [xp_val] at this; have h : c.val < 16 := c.isLt; omega
theorem yn_ne (c : Dev nD) : yn c ≠ c := fun e => by
  have := congrArg Fin.val e; rw [yn_val] at this; have h : c.val < 16 := c.isLt; omega
theorem xp_ne_yn (c : Dev nD) : xp c ≠ yn c := fun e => by
  have := congrArg Fin.val e; rw [xp_val, yn_val] at this; have h : c.val < 16 := c.isLt; omega

/-- Flipping the first coordinate, as a permutation of the devices. -/
def xpE : Dev nD ≃ Dev nD := ⟨xp, xp, xp_xp, xp_xp⟩
/-- Flipping the second coordinate, as a permutation of the devices. -/
def ynE : Dev nD ≃ Dev nD := ⟨yn, yn, yn_yn, yn_yn⟩

/-- The first coordinate of a device (which half of the contracted axis, and which half of the result's rows, it holds). -/
def mx (c : Dev nD) : ℕ := c.val / 8
/-- The second coordinate of a device (which half of the result's columns it reduces). -/
def my (c : Dev nD) : ℕ := (c.val / 4) % 2

theorem mx_lt (c : Dev nD) : mx c < 2 := by unfold mx; have h : c.val < 16 := c.isLt; omega
theorem my_lt (c : Dev nD) : my c < 2 := by unfold my; omega
theorem mx_xp (c : Dev nD) : mx (xp c) = 1 - mx c := by unfold mx; rw [xp_val]; have h : c.val < 16 := c.isLt; omega
theorem my_xp (c : Dev nD) : my (xp c) = my c := by unfold my; rw [xp_val]; have h : c.val < 16 := c.isLt; omega
theorem mx_yn (c : Dev nD) : mx (yn c) = mx c := by unfold mx; rw [yn_val]; have h : c.val < 16 := c.isLt; omega
theorem my_yn (c : Dev nD) : my (yn c) = 1 - my c := by unfold my; rw [yn_val]; have h : c.val < 16 := c.isLt; omega

/-! The device numbers of the two signals and the sixteen copies. -/
theorem dev1_eq (c : Dev nD) : (⟨k0_dev1 c, k0_dev1_lt c⟩ : Dev nD) = xp c := rfl
theorem dev2_eq (c : Dev nD) : (⟨k0_dev2 c, k0_dev2_lt c⟩ : Dev nD) = yn c := rfl
theorem dev3_eq (c : Dev nD) : (⟨k0_dev3 c, k0_dev3_lt c⟩ : Dev nD) = xp c := Fin.ext ((k0_dev3_eq c).trans (k0_dev1_eq c).symm)
theorem dev4_eq (c : Dev nD) : (⟨k0_dev4 c, k0_dev4_lt c⟩ : Dev nD) = xp c := Fin.ext ((k0_dev4_eq c).trans (k0_dev1_eq c).symm)
theorem dev5_eq (c : Dev nD) : (⟨k0_dev5 c, k0_dev5_lt c⟩ : Dev nD) = xp c := Fin.ext ((k0_dev5_eq c).trans (k0_dev1_eq c).symm)
theorem dev6_eq (c : Dev nD) : (⟨k0_dev6 c, k0_dev6_lt c⟩ : Dev nD) = xp c := Fin.ext ((k0_dev6_eq c).trans (k0_dev1_eq c).symm)
theorem dev7_eq (c : Dev nD) : (⟨k0_dev7 c, k0_dev7_lt c⟩ : Dev nD) = xp c := Fin.ext ((k0_dev7_eq c).trans (k0_dev1_eq c).symm)
theorem dev8_eq (c : Dev nD) : (⟨k0_dev8 c, k0_dev8_lt c⟩ : Dev nD) = xp c := Fin.ext ((k0_dev8_eq c).trans (k0_dev1_eq c).symm)
theorem dev9_eq (c : Dev nD) : (⟨k0_dev9 c, k0_dev9_lt c⟩ : Dev nD) = xp c := Fin.ext ((k0_dev9_eq c).trans (k0_dev1_eq c).symm)
theorem dev10_eq (c : Dev nD) : (⟨k0_dev10 c, k0_dev10_lt c⟩ : Dev nD) = xp c := Fin.ext ((k0_dev10_eq c).trans (k0_dev1_eq c).symm)
theorem dev11_eq (c : Dev nD) : (⟨k0_dev11 c, k0_dev11_lt c⟩ : Dev nD) = yn c := Fin.ext ((k0_dev11_eq c).trans (k0_dev2_eq c).symm)
theorem dev12_eq (c : Dev nD) : (⟨k0_dev12 c, k0_dev12_lt c⟩ : Dev nD) = yn c := Fin.ext ((k0_dev12_eq c).trans (k0_dev2_eq c).symm)
theorem dev13_eq (c : Dev nD) : (⟨k0_dev13 c, k0_dev13_lt c⟩ : Dev nD) = yn c := Fin.ext ((k0_dev13_eq c).trans (k0_dev2_eq c).symm)
theorem dev14_eq (c : Dev nD) : (⟨k0_dev14 c, k0_dev14_lt c⟩ : Dev nD) = yn c := Fin.ext ((k0_dev14_eq c).trans (k0_dev2_eq c).symm)
theorem dev15_eq (c : Dev nD) : (⟨k0_dev15 c, k0_dev15_lt c⟩ : Dev nD) = yn c := Fin.ext ((k0_dev15_eq c).trans (k0_dev2_eq c).symm)
theorem dev16_eq (c : Dev nD) : (⟨k0_dev16 c, k0_dev16_lt c⟩ : Dev nD) = yn c := Fin.ext ((k0_dev16_eq c).trans (k0_dev2_eq c).symm)
theorem dev17_eq (c : Dev nD) : (⟨k0_dev17 c, k0_dev17_lt c⟩ : Dev nD) = yn c := Fin.ext ((k0_dev17_eq c).trans (k0_dev2_eq c).symm)
theorem dev18_eq (c : Dev nD) : (⟨k0_dev18 c, k0_dev18_lt c⟩ : Dev nD) = yn c := Fin.ext ((k0_dev18_eq c).trans (k0_dev2_eq c).symm)

end Cert.KernelIdeal.Rs

end
-- ==== Proof.Protocol.lean ====
/-
  The protocol of the kernel, as data.

  Every device holds four scratch buffers: P (its partial products for the rows its partner across the first axis
  reduces), W (its partial products for its own rows), X (where that partner's P lands) and S (the reduced block,
  rounded, both column halves: its own half written by itself, the other half landing from its neighbour across the
  second axis). P, W and X are 256 x 1024, S is 256 x 2048; all traffic moves in column blocks of 128 columns,
  eight per half.

  Cells. The barrier cell has one round with two duties: one unit from the partner across the first axis, handing
  over its X, and one unit from the neighbour across the second axis, handing over the half of its S this device
  writes. Each of the 32 copy cells has one round with one duty: a send cell gives the source block back once it is
  read, a receive cell hands over the destination block holding what was sent.

  Every block is stated against ONE function per buffer (`Pbuf`, `Wbuf`, `Sbuf`): the partner's `Pbuf` is what lands in
  X, and `Sbuf` is the same function for a device and its neighbour across the second axis.
-/
import proofs.«900391_g7700000000000392_dist_rsdw_v7x_xyz2x2x4_x_m512_d512_f2048_f32_1_alg».proof.Proof.Partners
import proofs.«900391_g7700000000000392_dist_rsdw_v7x_xyz2x2x4_x_m512_d512_f2048_f32_1_alg».proof.Proof.Gen.KernelIdeal.Launch
import proofs.«900391_g7700000000000392_dist_rsdw_v7x_xyz2x2x4_x_m512_d512_f2048_f32_1_alg».proof.Proof.Gen.KernelIdeal.Frame
import Idealize.ShloMosaic.Lib.ValueIdx
import Idealize.ShloMosaic.Lib.Pipeline.Launch
import Idealize.ShloMosaic.Lib.Pipeline.Kit
import Idealize.ShloMosaic.Lib.Tactic

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own rounds beside the kernel's (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Buffers, column blocks, cells -/

abbrev aM : Memref sig .tc .vmem S512x512 .f32 := Memref.whole cc0_stg0_0
abbrev bM : Memref sig .tc .vmem S512x2048 .f32 := Memref.whole cc0_stg1_0
abbrev oM : Memref sig .tc .vmem S256x2048 .f32 := Memref.whole cc0_stg2_0
abbrev pM : Memref sig .tc .vmem S256x1024 .bf16 := Memref.whole cc0_scratch0
abbrev wM : Memref sig .tc .vmem S256x1024 .f32 := Memref.whole cc0_scratch1
abbrev xM : Memref sig .tc .vmem S256x1024 .bf16 := Memref.whole cc0_scratch2
abbrev sM : Memref sig .tc .vmem S256x2048 .bf16 := Memref.whole cc0_scratch3

theorem blk_inb : ∀ r : Fin 8, ∀ a, (![0, 128 * r.val] : Fin 2 → Nat) a + S256x128.size a ≤ S256x1024.size a := by decide
theorem wide_inb : ∀ j : Fin 16, ∀ a, (![0, 128 * j.val] : Fin 2 → Nat) a + S256x128.size a ≤ S256x2048.size a := by decide

/-- Column block `r` of a 256 x 1024 buffer. -/
abbrev blk (r : Fin 8) : Rect S256x1024 := Rect.unit (s := S256x1024) ![0, 128 * r.val] S256x128.size (blk_inb r)
/-- Column block `j` of a 256 x 2048 buffer: blocks 0..7 the first column half, 8..15 the second. -/
abbrev wide (j : Fin 16) : Rect S256x2048 := Rect.unit (s := S256x2048) ![0, 128 * j.val] S256x128.size (wide_inb j)

/-- The wide block a device reduces itself (`own`) and the one its neighbour across the second axis sends it (`oth`). -/
def own (c : Dev nD) (r : Fin 8) : Fin 16 := ⟨8 * my c + r.val, by have := my_lt c; have := r.isLt; omega⟩
def oth (c : Dev nD) (r : Fin 8) : Fin 16 := ⟨8 * (1 - my c) + r.val, by have := r.isLt; omega⟩

/-- The 32 copy semaphores of a device, by family (0 send / 1 receive across the first axis, 2 send / 3 receive across
    the second) and column block. -/
def dS (k : Fin 4) (r : Fin 8) : DmaSem sig := ⟨3 + 8 * k.val + r.val, by have := k.isLt; have := r.isLt; show 3 + 8 * k.val + r.val < 35; omega⟩

abbrev barS : Sem sig := (SemArray.scalar (sig.barrier 0 rfl) : Sems sig S_).sem

abbrev barCell (c : Dev nD) : GSem nD τ sig := ((c : Thread nD τ), .reg barS)
abbrev dCell (c : Dev nD) (k : Fin 4) (r : Fin 8) : GSem nD τ sig := ((c : Thread nD τ), .dma (dS k r))

/-- The units of a copy into a block of X, and of a copy into a block of S. -/
abbrev NX : ℕ := (xM.slice (blk 0) (fun _ => rfl) : Memref sig .tc .vmem S256x128 .bf16).view.dmaCredit
abbrev NS : ℕ := (sM.slice (wide 0) (fun _ => rfl) : Memref sig .tc .vmem S256x128 .bf16).view.dmaCredit
theorem NX_pos : 0 < NX := View.dmaCredit_pos _ (by decide)
theorem NS_pos : 0 < NS := View.dmaCredit_pos _ (by decide)
/-- The units of family `k`'s copies. -/
def NK (k : Fin 4) : ℕ := if k.val < 2 then NX else NS
theorem NK_pos (k : Fin 4) : 0 < NK k := by unfold NK; split; exact NX_pos; exact NS_pos

/-! ## What is computed, block by block -/

/-- A 256 x 128 block of partial products (this device's 512 rows of the contracted axis), rounded to the narrow format. -/
def pProd (v : Vec F S512x256 .f32) (w : Vec F S512x128 .f32) : FVec F S256x128 .bf16 :=
  shapeCast S256x128 (truncf .bf16 (matmul dot_S512x256_S512x128_S256x128_0_0_1_1_n_n none (shapeCast S512x256 v shapeCasts_S512x256_S512x256)
    (shapeCast S512x128 w shapeCasts_S512x128_S512x128) (constant S256x128 .f32 0x00000000#32)) bitsLt_bf16_f32) shapeCasts_S256x128_S256x128
/-- The 256 x 1024 partial products of the device's own rows, kept wide. -/
def wProd (v : Vec F S512x256 .f32) (w : Vec F S512x1024 .f32) : FVec F S256x1024 .f32 :=
  shapeCast S256x1024 (matmul dot_S512x256_S512x1024_S256x1024_0_0_1_1_n_n none (shapeCast S512x256 v shapeCasts_S512x256_S512x256)
    (shapeCast S512x1024 w shapeCasts_S512x1024_S512x1024) (constant S256x1024 .f32 0x00000000#32)) shapeCasts_S256x1024_S256x1024
/-- Own partial products plus the partner's: the reduced block. -/
def red (a : Vec F S256x128 .f32) (b : Vec F S256x128 .bf16) : FVec F S256x128 .f32 := addf a (extf .f32 b bitsLt_bf16_f32)
/-- The reduced block rounded, as it is staged for the neighbour. -/
def redN (a : Vec F S256x128 .f32) (b : Vec F S256x128 .bf16) : FVec F S256x128 .bf16 :=
  shapeCast S256x128 (truncf .bf16 (red a b) bitsLt_bf16_f32) shapeCasts_S256x128_S256x128
/-- A staged block read back wide. -/
def widen (v : Vec F S256x128 .bf16) : FVec F S256x128 .f32 := extf .f32 v bitsLt_bf16_f32

/-- Device `c`'s blocks of the two arguments, as staged. -/
def argA (c : Dev nD) : (cc0_stg0_0 : Ref sig .tc).ty.Contents (Elt F) :=
  (win0_0.blk t0_0).view.read (Elt F) (m ((c : Thread nD τ).loc main_arg0))
def argB (c : Dev nD) : (cc0_stg1_0 : Ref sig .tc).ty.Contents (Elt F) :=
  (win0_1.blk t0_0).view.read (Elt F) (m ((c : Thread nD τ).loc main_arg1))

/-- The 256 columns of the first argument that belong to the partner's rows of the result / to the device's own. -/
def ldAp (c : Dev nD) : Vec F S512x256 .f32 :=
  aM.view.readAt (Elt F) (Rect.unit (s := S512x512) (k0_off1 c) S512x256.size (k0_off1_inb c)).toLoadRect (argA m c)
def ldAo (c : Dev nD) : Vec F S512x256 .f32 :=
  aM.view.readAt (Elt F) (Rect.unit (s := S512x512) (k0_off3 c) S512x256.size (k0_off3_inb c)).toLoadRect (argA m c)
/-- Column block `r` of the device's column half of the second argument, and that whole half. -/
def ldBr (c : Dev nD) (r : Fin 8) : Vec F S512x128 .f32 :=
  bM.view.readAt (Elt F) (Rect.unit (s := S512x2048) (k0_off2 c (BitVec.ofNat 32 (128 * r.val))) S512x128.size (k0_off2_inb c r)).toLoadRect (argB m c)
def ldBh (c : Dev nD) : Vec F S512x1024 .f32 :=
  bM.view.readAt (Elt F) (Rect.unit (s := S512x2048) (k0_off4 c) S512x1024.size (k0_off4_inb c)).toLoadRect (argB m c)

theorem row_lt {n : ℕ} (i : (⟨2, ![256, n]⟩ : Shape).Idx) : (i 0).val < 256 := (i 0).isLt
theorem col1024_lt (i : S256x1024.Idx) : (i 1).val < 1024 := (i 1).isLt
theorem col2048_lt (i : S256x2048.Idx) : (i 1).val < 2048 := (i 1).isLt

/-- An index of a 256 x 128 block from a row and a column inside the block. -/
def bix (p : ℕ) (hp : p < 256) (q : ℕ) : S256x128.Idx := ValueIdx.ix2 ⟨p, hp⟩ ⟨q % 128, Nat.mod_lt _ (by decide)⟩

/-- P of device `c`: column block `r` is the rounded product of the partner's columns of the first argument with column
    block `r` of the device's half of the second. -/
def Pbuf (c : Dev nD) : (cc0_scratch0 : Ref sig .tc).ty.Contents (Elt F) := fun i =>
  pProd (ldAp m c) (ldBr m c ⟨(i 1).val / 128, by have := col1024_lt i; omega⟩) (bix (i 0).val (row_lt i) (i 1).val)
/-- W of device `c`. -/
def Wbuf (c : Dev nD) : (cc0_scratch1 : Ref sig .tc).ty.Contents (Elt F) := wProd (ldAo m c) (ldBh m c)
/-- Reduced block `r` of device `c`: block `r` of its W plus block `r` of its partner's P. -/
def redBlk (c : Dev nD) (r : Fin 8) : FVec F S256x128 .f32 :=
  red (wM.view.readAt (Elt F) (blk r).toLoadRect (Wbuf m c)) (xM.view.readAt (Elt F) (blk r).toLoadRect (Pbuf m (xp c)))
/-- Of a device and its neighbour across the second axis, the one that reduces column half `h`. -/
def halfOf (c : Dev nD) (h : ℕ) : Dev nD := if my c = h then c else yn c
/-- S: wide block `j` is block `j % 8` of the device reducing half `j / 8`, rounded. The same function for a device and
    its neighbour across the second axis. -/
def Sbuf (c : Dev nD) : (cc0_scratch3 : Ref sig .tc).ty.Contents (Elt F) := fun i =>
  shapeCast S256x128 (truncf .bf16 (redBlk m (halfOf c ((i 1).val / 1024)) ⟨((i 1).val / 128) % 8, Nat.mod_lt _ (by decide)⟩) bitsLt_bf16_f32) shapeCasts_S256x128_S256x128
    (bix (i 0).val (row_lt i) (i 1).val)
/-- The result block of device `c`: its own column half unrounded, the other half read back from S. -/
def Obuf (c : Dev nD) : (cc0_stg2_0 : Ref sig .tc).ty.Contents (Elt F) := fun i =>
  if (i 1).val / 1024 = my c then redBlk m c ⟨((i 1).val / 128) % 8, Nat.mod_lt _ (by decide)⟩ (bix (i 0).val (row_lt i) (i 1).val)
  else widen (sM.view.readAt (Elt F) (wide ⟨(i 1).val / 128, by have := col2048_lt i; omega⟩).toLoadRect (Sbuf m c)) (bix (i 0).val (row_lt i) (i 1).val)

/-! ## Regional assertions -/

/-- Device `c` holds the part of a buffer a memref views, at contents `f`. -/
def held {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

/-- Block `r` of P and of X; the block of S a device writes and sends (`sOwn`), and the one that lands (`sOth`). -/
abbrev pBlk (r : Fin 8) : Memref sig .tc .vmem S256x128 .bf16 := pM.slice (blk r) (fun _ => rfl)
abbrev xBlk (r : Fin 8) : Memref sig .tc .vmem S256x128 .bf16 := xM.slice (blk r) (fun _ => rfl)
abbrev sOwn (c : Dev nD) (r : Fin 8) : Memref sig .tc .vmem S256x128 .bf16 :=
  sM.slice (Rect.unit (s := S256x2048) (k0_off6 c (BitVec.ofNat 32 (128 * r.val))) S256x128.size (k0_off6_inb c r)) (fun _ => rfl)
abbrev sOth (c : Dev nD) (r : Fin 8) : Memref sig .tc .vmem S256x128 .bf16 :=
  sM.slice (Rect.unit (s := S256x2048) (k0_off7 c (BitVec.ofNat 32 (128 * r.val))) S256x128.size (k0_off7_inb c r)) (fun _ => rfl)

/-! ## The schedule -/

/-- What the partner across the first axis hands over with its barrier unit: its X, and that its eight receive cells
    across the first axis are at their round. -/
def barPayX (c : Dev nD) : sProp 𝕄 :=
  iprop((∃ f, held xM (xp c) f) ∗ bigSep Finset.univ fun r : Fin 8 => reached ER (dCell (xp c) 1 r) 0)
/-- What the neighbour across the second axis hands over: the eight blocks of its S this device writes, and that its
    eight receive cells across the second axis are at their round. -/
def barPayY (c : Dev nD) : sProp 𝕄 :=
  iprop((bigSep Finset.univ fun r : Fin 8 => iprop(∃ f, held (sOwn c r) (yn c) f)) ∗ bigSep Finset.univ fun r : Fin 8 => reached ER (dCell (yn c) 3 r) 0)

/-- What a copy cell's unit hands its owner. -/
def copyPay (c : Dev nD) (k : Fin 4) (r : Fin 8) : sProp 𝕄 :=
  match k with
  | 0 => held (pBlk r) c (Pbuf m c)
  | 1 => held (xBlk r) c (Pbuf m (xp c))
  | 2 => held (sOwn c r) c (Sbuf m c)
  | 3 => held (sOth c r) c (Sbuf m c)

/-- The family and the column block of a copy semaphore, read off its number. -/
def kOf (q : DmaSem sig) : Fin 4 := ⟨((q.val - 3) / 8) % 4, Nat.mod_lt _ (by decide)⟩
def rOf (q : DmaSem sig) : Fin 8 := ⟨(q.val - 3) % 8, Nat.mod_lt _ (by decide)⟩
theorem kOf_dS (k : Fin 4) (r : Fin 8) : kOf (dS k r) = k := by
  apply Fin.ext; show ((3 + 8 * k.val + r.val - 3) / 8) % 4 = k.val; have := k.isLt; have := r.isLt; omega
theorem rOf_dS (k : Fin 4) (r : Fin 8) : rOf (dS k r) = r := by
  apply Fin.ext; show (3 + 8 * k.val + r.val - 3) % 8 = r.val; have := k.isLt; have := r.isLt; omega
theorem dS_inj {k k' : Fin 4} {r r' : Fin 8} (h : dS k r = dS k' r') : k = k' ∧ r = r' :=
  ⟨by rw [← kOf_dS k r, h, kOf_dS], by rw [← rOf_dS k r, h, rOf_dS]⟩

abbrev IsBar (g : GSem nD τ sig) : Prop := g.1.2 = .tc ∧ g.2 = .reg barS
abbrev IsCopy (g : GSem nD τ sig) : Prop := g.1.2 = .tc ∧ ∃ k : Fin 4, ∃ r : Fin 8, g.2 = .dma (dS k r)

/-- One round per cell. The barrier cell: duty `false` one unit from the partner across the first axis, duty `true` one
    unit from the neighbour across the second. A copy cell: the one duty `false`, the block's units. -/
def sched : Rounds.Schedule (GSem nD τ sig) Bool 𝕄 where
  duties g r := if r = 0 ∧ IsBar g then Finset.univ else if r = 0 ∧ IsCopy g then {false} else ∅
  unitless _ := False
  amount g _ _ := match g.2 with
    | .reg _ => 1
    | .dma q => NK (kOf q)
  payload g _ d :=
    match g.2 with
    | .reg _ => if d then barPayY g.1.1 else barPayX g.1.1
    | .dma q => copyPay m g.1.1 (kOf q) (rOf q)
  amount_pos g _ _ _ := by
    cases g.2 with
    | reg _ => exact Nat.one_pos
    | dma q => exact NK_pos _

end Cert.KernelIdeal.Rs

end
-- ==== Proof.Tables.lean ====
/-
  The schedule read cell by cell: which duties a cell's one round has, how many units each brings, how many the
  round expects in all, and what each hands the cell's owner. The barrier cell expects two units (one from each of the
  two devices that signal it); a copy cell expects the units of one 256 x 128 block.
-/
import proofs.«900391_g7700000000000392_dist_rsdw_v7x_xyz2x2x4_x_m512_d512_f2048_f32_1_alg».proof.Proof.Protocol

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD) (k : Fin 4) (r : Fin 8)

theorem copy_ne_bar (q : DmaSem sig) : (SemLoc.dma q : SemLoc sig) ≠ .reg barS := fun h => by cases h
theorem not_bar_copy : ¬ IsBar (dCell c k r) := fun h => copy_ne_bar _ h.2

theorem duties_bar : (sched (F := F) m).duties (barCell c) 0 = Finset.univ := by dsimp only [sched]; exact if_pos ⟨rfl, rfl, rfl⟩
theorem duties_copy : (sched (F := F) m).duties (dCell c k r) 0 = {false} := by
  dsimp only [sched]; rw [if_neg (fun h => not_bar_copy c k r h.2)]; exact if_pos ⟨rfl, rfl, k, r, rfl⟩
theorem duties_later (g : GSem nD τ sig) : ∀ n, 1 ≤ n → (sched (F := F) m).duties g n = ∅ :=
  fun n hn => by dsimp only [sched]; rw [if_neg fun h => by omega, if_neg fun h => by omega]

theorem amount_bar (d : Bool) : (sched (F := F) m).amount (barCell c) 0 d = 1 := rfl
theorem amount_copy (d : Bool) : (sched (F := F) m).amount (dCell c k r) 0 d = NK k := by
  show NK (kOf (dS k r)) = NK k; rw [kOf_dS]

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_copy : (sched (F := F) m).expect (dCell c k r) 0 = NK k := by
  unfold Schedule.expect Schedule.amountOf; rw [duties_copy, Finset.sum_singleton, amount_copy]

theorem payload_bar_true : (sched (F := F) m).payload (barCell c) 0 true = barPayY c := rfl
theorem payload_bar_false : (sched (F := F) m).payload (barCell c) 0 false = barPayX c := rfl
theorem payload_copy (d : Bool) : (sched (F := F) m).payload (dCell c k r) 0 d = copyPay m c k r := by
  show copyPay m c (kOf (dS k r)) (rOf (dS k r)) = copyPay m c k r; rw [kOf_dS, rOf_dS]

/-- The barrier round with no duty taken yet: both payloads. -/
theorem rest_bar : bigSep ((sched (F := F) m).duties (barCell c) 0 \ ∅) (fun d => (sched (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_copy : bigSep ((sched (F := F) m).duties (dCell c k r) 0 \ ∅) (fun d => (sched (F := F) m).payload (dCell c k r) 0 d) = copyPay m c k r := by
  rw [Finset.sdiff_empty, duties_copy, bigSep_singleton, payload_copy]

end Tables

instance held_storable {sp : Space} {s : Shape} {e : EltTy} (M : Memref sig .tc sp s e) (c : Dev nD) (f) :
    BI.Storable (upEmb : UEmb _ 𝕄) (held (F := F) M c f) := by unfold held; infer_instance

instance copyPay_storable (c : Dev nD) (k : Fin 4) (r : Fin 8) : BI.Storable (upEmb : UEmb _ 𝕄) (copyPay (F := F) m c k r) := by
  unfold copyPay; split <;> infer_instance

instance sched_payload_storable (g : GSem nD τ sig) (n : ℕ) (d : Bool) :
    BI.Storable (upEmb : UEmb _ 𝕄) ((sched (F := F) m).payload g n d) := by
  show BI.Storable upEmb (match g.2 with | .reg _ => if d then barPayY g.1.1 else barPayX g.1.1 | .dma q => copyPay m g.1.1 (kOf q) (rOf q))
  unfold barPayX barPayY
  (repeat' split) <;> infer_instance

end Cert.KernelIdeal.Rs

end
-- ==== Proof.Ghost.lean ====
/-
  What a device starts its body with, and what it leaves.

  Owed at launch, in the order it is paid: one unit to each of the two barrier cells it signals, the units of eight
  blocks to its partner's receive cells across the first axis, and of eight blocks to its neighbour's receive cells
  across the second axis. Levels: staging and send cells lowest, the barrier above them, the receive cells across the
  first axis above the barrier, those across the second axis on top; a device waits on a cell only while everything it
  still owes sits strictly higher, so no cycle of waits can form.
-/
import proofs.«900391_g7700000000000392_dist_rsdw_v7x_xyz2x2x4_x_m512_d512_f2048_f32_1_alg».proof.Proof.Tables

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Owed at launch; levels -/

def oX (c : Dev nD) : CellTallies nD τ sig Unit := ∑ r : Fin 8, tallyAt (dCell (xp c) 1 r) () NX
def oY (c : Dev nD) : CellTallies nD τ sig Unit := ∑ r : Fin 8, tallyAt (dCell (yn c) 3 r) () NS
/-- Summed so that the first payment (the signal across the first axis) is the last summand, the second the one before
    it, then the copies across the first axis, then those across the second. -/
def O₀ (c : Dev nD) : CellTallies nD τ sig Unit := oY c + oX c + tallyAt (barCell (yn c)) () 1 + tallyAt (barCell (xp c)) () 1

def L (g : GSem nD τ sig) : Finset Unit := if g.1.2 = .tc then {()} else ∅
/-- The level of a copy cell by family: send cells 0, receive across the first axis 2, receive across the second 3. -/
def lvK : Fin 4 → ℕ := ![0, 2, 0, 3]
def lv (g : GSem nD τ sig) (_ : Unit) : ℕ := match g.2 with
  | .reg _ => 1
  | .dma q => if 3 ≤ q.val then lvK (kOf q) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_copy (c : Dev nD) (k : Fin 4) (r : Fin 8) : lv (dCell c k r) () = lvK k := by
  show (if 3 ≤ (dS k r).val then lvK (kOf (dS k r)) else 0) = lvK k
  rw [if_pos (by show 3 ≤ 3 + 8 * k.val + r.val; omega), kOf_dS]

/-! ## The ghost state a body starts from -/

section Ghost
variable (K : GSem nD τ sig → ℕ) (c : Dev nD)

/-- The invariants a device's body opens: its own 33 cells, the two barrier cells it signals, and the sixteen receive
    cells it copies onto. -/
def invs : sProp 𝕄 :=
  iprop(cellInv ER (sched m) (K (barCell c)) (barCell c)
    ∗ (bigSep Finset.univ fun kr : Fin 4 × Fin 8 => cellInv ER (sched m) (K (dCell c kr.1 kr.2)) (dCell c kr.1 kr.2))
    ∗ cellInv ER (sched m) (K (barCell (xp c))) (barCell (xp c)) ∗ cellInv ER (sched m) (K (barCell (yn c))) (barCell (yn c))
    ∗ (bigSep Finset.univ fun r : Fin 8 => cellInv ER (sched m) (K (dCell (xp c) 1 r)) (dCell (xp c) 1 r))
    ∗ (bigSep Finset.univ fun r : Fin 8 => cellInv ER (sched m) (K (dCell (yn c) 3 r)) (dCell (yn c) 3 r)))

/-- Its positions: round 0 of each of its own cells, nothing taken. -/
def poss : sProp 𝕄 :=
  iprop(atPos ER (barCell c) 0 ∅ 0 ∗ bigSep Finset.univ fun kr : Fin 4 × Fin 8 => atPos ER (dCell c kr.1 kr.2) 0 ∅ 0)

/-- Round 0 reached: of the cells it pays, and of its own copy cells (which it tells its two peers about). -/
def marks : sProp 𝕄 :=
  iprop(reached ER (barCell (xp c)) 0 ∗ reached ER (barCell (yn c)) 0
    ∗ (bigSep Finset.univ fun kr : Fin 4 × Fin 8 => reached ER (dCell c kr.1 kr.2) 0)
    ∗ (bigSep Finset.univ fun r : Fin 8 => reached ER (dCell (xp c) 1 r) 0)
    ∗ (bigSep Finset.univ fun r : Fin 8 => reached ER (dCell (yn c) 3 r) 0))

/-- The tokens of the duties it pays: its unit on each peer's barrier cell, the sixteen receive duties of its copies,
    and the sixteen send duties of its own send cells. -/
def payToks : sProp 𝕄 :=
  iprop(dutyTok ER (barCell (xp c)) 0 false ∗ dutyTok ER (barCell (yn c)) 0 true
    ∗ (bigSep Finset.univ fun r : Fin 8 => dutyTok ER (dCell (xp c) 1 r) 0 false)
    ∗ (bigSep Finset.univ fun r : Fin 8 => dutyTok ER (dCell (yn c) 3 r) 0 false)
    ∗ (bigSep Finset.univ fun r : Fin 8 => dutyTok ER (dCell c 0 r) 0 false)
    ∗ (bigSep Finset.univ fun r : Fin 8 => dutyTok ER (dCell c 2 r) 0 false))

def ghost : sProp 𝕄 := iprop(invs m K c ∗ poss c ∗ marks c ∗ payToks c)

instance invs_persistent : BI.Persistent (invs m K c) := by unfold invs; infer_instance
instance marks_persistent : BI.Persistent (marks (F := F) c) := by unfold marks; infer_instance

end Ghost

/-- The credit a device's waits consume: two units on its barrier cell, a block's units on each receive cell. -/
def creds (c : Dev nD) : sProp 𝕄 :=
  iprop(cred (tallyAt (barCell c) () 2)
    ∗ (bigSep Finset.univ fun r : Fin 8 => cred (tallyAt (dCell c 1 r) () NX))
    ∗ (bigSep Finset.univ fun r : Fin 8 => cred (tallyAt (dCell c 3 r) () NS)))

/-- What the launch deals a device besides its buffers. -/
def start (c : Dev nD) : sProp 𝕄 := iprop((∃ K, ghost m K c) ∗ creds c ∗ levAts L lv)

/-- The four scratch buffers, whole, at some contents. -/
def scratch (c : Dev nD) : sProp 𝕄 :=
  iprop((∃ f, held pM c f) ∗ (∃ f, held wM c f) ∗ (∃ f, held xM c f) ∗ (∃ f, held sM c f))

/-- Before the one grid point: the launch's deal and the scratch buffers. After it: the scratch buffers again and the
    32 copy semaphores back at zero. -/
def Φ₀ (c : Dev nD) : sProp 𝕄 := iprop(start m c ∗ scratch c)
def Φ₁ (c : Dev nD) : sProp 𝕄 := iprop(scratch (F := F) c ∗ bigSep Finset.univ fun kr : Fin 4 × Fin 8 => semVal (dCell c kr.1 kr.2) 0)

/-! ## The pipeline's proof data -/

abbrev 𝒱₀ : Variants := Variants.none

/-- The argument windows' staging buffers keep the arguments' blocks; the result window's ends at `Obuf`. -/
def dats (_ : Fin 1) (c : Dev nD) : Dat τ (Elt F) Unit ℕ UU ℕ cfg0 c where
  A w := m ((cfg0.win w).arr.view.loc (c : Thread nD τ))
  after w _ := match w with
    | ⟨0, _⟩ => argA m c
    | ⟨1, _⟩ => argB m c
    | ⟨2, _⟩ => Obuf m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.Rs

end
-- ==== Proof.Levels.lean ====
/-
  The level evidence of the waits. A staging or send cell sits at level 0, the barrier cell at 1, a receive cell across
  the first axis at 2, one across the second axis at 3. Everything a device owes at launch sits at level 1 or higher;
  at its barrier wait it owes only receive cells (levels 2 and 3); at a wait on a receive cell across the first axis it
  owes only receive cells across the second (level 3). So every wait is strictly below what is still owed.
-/
import proofs.«900391_g7700000000000392_dist_rsdw_v7x_xyz2x2x4_x_m512_d512_f2048_f32_1_alg».proof.Proof.Ghost

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the owed tallies are positive -/

omit [FloatOps F] in
theorem oX_pos {c : Dev nD} {g : GSem nD τ sig} {u : Unit} (h : 0 < oX c g u) : ∃ r : Fin 8, g = dCell (xp c) 1 r := by
  unfold oX at h
  obtain ⟨r, _, hr⟩ := Pipeline.sum_pos_exists h
  exact ⟨r, (Pipeline.tallyAt_pos hr).1⟩

omit [FloatOps F] in
theorem oY_pos {c : Dev nD} {g : GSem nD τ sig} {u : Unit} (h : 0 < oY c g u) : ∃ r : Fin 8, g = dCell (yn c) 3 r := by
  unfold oY at h
  obtain ⟨r, _, hr⟩ := Pipeline.sum_pos_exists h
  exact ⟨r, (Pipeline.tallyAt_pos hr).1⟩

omit [FloatOps F] in
theorem O₀_pos {c : Dev nD} {g : GSem nD τ sig} {u : Unit} (h : 0 < O₀ c g u) :
    (∃ r : Fin 8, g = dCell (yn c) 3 r) ∨ (∃ r : Fin 8, g = dCell (xp c) 1 r) ∨ g = barCell (yn c) ∨ g = barCell (xp c) := by
  unfold O₀ at h
  rcases Pipeline.add_pos_cases h with h | h
  · rcases Pipeline.add_pos_cases h with h | h
    · rcases Pipeline.add_pos_cases h with h | h
      · exact Or.inl (oY_pos h)
      · exact Or.inr (Or.inl (oX_pos h))
    · exact Or.inr (Or.inr (Or.inl (Pipeline.tallyAt_pos h).1))
  · exact Or.inr (Or.inr (Or.inr (Pipeline.tallyAt_pos h).1))

omit [FloatOps F] in
theorem lv_stage (c : Dev nD) (q : DmaSem sig) (hq : q.val < 3) : lv ((c : Thread nD τ), .dma q) () = 0 := by
  show (if 3 ≤ q.val then lvK (kOf q) else 0) = 0
  rw [if_neg (by omega)]

omit [FloatOps F] in
theorem mem_L (c : Dev nD) (sm : SemLoc sig) : () ∈ L ((c : Thread nD τ), sm) := by
  rw [L_tc]; exact Finset.mem_singleton_self _

/-! ## The waits -/

omit [FloatOps F] in
/-- A wait on a staging cell (level 0), owing the launch's dues or nothing. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L c _) (fun g u hg => ?_)
    obtain ⟨⟩ := u
    rw [lv_stage c q hq]
    rcases O₀_pos hg with ⟨r, rfl⟩ | ⟨r, rfl⟩ | rfl | rfl
    · exact ⟨mem_L _ _, by rw [lv_copy]; decide⟩
    · exact ⟨mem_L _ _, by rw [lv_copy]; decide⟩
    · exact ⟨mem_L _ _, by rw [lv_bar]; decide⟩
    · exact ⟨mem_L _ _, by rw [lv_bar]; decide⟩
  · rw [MayWait_zero]; iintro -; iempintro

omit [FloatOps F] in
/-- The barrier wait (level 1): only the copies' receive duties are still owed (levels 2 and 3). -/
theorem mayWait_bar (c : Dev nD) :
    (levAts L lv : sProp 𝕄) ⊢ MayWait (c : Thread nD τ) (.reg barS) () (oY c + oX c) := by
  refine Pipeline.mayWait_of_levAts (mem_L c _) (fun g u hg => ?_)
  obtain ⟨⟩ := u
  rw [show lv ((c : Thread nD τ), .reg barS) () = 1 from rfl]
  rcases Pipeline.add_pos_cases hg with h | h
  · obtain ⟨r, rfl⟩ := oY_pos h
    exact ⟨mem_L _ _, by rw [lv_copy]; decide⟩
  · obtain ⟨r, rfl⟩ := oX_pos h
    exact ⟨mem_L _ _, by rw [lv_copy]; decide⟩

omit [FloatOps F] in
/-- A wait on a receive cell across the first axis (level 2), owing only receive duties across the second (level 3). -/
theorem mayWait_xrecv (c : Dev nD) (r : Fin 8) (O : CellTallies nD τ sig Unit) (hO : ∀ g u, 0 < O g u → ∃ r' : Fin 8, g = dCell (yn c) 3 r') :
    (levAts L lv : sProp 𝕄) ⊢ MayWait (c : Thread nD τ) (.dma (dS 1 r)) () O := by
  refine Pipeline.mayWait_of_levAts (mem_L c _) (fun g u hg => ?_)
  obtain ⟨⟩ := u
  obtain ⟨r', rfl⟩ := hO g () hg
  exact ⟨mem_L _ _, by rw [show lv ((c : Thread nD τ), .dma (dS 1 r)) () = lvK 1 from lv_copy c 1 r, lv_copy]; decide⟩

end Cert.KernelIdeal.Rs

end
-- ==== Proof.Launch.lean ====
/-
  The launch. Taking each device's body as proved, the whole program runs: the launch element funds every cell's round
  state, positions and duty tokens; each device's 33 cells are put under invariants; the tokens are dealt to the devices
  that pay them (a barrier duty and a receive duty go to the partner across the first axis or the neighbour across the
  second, both involutions of the mesh); the launch credit of what the sixteen devices owe is exactly each device's own
  waits; and the final arrays are read off the proof data.
-/
import proofs.«900391_g7700000000000392_dist_rsdw_v7x_xyz2x2x4_x_m512_d512_f2048_f32_1_alg».proof.Proof.Levels
import proofs.«900391_g7700000000000392_dist_rsdw_v7x_xyz2x2x4_x_m512_d512_f2048_f32_1_alg».proof.Proof.Gen.KernelIdeal.Points

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the cells of the protocol -/

/-- The 32 scoped copy semaphores, by family and block. -/
abbrev osem : Fin 4 × Fin 8 → SemLoc sig := fun kr => .dma (dS kr.1 kr.2)

theorem ownSemFacts : Pipeline.OwnSemFacts cfg0.spec osem := by decide

theorem share_eq (c : Dev nD) (w : Fin cfg0.W) : (dats (F := F) m 0 c).share w = fullShare := by unfold Dat.share; split <;> rfl

/-- A device's cells: the barrier cell, then the 32 copy cells. -/
abbrev csem : Unit ⊕ Fin 4 × Fin 8 → SemLoc sig := fun | .inl _ => .reg barS | .inr kr => .dma (dS kr.1 kr.2)
abbrev kcell (cj : Dev nD × (Unit ⊕ Fin 4 × Fin 8)) : GSem nD τ sig := ((cj.1 : Thread nD τ), csem cj.2)

theorem csem_injective : Function.Injective csem := by
  rintro (_ | ⟨k, r⟩) (_ | ⟨k', r'⟩) h
  · rfl
  · exact absurd h.symm (copy_ne_bar _)
  · exact absurd h (copy_ne_bar _)
  · obtain ⟨hk, hr⟩ := dS_inj (SemLoc.dma.inj h); subst hk; subst hr; rfl

theorem kcell_injective : Function.Injective (kcell : Dev nD × (Unit ⊕ Fin 4 × Fin 8) → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

def allCells : Finset (GSem nD τ sig) := Finset.univ.map ⟨kcell, kcell_injective⟩

/-- The duty tokens as minted: a device's barrier duties `false` and `true`, and the one duty of each copy cell. -/
abbrev tokOf (cj : Dev nD × (Bool ⊕ Fin 4 × Fin 8)) : GSem nD τ sig × ℕ × Bool := match cj.2 with
  | .inl d => (barCell cj.1, 0, d)
  | .inr kr => (dCell cj.1 kr.1 kr.2, 0, false)

theorem tokOf_injective : Function.Injective (tokOf : Dev nD × (Bool ⊕ Fin 4 × Fin 8) → GSem nD τ sig × ℕ × Bool) := by
  rintro ⟨c, j⟩ ⟨c', j'⟩ h
  have h1 : c = c' := by
    have := congrArg (fun x : GSem nD τ sig × ℕ × Bool => x.1.1.1) h
    rcases j with d | kr <;> rcases j' with d' | kr' <;> exact this
  subst h1
  have : j = j' := by
    rcases j with d | ⟨k, r⟩ <;> rcases j' with d' | ⟨k', r'⟩
    · exact congrArg Sum.inl (congrArg (fun x : GSem nD τ sig × ℕ × Bool => x.2.2) h)
    · exact absurd (congrArg (fun x : GSem nD τ sig × ℕ × Bool => x.1.2) h).symm (copy_ne_bar _)
    · exact absurd (congrArg (fun x : GSem nD τ sig × ℕ × Bool => x.1.2) h) (copy_ne_bar _)
    · obtain ⟨hk, hr⟩ := dS_inj (SemLoc.dma.inj (congrArg (fun x : GSem nD τ sig × ℕ × Bool => x.1.2) h)); subst hk; subst hr; rfl
  subst this; rfl

def allToks : Finset (GSem nD τ sig × ℕ × Bool) := Finset.univ.map ⟨tokOf, tokOf_injective⟩

/-- The launch element: the pipeline's own, beside the protocol's. -/
def u₀ : UU :=
  (initOf (Pipeline.cells cfgs cellOf_inj) (Pipeline.launchToks cfgs cellOf_inj), initOf allCells allToks)

/-- An assertion at each of a device's 33 cells. -/
def perCell (Φ : GSem nD τ sig → sProp 𝕄) (c : Dev nD) : sProp 𝕄 :=
  iprop(Φ (barCell c) ∗ bigSep Finset.univ fun kr : Fin 4 × Fin 8 => Φ (dCell c kr.1 kr.2))

/-- The duty tokens of device `c`'s own cells. -/
def toks (c : Dev nD) : sProp 𝕄 :=
  iprop((dutyTok ER (barCell c) 0 false ∗ dutyTok ER (barCell c) 0 true) ∗ bigSep Finset.univ fun kr : Fin 4 × Fin 8 => dutyTok ER (dCell c kr.1 kr.2) 0 false)

/-- What the launch element deals device `c`. -/
def G (c : Dev nD) : sProp 𝕄 :=
  iprop(perCell (fun g => roundState ER (sched m) g 0) c ∗ perCell (fun g => atPos ER g 0 ∅ 0) c ∗ perCell (fun g => reached ER g 0) c ∗ toks c)

/-- What the global step makes of it. -/
def G' (c : Dev nD) : sProp 𝕄 := iprop(∃ K, ghost m K c)

omit [FloatOps F] in
theorem bigSep_cells (Φ : GSem nD τ sig → sProp 𝕄) : bigSep allCells Φ = bigSep Finset.univ fun c : Dev nD => perCell Φ c := by
  unfold allCells; rw [bigSep_map, bigSep_univ_prod]
  exact bigSep_congr fun c _ => by
    unfold perCell; rw [bigSep_univ_sum, bigSep_univ_of_subsingleton ()]; rfl

omit [FloatOps F] in
theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

omit [FloatOps F] in
theorem bigSep_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by
    unfold toks; rw [bigSep_univ_sum, bigSep_bool]; rfl

theorem fund_cells : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (Entails.of_eq (bigSep_cells fun g => roundState ER (sched m) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq bigSep_toks) $$ Htok
  unfold G; simp only [bigSep_sep']
  isplitl [Hst']; · iexact Hst'
  isplitl [Hat']; · iexact Hat'
  isplitl [Hr']; · iexact Hr'
  iexact Htok'

/-! ## The global step: invariants on every cell, tokens to their payers -/

omit [FloatOps F] in
/-- The barrier semaphore is the one unscoped semaphore of a device. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (perCell (fun g => semVal g 0) c : sProp 𝕄) := by
  rw [unscopedSems0_eq]; unfold perCell Pipeline.ownSems0
  iintro ⟨HS, HB⟩
  isplitl [HB]; · iexact HB
  iexact HS

/-- Every cell at counter zero with its round state goes under an invariant, at names gathered into one function. -/
theorem cells_alloc :
    iprop((bigSep allCells fun g => semVal g 0) ∗ bigSep allCells fun g => roundState ER (sched m) g 0)
      ⊢ (|={Set.univ}=> ∃ K : GSem nD τ sig → ℕ, bigSep allCells fun g => cellInv ER (sched m) (K g) g : sProp 𝕄) := by
  iintro H
  imod (show iprop((bigSep allCells fun g => semVal g 0) ∗ bigSep allCells fun g => roundState ER (sched m) g 0)
      ⊢ (|={Set.univ}=> bigSep allCells fun g => iprop(∃ κ : ℕ, cellInv ER (sched m) κ g) : sProp 𝕄) from by
        rw [← bigSep_sep']
        exact (bigSep_mono fun g _ => (Rounds.body_intro ER (sched m) g).trans inv_alloc).trans (bigSep_fupd _ _)) $$ H with H
  imodintro
  iapply (BI.bigSep_exists_pi allCells (fun (g : GSem nD τ sig) (κ : ℕ) => (cellInv ER (sched m) κ g : sProp 𝕄)))
  iexact H

/-- The persistent records of the launch: every cell's invariant and that its round 0 is reached. -/
def records (K : GSem nD τ sig → ℕ) : sProp 𝕄 :=
  iprop((bigSep allCells fun g => cellInv ER (sched m) (K g) g) ∗ bigSep allCells fun g => reached ER g 0)

instance records_persistent (K : GSem nD τ sig → ℕ) : BI.Persistent (records m K) := by unfold records; infer_instance

omit [FloatOps F] in
theorem mem_cells_bar (c : Dev nD) : barCell c ∈ allCells := Finset.mem_map.mpr ⟨(c, .inl ()), Finset.mem_univ _, rfl⟩
omit [FloatOps F] in
theorem mem_cells_copy (c : Dev nD) (k : Fin 4) (r : Fin 8) : dCell c k r ∈ allCells := Finset.mem_map.mpr ⟨(c, .inr (k, r)), Finset.mem_univ _, rfl⟩

theorem inv_at (K : GSem nD τ sig → ℕ) (g : GSem nD τ sig) (hg : g ∈ allCells) :
    (bigSep allCells fun g => (cellInv ER (sched m) (K g) g : sProp 𝕄)) ⊢ cellInv ER (sched m) (K g) g := bigSep_elim hg
theorem invs_at (K : GSem nD τ sig → ℕ) {I : Type} [DecidableEq I] (s : Finset I) (f : I → GSem nD τ sig) (hf : ∀ i, f i ∈ allCells) :
    (bigSep allCells fun g => (cellInv ER (sched m) (K g) g : sProp 𝕄)) ⊢ bigSep s fun i => cellInv ER (sched m) (K (f i)) (f i) :=
  BI.bigSep_intro_persistent fun i _ => inv_at m K (f i) (hf i)
omit [FloatOps F] in
theorem reached_at (g : GSem nD τ sig) (hg : g ∈ allCells) :
    (bigSep allCells fun g => (reached ER g 0 : sProp 𝕄)) ⊢ reached ER g 0 := bigSep_elim hg
omit [FloatOps F] in
theorem reacheds_at {I : Type} [DecidableEq I] (s : Finset I) (f : I → GSem nD τ sig) (hf : ∀ i, f i ∈ allCells) :
    (bigSep allCells fun g => (reached ER g 0 : sProp 𝕄)) ⊢ bigSep s fun i => reached ER (f i) 0 :=
  BI.bigSep_intro_persistent fun i _ => reached_at (f i) (hf i)

theorem invs_intro (K : GSem nD τ sig → ℕ) (c : Dev nD) :
    (bigSep allCells fun g => (cellInv ER (sched m) (K g) g : sProp 𝕄)) ⊢ invs m K c := by
  unfold invs
  iintro #HI
  isplitr; · iapply (inv_at m K _ (mem_cells_bar c)); iexact HI
  isplitr; · iapply (invs_at m K Finset.univ (fun kr : Fin 4 × Fin 8 => dCell c kr.1 kr.2) fun kr => mem_cells_copy c kr.1 kr.2); iexact HI
  isplitr; · iapply (inv_at m K _ (mem_cells_bar (xp c))); iexact HI
  isplitr; · iapply (inv_at m K _ (mem_cells_bar (yn c))); iexact HI
  isplitr; · iapply (invs_at m K Finset.univ (fun r : Fin 8 => dCell (xp c) 1 r) fun r => mem_cells_copy (xp c) 1 r); iexact HI
  iapply (invs_at m K Finset.univ (fun r : Fin 8 => dCell (yn c) 3 r) fun r => mem_cells_copy (yn c) 3 r); iexact HI

omit [FloatOps F] in
theorem marks_intro (c : Dev nD) : (bigSep allCells fun g => (reached ER g 0 : sProp 𝕄)) ⊢ marks c := by
  unfold marks
  iintro #HR
  isplitr; · iapply (reached_at _ (mem_cells_bar (xp c))); iexact HR
  isplitr; · iapply (reached_at _ (mem_cells_bar (yn c))); iexact HR
  isplitr; · iapply (reacheds_at Finset.univ (fun kr : Fin 4 × Fin 8 => dCell c kr.1 kr.2) fun kr => mem_cells_copy c kr.1 kr.2); iexact HR
  isplitr; · iapply (reacheds_at Finset.univ (fun r : Fin 8 => dCell (xp c) 1 r) fun r => mem_cells_copy (xp c) 1 r); iexact HR
  iapply (reacheds_at Finset.univ (fun r : Fin 8 => dCell (yn c) 3 r) fun r => mem_cells_copy (yn c) 3 r); iexact HR

/-- The records, a device's positions and the tokens it pays with make its ghost state. -/
theorem ghost_intro (K : GSem nD τ sig → ℕ) (c : Dev nD) : iprop(records m K ∗ poss c ∗ payToks c) ⊢ G' m c := by
  unfold records G' ghost
  iintro ⟨⟨#HI, #HR⟩, Hp, Ht⟩
  iexists K
  isplitr; · iapply (invs_intro m K c); iexact HI
  isplitl [Hp]; · iexact Hp
  isplitr; · iapply (marks_intro c); iexact HR
  iexact Ht

omit [FloatOps F] in
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A device's own tokens, family by family. -/
theorem toks_eq (c : Dev nD) : (toks c : sProp 𝕄) = iprop((dutyTok ER (barCell c) 0 false ∗ dutyTok ER (barCell c) 0 true)
    ∗ (bigSep Finset.univ fun r : Fin 8 => dutyTok ER (dCell c 0 r) 0 false) ∗ (bigSep Finset.univ fun r : Fin 8 => dutyTok ER (dCell c 1 r) 0 false)
    ∗ (bigSep Finset.univ fun r : Fin 8 => dutyTok ER (dCell c 2 r) 0 false) ∗ (bigSep Finset.univ fun r : Fin 8 => dutyTok ER (dCell c 3 r) 0 false)) := by
  unfold toks; rw [bigSep_univ_prod, bigSep_four]

omit [FloatOps F] in
/-- The tokens dealt to their payers: a barrier cell's duty `false` and the receive duties across the first axis go to the
    partner across the first axis, the duty `true` and the receive duties across the second axis to the neighbour across
    the second; the send duties stay. Both maps are involutions of the mesh. -/
theorem toks_around : (bigSep Finset.univ fun c : Dev nD => (toks c : sProp 𝕄)) ⊢ bigSep Finset.univ fun c : Dev nD => payToks c := by
  rw [bigSep_congr fun c _ => toks_eq c]
  unfold payToks
  simp only [bigSep_sep']
  rw [bigSep_univ_equiv xpE (fun c : Dev nD => (dutyTok ER (barCell c) 0 false : sProp 𝕄)),
    bigSep_univ_equiv ynE (fun c : Dev nD => (dutyTok ER (barCell c) 0 true : sProp 𝕄)),
    bigSep_univ_equiv xpE (fun c : Dev nD => (bigSep Finset.univ fun r : Fin 8 => dutyTok ER (dCell c 1 r) 0 false : sProp 𝕄)),
    bigSep_univ_equiv ynE (fun c : Dev nD => (bigSep Finset.univ fun r : Fin 8 => dutyTok ER (dCell c 3 r) 0 false : sProp 𝕄))]
  iintro ⟨⟨H1, H2⟩, H3, H4, H5, H6⟩
  isplitl [H1]; · iexact H1
  isplitl [H2]; · iexact H2
  isplitl [H4]; · iexact H4
  isplitl [H6]; · iexact H6
  isplitl [H3]; · iexact H3
  iexact H5

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem core_split (c : Dev nD) :
    iprop(Pipeline.ownSems0 (Ix := Unit) (Name := ℕ) (U := UU) (Lvl := ℕ) (Val := Elt F) (τ := τ) osem c ∗ unscopedSems0 c ∗ G m c)
      ⊢ iprop(perCell (fun g => semVal g 0) c ∗ perCell (fun g => roundState ER (sched m) g 0) c ∗ perCell (fun g => atPos ER g 0 ∅ 0) c
          ∗ perCell (fun g => reached ER g 0) c ∗ toks c) := by
  unfold G
  iintro ⟨Hos, Hus, Hst, Hat, Hr, Htok⟩
  isplitl [Hos Hus]
  · iapply (sems0_eq (F := F) c); isplitl [Hos] <;> iassumption
  isplitl [Hst]; · iexact Hst
  isplitl [Hat]; · iexact Hat
  isplitl [Hr]; · iexact Hr
  iexact Htok

theorem glob_regroup :
    (bigSep Finset.univ fun c : Dev nD => iprop(perCell (fun g => semVal g 0) c ∗ perCell (fun g => roundState ER (sched m) g 0) c ∗ perCell (fun g => atPos ER g 0 ∅ 0) c
          ∗ perCell (fun g => reached ER g 0) c ∗ toks c) : sProp 𝕄)
      ⊢ |={Set.univ}=> bigSep Finset.univ (G' m) := by
  simp only [bigSep_sep']
  rw [← bigSep_cells (fun g => semVal g 0), ← bigSep_cells (fun g => roundState ER (sched m) g 0), ← bigSep_cells (fun g => reached ER g 0)]
  iintro ⟨Hv, Hst, Hat, #HR, Htok⟩
  imod (cells_alloc m) $$ [Hv Hst] with ⟨%K, #HI⟩
  · isplitl [Hv] <;> iassumption
  imodintro
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (poss c : sProp 𝕄)) (fun c => payToks c)).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  (bigSep_mono fun c _ => core_split m c).trans (glob_regroup m)

/-! ## The launch credit -/

omit [FloatOps F] in
/-- The receive duties across the second axis, owed by every device to its neighbour, are each device's own credit. -/
theorem cred_oY (c : Dev nD) : (Pipeline.launchCred oY c : sProp 𝕄) ⊢ bigSep Finset.univ fun r : Fin 8 => cred (tallyAt (dCell c 3 r) () NS) := by
  have e : (oY : Dev nD → CellTallies nD τ sig Unit)
      = fun d => ∑ r ∈ (Finset.univ : Finset (Fin 8)), (fun (r : Fin 8) (d : Dev nD) => (tallyAt (dCell (yn d) 3 r) () NS : CellTallies nD τ sig Unit)) r d := rfl
  rw [e, Pipeline.launchCred_sum]
  exact bigSep_mono fun r _ => Pipeline.launchCred_tallyAt (.dma (dS 3 r)) yn yn yn_yn yn_yn () NS c

omit [FloatOps F] in
/-- The receive duties across the first axis likewise, through the partner map. -/
theorem cred_oX (c : Dev nD) : (Pipeline.launchCred oX c : sProp 𝕄) ⊢ bigSep Finset.univ fun r : Fin 8 => cred (tallyAt (dCell c 1 r) () NX) := by
  have e : (oX : Dev nD → CellTallies nD τ sig Unit)
      = fun d => ∑ r ∈ (Finset.univ : Finset (Fin 8)), (fun (r : Fin 8) (d : Dev nD) => (tallyAt (dCell (xp d) 1 r) () NX : CellTallies nD τ sig Unit)) r d := rfl
  rw [e, Pipeline.launchCred_sum]
  exact bigSep_mono fun r _ => Pipeline.launchCred_tallyAt (.dma (dS 1 r)) xp xp xp_xp xp_xp () NX c

omit [FloatOps F] in
theorem cred_two (c : Dev nD) : iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from (tallyAt_add _ _ 1 1).symm]
  exact (cred_add _ _).2

omit [FloatOps F] in
/-- What the sixteen devices owe at launch is, device by device, the credit of its own waits. -/
theorem creds_intro (c : Dev nD) : (Pipeline.launchCred O₀ c : sProp 𝕄) ⊢ creds c := by
  have e : (O₀ : Dev nD → CellTallies nD τ sig Unit)
      = fun d => ((oY d + oX d) + tallyAt (barCell (yn d)) () 1) + tallyAt (barCell (xp d)) () 1 := rfl
  rw [e, Pipeline.launchCred_add (fun d => (oY d + oX d) + tallyAt (barCell (yn d)) () 1) (fun d => tallyAt (barCell (xp d)) () 1),
    Pipeline.launchCred_add (fun d => oY d + oX d) (fun d => tallyAt (barCell (yn d)) () 1),
    Pipeline.launchCred_add oY oX]
  iintro ⟨⟨⟨HY, HX⟩, HBy⟩, HBx⟩
  ihave HY' := (cred_oY (F := F) c) $$ HY
  ihave HX' := (cred_oX (F := F) c) $$ HX
  ihave H1 := (Pipeline.launchCred_tallyAt (.reg barS) yn yn yn_yn yn_yn () 1 c) $$ HBy
  ihave H2 := (Pipeline.launchCred_tallyAt (.reg barS) xp xp xp_xp xp_xp () 1 c) $$ HBx
  unfold creds
  isplitl [H1 H2]
  · iapply (cred_two (F := F) c); isplitl [H1] <;> iassumption
  isplitl [HX']; · iexact HX'
  iexact HY'

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

omit [FloatOps F] in
/-- A whole buffer held is the plain points-to of the buffer. -/
theorem held_whole (b : Ref sig .tc) (c : Dev nD) (f : Buf (Elt F) ((c : Thread nD τ).loc b)) :
    held (Memref.whole b) c f = (((c : Thread nD τ).loc b) ↦{fullShare} f : sProp 𝕄) := by
  unfold held; rw [View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, ⟨%f0, H0⟩, ⟨%f1, H1⟩, ⟨%f2, H2⟩, ⟨%f3, H3⟩⟩
  isplitl [Hs]; · iexact Hs
  isplitl [H0]; · iexists f0; rw [held_whole]; iexact H0
  isplitl [H1]; · iexists f1; rw [held_whole]; iexact H1
  isplitl [H2]; · iexists f2; rw [held_whole]; iexact H2
  iexists f3; rw [held_whole]; iexact H3

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scratch Pipeline.ownSems0
  iintro ⟨⟨⟨%f0, H0⟩, ⟨%f1, H1⟩, ⟨%f2, H2⟩, ⟨%f3, H3⟩⟩, Hz⟩
  isplitr; · iempintro
  isplitl [Hz]; · iexact Hz
  isplitl [H0]; · iexists f0; rw [← held_whole]; iexact H0
  isplitl [H1]; · iexists f1; rw [← held_whole]; iexact H1
  isplitl [H2]; · iexists f2; rw [← held_whole]; iexact H2
  iexists f3; rw [← held_whole]; iexact H3

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- With every device's body proved: from any memory with every counter at zero, every weakly fair execution of the
    program on the sixteen devices terminates, and every final state has each windowed array at the proof data's final
    contents. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays -/

/-- The result array ends as the result block the body leaves: the one point writes the whole staging buffer back. -/
theorem final_out (c : Dev nD) :
    (dats (F := F) m 0 c).arrAt (2 : Fin 3) cfg0.N = (Obuf m c : Buf (Elt F) ((c.tc : Thread nD τ).loc main_v1)) := by
  rw [show cfg0.N = (t0_0 : Fin cfg0.N).val + 1 from rfl, Dat.arrAt_succ, flush0_2, if_pos rfl]
  exact Memref.write_access_unit_zero_univ (Elt F) main_v1 (funext fun a => by fin_cases a <;> rfl) _ _ _

/-- The argument arrays are never written. -/
theorem final_arg0 (c : Dev nD) : (dats (F := F) m 0 c).arrAt (0 : Fin 3) cfg0.N = m ((c.tc : Thread nD τ).loc main_arg0) :=
  (dats (F := F) m 0 c).arrAt_in (0 : Fin 3) rfl _
theorem final_arg1 (c : Dev nD) : (dats (F := F) m 0 c).arrAt (1 : Fin 3) cfg0.N = m ((c.tc : Thread nD τ).loc main_arg1) :=
  (dats (F := F) m 0 c).arrAt_in (1 : Fin 3) rfl _

/-- The run with its strongest post: on every device the result array holds the result block, a pure function of the
    arguments as launched, and both argument arrays hold what they held. -/
theorem run (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = (Obuf m c : Buf (Elt F) ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (2 : Fin 3)).trans (final_out m c), (h c (0 : Fin 3)).trans (final_arg0 m c), (h c (1 : Fin 3)).trans (final_arg1 m c)⟩)
    (run_main m ρ hbody)

end Cert.KernelIdeal.Rs

end
-- ==== Proof.Blocks.lean ====
/-
  A buffer held whole is the same as its column blocks held one by one.

  The 256 x 1024 buffers fall into eight blocks of 128 columns, the 256 x 2048 buffer into sixteen: the eight of the
  column half a device reduces itself and the eight of the half that lands from its neighbour across the second axis.
  What the neighbour calls its own half is this device's other half. A block copied between equally placed blocks of two
  buffers of one shape carries the source's values to the same indices.
-/
import proofs.«900391_g7700000000000392_dist_rsdw_v7x_xyz2x2x4_x_m512_d512_f2048_f32_1_alg».proof.Proof.Ghost

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The blocks of S, named three ways -/

/-- The block a device writes and sends is wide block `own c r`; the one that lands is wide block `oth c r`. -/
theorem off6_own (c : Dev nD) (r : Fin 8) : k0_off6 c (BitVec.ofNat 32 (128 * r.val)) = ![0, 128 * (own c r).val] := by
  have e : 1024 * ((c.val / 4) % 2) + 128 * r.val = 128 * (own c r).val := by
    show _ = 128 * (8 * my c + r.val); unfold my; omega
  rw [k0_off6_eq, e]
theorem off7_oth (c : Dev nD) (r : Fin 8) : k0_off7 c (BitVec.ofNat 32 (128 * r.val)) = ![0, 128 * (oth c r).val] := by
  have e : (128 * r.val + 1024) - 1024 * ((c.val / 4) % 2) = 128 * (oth c r).val := by
    show _ = 128 * (8 * (1 - my c) + r.val); unfold my; omega
  rw [k0_off7_eq, e]
theorem sOwn_eq_wide (c : Dev nD) (r : Fin 8) : sOwn c r = sM.slice (wide (own c r)) (fun _ => rfl) := by
  exact Memref.slice_unit_congr _ (off6_own c r) _ _ _ _
theorem sOth_eq_wide (c : Dev nD) (r : Fin 8) : sOth c r = sM.slice (wide (oth c r)) (fun _ => rfl) := by
  exact Memref.slice_unit_congr _ (off7_oth c r) _ _ _ _
/-- The neighbour's own half is this device's other half, and conversely. -/
theorem own_yn (c : Dev nD) (r : Fin 8) : own (yn c) r = oth c r := by
  apply Fin.ext; show 8 * my (yn c) + r.val = 8 * (1 - my c) + r.val; rw [my_yn]
theorem oth_yn (c : Dev nD) (r : Fin 8) : oth (yn c) r = own c r := by
  apply Fin.ext; show 8 * (1 - my (yn c)) + r.val = 8 * my c + r.val; rw [my_yn]; have := my_lt c; omega
theorem sOwn_yn (c : Dev nD) (r : Fin 8) : sOwn (yn c) r = sOth c r := by
  rw [sOwn_eq_wide, sOth_eq_wide, own_yn]
theorem sOth_yn (c : Dev nD) (r : Fin 8) : sOth (yn c) r = sOwn c r := by
  rw [sOth_eq_wide, sOwn_eq_wide, oth_yn]

/-- Blocks of S at equal offsets are held by the same assertion (the contents are the whole buffer's either way). -/
theorem held_sSlice_congr {off off' : Fin S256x2048.rank → ℕ} (h : off = off') (p : ∀ a, off a + S256x128.size a ≤ S256x2048.size a)
    (p' : ∀ a, off' a + S256x128.size a ≤ S256x2048.size a) (d : Dev nD) (g : (cc0_scratch3 : Ref sig .tc).ty.Contents (Elt F)) :
    held (F := F) (sM.slice (Rect.unit (s := S256x2048) off S256x128.size p) (fun _ => rfl)) d g
      = held (sM.slice (Rect.unit (s := S256x2048) off' S256x128.size p') (fun _ => rfl)) d g := by
  subst h; rfl
theorem held_sOwn (c d : Dev nD) (r : Fin 8) (g : (cc0_scratch3 : Ref sig .tc).ty.Contents (Elt F)) :
    held (F := F) (sOwn c r) d g = held (sM.slice (wide (own c r)) (fun _ => rfl)) d g :=
  held_sSlice_congr (off6_own c r) _ _ d g
theorem held_sOth (c d : Dev nD) (r : Fin 8) (g : (cc0_scratch3 : Ref sig .tc).ty.Contents (Elt F)) :
    held (F := F) (sOth c r) d g = held (sM.slice (wide (oth c r)) (fun _ => rfl)) d g :=
  held_sSlice_congr (off7_oth c r) _ _ d g
theorem held_sOth_yn (c d : Dev nD) (r : Fin 8) (g : (cc0_scratch3 : Ref sig .tc).ty.Contents (Elt F)) : held (F := F) (sOth (yn c) r) d g = held (sOwn c r) d g :=
  (held_sOth (yn c) d r g).trans
    ((congrArg (fun j => held (F := F) (sM.slice (wide j) (fun _ => rfl)) d g) (oth_yn c r)).trans (held_sOwn c d r g).symm)
theorem held_sOwn_yn (c d : Dev nD) (r : Fin 8) (g : (cc0_scratch3 : Ref sig .tc).ty.Contents (Elt F)) : held (F := F) (sOwn (yn c) r) d g = held (sOth c r) d g :=
  (held_sOwn (yn c) d r g).trans
    ((congrArg (fun j => held (F := F) (sM.slice (wide j) (fun _ => rfl)) d g) (own_yn c r)).trans (held_sOth c d r g).symm)

/-- Of a device and its neighbour across the second axis, the one reducing a given column half is the same whichever of
    the two asks. -/
theorem halfOf_yn (c : Dev nD) (h : ℕ) (hh : h < 2) : halfOf (yn c) h = halfOf c h := by
  unfold halfOf; rw [my_yn, yn_yn]
  have := my_lt c
  by_cases e : my c = h
  · rw [if_pos e, if_neg (by omega)]
  · rw [if_neg e, if_pos (by omega)]
theorem Sbuf_yn (c : Dev nD) : Sbuf m (yn c) = Sbuf m c := by
  funext i; unfold Sbuf; rw [halfOf_yn c _ (by have := col2048_lt i; omega)]

/-! ## Whole = blocks -/

/-- Every index of a 256 x 1024 buffer lies in exactly the column block numbered by its column over 128. -/
theorem blk_disjoint (r r' : Fin 8) (h : r ≠ r') : Disjoint (blk r).set (blk r').set := by
  rw [Finset.disjoint_left]; intro i hi hi'
  have h1 : 128 * r.val ≤ (i 1).val ∧ (i 1).val < 128 * r.val + 128 := Rect.mem_set_unit.mp hi 1
  have h2 : 128 * r'.val ≤ (i 1).val ∧ (i 1).val < 128 * r'.val + 128 := Rect.mem_set_unit.mp hi' 1
  exact h (Fin.ext (by omega))
theorem blk_cover : (Finset.univ : Finset (Fin 8)).biUnion (fun r => (blk r).set) = Finset.univ := by
  ext i
  simp only [Finset.mem_biUnion, Finset.mem_univ, true_and, iff_true]
  have h0 := row_lt i; have h1 := col1024_lt i
  refine ⟨⟨(i 1).val / 128, by omega⟩, Rect.mem_set_unit.mpr (Fin.forall_fin_two.mpr ⟨?_, ?_⟩)⟩
  · show 0 ≤ (i 0).val ∧ (i 0).val < 0 + 256; omega
  · show 128 * ((i 1).val / 128) ≤ (i 1).val ∧ (i 1).val < 128 * ((i 1).val / 128) + 128; omega
/-- Likewise the sixteen column blocks of a 256 x 2048 buffer. -/
theorem wide_disjoint (j j' : Fin 16) (h : j ≠ j') : Disjoint (wide j).set (wide j').set := by
  rw [Finset.disjoint_left]; intro i hi hi'
  have h1 : 128 * j.val ≤ (i 1).val ∧ (i 1).val < 128 * j.val + 128 := Rect.mem_set_unit.mp hi 1
  have h2 : 128 * j'.val ≤ (i 1).val ∧ (i 1).val < 128 * j'.val + 128 := Rect.mem_set_unit.mp hi' 1
  exact h (Fin.ext (by omega))
theorem wide_cover : (Finset.univ : Finset (Fin 16)).biUnion (fun j => (wide j).set) = Finset.univ := by
  ext i
  simp only [Finset.mem_biUnion, Finset.mem_univ, true_and, iff_true]
  have h0 := row_lt i; have h1 := col2048_lt i
  refine ⟨⟨(i 1).val / 128, by omega⟩, Rect.mem_set_unit.mpr (Fin.forall_fin_two.mpr ⟨?_, ?_⟩)⟩
  · show 0 ≤ (i 0).val ∧ (i 0).val < 0 + 256; omega
  · show 128 * ((i 1).val / 128) ≤ (i 1).val ∧ (i 1).val < 128 * ((i 1).val / 128) + 128; omega

/-- A whole buffer held is held rectangle by rectangle, for any finite family of pairwise disjoint rectangles that
    covers it. -/
theorem held_whole_split {T : Type} [Fintype T] (b : Ref sig .tc) (R : T → Rect b.ty.shape) (hR : ∀ t a, (R t).stride a = 1)
    (hd : ∀ t t', t ≠ t' → Disjoint (R t).set (R t').set) (hc : (Finset.univ : Finset T).biUnion (fun t => (R t).set) = Finset.univ)
    (c : Dev nD) (f : Buf (Elt F) ((Memref.whole b : Memref sig .tc _ _ _).view.loc (c : Thread nD τ))) :
    held (F := F) (Memref.whole b) c f = bigSep Finset.univ fun t => held ((Memref.whole b).slice (R t) (hR t)) c f := by
  have key := pointsTo_biUnion (Val := Elt F) (Ix := Unit) (Name := ℕ) (U := UU) (Lvl := ℕ)
    (ℓ := (Memref.whole b : Memref sig .tc _ _ _).view.loc (c : Thread nD τ)) (q := fullShare) (f := f)
    (Finset.univ : Finset T) (fun t => (R t).set) (fun t _ t' _ h => hd t t' h)
  rw [hc] at key
  unfold held
  rw [show (Memref.whole b : Memref sig .tc _ _ _).view.set = Finset.univ from View.set_whole b]
  refine key.trans (bigSep_congr fun t _ => ?_)
  rw [show ((Memref.whole b : Memref sig .tc _ _ _).slice (R t) (hR t)).view.set = (R t).set from View.set_slice_whole b (R t)]

/-- The sixteen wide blocks, counted as a device's other eight and its own eight. -/
def half (c : Dev nD) : Fin 8 ⊕ Fin 8 → Fin 16 := Sum.elim (oth c) (own c)
theorem half_bij (c : Dev nD) : Function.Bijective (half c) := by
  refine (Fintype.bijective_iff_injective_and_card _).mpr ⟨?_, by simp⟩
  have hm := my_lt c
  intro t t' h
  have h' : (half c t).val = (half c t').val := congrArg Fin.val h
  rcases t with r | r <;> rcases t' with r' | r'
  · have e : 8 * (1 - my c) + r.val = 8 * (1 - my c) + r'.val := h'
    exact congrArg Sum.inl (Fin.ext (by omega))
  · have e : 8 * (1 - my c) + r.val = 8 * my c + r'.val := h'
    have := r.isLt; have := r'.isLt; omega
  · have e : 8 * my c + r.val = 8 * (1 - my c) + r'.val := h'
    have := r.isLt; have := r'.isLt; omega
  · have e : 8 * my c + r.val = 8 * my c + r'.val := h'
    exact congrArg Sum.inr (Fin.ext (by omega))

theorem split_P (c : Dev nD) (f : Buf (Elt F) (pM.view.loc (c : Thread nD τ))) :
    held (F := F) pM c f ⊣⊢ bigSep Finset.univ fun r : Fin 8 => held (pBlk r) c f :=
  BiEntails.of_eq (held_whole_split cc0_scratch0 blk (fun _ _ => rfl) blk_disjoint blk_cover c f)
theorem split_X (c : Dev nD) (f : Buf (Elt F) (xM.view.loc (c : Thread nD τ))) :
    held (F := F) xM c f ⊣⊢ bigSep Finset.univ fun r : Fin 8 => held (xBlk r) c f :=
  BiEntails.of_eq (held_whole_split cc0_scratch2 blk (fun _ _ => rfl) blk_disjoint blk_cover c f)
theorem split_S (c : Dev nD) (f : Buf (Elt F) (sM.view.loc (c : Thread nD τ))) :
    held (F := F) sM c f ⊣⊢ iprop((bigSep Finset.univ fun r : Fin 8 => held (sOth c r) c f) ∗ bigSep Finset.univ fun r : Fin 8 => held (sOwn c r) c f) := by
  refine BiEntails.of_eq ?_
  have e1 := held_whole_split (F := F) cc0_scratch3 wide (fun _ _ => rfl) wide_disjoint wide_cover c f
  have e2 := bigSep_univ_equiv (M := 𝕄) (Equiv.ofBijective (half c) (half_bij c))
    (fun j : Fin 16 => held (F := F) (sM.slice (wide j) (fun _ => rfl)) c f)
  have e3 := bigSep_univ_sum (M := 𝕄) (fun t : Fin 8 ⊕ Fin 8 => held (F := F) (sM.slice (wide (half c t)) (fun _ => rfl)) c f)
  have hoth : ∀ r : Fin 8, held (F := F) (sOth c r) c f = held (sM.slice (wide (half c (.inl r))) (fun _ => rfl)) c f :=
    fun r => held_sOth c c r f
  have hown : ∀ r : Fin 8, held (F := F) (sOwn c r) c f = held (sM.slice (wide (half c (.inr r))) (fun _ => rfl)) c f :=
    fun r => held_sOwn c c r f
  simp only [hoth, hown]
  exact e1.trans (e2.trans e3)

/-! ## A landed block holds the source's values -/

theorem land_X (r : Fin 8) (g : (cc0_scratch0 : Ref sig .tc).ty.Contents (Elt F)) (fd : (cc0_scratch2 : Ref sig .tc).ty.Contents (Elt F)) :
    ∀ i ∈ (xBlk r).view.set, (xBlk r).view.write (Elt F) fd ((pBlk r).view.read (Elt F) g) Finset.univ i = g i := by
  intro i hi
  have e : (pBlk r).view.read (Elt F) g = (xBlk r).view.read (Elt F) g := rfl
  rw [e, View.write_read_eq_piecewise]
  exact Finset.piecewise_eq_of_mem _ _ _ hi
theorem land_S (c : Dev nD) (r : Fin 8) (g fd : (cc0_scratch3 : Ref sig .tc).ty.Contents (Elt F)) :
    ∀ i ∈ (sOwn c r).view.set, (sOwn c r).view.write (Elt F) fd ((sOwn c r).view.read (Elt F) g) Finset.univ i = g i := by
  intro i hi
  rw [View.write_read_eq_piecewise]
  exact Finset.piecewise_eq_of_mem _ _ _ hi

end Cert.KernelIdeal.Rs

end
-- ==== Proof.Steps.lean ====
/-
  The protocol's steps, one lemma each: the two barrier signals, the barrier wait, a copy across either axis, a wait on
  one of the device's own copy cells, and the closing of such a cell once its one round is over.
-/
import proofs.«900391_g7700000000000392_dist_rsdw_v7x_xyz2x2x4_x_m512_d512_f2048_f32_1_alg».proof.Proof.Levels
import proofs.«900391_g7700000000000392_dist_rsdw_v7x_xyz2x2x4_x_m512_d512_f2048_f32_1_alg».proof.Proof.Blocks

set_option maxRecDepth 8000

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : GSem nD τ sig → ℕ) (c : Dev nD)

/-- The signal across the first axis: one unit on the partner's barrier cell; with it go X, whole, and the word that
    the eight receive cells across the first axis are at their round. -/
theorem sig_x (n : Dev nD) (hn : n = xp c) (f : Buf (Elt F) (xM.view.loc (c : Thread nD τ))) (O : CellTallies nD τ sig Unit) (W : Waits sig Unit)
    {α : Type} {Q : α → sProp 𝕄} {k : PUnit → Prog (TpuEff nD τ sig (Elt F) Λ₀ .tc) α} :
    iprop(cellInv ER (sched m) (K (barCell (xp c))) (barCell (xp c)) ∗ owes (c : Thread nD τ) (O + tallyAt (barCell (xp c)) () 1) W
        ∗ dutyTok ER (barCell (xp c)) 0 false ∗ held xM c f ∗ (bigSep Finset.univ fun r : Fin 8 => reached ER (dCell c 1 r) 0)
        ∗ reached ER (barCell (xp c)) 0)
      ⊢ iprop((owes (c : Thread nD τ) O W -∗ wp frame (wpE (defs₀ (F := F)) 𝒱₀ c none) Set.univ (k ⟨⟩) Q)
          -∗ wp frame (wpE (defs₀ (F := F)) 𝒱₀ c none) Set.univ (.op (.semSignal ((n : Dev nD) : Thread nD τ) barS 1) k) Q) := by
  subst hn
  iintro ⟨#HI, HO, Ht, Hx, #Hm, #Hr⟩ Hk
  iapply (Rounds.wp_signal 𝒱₀ ER (sched m) (c : Thread nD τ) none (dst := (xp c : Thread nD τ)) (κ := K (barCell (xp c)))
      (d := false) (by rw [duties_bar]; exact Finset.mem_univ _) (amount_bar m (xp c) false) () O rfl) $$ [HO Ht Hx]
  · isplitr; · iexact HI
    isplitl [HO]; · iexact HO
    isplitl [Ht]; · iexact Ht
    isplitl [Hx]
    · rw [payload_bar_false]; unfold barPayX; rw [xp_xp]
      isplitl [Hx]; · iexists f; iexact Hx
      iexact Hm
    · iexact Hr
  iexact Hk

/-- The signal across the second axis: one unit on the neighbour's barrier cell; with it go the eight blocks of S that
    land from that neighbour, and the word that the eight receive cells across the second axis are at their round. -/
theorem sig_y (n : Dev nD) (hn : n = yn c) (O : CellTallies nD τ sig Unit) (W : Waits sig Unit)
    {α : Type} {Q : α → sProp 𝕄} {k : PUnit → Prog (TpuEff nD τ sig (Elt F) Λ₀ .tc) α} :
    iprop(cellInv ER (sched m) (K (barCell (yn c))) (barCell (yn c)) ∗ owes (c : Thread nD τ) (O + tallyAt (barCell (yn c)) () 1) W
        ∗ dutyTok ER (barCell (yn c)) 0 true ∗ (bigSep Finset.univ fun r : Fin 8 => iprop(∃ f, held (sOwn (yn c) r) c f))
        ∗ (bigSep Finset.univ fun r : Fin 8 => reached ER (dCell c 3 r) 0)
        ∗ reached ER (barCell (yn c)) 0)
      ⊢ iprop((owes (c : Thread nD τ) O W -∗ wp frame (wpE (defs₀ (F := F)) 𝒱₀ c none) Set.univ (k ⟨⟩) Q)
          -∗ wp frame (wpE (defs₀ (F := F)) 𝒱₀ c none) Set.univ (.op (.semSignal ((n : Dev nD) : Thread nD τ) barS 1) k) Q) := by
  subst hn
  iintro ⟨#HI, HO, Ht, Hs, #Hm, #Hr⟩ Hk
  iapply (Rounds.wp_signal 𝒱₀ ER (sched m) (c : Thread nD τ) none (dst := (yn c : Thread nD τ)) (κ := K (barCell (yn c)))
      (d := true) (by rw [duties_bar]; exact Finset.mem_univ _) (amount_bar m (yn c) true) () O rfl) $$ [HO Ht Hs]
  · isplitr; · iexact HI
    isplitl [HO]; · iexact HO
    isplitl [Ht]; · iexact Ht
    isplitl [Hs]
    · rw [payload_bar_true]; unfold barPayY; rw [yn_yn]
      isplitl [Hs]; · iexact Hs
      iexact Hm
    · iexact Hr
  iexact Hk

/-- The wait for the barrier's two units while the sixteen copies are still owed: the partner's X and the neighbour's
    eight blocks come with them, and the words about their receive cells. -/
theorem wait_bar (W : Waits sig Unit) {α : Type} {Q : α → sProp 𝕄} {k : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.reg barS) 2 Kk) :
    iprop(cellInv ER (sched m) (K (barCell c)) (barCell c) ∗ cred (tallyAt (barCell c) () 2) ∗ owes (c : Thread nD τ) (oY c + oX c) W
        ∗ levAts L lv ∗ atPos ER (barCell c) 0 ∅ 0)
      ⊢ iprop(((owes (c : Thread nD τ) (oY c + oX c) (insert (SemLoc.reg barS, ()) W)
              ∗ atPos ER (barCell c) 1 ∅ 0 ∗ reached ER (barCell c) 1 ∗ barPayX c ∗ barPayY c)
            -∗ wp frame (wpE (defs₀ (F := F)) 𝒱₀ c none) Set.univ (k ⟨⟩) Q)
          -∗ wp frame (wpE (defs₀ (F := F)) 𝒱₀ c none) Set.univ (.op w k) Q) := by
  iintro ⟨#HI, Hc, HO, #Hlev, Hat⟩ Hk
  iapply (Rounds.wp_wait_rest_token 𝒱₀ ER (sched m) (c : Thread nD τ) none (κ := K (barCell c))
      hw (Set.mem_univ _) () (O := oY c + oX c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, Hr, Hpay⟩
  iapply Hk
  isplitl [HO]; · iexact HO
  isplitl [Hat]; · iexact Hat
  isplitl [Hr]; · iexact Hr
  iapply (Entails.of_eq (rest_bar m c)) $$ Hpay

end Steps

section Copies
variable (K : GSem nD τ sig → ℕ) (c : Dev nD)

theorem NK0 : NK 0 = NX := rfl
theorem NK1 : NK 1 = NX := rfl
theorem NK2 : NK 2 = NS := rfl
theorem NK3 : NK 3 = NS := rfl

/-- A copy across the first axis: block `r` of P into block `r` of the partner's X. The partner's receive cell is paid
    (the landed block holds this device's P there), and this device's send cell (P's block comes back once read). -/
theorem send_x (n : Dev nD) (hn : n = xp c) (r : Fin 8)
    {hsc : (xBlk r : Memref sig (Dev.tc n : Thread nD τ).2.kind .vmem S256x128 .bf16).view.ref.isScScratch = false}
    {hsrc : (pBlk r).view.WordExact} {hdst : (xBlk r).view.WordExact}
    {hsem : DmaTarget.Typed .vmem (.dma (dS 1 r)) (.remote (Dev.tc n : Thread nD τ) (xBlk r) (.dma (dS 0 r)) hsc)}
    {α : Type} {Q : α → sProp 𝕄} {k : PUnit → Prog (TpuEff nD τ sig (Elt F) Λ₀ .tc) α}
    (fn : Buf (Elt F) ((xBlk r).view.loc (xp c : Thread nD τ))) (O : CellTallies nD τ sig Unit) (W : Waits sig Unit) :
    iprop(cellInv ER (sched m) (K (dCell c 0 r)) (dCell c 0 r) ∗ cellInv ER (sched m) (K (dCell (xp c) 1 r)) (dCell (xp c) 1 r)
        ∗ held (pBlk r) c (Pbuf m c) ∗ held (xBlk r) (xp c) fn
        ∗ owes (c : Thread nD τ) (O + tallyAt (dCell (xp c) 1 r) () NX) W
        ∗ dutyTok ER (dCell c 0 r) 0 false ∗ reached ER (dCell c 0 r) 0
        ∗ dutyTok ER (dCell (xp c) 1 r) 0 false ∗ reached ER (dCell (xp c) 1 r) 0)
      ⊢ iprop(((cred (tallyAt (dCell c 0 r) () NX) ∗ owes (c : Thread nD τ) O W) -∗ wp frame (wpE (defs₀ (F := F)) 𝒱₀ c none) Set.univ (k ⟨⟩) Q)
          -∗ wp frame (wpE (defs₀ (F := F)) 𝒱₀ c none) Set.univ (.op (.enqueueDma (pBlk r) (.remote (Dev.tc n : Thread nD τ) (xBlk r) (.dma (dS 0 r)) hsc) (.dma (dS 1 r)) hsrc hdst hsem) k) Q) := by
  subst hn
  unfold held
  exact Rounds.wp_send_pointsTo 𝒱₀ ER (sched m) (c : Thread nD τ) none (κ₁ := K (dCell c 0 r)) (κ₂ := K (dCell (xp c) 1 r))
    (r₁ := 0) (r₂ := 0) (d₁ := false) (d₂ := false) (fd := fn)
    (by rw [duties_copy]; exact Finset.mem_singleton_self _) (by rw [duties_copy]; exact Finset.mem_singleton_self _)
    () () NX rfl ((amount_copy m c 0 r false).trans NK0) ((amount_copy m (xp c) 1 r false).trans NK1) O rfl (W := W)
    (by rw [payload_copy]; exact BI.Entails.refl _)
    (by rw [payload_copy]; show _ ⊢ held (xBlk r) (xp c) (Pbuf m (xp (xp c))); rw [xp_xp]; unfold held
        exact Entails.of_eq (pointsTo_congr (land_X r (Pbuf m c) fn)))

/-- A copy across the second axis: the block of S this device has just reduced, into the same block of the neighbour's
    S (its other half). -/
theorem send_y (n : Dev nD) (hn : n = yn c) (r : Fin 8)
    {hsc : (sOwn c r : Memref sig (Dev.tc n : Thread nD τ).2.kind .vmem S256x128 .bf16).view.ref.isScScratch = false}
    {hsrc : (sOwn c r).view.WordExact} {hdst : (sOwn c r).view.WordExact}
    {hsem : DmaTarget.Typed .vmem (.dma (dS 3 r)) (.remote (Dev.tc n : Thread nD τ) (sOwn c r) (.dma (dS 2 r)) hsc)}
    {α : Type} {Q : α → sProp 𝕄} {k : PUnit → Prog (TpuEff nD τ sig (Elt F) Λ₀ .tc) α}
    (fn : Buf (Elt F) ((sOwn c r).view.loc (yn c : Thread nD τ))) (O : CellTallies nD τ sig Unit) (W : Waits sig Unit) :
    iprop(cellInv ER (sched m) (K (dCell c 2 r)) (dCell c 2 r) ∗ cellInv ER (sched m) (K (dCell (yn c) 3 r)) (dCell (yn c) 3 r)
        ∗ held (sOwn c r) c (Sbuf m c) ∗ held (sOwn c r) (yn c) fn
        ∗ owes (c : Thread nD τ) (O + tallyAt (dCell (yn c) 3 r) () NS) W
        ∗ dutyTok ER (dCell c 2 r) 0 false ∗ reached ER (dCell c 2 r) 0
        ∗ dutyTok ER (dCell (yn c) 3 r) 0 false ∗ reached ER (dCell (yn c) 3 r) 0)
      ⊢ iprop(((cred (tallyAt (dCell c 2 r) () NS) ∗ owes (c : Thread nD τ) O W) -∗ wp frame (wpE (defs₀ (F := F)) 𝒱₀ c none) Set.univ (k ⟨⟩) Q)
          -∗ wp frame (wpE (defs₀ (F := F)) 𝒱₀ c none) Set.univ (.op (.enqueueDma (sOwn c r) (.remote (Dev.tc n : Thread nD τ) (sOwn c r) (.dma (dS 2 r)) hsc) (.dma (dS 3 r)) hsrc hdst hsem) k) Q) := by
  subst hn
  unfold held
  exact Rounds.wp_send_pointsTo 𝒱₀ ER (sched m) (c : Thread nD τ) none (κ₁ := K (dCell c 2 r)) (κ₂ := K (dCell (yn c) 3 r))
    (r₁ := 0) (r₂ := 0) (d₁ := false) (d₂ := false) (fd := fn)
    (by rw [duties_copy]; exact Finset.mem_singleton_self _) (by rw [duties_copy]; exact Finset.mem_singleton_self _)
    () () NS rfl ((amount_copy m c 2 r false).trans NK2) ((amount_copy m (yn c) 3 r false).trans NK3) O rfl (W := W)
    (by rw [payload_copy]; exact BI.Entails.refl _)
    (by rw [payload_copy]; show _ ⊢ held (sOth (yn c) r) (yn c) (Sbuf m (yn c)); rw [held_sOth_yn, Sbuf_yn]; unfold held
        exact Entails.of_eq (pointsTo_congr (land_S c r (Sbuf m c) fn)))

/-- A wait on one of the device's own copy cells for its round's units: the round's payload comes with it. -/
theorem wait_own (k : Fin 4) (r : Fin 8) (O : CellTallies nD τ sig Unit) (W : Waits sig Unit)
    (hmay : (levAts L lv : sProp 𝕄) ⊢ MayWait (c : Thread nD τ) (.dma (dS k r)) () O)
    {α : Type} {Q : α → sProp 𝕄} {kk : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dS k r)) (NK k) Kk) :
    iprop(cellInv ER (sched m) (K (dCell c k r)) (dCell c k r) ∗ cred (tallyAt (dCell c k r) () (NK k)) ∗ owes (c : Thread nD τ) O W
        ∗ levAts L lv ∗ atPos ER (dCell c k r) 0 ∅ 0)
      ⊢ iprop(((owes (c : Thread nD τ) O (insert (SemLoc.dma (dS k r), ()) W)
              ∗ atPos ER (dCell c k r) 1 ∅ 0 ∗ reached ER (dCell c k r) 1 ∗ copyPay m c k r)
            -∗ wp frame (wpE (defs₀ (F := F)) 𝒱₀ c none) Set.univ (kk ⟨⟩) Q)
          -∗ wp frame (wpE (defs₀ (F := F)) 𝒱₀ c none) Set.univ (.op w kk) Q) := by
  iintro ⟨#HI, Hc, HO, #Hlev, Hat⟩ Hk
  iapply (Rounds.wp_wait_rest_token 𝒱₀ ER (sched m) (c : Thread nD τ) none (κ := K (dCell c k r))
      hw (Set.mem_univ _) () (O := O) (W := W) (R := 0) (m := 0) (T := ∅)
      (by rw [Nat.zero_add, expect_copy])) $$ [Hc HO Hat]
  · isplitr; · iexact HI
    isplitl [Hc]; · iexact Hc
    isplitl [HO]; · iexact HO
    isplitr; · iapply hmay; iexact Hlev
    iexact Hat
  iintro ⟨HO, Hat, Hr, Hpay⟩
  iapply Hk
  isplitl [HO]; · iexact HO
  isplitl [Hat]; · iexact Hat
  isplitl [Hr]; · iexact Hr
  iapply (Entails.of_eq (rest_copy m c k r)) $$ Hpay

/-- An own copy cell whose one round is over is closed: its counter, at zero, is the device's again. -/
theorem close_own (k : Fin 4) (r : Fin 8) :
    iprop(cellInv ER (sched m) (K (dCell c k r)) (dCell c k r) ∗ atPos ER (dCell c k r) 1 ∅ 0) ⊢ |={Set.univ}=> (semVal (dCell c k r) 0 : sProp 𝕄) := by
  iintro ⟨#HI, Hat⟩
  imod (Rounds.cell_close ER (sched m) (Set.mem_univ (K (dCell c k r))) (fun h => h) (R := 0 + 1) (duties_later m (dCell c k r))) $$ [Hat] with Hz
  · isplitr; · iexact HI
    iexact Hat
  imodintro; iexact Hz

end Copies

end Cert.KernelIdeal.Rs

end
-- ==== Proof.Owed.lean ====
/-
  What a device still owes after its first payments: the copies not yet issued, as a sum whose last summand is the next
  one to be issued. While it waits for block r across the first axis it owes only copies across the second axis, which
  sit on a higher level.
-/
import proofs.«900391_g7700000000000392_dist_rsdw_v7x_xyz2x2x4_x_m512_d512_f2048_f32_1_alg».proof.Proof.Levels

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The units of the copy of block `j % 8` across the first / the second axis. -/
def tXn (c : Dev nD) (j : ℕ) : CellTallies nD τ sig Unit := tallyAt (dCell (xp c) 1 ⟨j % 8, Nat.mod_lt _ (by decide)⟩) () NX
def tYn (c : Dev nD) (j : ℕ) : CellTallies nD τ sig Unit := tallyAt (dCell (yn c) 3 ⟨j % 8, Nat.mod_lt _ (by decide)⟩) () NS

/-- The last `n` blocks' copies still owed, block `8 - n` the last summand. -/
def oXn (c : Dev nD) : ℕ → CellTallies nD τ sig Unit
  | 0 => 0
  | n + 1 => oXn c n + tXn c (7 - n)
def oYn (c : Dev nD) : ℕ → CellTallies nD τ sig Unit
  | 0 => 0
  | n + 1 => oYn c n + tYn c (7 - n)

theorem oX_eq (c : Dev nD) : oX c = oXn c 8 := by
  unfold oX
  rw [Fin.sum_univ_eight]
  show _ = 0 + tXn c 7 + tXn c 6 + tXn c 5 + tXn c 4 + tXn c 3 + tXn c 2 + tXn c 1 + tXn c 0
  rw [zero_add]
  show tallyAt (dCell (xp c) 1 0) () NX + tallyAt (dCell (xp c) 1 1) () NX + tallyAt (dCell (xp c) 1 2) () NX + tallyAt (dCell (xp c) 1 3) () NX
      + tallyAt (dCell (xp c) 1 4) () NX + tallyAt (dCell (xp c) 1 5) () NX + tallyAt (dCell (xp c) 1 6) () NX + tallyAt (dCell (xp c) 1 7) () NX
    = tallyAt (dCell (xp c) 1 7) () NX + tallyAt (dCell (xp c) 1 6) () NX + tallyAt (dCell (xp c) 1 5) () NX + tallyAt (dCell (xp c) 1 4) () NX
      + tallyAt (dCell (xp c) 1 3) () NX + tallyAt (dCell (xp c) 1 2) () NX + tallyAt (dCell (xp c) 1 1) () NX + tallyAt (dCell (xp c) 1 0) () NX
  abel
theorem oY_eq (c : Dev nD) : oY c = oYn c 8 := by
  unfold oY
  rw [Fin.sum_univ_eight]
  show _ = 0 + tYn c 7 + tYn c 6 + tYn c 5 + tYn c 4 + tYn c 3 + tYn c 2 + tYn c 1 + tYn c 0
  rw [zero_add]
  show tallyAt (dCell (yn c) 3 0) () NS + tallyAt (dCell (yn c) 3 1) () NS + tallyAt (dCell (yn c) 3 2) () NS + tallyAt (dCell (yn c) 3 3) () NS
      + tallyAt (dCell (yn c) 3 4) () NS + tallyAt (dCell (yn c) 3 5) () NS + tallyAt (dCell (yn c) 3 6) () NS + tallyAt (dCell (yn c) 3 7) () NS
    = tallyAt (dCell (yn c) 3 7) () NS + tallyAt (dCell (yn c) 3 6) () NS + tallyAt (dCell (yn c) 3 5) () NS + tallyAt (dCell (yn c) 3 4) () NS
      + tallyAt (dCell (yn c) 3 3) () NS + tallyAt (dCell (yn c) 3 2) () NS + tallyAt (dCell (yn c) 3 1) () NS + tallyAt (dCell (yn c) 3 0) () NS
  abel

/-- Whatever is still owed across the second axis sits on the neighbour's receive cells there. -/
theorem oYn_pos (c : Dev nD) : ∀ n : ℕ, ∀ (g : GSem nD τ sig) (u : Unit), 0 < oYn c n g u → ∃ r' : Fin 8, g = dCell (yn c) 3 r'
  | 0, g, u, h => by simp [oYn] at h
  | n + 1, g, u, h => by
    rcases Pipeline.add_pos_cases (show 0 < (oYn c n + tYn c (7 - n)) g u from h) with h | h
    · exact oYn_pos c n g u h
    · unfold tYn at h
      rw [tallyAt_apply] at h
      by_cases hh : g = dCell (yn c) 3 ⟨(7 - n) % 8, Nat.mod_lt _ (by decide)⟩ ∧ u = ()
      · exact ⟨_, hh.1⟩
      · rw [if_neg hh] at h; exact absurd h (Nat.lt_irrefl 0)

/-- The level evidence for the wait on block `r` across the first axis, owing the last `n` copies across the second. -/
theorem mayWait_xr (c : Dev nD) (r : Fin 8) (n : ℕ) :
    (levAts L lv : sProp 𝕄) ⊢ MayWait (c : Thread nD τ) (.dma (dS 1 r)) () (oYn c n) :=
  mayWait_xrecv c r (oYn c n) (oYn_pos c n)

end Cert.KernelIdeal.Rs

end
-- ==== Proof.BufferValues.lean ====
/-
  What the kernel's stores leave in its buffers, for any float instance.

  Every buffer here is a whole buffer and every store goes through a rectangle of consecutive rows and columns.
  An entry inside the rectangle takes the payload at (row − row offset, column − column offset); an entry outside
  keeps what it held. P is written by eight stores, one per 128-column block, which together tile it; W by one
  store over the whole buffer; a block of S and a block of the result by one store each, which fixes that block
  and leaves every other entry alone.
-/
import proofs.«900391_g7700000000000392_dist_rsdw_v7x_xyz2x2x4_x_m512_d512_f2048_f32_1_alg».proof.Proof.Protocol
import Idealize.ShloMosaic.Lib.Writes
import Idealize.ShloMosaic.Lib.ValueIdx

noncomputable section

namespace Cert.KernelIdeal.Rs

open Cert.KernelIdeal Cert.KernelIdeal.Gen

open Idealize.ShloMosaic
open Idealize.ShloMosaic.TcCoe
open Idealize.ShloMosaic.ValueIdx

variable {F : FTy → Type} [FloatOps F]

/-! ## A store through a rectangle of a whole buffer, entry by entry -/

/-- Inside the rectangle the entry takes the payload at its coordinates relative to the rectangle's corner. -/
theorem write_whole_unit_hit {sig : RefSig} {κ : Kind} {Val : EltTy → Type} (b : Ref sig κ)
    (off size : Fin b.ty.shape.rank → Nat) (inb : ∀ a, off a + size a ≤ b.ty.shape.size a) (f : b.ty.Contents Val)
    (w : (⟨b.ty.shape.rank, size⟩ : Shape).Idx → Val b.ty.elt) (i : b.ty.shape.Idx)
    (y : (⟨b.ty.shape.rank, size⟩ : Shape).Idx) (h : ∀ a, (i a).val = off a + (y a).val) :
    ((Memref.whole b).access (Rect.unit off size inb) : View sig κ _ _ _).write Val f w Finset.univ i = w y := by
  have hi : i = ((Memref.whole b).access (Rect.unit off size inb) : View sig κ _ _ _).emb y :=
    funext fun a => Fin.ext (by show (i a).val = off a + 1 * (y a).val; rw [h a]; omega)
  rw [hi, View.write_emb_of_mem _ _ (Finset.mem_univ y)]
  rfl

/-- Outside the rectangle — beside it on some axis — the entry keeps what it held. -/
theorem write_whole_unit_miss {sig : RefSig} {κ : Kind} {Val : EltTy → Type} (b : Ref sig κ)
    (off size : Fin b.ty.shape.rank → Nat) (inb : ∀ a, off a + size a ≤ b.ty.shape.size a) (f : b.ty.Contents Val)
    (w : (⟨b.ty.shape.rank, size⟩ : Shape).Idx → Val b.ty.elt) (i : b.ty.shape.Idx) (a : Fin b.ty.shape.rank)
    (h : (i a).val < off a ∨ off a + size a ≤ (i a).val) :
    ((Memref.whole b).access (Rect.unit off size inb) : View sig κ _ _ _).write Val f w Finset.univ i = f i := by
  refine View.write_of_not_mem _ _ _ ?_
  rw [View.setOn_univ]
  show i ∉ ((View.whole b).slice (Rect.unit off size inb)).set
  rw [View.set_slice_whole, Rect.mem_set_unit]
  intro hall
  have := hall a
  omega

/-- Stores through rectangles of a whole buffer, each of whose payloads is its rectangle of ONE array G, and whose
    rectangles together cover the buffer, leave G — whatever the buffer held before. -/
theorem writes_whole_eq {sig : RefSig} {κ : Kind} {Val : EltTy → Type} (b : Ref sig κ) (f : b.ty.Contents Val)
    (L : List (View.Piece Val b.ty.shape b.ty.elt)) (G : b.ty.Contents Val)
    (hG : ∀ p ∈ L, ∀ x : p.1.shape.Idx, p.2 x = G (p.1.emb x)) (hc : ∀ y : b.ty.shape.Idx, ∃ p ∈ L, y ∈ p.1.set) :
    (View.whole b).writes Val f L = G := by
  funext y
  exact View.read_writes_apply_of_pieces (View.whole b) f G L hG y (hc y)

variable (m : (ℓ : Loc nD τ sig) → Buf (Elt F) ℓ)

/-! ## P: eight column blocks -/

theorem pProd_congr (A : Vec F S512x256 .f32) (c : Dev nD) {r r' : Fin 8} {x x' : S256x128.Idx} (hr : r = r') (hx : x = x') :
    pProd A (ldBr m c r) x = pProd A (ldBr m c r') x' := by
  subst hr hx; rfl

/-- P at the entry (x 0, 128 r + x 1) of column block r is that block's product at x. -/
theorem Pbuf_emb (c : Dev nD) (r : Fin 8) (o : ℕ) (ho : o = 128 * r.val)
    (inb : ∀ a, (![0, o] : Fin 2 → ℕ) a + S256x128.size a ≤ S256x1024.size a) (x : S256x128.Idx) :
    Pbuf m c ((Rect.unit (s := S256x1024) ![0, o] S256x128.size inb).emb x) = pProd (ldAp m c) (ldBr m c r) x := by
  subst ho
  have h0 := idx2_lt0 x
  have h1 := idx2_lt1 x
  unfold Pbuf
  refine pProd_congr m (ldAp m c) c (Fin.ext ?_) (funext fun a => Fin.ext ?_)
  · show (128 * r.val + 1 * (x 1).val) / 128 = r.val
    omega
  · match a with
    | ⟨0, _⟩ => show 0 + 1 * (x 0).val = (x 0).val; omega
    | ⟨1, _⟩ => show (128 * r.val + 1 * (x 1).val) % 128 = (x 1).val; omega

/-- Whatever the buffer held before, after the eight stores (listed last store first) it holds P. -/
theorem P_writes (c : Dev nD) (f0 : (cc0_scratch0 : Ref sig .tc).ty.Contents (Elt F)) :
    pM.view.writes (Elt F) f0
      ([⟨Rect.unit (s := S256x1024) ![0, 896] S256x128.size inb_S256x1024_S256x128_0_896, pProd (ldAp m c) (ldBr m c 7)⟩,
        ⟨Rect.unit (s := S256x1024) ![0, 768] S256x128.size inb_S256x1024_S256x128_0_768, pProd (ldAp m c) (ldBr m c 6)⟩,
        ⟨Rect.unit (s := S256x1024) ![0, 640] S256x128.size inb_S256x1024_S256x128_0_640, pProd (ldAp m c) (ldBr m c 5)⟩,
        ⟨Rect.unit (s := S256x1024) ![0, 512] S256x128.size inb_S256x1024_S256x128_0_512, pProd (ldAp m c) (ldBr m c 4)⟩,
        ⟨Rect.unit (s := S256x1024) ![0, 384] S256x128.size inb_S256x1024_S256x128_0_384, pProd (ldAp m c) (ldBr m c 3)⟩,
        ⟨Rect.unit (s := S256x1024) ![0, 256] S256x128.size inb_S256x1024_S256x128_0_256, pProd (ldAp m c) (ldBr m c 2)⟩,
        ⟨Rect.unit (s := S256x1024) ![0, 128] S256x128.size inb_S256x1024_S256x128_0_128, pProd (ldAp m c) (ldBr m c 1)⟩,
        ⟨Rect.unit (s := S256x1024) ![0, 0] S256x128.size inb_S256x1024_S256x128_0_0, pProd (ldAp m c) (ldBr m c 0)⟩]
        : List (View.Piece (Elt F) S256x1024 .bf16))
      = Pbuf m c := by
  refine writes_whole_eq cc0_scratch0 f0 _ (Pbuf m c) ?_ ?_
  · refine List.forall_mem_cons.2 ⟨fun x => (Pbuf_emb m c 7 896 rfl inb_S256x1024_S256x128_0_896 x).symm, ?_⟩
    refine List.forall_mem_cons.2 ⟨fun x => (Pbuf_emb m c 6 768 rfl inb_S256x1024_S256x128_0_768 x).symm, ?_⟩
    refine List.forall_mem_cons.2 ⟨fun x => (Pbuf_emb m c 5 640 rfl inb_S256x1024_S256x128_0_640 x).symm, ?_⟩
    refine List.forall_mem_cons.2 ⟨fun x => (Pbuf_emb m c 4 512 rfl inb_S256x1024_S256x128_0_512 x).symm, ?_⟩
    refine List.forall_mem_cons.2 ⟨fun x => (Pbuf_emb m c 3 384 rfl inb_S256x1024_S256x128_0_384 x).symm, ?_⟩
    refine List.forall_mem_cons.2 ⟨fun x => (Pbuf_emb m c 2 256 rfl inb_S256x1024_S256x128_0_256 x).symm, ?_⟩
    refine List.forall_mem_cons.2 ⟨fun x => (Pbuf_emb m c 1 128 rfl inb_S256x1024_S256x128_0_128 x).symm, ?_⟩
    refine List.forall_mem_cons.2 ⟨fun x => (Pbuf_emb m c 0 0 rfl inb_S256x1024_S256x128_0_0 x).symm, ?_⟩
    exact fun _ h => absurd h List.not_mem_nil
  · exact View.cover_of_tiled _ S256x128.size rfl

/-! ## W: one store over the whole buffer -/

/-- Whatever the buffer held before, after the store it holds W. -/
theorem W_write (c : Dev nD) (f1 : (cc0_scratch1 : Ref sig .tc).ty.Contents (Elt F)) :
    ((wM.access (Rect.unit (s := S256x1024) ![0, 0] S256x1024.size inb_S256x1024_S256x1024_0_0) : View sig .tc _ _ _).write (Elt F) f1
      (wProd (ldAo m c) (ldBh m c)) Finset.univ) = Wbuf m c :=
  Memref.write_access_unit_zero_univ (Elt F) cc0_scratch1
    (funext fun a => by match a with | ⟨0, _⟩ => rfl | ⟨1, _⟩ => rfl) inb_S256x1024_S256x1024_0_0 f1 (wProd (ldAo m c) (ldBh m c))

/-! ## S and the result: one column block per store -/

theorem redBlk_congr (c : Dev nD) {r r' : Fin 8} {y y' : S256x128.Idx} (hr : r = r') (hy : y = y') :
    redBlk m c r y = redBlk m c r' y' := by
  subst hr hy; rfl

theorem sN_congr {e e' : Dev nD} {r r' : Fin 8} {y y' : S256x128.Idx} (he : e = e') (hr : r = r') (hy : y = y') :
    (shapeCast S256x128 (truncf .bf16 (redBlk m e r) bitsLt_bf16_f32) shapeCasts_S256x128_S256x128 : FVec F S256x128 .bf16) y
      = (shapeCast S256x128 (truncf .bf16 (redBlk m e' r') bitsLt_bf16_f32) shapeCasts_S256x128_S256x128 : FVec F S256x128 .bf16) y' := by
  subst he hr hy; rfl

theorem widen_congr (S : (cc0_scratch3 : Ref sig .tc).ty.Contents (Elt F)) (off : Fin 2 → ℕ)
    (inb : ∀ a, off a + S256x128.size a ≤ S256x2048.size a) (j : Fin 16) (hoff : off = ![0, 128 * j.val])
    {y y' : S256x128.Idx} (hy : y = y') :
    widen (sM.view.readAt (Elt F) (Rect.unit (s := S256x2048) off S256x128.size inb).toLoadRect S) y
      = widen (sM.view.readAt (Elt F) (wide j).toLoadRect S) y' := by
  subst hoff hy; rfl

/-- The device that reduces its own column half is itself. -/
theorem halfOf_self (c : Dev nD) (h : ℕ) (hh : my c = h) : halfOf c h = c := by
  unfold halfOf; rw [if_pos hh]

/-- The store of the rounded reduced block r into the device's own half of S: on that block the buffer then holds S. -/
theorem S_store (c : Dev nD) (r : Fin 8) (f : (cc0_scratch3 : Ref sig .tc).ty.Contents (Elt F)) :
    ∀ i ∈ (sOwn c r).view.set,
      ((sM.access (Rect.unit (s := S256x2048) (k0_off5 c (BitVec.ofNat 32 (128 * r.val))) S256x128.size (k0_off5_inb c r)) : View sig .tc _ _ _).write (Elt F) f
        (redN (wM.view.readAt (Elt F) (blk r).toLoadRect (Wbuf m c)) (xM.view.readAt (Elt F) (blk r).toLoadRect (Pbuf m (xp c)))) Finset.univ) i
        = Sbuf m c i := by
  intro i hi
  have hi' : i ∈ ((View.whole cc0_scratch3).slice (Rect.unit (s := S256x2048) (k0_off6 c (BitVec.ofNat 32 (128 * r.val))) S256x128.size (k0_off6_inb c r))).set := hi
  rw [View.set_slice_whole, Rect.mem_set_unit, k0_off6_eq] at hi'
  have b1 : 1024 * ((c.val / 4) % 2) + 128 * r.val ≤ (i 1).val ∧ (i 1).val < 1024 * ((c.val / 4) % 2) + 128 * r.val + 128 := hi' 1
  have h0 : (i 0).val < 256 := (i 0).isLt
  have hr := r.isLt
  refine (write_whole_unit_hit cc0_scratch3 (k0_off5 c (BitVec.ofNat 32 (128 * r.val))) S256x128.size (k0_off5_inb c r) f _ i
    (ix2 ⟨(i 0).val, h0⟩ ⟨(i 1).val % 128, Nat.mod_lt _ (by decide)⟩) ?_).trans ?_
  · rw [k0_off5_eq]
    intro a
    match a with
    | ⟨0, _⟩ => show (i 0).val = 0 + (i 0).val; omega
    | ⟨1, _⟩ => show (i 1).val = 1024 * ((c.val / 4) % 2) + 128 * r.val + (i 1).val % 128; omega
  · unfold Sbuf
    show (shapeCast S256x128 (truncf .bf16 (redBlk m c r) bitsLt_bf16_f32) shapeCasts_S256x128_S256x128 : FVec F S256x128 .bf16) _ = _
    refine sN_congr m (halfOf_self c _ (by unfold my; omega)).symm (Fin.ext ?_) rfl
    show r.val = ((i 1).val / 128) % 8
    omega

/-- The store of the reduced block r into the device's own half of the result: that block then holds the result,
    every other entry is unchanged. -/
theorem O_store_own (c : Dev nD) (r : Fin 8) (f : (cc0_stg2_0 : Ref sig .tc).ty.Contents (Elt F)) :
    let f' := ((oM.access (Rect.unit (s := S256x2048) (k0_off5 c (BitVec.ofNat 32 (128 * r.val))) S256x128.size (k0_off5_inb c r)) : View sig .tc _ _ _).write (Elt F) f
      (red (wM.view.readAt (Elt F) (blk r).toLoadRect (Wbuf m c)) (xM.view.readAt (Elt F) (blk r).toLoadRect (Pbuf m (xp c)))) Finset.univ)
    (∀ i : S256x2048.Idx, (i 1).val / 128 = 8 * my c + r.val → f' i = Obuf m c i)
      ∧ (∀ i : S256x2048.Idx, (i 1).val / 128 ≠ 8 * my c + r.val → f' i = f i) := by
  intro f'
  have hr := r.isLt
  have hmy := my_lt c
  refine ⟨fun i h => ?_, fun i h => ?_⟩
  · have h0 : (i 0).val < 256 := (i 0).isLt
    unfold my at h hmy
    refine (write_whole_unit_hit cc0_stg2_0 (k0_off5 c (BitVec.ofNat 32 (128 * r.val))) S256x128.size (k0_off5_inb c r) f _ i
      (ix2 ⟨(i 0).val, h0⟩ ⟨(i 1).val % 128, Nat.mod_lt _ (by decide)⟩) ?_).trans ?_
    · rw [k0_off5_eq]
      intro a
      match a with
      | ⟨0, _⟩ => show (i 0).val = 0 + (i 0).val; omega
      | ⟨1, _⟩ => show (i 1).val = 1024 * ((c.val / 4) % 2) + 128 * r.val + (i 1).val % 128; omega
    · unfold Obuf
      show redBlk m c r _ = _
      rw [if_pos (show (i 1).val / 1024 = my c by unfold my; omega)]
      refine redBlk_congr m c (Fin.ext ?_) rfl
      show r.val = ((i 1).val / 128) % 8
      omega
  · unfold my at h hmy
    refine write_whole_unit_miss cc0_stg2_0 (k0_off5 c (BitVec.ofNat 32 (128 * r.val))) S256x128.size (k0_off5_inb c r) f _ i 1 ?_
    rw [k0_off5_eq]
    show (i 1).val < 1024 * ((c.val / 4) % 2) + 128 * r.val ∨ 1024 * ((c.val / 4) % 2) + 128 * r.val + 128 ≤ (i 1).val
    omega

/-- The store of block r of the other half, read back from S and widened: that block then holds the result, every
    other entry is unchanged. -/
theorem O_store_oth (c : Dev nD) (r : Fin 8) (f : (cc0_stg2_0 : Ref sig .tc).ty.Contents (Elt F)) :
    let f' := ((oM.access (Rect.unit (s := S256x2048) (k0_off8 c (BitVec.ofNat 32 (128 * r.val))) S256x128.size (k0_off8_inb c r)) : View sig .tc _ _ _).write (Elt F) f
      (widen (sM.view.readAt (Elt F) (Rect.unit (s := S256x2048) (k0_off8 c (BitVec.ofNat 32 (128 * r.val))) S256x128.size (k0_off8_inb c r)).toLoadRect (Sbuf m c))) Finset.univ)
    (∀ i : S256x2048.Idx, (i 1).val / 128 = 8 * (1 - my c) + r.val → f' i = Obuf m c i)
      ∧ (∀ i : S256x2048.Idx, (i 1).val / 128 ≠ 8 * (1 - my c) + r.val → f' i = f i) := by
  intro f'
  have hr := r.isLt
  have hmy := my_lt c
  refine ⟨fun i h => ?_, fun i h => ?_⟩
  · have h0 : (i 0).val < 256 := (i 0).isLt
    have h1 : (i 1).val < 2048 := (i 1).isLt
    unfold my at h hmy
    refine (write_whole_unit_hit cc0_stg2_0 (k0_off8 c (BitVec.ofNat 32 (128 * r.val))) S256x128.size (k0_off8_inb c r) f _ i
      (ix2 ⟨(i 0).val, h0⟩ ⟨(i 1).val % 128, Nat.mod_lt _ (by decide)⟩) ?_).trans ?_
    · rw [k0_off8_eq]
      intro a
      match a with
      | ⟨0, _⟩ => show (i 0).val = 0 + (i 0).val; omega
      | ⟨1, _⟩ => show (i 1).val = (128 * r.val + 1024) - 1024 * ((c.val / 4) % 2) + (i 1).val % 128; omega
    · unfold Obuf
      rw [if_neg (show ¬ (i 1).val / 1024 = my c by unfold my; omega)]
      refine widen_congr (Sbuf m c) _ _ ⟨(i 1).val / 128, by omega⟩ ?_ rfl
      rw [k0_off8_eq]
      exact congrArg (fun t => (![0, t] : Fin 2 → ℕ)) (by show (128 * r.val + 1024) - 1024 * ((c.val / 4) % 2) = 128 * ((i 1).val / 128); omega)
  · unfold my at h hmy
    refine write_whole_unit_miss cc0_stg2_0 (k0_off8 c (BitVec.ofNat 32 (128 * r.val))) S256x128.size (k0_off8_inb c r) f _ i 1 ?_
    rw [k0_off8_eq]
    show (i 1).val < (128 * r.val + 1024) - 1024 * ((c.val / 4) % 2) ∨ (128 * r.val + 1024) - 1024 * ((c.val / 4) % 2) + 128 ≤ (i 1).val
    omega

/-- Contents that agree with the result at every entry are the result. -/
theorem O_cover (c : Dev nD) (g : (cc0_stg2_0 : Ref sig .tc).ty.Contents (Elt F)) (h : ∀ i : S256x2048.Idx, g i = Obuf m c i) :
    g = Obuf m c := funext h

end Cert.KernelIdeal.Rs

end
-- ==== Proof.Boxes.lean ====
/-
  Reading and writing one column block of S through the whole buffer.

  A load or a store through the whole 256 x 2048 buffer at a rectangle touches exactly the entries of that rectangle.
  The rectangle the device stores its reduced block r through, and reads it back through, is the block of its own
  column half it later sends; the rectangle it reads the other half's block r through is the block that lands from its
  neighbour across the second axis. So holding just that block is enough for the access.
-/
import proofs.«900391_g7700000000000392_dist_rsdw_v7x_xyz2x2x4_x_m512_d512_f2048_f32_1_alg».proof.Proof.Blocks

noncomputable section

namespace Cert.KernelIdeal.Rs

open Cert.KernelIdeal Cert.KernelIdeal.Gen

open Idealize.ShloMosaic
open Idealize.ShloMosaic.TcCoe

/-- Through a whole buffer, the entries under a set of indices are those indices. -/
theorem setOn_whole {sig : RefSig} {κ : Kind} (b : Ref sig κ) (M : Finset b.ty.shape.Idx) : (View.whole b).setOn M = M :=
  Finset.map_refl

/-- Through a whole buffer, the entries under a rectangle are the rectangle's. -/
theorem set_access_whole_unit {sig : RefSig} {κ : Kind} (b : Ref sig κ) (R : Rect b.ty.shape) :
    (((Memref.whole b).access R : View sig κ _ _ _)).setOn Finset.univ = R.set := by
  rw [View.setOn_univ]; exact View.set_slice_whole b R

/-- The rectangle of the own-half store and load of block r is the block the device sends. -/
theorem rect5_eq_rect6 (c : Dev nD) (r : Fin 8) :
    Rect.unit (s := S256x2048) (k0_off5 c (BitVec.ofNat 32 (128 * r.val))) S256x128.size (k0_off5_inb c r)
      = Rect.unit (s := S256x2048) (k0_off6 c (BitVec.ofNat 32 (128 * r.val))) S256x128.size (k0_off6_inb c r) :=
  Rect.unit_congr ((k0_off5_eq c r).trans (k0_off6_eq c r).symm) _ _
/-- The rectangle of the other-half load of block r is the block that lands. -/
theorem rect8_eq_rect7 (c : Dev nD) (r : Fin 8) :
    Rect.unit (s := S256x2048) (k0_off8 c (BitVec.ofNat 32 (128 * r.val))) S256x128.size (k0_off8_inb c r)
      = Rect.unit (s := S256x2048) (k0_off7 c (BitVec.ofNat 32 (128 * r.val))) S256x128.size (k0_off7_inb c r) :=
  Rect.unit_congr ((k0_off8_eq c r).trans (k0_off7_eq c r).symm) _ _

theorem sOwn_set (c : Dev nD) (r : Fin 8) :
    (sOwn c r).view.set = (Rect.unit (s := S256x2048) (k0_off6 c (BitVec.ofNat 32 (128 * r.val))) S256x128.size (k0_off6_inb c r)).set :=
  View.set_slice_whole cc0_scratch3 _
theorem sOth_set (c : Dev nD) (r : Fin 8) :
    (sOth c r).view.set = (Rect.unit (s := S256x2048) (k0_off7 c (BitVec.ofNat 32 (128 * r.val))) S256x128.size (k0_off7_inb c r)).set :=
  View.set_slice_whole cc0_scratch3 _

/-- The load of the device's own block r of S touches only that block. -/
theorem S_load_own (c : Dev nD) (r : Fin 8) :
    sM.view.setOn (Rect.unit (s := S256x2048) (k0_off5 c (BitVec.ofNat 32 (128 * r.val))) S256x128.size (k0_off5_inb c r)).toLoadRect.set
      ⊆ (sOwn c r).view.set := by
  rw [sOwn_set, ← rect5_eq_rect6]
  exact Finset.subset_of_eq (setOn_whole cc0_scratch3 _)

/-- The store of the device's own block r of S touches only that block. -/
theorem S_store_own (c : Dev nD) (r : Fin 8) :
    ((sM.access (Rect.unit (s := S256x2048) (k0_off5 c (BitVec.ofNat 32 (128 * r.val))) S256x128.size (k0_off5_inb c r)) : View sig .tc _ _ _)).setOn Finset.univ
      ⊆ (sOwn c r).view.set := by
  rw [sOwn_set, ← rect5_eq_rect6]
  exact Finset.subset_of_eq (set_access_whole_unit cc0_scratch3 _)

/-- The load of the other half's block r of S touches only the block that landed. -/
theorem S_load_oth (c : Dev nD) (r : Fin 8) :
    sM.view.setOn (Rect.unit (s := S256x2048) (k0_off8 c (BitVec.ofNat 32 (128 * r.val))) S256x128.size (k0_off8_inb c r)).toLoadRect.set
      ⊆ (sOth c r).view.set := by
  rw [sOth_set, ← rect8_eq_rect7]
  exact Finset.subset_of_eq (setOn_whole cc0_scratch3 _)

/-- A block of S and S itself are parts of the same buffer of the same device. -/
example (c : Dev nD) (r : Fin 8) : (sOwn c r).view.loc (c : Thread nD τ) = sM.view.loc (c : Thread nD τ) := rfl
example (c : Dev nD) (r : Fin 8) : (sOth c r).view.loc (c : Thread nD τ) = sM.view.loc (c : Thread nD τ) := rfl

end Cert.KernelIdeal.Rs

end
-- ==== Proof.ResultWrites.lean ====
/-
  The result buffer after the body's sixteen stores.

  The stores go through sixteen rectangles of 128 columns: eight in the device's own column half (block r at column
  1024 my + 128 r, holding the reduced block r) and eight in the other half (block r at column 1024 (1 − my) + 128 r,
  holding block r of that half read back from S and widened). Every entry of the 256 x 2048 buffer lies in exactly one
  of the sixteen, and each payload is its rectangle of the result; so whatever the buffer held before, it then holds
  the result.
-/
import proofs.«900391_g7700000000000392_dist_rsdw_v7x_xyz2x2x4_x_m512_d512_f2048_f32_1_alg».proof.Proof.BufferValues

noncomputable section

namespace Cert.KernelIdeal.Rs

open Cert.KernelIdeal Cert.KernelIdeal.Gen

open Idealize.ShloMosaic
open Idealize.ShloMosaic.TcCoe
open Idealize.ShloMosaic.ValueIdx

variable {F : FTy → Type} [FloatOps F]

/-- The rectangle of block r of the device's own column half, and of the other half. -/
abbrev R5 (c : Dev nD) (r : Fin 8) : Rect S256x2048 :=
  Rect.unit (s := S256x2048) (k0_off5 c (BitVec.ofNat 32 (128 * r.val))) S256x128.size (k0_off5_inb c r)
abbrev R8 (c : Dev nD) (r : Fin 8) : Rect S256x2048 :=
  Rect.unit (s := S256x2048) (k0_off8 c (BitVec.ofNat 32 (128 * r.val))) S256x128.size (k0_off8_inb c r)

variable (m : (ℓ : Loc nD τ sig) → Buf (Elt F) ℓ)

/-- The store of block r of the own half, and of the other half: rectangle and payload. -/
def pc5 (c : Dev nD) (r : Fin 8) : View.Piece (Elt F) S256x2048 .f32 :=
  ⟨R5 c r, red (wM.view.readAt (Elt F) (blk r).toLoadRect (Wbuf m c)) (xM.view.readAt (Elt F) (blk r).toLoadRect (Pbuf m (xp c)))⟩
def pc8 (c : Dev nD) (r : Fin 8) : View.Piece (Elt F) S256x2048 .f32 :=
  ⟨R8 c r, widen (sM.view.readAt (Elt F) (R8 c r).toLoadRect (Sbuf m c))⟩

/-- The result at an entry of block r of the own half is the reduced block r there. -/
theorem Obuf_own_of (c : Dev nD) (r : Fin 8) (i : S256x2048.Idx) (x : S256x128.Idx) (h0 : (i 0).val = (x 0).val)
    (h1 : (i 1).val = 1024 * ((c.val / 4) % 2) + 128 * r.val + (x 1).val) : Obuf m c i = redBlk m c r x := by
  have hx1 := idx2_lt1 x
  have hr := r.isLt
  unfold Obuf
  rw [if_pos (show (i 1).val / 1024 = my c by unfold my; omega)]
  refine redBlk_congr m c (Fin.ext ?_) (funext fun a => Fin.ext ?_)
  · show ((i 1).val / 128) % 8 = r.val
    omega
  · match a with
    | ⟨0, _⟩ => show (i 0).val = (x 0).val; omega
    | ⟨1, _⟩ => show (i 1).val % 128 = (x 1).val; omega

/-- The result at an entry of block r of the other half is block r of that half of S there, widened. -/
theorem Obuf_oth_of (c : Dev nD) (r : Fin 8) (i : S256x2048.Idx) (x : S256x128.Idx) (h0 : (i 0).val = (x 0).val)
    (h1 : (i 1).val = (128 * r.val + 1024) - 1024 * ((c.val / 4) % 2) + (x 1).val) :
    Obuf m c i = widen (sM.view.readAt (Elt F) (R8 c r).toLoadRect (Sbuf m c)) x := by
  have hx1 := idx2_lt1 x
  have hr := r.isLt
  have hi1 := col2048_lt i
  unfold Obuf
  rw [if_neg (show ¬ (i 1).val / 1024 = my c by unfold my; omega)]
  refine (widen_congr (Sbuf m c) _ (k0_off8_inb c r) ⟨(i 1).val / 128, by omega⟩ ?_ (funext fun a => Fin.ext ?_)).symm
  · rw [k0_off8_eq]
    exact congrArg (fun t => (![0, t] : Fin 2 → ℕ)) (by
      show (128 * r.val + 1024) - 1024 * ((c.val / 4) % 2) = 128 * ((i 1).val / 128); omega)
  · match a with
    | ⟨0, _⟩ => show (x 0).val = (i 0).val; omega
    | ⟨1, _⟩ => show (x 1).val = (i 1).val % 128; omega

/-- Each store's payload is its rectangle of the result. -/
theorem pc5_agrees (c : Dev nD) (r : Fin 8) (x : S256x128.Idx) : (pc5 m c r).2 x = Obuf m c ((pc5 m c r).1.emb x) := by
  refine (Obuf_own_of m c r ((R5 c r).emb x) x ?_ ?_).symm
  · show (k0_off5 c (BitVec.ofNat 32 (128 * r.val))) 0 + 1 * (x 0).val = (x 0).val
    rw [k0_off5_eq]
    show 0 + 1 * (x 0).val = (x 0).val
    omega
  · show (k0_off5 c (BitVec.ofNat 32 (128 * r.val))) 1 + 1 * (x 1).val = _
    rw [k0_off5_eq]
    show 1024 * ((c.val / 4) % 2) + 128 * r.val + 1 * (x 1).val = _
    omega
theorem pc8_agrees (c : Dev nD) (r : Fin 8) (x : S256x128.Idx) : (pc8 m c r).2 x = Obuf m c ((pc8 m c r).1.emb x) := by
  refine (Obuf_oth_of m c r ((R8 c r).emb x) x ?_ ?_).symm
  · show (k0_off8 c (BitVec.ofNat 32 (128 * r.val))) 0 + 1 * (x 0).val = (x 0).val
    rw [k0_off8_eq]
    show 0 + 1 * (x 0).val = (x 0).val
    omega
  · show (k0_off8 c (BitVec.ofNat 32 (128 * r.val))) 1 + 1 * (x 1).val = _
    rw [k0_off8_eq]
    show (128 * r.val + 1024) - 1024 * ((c.val / 4) % 2) + 1 * (x 1).val = _
    omega

/-- The eight block numbers, in the order the list of stores names them. -/
def rs : List (Fin 8) := [7, 6, 5, 4, 3, 2, 1, 0]
theorem mem_rs : ∀ r : Fin 8, r ∈ rs := by decide

/-- Every entry lies in the rectangle of block (column / 128) % 8 of the half column / 1024. -/
theorem mem_R5 (c : Dev nD) (y : S256x2048.Idx) (h : (y 1).val / 1024 = my c) :
    y ∈ (R5 c ⟨((y 1).val / 128) % 8, Nat.mod_lt _ (by decide)⟩).set := by
  have h0 := row_lt y
  unfold my at h
  refine Rect.mem_set_unit.mpr ?_
  rw [k0_off5_eq]
  intro a
  match a with
  | ⟨0, _⟩ => show 0 ≤ (y 0).val ∧ (y 0).val < 0 + 256; omega
  | ⟨1, _⟩ =>
    show 1024 * ((c.val / 4) % 2) + 128 * (((y 1).val / 128) % 8) ≤ (y 1).val
      ∧ (y 1).val < 1024 * ((c.val / 4) % 2) + 128 * (((y 1).val / 128) % 8) + 128
    omega
theorem mem_R8 (c : Dev nD) (y : S256x2048.Idx) (h : ¬ (y 1).val / 1024 = my c) :
    y ∈ (R8 c ⟨((y 1).val / 128) % 8, Nat.mod_lt _ (by decide)⟩).set := by
  have h0 := row_lt y
  have h1 := col2048_lt y
  unfold my at h
  refine Rect.mem_set_unit.mpr ?_
  rw [k0_off8_eq]
  intro a
  match a with
  | ⟨0, _⟩ => show 0 ≤ (y 0).val ∧ (y 0).val < 0 + 256; omega
  | ⟨1, _⟩ =>
    show (128 * (((y 1).val / 128) % 8) + 1024) - 1024 * ((c.val / 4) % 2) ≤ (y 1).val
      ∧ (y 1).val < (128 * (((y 1).val / 128) % 8) + 1024) - 1024 * ((c.val / 4) % 2) + 128
    omega

/-- Whatever the buffer held before, after the sixteen stores it holds the result (the list by block numbers). -/
theorem O_writes_list (c : Dev nD) (g2 : (cc0_stg2_0 : Ref sig .tc).ty.Contents (Elt F)) :
    oM.view.writes (Elt F) g2 (rs.map (pc8 m c) ++ rs.map (pc5 m c)) = Obuf m c := by
  refine writes_whole_eq cc0_stg2_0 g2 _ (Obuf m c) ?_ ?_
  · intro p hp
    rcases List.mem_append.mp hp with h | h
    · obtain ⟨r, -, rfl⟩ := List.mem_map.mp h
      exact pc8_agrees m c r
    · obtain ⟨r, -, rfl⟩ := List.mem_map.mp h
      exact pc5_agrees m c r
  · intro y
    by_cases h : (y 1).val / 1024 = my c
    · exact ⟨pc5 m c ⟨((y 1).val / 128) % 8, Nat.mod_lt _ (by decide)⟩,
        List.mem_append_right _ (List.mem_map_of_mem (mem_rs _)), mem_R5 c y h⟩
    · exact ⟨pc8 m c ⟨((y 1).val / 128) % 8, Nat.mod_lt _ (by decide)⟩,
        List.mem_append_left _ (List.mem_map_of_mem (mem_rs _)), mem_R8 c y h⟩

/-- The same with the sixteen stores written out, the last store first: the second phase's eight (blocks 7 … 0 of the
    other half), then the first phase's eight (blocks 7 … 0 of the own half). -/
theorem O_writes (c : Dev nD) (g2 : (cc0_stg2_0 : Ref sig .tc).ty.Contents (Elt F)) :
    oM.view.writes (Elt F) g2
      ([⟨R8 c 7, widen (sM.view.readAt (Elt F) (R8 c 7).toLoadRect (Sbuf m c))⟩,
        ⟨R8 c 6, widen (sM.view.readAt (Elt F) (R8 c 6).toLoadRect (Sbuf m c))⟩,
        ⟨R8 c 5, widen (sM.view.readAt (Elt F) (R8 c 5).toLoadRect (Sbuf m c))⟩,
        ⟨R8 c 4, widen (sM.view.readAt (Elt F) (R8 c 4).toLoadRect (Sbuf m c))⟩,
        ⟨R8 c 3, widen (sM.view.readAt (Elt F) (R8 c 3).toLoadRect (Sbuf m c))⟩,
        ⟨R8 c 2, widen (sM.view.readAt (Elt F) (R8 c 2).toLoadRect (Sbuf m c))⟩,
        ⟨R8 c 1, widen (sM.view.readAt (Elt F) (R8 c 1).toLoadRect (Sbuf m c))⟩,
        ⟨R8 c 0, widen (sM.view.readAt (Elt F) (R8 c 0).toLoadRect (Sbuf m c))⟩,
        ⟨R5 c 7, red (wM.view.readAt (Elt F) (blk 7).toLoadRect (Wbuf m c)) (xM.view.readAt (Elt F) (blk 7).toLoadRect (Pbuf m (xp c)))⟩,
        ⟨R5 c 6, red (wM.view.readAt (Elt F) (blk 6).toLoadRect (Wbuf m c)) (xM.view.readAt (Elt F) (blk 6).toLoadRect (Pbuf m (xp c)))⟩,
        ⟨R5 c 5, red (wM.view.readAt (Elt F) (blk 5).toLoadRect (Wbuf m c)) (xM.view.readAt (Elt F) (blk 5).toLoadRect (Pbuf m (xp c)))⟩,
        ⟨R5 c 4, red (wM.view.readAt (Elt F) (blk 4).toLoadRect (Wbuf m c)) (xM.view.readAt (Elt F) (blk 4).toLoadRect (Pbuf m (xp c)))⟩,
        ⟨R5 c 3, red (wM.view.readAt (Elt F) (blk 3).toLoadRect (Wbuf m c)) (xM.view.readAt (Elt F) (blk 3).toLoadRect (Pbuf m (xp c)))⟩,
        ⟨R5 c 2, red (wM.view.readAt (Elt F) (blk 2).toLoadRect (Wbuf m c)) (xM.view.readAt (Elt F) (blk 2).toLoadRect (Pbuf m (xp c)))⟩,
        ⟨R5 c 1, red (wM.view.readAt (Elt F) (blk 1).toLoadRect (Wbuf m c)) (xM.view.readAt (Elt F) (blk 1).toLoadRect (Pbuf m (xp c)))⟩,
        ⟨R5 c 0, red (wM.view.readAt (Elt F) (blk 0).toLoadRect (Wbuf m c)) (xM.view.readAt (Elt F) (blk 0).toLoadRect (Pbuf m (xp c)))⟩]
        : List (View.Piece (Elt F) S256x2048 .f32))
      = Obuf m c :=
  O_writes_list m c g2

end Cert.KernelIdeal.Rs

end
-- ==== Proof.Body.lean ====
/-
  One device's body, from what the launch deals it to what it hands back.

  In program order: the eight blocks of partial products for the partner's rows are computed into P; the device signals
  both peers and waits for both (after which the partner's X and the neighbour's half of S are its to write); P goes to
  the partner block by block; the device's own partial products are computed into W; for each block, once the partner's
  block has landed in X, the reduced block W + X is written to the result's own column half and, rounded, to S, and S's
  block goes to the neighbour; for each block, once the neighbour's block has landed in S, it is widened into the result's
  other column half; finally all sixteen send cells are waited for. What is left: the result buffer holding `Obuf`, the
  scratch buffers whole again, every copy cell closed, nothing owed.
-/
import proofs.«900391_g7700000000000392_dist_rsdw_v7x_xyz2x2x4_x_m512_d512_f2048_f32_1_alg».proof.Proof.Steps
import proofs.«900391_g7700000000000392_dist_rsdw_v7x_xyz2x2x4_x_m512_d512_f2048_f32_1_alg».proof.Proof.Owed
import proofs.«900391_g7700000000000392_dist_rsdw_v7x_xyz2x2x4_x_m512_d512_f2048_f32_1_alg».proof.Proof.BufferValues
import proofs.«900391_g7700000000000392_dist_rsdw_v7x_xyz2x2x4_x_m512_d512_f2048_f32_1_alg».proof.Proof.Boxes
import proofs.«900391_g7700000000000392_dist_rsdw_v7x_xyz2x2x4_x_m512_d512_f2048_f32_1_alg».proof.Proof.ResultWrites
import proofs.«900391_g7700000000000392_dist_rsdw_v7x_xyz2x2x4_x_m512_d512_f2048_f32_1_alg».proof.Proof.Gen.KernelIdeal.Skeleton
import proofs.«900391_g7700000000000392_dist_rsdw_v7x_xyz2x2x4_x_m512_d512_f2048_f32_1_alg».proof.Proof.Gen.KernelIdeal.Points

set_option maxRecDepth 16384

noncomputable section

namespace Cert.KernelIdeal.Rs

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-! ## Separating conjunctions over the eight blocks and the four families, written out -/

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_kr (Φ : Fin 4 × Fin 8 → sProp 𝕄) :
    bigSep Finset.univ Φ = bigSep Finset.univ fun k : Fin 4 => bigSep Finset.univ fun r : Fin 8 => Φ (k, r) :=
  bigSep_univ_prod Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ ((Memref.whole b).view.loc (c : Thread nD τ) ↦[(Memref.whole b).view.set]{fullShare} f)) := by
  unfold owns; simp only [View.read_whole]

set_option allowUnsafeReducibility true in
attribute [local reducible] held

/-- A copy cell's payload, family by family. -/
theorem copyPay0 (c : Dev nD) (r : Fin 8) : copyPay m c 0 r = held (pBlk r) c (Pbuf m c) := rfl
theorem copyPay1 (c : Dev nD) (r : Fin 8) : copyPay m c 1 r = held (xBlk r) c (Pbuf m (xp c)) := rfl
theorem copyPay2 (c : Dev nD) (r : Fin 8) : copyPay m c 2 r = held (sOwn c r) c (Sbuf m c) := rfl
theorem copyPay3 (c : Dev nD) (r : Fin 8) : copyPay m c 3 r = held (sOth c r) c (Sbuf m c) := rfl

/-- The wait on a send cell across the first axis: block `r` of P comes back. -/
theorem wait_xs (K : GSem nD τ sig → ℕ) (c : Dev nD) (r : Fin 8) (O : CellTallies nD τ sig Unit) (W : Waits sig Unit)
    (hmay : (levAts L lv : sProp 𝕄) ⊢ MayWait (c : Thread nD τ) (.dma (dS 0 r)) () O)
    {α : Type} {Q : α → sProp 𝕄} {kk : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dS 0 r)) (pBlk r).view.dmaCredit Kk) :
    iprop(cellInv ER (sched m) (K (dCell c 0 r)) (dCell c 0 r) ∗ cred (tallyAt (dCell c 0 r) () NX) ∗ owes (c : Thread nD τ) O W
        ∗ levAts L lv ∗ atPos ER (dCell c 0 r) 0 ∅ 0)
      ⊢ iprop(((owes (c : Thread nD τ) O (insert (SemLoc.dma (dS 0 r), ()) W)
              ∗ atPos ER (dCell c 0 r) 1 ∅ 0 ∗ reached ER (dCell c 0 r) 1 ∗ held (pBlk r) c (Pbuf m c))
            -∗ wp frame (wpE (defs₀ (F := F)) 𝒱₀ c none) Set.univ (kk ⟨⟩) Q)
          -∗ wp frame (wpE (defs₀ (F := F)) 𝒱₀ c none) Set.univ (.op w kk) Q) :=
  wait_own m K c 0 r O W hmay hw
/-- The wait on a receive cell across the first axis: block `r` of X holds the partner's P. -/
theorem wait_xr (K : GSem nD τ sig → ℕ) (c : Dev nD) (r : Fin 8) (O : CellTallies nD τ sig Unit) (W : Waits sig Unit)
    (hmay : (levAts L lv : sProp 𝕄) ⊢ MayWait (c : Thread nD τ) (.dma (dS 1 r)) () O)
    {α : Type} {Q : α → sProp 𝕄} {kk : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dS 1 r)) (xBlk r).view.dmaCredit Kk) :
    iprop(cellInv ER (sched m) (K (dCell c 1 r)) (dCell c 1 r) ∗ cred (tallyAt (dCell c 1 r) () NX) ∗ owes (c : Thread nD τ) O W
        ∗ levAts L lv ∗ atPos ER (dCell c 1 r) 0 ∅ 0)
      ⊢ iprop(((owes (c : Thread nD τ) O (insert (SemLoc.dma (dS 1 r), ()) W)
              ∗ atPos ER (dCell c 1 r) 1 ∅ 0 ∗ reached ER (dCell c 1 r) 1 ∗ held (xBlk r) c (Pbuf m (xp c)))
            -∗ wp frame (wpE (defs₀ (F := F)) 𝒱₀ c none) Set.univ (kk ⟨⟩) Q)
          -∗ wp frame (wpE (defs₀ (F := F)) 𝒱₀ c none) Set.univ (.op w kk) Q) :=
  wait_own m K c 1 r O W hmay hw
/-- The wait on a send cell across the second axis: the device's own block `r` of S comes back. -/
theorem wait_ys (K : GSem nD τ sig → ℕ) (c : Dev nD) (r : Fin 8) (O : CellTallies nD τ sig Unit) (W : Waits sig Unit)
    (hmay : (levAts L lv : sProp 𝕄) ⊢ MayWait (c : Thread nD τ) (.dma (dS 2 r)) () O)
    {α : Type} {Q : α → sProp 𝕄} {kk : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dS 2 r)) (sOwn c r).view.dmaCredit Kk) :
    iprop(cellInv ER (sched m) (K (dCell c 2 r)) (dCell c 2 r) ∗ cred (tallyAt (dCell c 2 r) () NS) ∗ owes (c : Thread nD τ) O W
        ∗ levAts L lv ∗ atPos ER (dCell c 2 r) 0 ∅ 0)
      ⊢ iprop(((owes (c : Thread nD τ) O (insert (SemLoc.dma (dS 2 r), ()) W)
              ∗ atPos ER (dCell c 2 r) 1 ∅ 0 ∗ reached ER (dCell c 2 r) 1 ∗ held (sOwn c r) c (Sbuf m c))
            -∗ wp frame (wpE (defs₀ (F := F)) 𝒱₀ c none) Set.univ (kk ⟨⟩) Q)
          -∗ wp frame (wpE (defs₀ (F := F)) 𝒱₀ c none) Set.univ (.op w kk) Q) :=
  wait_own m K c 2 r O W hmay hw
/-- The wait on a receive cell across the second axis: the other block `r` of S holds the neighbour's reduced block. -/
theorem wait_yr (K : GSem nD τ sig → ℕ) (c : Dev nD) (r : Fin 8) (O : CellTallies nD τ sig Unit) (W : Waits sig Unit)
    (hmay : (levAts L lv : sProp 𝕄) ⊢ MayWait (c : Thread nD τ) (.dma (dS 3 r)) () O)
    {α : Type} {Q : α → sProp 𝕄} {kk : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dS 3 r)) (sOth c r).view.dmaCredit Kk) :
    iprop(cellInv ER (sched m) (K (dCell c 3 r)) (dCell c 3 r) ∗ cred (tallyAt (dCell c 3 r) () NS) ∗ owes (c : Thread nD τ) O W
        ∗ levAts L lv ∗ atPos ER (dCell c 3 r) 0 ∅ 0)
      ⊢ iprop(((owes (c : Thread nD τ) O (insert (SemLoc.dma (dS 3 r), ()) W)
              ∗ atPos ER (dCell c 3 r) 1 ∅ 0 ∗ reached ER (dCell c 3 r) 1 ∗ held (sOth c r) c (Sbuf m c))
            -∗ wp frame (wpE (defs₀ (F := F)) 𝒱₀ c none) Set.univ (kk ⟨⟩) Q)
          -∗ wp frame (wpE (defs₀ (F := F)) 𝒱₀ c none) Set.univ (.op w kk) Q) :=
  wait_own m K c 3 r O W hmay hw

/-- An assertion set aside: the same assertion, under a name nothing looks through. -/
def hid (P : sProp 𝕄) : sProp 𝕄 := P
theorem hid_eq (P : sProp 𝕄) : hid (F := F) P = P := rfl
attribute [local irreducible] hid

/-- Sequencing after a returned value continues with that value. -/
theorem ret_bind' {E : Type → Type} {α β : Type} (a : α) (k : α → Prog E β) : (Prog.ret a).bind k = k a := rfl

/-- S split for the barrier: the half that lands from the neighbour, at whatever it holds, and the half the device keeps. -/
theorem give_half (c : Dev nD) (f : Buf (Elt F) (sM.view.loc (c : Thread nD τ))) :
    held (F := F) sM c f ⊢ iprop((bigSep Finset.univ fun r : Fin 8 => iprop(∃ f', held (sOwn (yn c) r) c f')) ∗ bigSep Finset.univ fun r : Fin 8 => held (sOwn c r) c f) := by
  refine (split_S c f).1.trans (sep_mono_left (bigSep_mono fun r _ => ?_))
  rw [← held_sOwn_yn]
  show (held (sOwn (yn c) r) c f : sProp 𝕄) ⊢ iprop(∃ f', held (sOwn (yn c) r) c f')
  iintro H; iexists f; iexact H

/-- What the body starts from, as the pipeline hands it over. -/
def bodyPre (c : Dev nD) : sProp 𝕄 :=
  iprop(Φ₀ m c ∗ (dats m 0 c).owesAt () t0_0.castSucc
    ∗ (∃ d f, ⌜f = (dats m 0 c).before (0 : Fin 3) t0_0 d⌝ ∗ held aM c f)
    ∗ (∃ d f, ⌜f = (dats m 0 c).before (1 : Fin 3) t0_0 d⌝ ∗ held bM c f)
    ∗ (∃ d f, ⌜f = (dats m 0 c).before (2 : Fin 3) t0_0 d⌝ ∗ held oM c f))

/-- What the body hands back. -/
def bodyPost (c : Dev nD) : sProp 𝕄 :=
  iprop(Φ₁ (F := F) c ∗ (dats m 0 c).owesAt () t0_0.succ
    ∗ (∃ f, ⌜f = (dats m 0 c).after (0 : Fin 3) t0_0⌝ ∗ held aM c f)
    ∗ (∃ f, ⌜f = (dats m 0 c).after (1 : Fin 3) t0_0⌝ ∗ held bM c f)
    ∗ (∃ f, ⌜f = (dats m 0 c).after (2 : Fin 3) t0_0⌝ ∗ held oM c f))

set_option maxHeartbeats 16000000 in
/-- The body, stepped in program order from what the launch deals the device to what it hands back. -/
theorem sound_body (c : Dev nD) :
    bodyPre m c
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) (fun _ => bodyPost m c) := by
  unfold bodyPre Φ₀ start ghost invs poss marks payToks creds scratch
  simp only [bigSep_kr, bigSep_fin4, bigSep_fin8]
  iintro ⟨⟨⟨⟨%K, ⟨⟨#IB, ⟨⟨#I00, #I01, #I02, #I03, #I04, #I05, #I06, #I07⟩, ⟨#I10, #I11, #I12, #I13, #I14, #I15, #I16, #I17⟩, ⟨#I20, #I21, #I22, #I23, #I24, #I25, #I26, #I27⟩, ⟨#I30, #I31, #I32, #I33, #I34, #I35, #I36, #I37⟩⟩, #IBX, #IBY, ⟨#IX0, #IX1, #IX2, #IX3, #IX4, #IX5, #IX6, #IX7⟩, ⟨#IY0, #IY1, #IY2, #IY3, #IY4, #IY5, #IY6, #IY7⟩⟩, ⟨AB, ⟨⟨A00, A01, A02, A03, A04, A05, A06, A07⟩, ⟨A10, A11, A12, A13, A14, A15, A16, A17⟩, ⟨A20, A21, A22, A23, A24, A25, A26, A27⟩, ⟨A30, A31, A32, A33, A34, A35, A36, A37⟩⟩⟩, ⟨#RBX, #RBY, ⟨⟨#R00, #R01, #R02, #R03, #R04, #R05, #R06, #R07⟩, ⟨#R10, #R11, #R12, #R13, #R14, #R15, #R16, #R17⟩, ⟨#R20, #R21, #R22, #R23, #R24, #R25, #R26, #R27⟩, ⟨#R30, #R31, #R32, #R33, #R34, #R35, #R36, #R37⟩⟩, ⟨#RX0, #RX1, #RX2, #RX3, #RX4, #RX5, #RX6, #RX7⟩, ⟨#RY0, #RY1, #RY2, #RY3, #RY4, #RY5, #RY6, #RY7⟩⟩, ⟨TBX, TBY, ⟨TX0, TX1, TX2, TX3, TX4, TX5, TX6, TX7⟩, ⟨TY0, TY1, TY2, TY3, TY4, TY5, TY6, TY7⟩, ⟨TS0, TS1, TS2, TS3, TS4, TS5, TS6, TS7⟩, ⟨TZ0, TZ1, TZ2, TZ3, TZ4, TZ5, TZ6, TZ7⟩⟩⟩⟩, ⟨CB, ⟨CX0, CX1, CX2, CX3, CX4, CX5, CX6, CX7⟩, ⟨CY0, CY1, CY2, CY3, CY4, CY5, CY6, CY7⟩⟩, #Hlev⟩, ⟨⟨%f0, Hp⟩, ⟨%f1, Hw⟩, ⟨%f2, Hx⟩, ⟨%f3, Hs⟩⟩⟩, HO, ⟨%d0, %g0, %hg0, Ha⟩, ⟨%d1, %g1, %hg1, Hb⟩, ⟨%d2, %g2, %hg2, Ho⟩⟩
  unfold Dat.owesAt Pipeline.owesWithin
  icases HO with ⟨%W, %hW, HO⟩
  rw [show (dats m 0 c).owed t0_0.castSucc = O₀ c from rfl]
  ihave CY0 := (Entails.of_eq (hid_eq _).symm) $$ CY0
  ihave CY1 := (Entails.of_eq (hid_eq _).symm) $$ CY1
  ihave CY2 := (Entails.of_eq (hid_eq _).symm) $$ CY2
  ihave CY3 := (Entails.of_eq (hid_eq _).symm) $$ CY3
  ihave CY4 := (Entails.of_eq (hid_eq _).symm) $$ CY4
  ihave CY5 := (Entails.of_eq (hid_eq _).symm) $$ CY5
  ihave CY6 := (Entails.of_eq (hid_eq _).symm) $$ CY6
  ihave CY7 := (Entails.of_eq (hid_eq _).symm) $$ CY7
  unfold held
  have hA0 : g0 = argA m c := by rw [hg0]; unfold Dat.before; rw [if_pos (fetch0_0 t0_0)]; rfl
  have hB0 : g1 = argB m c := by rw [hg1]; unfold Dat.before; rw [if_pos (fetch0_1 t0_0)]; rfl
  subst hA0 hB0
  sl_unfold [cc0_body]
  sl_exec_parts
  -- the handshake: one unit to each of the two peers' barrier cells, then the wait for two
  unfold O₀
  iapply (sig_x m K c _ (dev1_eq c) f2 (oY c + oX c + tallyAt (barCell (yn c)) () 1) W) $$ [HO TBX Hx]
  · isplitr; · iexact IBX
    isplitl [HO]; · iexact HO
    isplitl [TBX]; · iexact TBX
    isplitl [Hx]; · unfold held; iexact Hx
    isplitr
    · rw [bigSep_fin8]
      isplitr; · iexact R10
      isplitr; · iexact R11
      isplitr; · iexact R12
      isplitr; · iexact R13
      isplitr; · iexact R14
      isplitr; · iexact R15
      isplitr; · iexact R16
      iexact R17
    iexact RBX
  iintro HO
  sl_step
  sl_exec_parts
  -- the second signal: the half of S that lands from the neighbour goes with it
  ihave Hsplit := (show (sM.view.loc (c : Thread nD τ) ↦[sM.view.set]{fullShare} f3 : sProp 𝕄) ⊢ _ from give_half c f3) $$ Hs
  icases Hsplit with ⟨Hgive, Hown⟩
  iapply (sig_y m K c _ (dev2_eq c) (oY c + oX c) W) $$ [HO TBY Hgive]
  · isplitr; · iexact IBY
    isplitl [HO]; · iexact HO
    isplitl [TBY]; · iexact TBY
    isplitl [Hgive]; · iexact Hgive
    isplitr
    · rw [bigSep_fin8]
      isplitr; · iexact R30
      isplitr; · iexact R31
      isplitr; · iexact R32
      isplitr; · iexact R33
      isplitr; · iexact R34
      isplitr; · iexact R35
      isplitr; · iexact R36
      iexact R37
    iexact RBY
  iintro HO
  sl_step
  sl_exec_parts
  -- the wait for both peers
  iapply (wait_bar m K c W (wpE_semWait_eq 𝒱₀ (c : Thread nD τ) none Set.univ)) $$ [CB HO AB]
  · isplitr; · iexact IB
    isplitl [CB]; · iexact CB
    isplitl [HO]; · iexact HO
    isplitr; · iexact Hlev
    iexact AB
  iintro ⟨HO, AB, #RB1, HbX, HbY⟩
  unfold barPayX barPayY
  icases HbX with ⟨⟨%fX, HXp⟩, -⟩
  icases HbY with ⟨HSn, -⟩
  sl_step
  -- everything in blocks: the partner's X, the neighbour's half of S, this device's P and its half of S
  ihave HXs := ((split_X (xp c) fX).1.trans (Entails.of_eq (bigSep_fin8 _))) $$ HXp
  icases HXs with ⟨HXP0, HXP1, HXP2, HXP3, HXP4, HXP5, HXP6, HXP7⟩
  ihave HSns := (Entails.of_eq (bigSep_fin8 _)) $$ HSn
  icases HSns with ⟨⟨%fn0, HN0⟩, ⟨%fn1, HN1⟩, ⟨%fn2, HN2⟩, ⟨%fn3, HN3⟩, ⟨%fn4, HN4⟩, ⟨%fn5, HN5⟩, ⟨%fn6, HN6⟩, ⟨%fn7, HN7⟩⟩
  ihave HSos := (Entails.of_eq (bigSep_fin8 _)) $$ Hown
  icases HSos with ⟨HS0, HS1, HS2, HS3, HS4, HS5, HS6, HS7⟩
  ihave Hp' := (Entails.of_eq (pointsTo_congr (g := Pbuf m c) (by intro i _; exact congrFun ((show _ = pM.view.writes (Elt F) f0 ([⟨Rect.unit (s := S256x1024) ![0, 896] S256x128.size inb_S256x1024_S256x128_0_896, pProd (ldAp m c) (ldBr m c 7)⟩,
      ⟨Rect.unit (s := S256x1024) ![0, 768] S256x128.size inb_S256x1024_S256x128_0_768, pProd (ldAp m c) (ldBr m c 6)⟩,
      ⟨Rect.unit (s := S256x1024) ![0, 640] S256x128.size inb_S256x1024_S256x128_0_640, pProd (ldAp m c) (ldBr m c 5)⟩,
      ⟨Rect.unit (s := S256x1024) ![0, 512] S256x128.size inb_S256x1024_S256x128_0_512, pProd (ldAp m c) (ldBr m c 4)⟩,
      ⟨Rect.unit (s := S256x1024) ![0, 384] S256x128.size inb_S256x1024_S256x128_0_384, pProd (ldAp m c) (ldBr m c 3)⟩,
      ⟨Rect.unit (s := S256x1024) ![0, 256] S256x128.size inb_S256x1024_S256x128_0_256, pProd (ldAp m c) (ldBr m c 2)⟩,
      ⟨Rect.unit (s := S256x1024) ![0, 128] S256x128.size inb_S256x1024_S256x128_0_128, pProd (ldAp m c) (ldBr m c 1)⟩,
      ⟨Rect.unit (s := S256x1024) ![0, 0] S256x128.size inb_S256x1024_S256x128_0_0, pProd (ldAp m c) (ldBr m c 0)⟩] : List (View.Piece (Elt F) S256x1024 .bf16)) from rfl).trans (P_writes m c f0)) i))) $$ Hp
  ihave HPs := ((show (pM.view.loc (c : Thread nD τ) ↦[pM.view.set]{fullShare} Pbuf m c : sProp 𝕄) ⊢ _ from (split_P c (Pbuf m c)).1).trans (Entails.of_eq (bigSep_fin8 _))) $$ Hp'
  icases HPs with ⟨HP0, HP1, HP2, HP3, HP4, HP5, HP6, HP7⟩
  rw [oX_eq c, oY_eq c]
  -- block 0 of P to the partner's X
  rw [show oYn c 8 + oXn c 8 = (oYn c 8 + oXn c 7) + tallyAt (dCell (xp c) 1 0) () NX from (add_assoc _ _ _).symm]
  iapply (send_x m K c _ (dev3_eq c) 0 fX (oYn c 8 + oXn c 7) _) $$ [HP0 HXP0 HO TS0 TX0]
  · isplitr; · iexact I00
    isplitr; · iexact IX0
    isplitl [HP0]; · iexact HP0
    isplitl [HXP0]; · iexact HXP0
    isplitl [HO]; · iexact HO
    isplitl [TS0]; · iexact TS0
    isplitr; · iexact R00
    isplitl [TX0]; · iexact TX0
    iexact RX0
  iintro ⟨CS0, HO⟩
  ihave CS0 := (Entails.of_eq (hid_eq _).symm) $$ CS0
  try rw [ret_bind']
  try sl_step
  sl_exec_parts
  -- block 1 of P to the partner's X
  rw [show oYn c 8 + oXn c 7 = (oYn c 8 + oXn c 6) + tallyAt (dCell (xp c) 1 1) () NX from (add_assoc _ _ _).symm]
  iapply (send_x m K c _ (dev4_eq c) 1 fX (oYn c 8 + oXn c 6) _) $$ [HP1 HXP1 HO TS1 TX1]
  · isplitr; · iexact I01
    isplitr; · iexact IX1
    isplitl [HP1]; · iexact HP1
    isplitl [HXP1]; · iexact HXP1
    isplitl [HO]; · iexact HO
    isplitl [TS1]; · iexact TS1
    isplitr; · iexact R01
    isplitl [TX1]; · iexact TX1
    iexact RX1
  iintro ⟨CS1, HO⟩
  ihave CS1 := (Entails.of_eq (hid_eq _).symm) $$ CS1
  try rw [ret_bind']
  try sl_step
  sl_exec_parts
  -- block 2 of P to the partner's X
  rw [show oYn c 8 + oXn c 6 = (oYn c 8 + oXn c 5) + tallyAt (dCell (xp c) 1 2) () NX from (add_assoc _ _ _).symm]
  iapply (send_x m K c _ (dev5_eq c) 2 fX (oYn c 8 + oXn c 5) _) $$ [HP2 HXP2 HO TS2 TX2]
  · isplitr; · iexact I02
    isplitr; · iexact IX2
    isplitl [HP2]; · iexact HP2
    isplitl [HXP2]; · iexact HXP2
    isplitl [HO]; · iexact HO
    isplitl [TS2]; · iexact TS2
    isplitr; · iexact R02
    isplitl [TX2]; · iexact TX2
    iexact RX2
  iintro ⟨CS2, HO⟩
  ihave CS2 := (Entails.of_eq (hid_eq _).symm) $$ CS2
  try rw [ret_bind']
  try sl_step
  sl_exec_parts
  -- block 3 of P to the partner's X
  rw [show oYn c 8 + oXn c 5 = (oYn c 8 + oXn c 4) + tallyAt (dCell (xp c) 1 3) () NX from (add_assoc _ _ _).symm]
  iapply (send_x m K c _ (dev6_eq c) 3 fX (oYn c 8 + oXn c 4) _) $$ [HP3 HXP3 HO TS3 TX3]
  · isplitr; · iexact I03
    isplitr; · iexact IX3
    isplitl [HP3]; · iexact HP3
    isplitl [HXP3]; · iexact HXP3
    isplitl [HO]; · iexact HO
    isplitl [TS3]; · iexact TS3
    isplitr; · iexact R03
    isplitl [TX3]; · iexact TX3
    iexact RX3
  iintro ⟨CS3, HO⟩
  ihave CS3 := (Entails.of_eq (hid_eq _).symm) $$ CS3
  try rw [ret_bind']
  try sl_step
  sl_exec_parts
  -- block 4 of P to the partner's X
  rw [show oYn c 8 + oXn c 4 = (oYn c 8 + oXn c 3) + tallyAt (dCell (xp c) 1 4) () NX from (add_assoc _ _ _).symm]
  iapply (send_x m K c _ (dev7_eq c) 4 fX (oYn c 8 + oXn c 3) _) $$ [HP4 HXP4 HO TS4 TX4]
  · isplitr; · iexact I04
    isplitr; · iexact IX4
    isplitl [HP4]; · iexact HP4
    isplitl [HXP4]; · iexact HXP4
    isplitl [HO]; · iexact HO
    isplitl [TS4]; · iexact TS4
    isplitr; · iexact R04
    isplitl [TX4]; · iexact TX4
    iexact RX4
  iintro ⟨CS4, HO⟩
  ihave CS4 := (Entails.of_eq (hid_eq _).symm) $$ CS4
  try rw [ret_bind']
  try sl_step
  sl_exec_parts
  -- block 5 of P to the partner's X
  rw [show oYn c 8 + oXn c 3 = (oYn c 8 + oXn c 2) + tallyAt (dCell (xp c) 1 5) () NX from (add_assoc _ _ _).symm]
  iapply (send_x m K c _ (dev8_eq c) 5 fX (oYn c 8 + oXn c 2) _) $$ [HP5 HXP5 HO TS5 TX5]
  · isplitr; · iexact I05
    isplitr; · iexact IX5
    isplitl [HP5]; · iexact HP5
    isplitl [HXP5]; · iexact HXP5
    isplitl [HO]; · iexact HO
    isplitl [TS5]; · iexact TS5
    isplitr; · iexact R05
    isplitl [TX5]; · iexact TX5
    iexact RX5
  iintro ⟨CS5, HO⟩
  ihave CS5 := (Entails.of_eq (hid_eq _).symm) $$ CS5
  try rw [ret_bind']
  try sl_step
  sl_exec_parts
  -- block 6 of P to the partner's X
  rw [show oYn c 8 + oXn c 2 = (oYn c 8 + oXn c 1) + tallyAt (dCell (xp c) 1 6) () NX from (add_assoc _ _ _).symm]
  iapply (send_x m K c _ (dev9_eq c) 6 fX (oYn c 8 + oXn c 1) _) $$ [HP6 HXP6 HO TS6 TX6]
  · isplitr; · iexact I06
    isplitr; · iexact IX6
    isplitl [HP6]; · iexact HP6
    isplitl [HXP6]; · iexact HXP6
    isplitl [HO]; · iexact HO
    isplitl [TS6]; · iexact TS6
    isplitr; · iexact R06
    isplitl [TX6]; · iexact TX6
    iexact RX6
  iintro ⟨CS6, HO⟩
  ihave CS6 := (Entails.of_eq (hid_eq _).symm) $$ CS6
  try rw [ret_bind']
  try sl_step
  sl_exec_parts
  -- block 7 of P to the partner's X
  rw [show oYn c 8 + oXn c 1 = (oYn c 8 + oXn c 0) + tallyAt (dCell (xp c) 1 7) () NX from (add_assoc _ _ _).symm]
  iapply (send_x m K c _ (dev10_eq c) 7 fX (oYn c 8 + oXn c 0) _) $$ [HP7 HXP7 HO TS7 TX7]
  · isplitr; · iexact I07
    isplitr; · iexact IX7
    isplitl [HP7]; · iexact HP7
    isplitl [HXP7]; · iexact HXP7
    isplitl [HO]; · iexact HO
    isplitl [TS7]; · iexact TS7
    isplitr; · iexact R07
    isplitl [TX7]; · iexact TX7
    iexact RX7
  iintro ⟨CS7, HO⟩
  ihave CS7 := (Entails.of_eq (hid_eq _).symm) $$ CS7
  try rw [ret_bind']
  try sl_step
  sl_exec_parts
  rw [show oYn c 8 + oXn c 0 = oYn c 8 from add_zero _]
  -- W holds the device's own partial products
  ihave Hw := (Entails.of_eq (pointsTo_congr (g := Wbuf m c) (by intro i _; exact congrFun ((show _ = ((wM.access (Rect.unit (s := S256x1024) ![0, 0] S256x1024.size inb_S256x1024_S256x1024_0_0) : View sig .tc _ _ _).write (Elt F) f1 (wProd (ldAo m c) (ldBh m c)) Finset.univ) from rfl).trans (W_write m c f1)) i))) $$ Hw
  -- the partner's block 0 has landed in X
  iapply (wait_xr m K c 0 (oYn c 8) _ (mayWait_xr c 0 8) (wpE_waitDma2_eq 𝒱₀ (c : Thread nD τ) none Set.univ)) $$ [CX0 HO A10]
  · isplitr; · iexact I10
    isplitl [CX0]; · iexact CX0
    isplitl [HO]; · iexact HO
    isplitr; · iexact Hlev
    iexact A10
  iintro ⟨HO, A10, #Q10, HX0⟩
  try rw [ret_bind']
  try sl_step
  unfold held
  sl_exec_parts
  -- S, block 0: the dead load and the store of the rounded reduced block, through the block held
  iapply (wp_load 𝒱₀ (c : Thread nD τ) none Set.univ (m := sM) (S_load_own c 0)) $$ HS0; iintro HS0
  iapply (wp_store 𝒱₀ (c : Thread nD τ) none Set.univ (m := sM) (r := (Rect.unit (s := S256x2048) (k0_off5 c (BitVec.ofNat 32 (128 * 0))) S256x128.size (k0_off5_inb c 0))) (Mk := Finset.univ) (S_store_own c 0)) $$ HS0; iintro HS0
  try rw [ret_bind']
  try sl_step
  sl_exec_parts
  -- the reduced block 0, staged, to the neighbour's S
  ihave HS0' := (Entails.of_eq (pointsTo_congr (g := Sbuf m c) (by intro i hi; exact S_store m c 0 f3 i hi))) $$ HS0
  ihave HS0' := (show (((sM.access (Rect.unit (s := S256x2048) (k0_off5 c (BitVec.ofNat 32 (128 * 0))) S256x128.size (k0_off5_inb c 0)) : View sig .tc _ _ _).loc (c : Thread nD τ) ↦[(sOwn c 0).view.set]{fullShare} Sbuf m c) : sProp 𝕄) ⊢ held (sOwn c 0) c (Sbuf m c) from Entails.of_eq rfl) $$ HS0'
  rw [show oYn c 8 = oYn c 7 + tallyAt (dCell (yn c) 3 0) () NS from rfl]
  iapply (send_y m K c _ (dev11_eq c) 0 fn0 (oYn c 7) _) $$ [HS0' HN0 HO TZ0 TY0]
  · isplitr; · iexact I20
    isplitr; · iexact IY0
    isplitl [HS0']; · iexact HS0'
    isplitl [HN0]; · iexact HN0
    isplitl [HO]; · iexact HO
    isplitl [TZ0]; · iexact TZ0
    isplitr; · iexact R20
    isplitl [TY0]; · iexact TY0
    iexact RY0
  iintro ⟨CZ0, HO⟩
  ihave CZ0 := (Entails.of_eq (hid_eq _).symm) $$ CZ0
  try rw [ret_bind']
  try sl_step
  sl_exec_parts
  -- the partner's block 1 has landed in X
  iapply (wait_xr m K c 1 (oYn c 7) _ (mayWait_xr c 1 7) (wpE_waitDma2_eq 𝒱₀ (c : Thread nD τ) none Set.univ)) $$ [CX1 HO A11]
  · isplitr; · iexact I11
    isplitl [CX1]; · iexact CX1
    isplitl [HO]; · iexact HO
    isplitr; · iexact Hlev
    iexact A11
  iintro ⟨HO, A11, #Q11, HX1⟩
  try rw [ret_bind']
  try sl_step
  unfold held
  sl_exec_parts
  -- S, block 1: the dead load and the store of the rounded reduced block, through the block held
  iapply (wp_load 𝒱₀ (c : Thread nD τ) none Set.univ (m := sM) (S_load_own c 1)) $$ HS1; iintro HS1
  iapply (wp_store 𝒱₀ (c : Thread nD τ) none Set.univ (m := sM) (r := (Rect.unit (s := S256x2048) (k0_off5 c (BitVec.ofNat 32 (128 * 1))) S256x128.size (k0_off5_inb c 1))) (Mk := Finset.univ) (S_store_own c 1)) $$ HS1; iintro HS1
  try rw [ret_bind']
  try sl_step
  sl_exec_parts
  -- the reduced block 1, staged, to the neighbour's S
  ihave HS1' := (Entails.of_eq (pointsTo_congr (g := Sbuf m c) (by intro i hi; exact S_store m c 1 f3 i hi))) $$ HS1
  ihave HS1' := (show (((sM.access (Rect.unit (s := S256x2048) (k0_off5 c (BitVec.ofNat 32 (128 * 1))) S256x128.size (k0_off5_inb c 1)) : View sig .tc _ _ _).loc (c : Thread nD τ) ↦[(sOwn c 1).view.set]{fullShare} Sbuf m c) : sProp 𝕄) ⊢ held (sOwn c 1) c (Sbuf m c) from Entails.of_eq rfl) $$ HS1'
  rw [show oYn c 7 = oYn c 6 + tallyAt (dCell (yn c) 3 1) () NS from rfl]
  iapply (send_y m K c _ (dev12_eq c) 1 fn1 (oYn c 6) _) $$ [HS1' HN1 HO TZ1 TY1]
  · isplitr; · iexact I21
    isplitr; · iexact IY1
    isplitl [HS1']; · iexact HS1'
    isplitl [HN1]; · iexact HN1
    isplitl [HO]; · iexact HO
    isplitl [TZ1]; · iexact TZ1
    isplitr; · iexact R21
    isplitl [TY1]; · iexact TY1
    iexact RY1
  iintro ⟨CZ1, HO⟩
  ihave CZ1 := (Entails.of_eq (hid_eq _).symm) $$ CZ1
  try rw [ret_bind']
  try sl_step
  sl_exec_parts
  -- the partner's block 2 has landed in X
  iapply (wait_xr m K c 2 (oYn c 6) _ (mayWait_xr c 2 6) (wpE_waitDma2_eq 𝒱₀ (c : Thread nD τ) none Set.univ)) $$ [CX2 HO A12]
  · isplitr; · iexact I12
    isplitl [CX2]; · iexact CX2
    isplitl [HO]; · iexact HO
    isplitr; · iexact Hlev
    iexact A12
  iintro ⟨HO, A12, #Q12, HX2⟩
  try rw [ret_bind']
  try sl_step
  unfold held
  sl_exec_parts
  -- S, block 2: the dead load and the store of the rounded reduced block, through the block held
  iapply (wp_load 𝒱₀ (c : Thread nD τ) none Set.univ (m := sM) (S_load_own c 2)) $$ HS2; iintro HS2
  iapply (wp_store 𝒱₀ (c : Thread nD τ) none Set.univ (m := sM) (r := (Rect.unit (s := S256x2048) (k0_off5 c (BitVec.ofNat 32 (128 * 2))) S256x128.size (k0_off5_inb c 2))) (Mk := Finset.univ) (S_store_own c 2)) $$ HS2; iintro HS2
  try rw [ret_bind']
  try sl_step
  sl_exec_parts
  -- the reduced block 2, staged, to the neighbour's S
  ihave HS2' := (Entails.of_eq (pointsTo_congr (g := Sbuf m c) (by intro i hi; exact S_store m c 2 f3 i hi))) $$ HS2
  ihave HS2' := (show (((sM.access (Rect.unit (s := S256x2048) (k0_off5 c (BitVec.ofNat 32 (128 * 2))) S256x128.size (k0_off5_inb c 2)) : View sig .tc _ _ _).loc (c : Thread nD τ) ↦[(sOwn c 2).view.set]{fullShare} Sbuf m c) : sProp 𝕄) ⊢ held (sOwn c 2) c (Sbuf m c) from Entails.of_eq rfl) $$ HS2'
  rw [show oYn c 6 = oYn c 5 + tallyAt (dCell (yn c) 3 2) () NS from rfl]
  iapply (send_y m K c _ (dev13_eq c) 2 fn2 (oYn c 5) _) $$ [HS2' HN2 HO TZ2 TY2]
  · isplitr; · iexact I22
    isplitr; · iexact IY2
    isplitl [HS2']; · iexact HS2'
    isplitl [HN2]; · iexact HN2
    isplitl [HO]; · iexact HO
    isplitl [TZ2]; · iexact TZ2
    isplitr; · iexact R22
    isplitl [TY2]; · iexact TY2
    iexact RY2
  iintro ⟨CZ2, HO⟩
  ihave CZ2 := (Entails.of_eq (hid_eq _).symm) $$ CZ2
  try rw [ret_bind']
  try sl_step
  sl_exec_parts
  -- the partner's block 3 has landed in X
  iapply (wait_xr m K c 3 (oYn c 5) _ (mayWait_xr c 3 5) (wpE_waitDma2_eq 𝒱₀ (c : Thread nD τ) none Set.univ)) $$ [CX3 HO A13]
  · isplitr; · iexact I13
    isplitl [CX3]; · iexact CX3
    isplitl [HO]; · iexact HO
    isplitr; · iexact Hlev
    iexact A13
  iintro ⟨HO, A13, #Q13, HX3⟩
  try rw [ret_bind']
  try sl_step
  unfold held
  sl_exec_parts
  -- S, block 3: the dead load and the store of the rounded reduced block, through the block held
  iapply (wp_load 𝒱₀ (c : Thread nD τ) none Set.univ (m := sM) (S_load_own c 3)) $$ HS3; iintro HS3
  iapply (wp_store 𝒱₀ (c : Thread nD τ) none Set.univ (m := sM) (r := (Rect.unit (s := S256x2048) (k0_off5 c (BitVec.ofNat 32 (128 * 3))) S256x128.size (k0_off5_inb c 3))) (Mk := Finset.univ) (S_store_own c 3)) $$ HS3; iintro HS3
  try rw [ret_bind']
  try sl_step
  sl_exec_parts
  -- the reduced block 3, staged, to the neighbour's S
  ihave HS3' := (Entails.of_eq (pointsTo_congr (g := Sbuf m c) (by intro i hi; exact S_store m c 3 f3 i hi))) $$ HS3
  ihave HS3' := (show (((sM.access (Rect.unit (s := S256x2048) (k0_off5 c (BitVec.ofNat 32 (128 * 3))) S256x128.size (k0_off5_inb c 3)) : View sig .tc _ _ _).loc (c : Thread nD τ) ↦[(sOwn c 3).view.set]{fullShare} Sbuf m c) : sProp 𝕄) ⊢ held (sOwn c 3) c (Sbuf m c) from Entails.of_eq rfl) $$ HS3'
  rw [show oYn c 5 = oYn c 4 + tallyAt (dCell (yn c) 3 3) () NS from rfl]
  iapply (send_y m K c _ (dev14_eq c) 3 fn3 (oYn c 4) _) $$ [HS3' HN3 HO TZ3 TY3]
  · isplitr; · iexact I23
    isplitr; · iexact IY3
    isplitl [HS3']; · iexact HS3'
    isplitl [HN3]; · iexact HN3
    isplitl [HO]; · iexact HO
    isplitl [TZ3]; · iexact TZ3
    isplitr; · iexact R23
    isplitl [TY3]; · iexact TY3
    iexact RY3
  iintro ⟨CZ3, HO⟩
  ihave CZ3 := (Entails.of_eq (hid_eq _).symm) $$ CZ3
  try rw [ret_bind']
  try sl_step
  sl_exec_parts
  -- the partner's block 4 has landed in X
  iapply (wait_xr m K c 4 (oYn c 4) _ (mayWait_xr c 4 4) (wpE_waitDma2_eq 𝒱₀ (c : Thread nD τ) none Set.univ)) $$ [CX4 HO A14]
  · isplitr; · iexact I14
    isplitl [CX4]; · iexact CX4
    isplitl [HO]; · iexact HO
    isplitr; · iexact Hlev
    iexact A14
  iintro ⟨HO, A14, #Q14, HX4⟩
  try rw [ret_bind']
  try sl_step
  unfold held
  sl_exec_parts
  -- S, block 4: the dead load and the store of the rounded reduced block, through the block held
  iapply (wp_load 𝒱₀ (c : Thread nD τ) none Set.univ (m := sM) (S_load_own c 4)) $$ HS4; iintro HS4
  iapply (wp_store 𝒱₀ (c : Thread nD τ) none Set.univ (m := sM) (r := (Rect.unit (s := S256x2048) (k0_off5 c (BitVec.ofNat 32 (128 * 4))) S256x128.size (k0_off5_inb c 4))) (Mk := Finset.univ) (S_store_own c 4)) $$ HS4; iintro HS4
  try rw [ret_bind']
  try sl_step
  sl_exec_parts
  -- the reduced block 4, staged, to the neighbour's S
  ihave HS4' := (Entails.of_eq (pointsTo_congr (g := Sbuf m c) (by intro i hi; exact S_store m c 4 f3 i hi))) $$ HS4
  ihave HS4' := (show (((sM.access (Rect.unit (s := S256x2048) (k0_off5 c (BitVec.ofNat 32 (128 * 4))) S256x128.size (k0_off5_inb c 4)) : View sig .tc _ _ _).loc (c : Thread nD τ) ↦[(sOwn c 4).view.set]{fullShare} Sbuf m c) : sProp 𝕄) ⊢ held (sOwn c 4) c (Sbuf m c) from Entails.of_eq rfl) $$ HS4'
  rw [show oYn c 4 = oYn c 3 + tallyAt (dCell (yn c) 3 4) () NS from rfl]
  iapply (send_y m K c _ (dev15_eq c) 4 fn4 (oYn c 3) _) $$ [HS4' HN4 HO TZ4 TY4]
  · isplitr; · iexact I24
    isplitr; · iexact IY4
    isplitl [HS4']; · iexact HS4'
    isplitl [HN4]; · iexact HN4
    isplitl [HO]; · iexact HO
    isplitl [TZ4]; · iexact TZ4
    isplitr; · iexact R24
    isplitl [TY4]; · iexact TY4
    iexact RY4
  iintro ⟨CZ4, HO⟩
  ihave CZ4 := (Entails.of_eq (hid_eq _).symm) $$ CZ4
  try rw [ret_bind']
  try sl_step
  sl_exec_parts
  -- the partner's block 5 has landed in X
  iapply (wait_xr m K c 5 (oYn c 3) _ (mayWait_xr c 5 3) (wpE_waitDma2_eq 𝒱₀ (c : Thread nD τ) none Set.univ)) $$ [CX5 HO A15]
  · isplitr; · iexact I15
    isplitl [CX5]; · iexact CX5
    isplitl [HO]; · iexact HO
    isplitr; · iexact Hlev
    iexact A15
  iintro ⟨HO, A15, #Q15, HX5⟩
  try rw [ret_bind']
  try sl_step
  unfold held
  sl_exec_parts
  -- S, block 5: the dead load and the store of the rounded reduced block, through the block held
  iapply (wp_load 𝒱₀ (c : Thread nD τ) none Set.univ (m := sM) (S_load_own c 5)) $$ HS5; iintro HS5
  iapply (wp_store 𝒱₀ (c : Thread nD τ) none Set.univ (m := sM) (r := (Rect.unit (s := S256x2048) (k0_off5 c (BitVec.ofNat 32 (128 * 5))) S256x128.size (k0_off5_inb c 5))) (Mk := Finset.univ) (S_store_own c 5)) $$ HS5; iintro HS5
  try rw [ret_bind']
  try sl_step
  sl_exec_parts
  -- the reduced block 5, staged, to the neighbour's S
  ihave HS5' := (Entails.of_eq (pointsTo_congr (g := Sbuf m c) (by intro i hi; exact S_store m c 5 f3 i hi))) $$ HS5
  ihave HS5' := (show (((sM.access (Rect.unit (s := S256x2048) (k0_off5 c (BitVec.ofNat 32 (128 * 5))) S256x128.size (k0_off5_inb c 5)) : View sig .tc _ _ _).loc (c : Thread nD τ) ↦[(sOwn c 5).view.set]{fullShare} Sbuf m c) : sProp 𝕄) ⊢ held (sOwn c 5) c (Sbuf m c) from Entails.of_eq rfl) $$ HS5'
  rw [show oYn c 3 = oYn c 2 + tallyAt (dCell (yn c) 3 5) () NS from rfl]
  iapply (send_y m K c _ (dev16_eq c) 5 fn5 (oYn c 2) _) $$ [HS5' HN5 HO TZ5 TY5]
  · isplitr; · iexact I25
    isplitr; · iexact IY5
    isplitl [HS5']; · iexact HS5'
    isplitl [HN5]; · iexact HN5
    isplitl [HO]; · iexact HO
    isplitl [TZ5]; · iexact TZ5
    isplitr; · iexact R25
    isplitl [TY5]; · iexact TY5
    iexact RY5
  iintro ⟨CZ5, HO⟩
  ihave CZ5 := (Entails.of_eq (hid_eq _).symm) $$ CZ5
  try rw [ret_bind']
  try sl_step
  sl_exec_parts
  -- the partner's block 6 has landed in X
  iapply (wait_xr m K c 6 (oYn c 2) _ (mayWait_xr c 6 2) (wpE_waitDma2_eq 𝒱₀ (c : Thread nD τ) none Set.univ)) $$ [CX6 HO A16]
  · isplitr; · iexact I16
    isplitl [CX6]; · iexact CX6
    isplitl [HO]; · iexact HO
    isplitr; · iexact Hlev
    iexact A16
  iintro ⟨HO, A16, #Q16, HX6⟩
  try rw [ret_bind']
  try sl_step
  unfold held
  sl_exec_parts
  -- S, block 6: the dead load and the store of the rounded reduced block, through the block held
  iapply (wp_load 𝒱₀ (c : Thread nD τ) none Set.univ (m := sM) (S_load_own c 6)) $$ HS6; iintro HS6
  iapply (wp_store 𝒱₀ (c : Thread nD τ) none Set.univ (m := sM) (r := (Rect.unit (s := S256x2048) (k0_off5 c (BitVec.ofNat 32 (128 * 6))) S256x128.size (k0_off5_inb c 6))) (Mk := Finset.univ) (S_store_own c 6)) $$ HS6; iintro HS6
  try rw [ret_bind']
  try sl_step
  sl_exec_parts
  -- the reduced block 6, staged, to the neighbour's S
  ihave HS6' := (Entails.of_eq (pointsTo_congr (g := Sbuf m c) (by intro i hi; exact S_store m c 6 f3 i hi))) $$ HS6
  ihave HS6' := (show (((sM.access (Rect.unit (s := S256x2048) (k0_off5 c (BitVec.ofNat 32 (128 * 6))) S256x128.size (k0_off5_inb c 6)) : View sig .tc _ _ _).loc (c : Thread nD τ) ↦[(sOwn c 6).view.set]{fullShare} Sbuf m c) : sProp 𝕄) ⊢ held (sOwn c 6) c (Sbuf m c) from Entails.of_eq rfl) $$ HS6'
  rw [show oYn c 2 = oYn c 1 + tallyAt (dCell (yn c) 3 6) () NS from rfl]
  iapply (send_y m K c _ (dev17_eq c) 6 fn6 (oYn c 1) _) $$ [HS6' HN6 HO TZ6 TY6]
  · isplitr; · iexact I26
    isplitr; · iexact IY6
    isplitl [HS6']; · iexact HS6'
    isplitl [HN6]; · iexact HN6
    isplitl [HO]; · iexact HO
    isplitl [TZ6]; · iexact TZ6
    isplitr; · iexact R26
    isplitl [TY6]; · iexact TY6
    iexact RY6
  iintro ⟨CZ6, HO⟩
  ihave CZ6 := (Entails.of_eq (hid_eq _).symm) $$ CZ6
  try rw [ret_bind']
  try sl_step
  sl_exec_parts
  -- the partner's block 7 has landed in X
  iapply (wait_xr m K c 7 (oYn c 1) _ (mayWait_xr c 7 1) (wpE_waitDma2_eq 𝒱₀ (c : Thread nD τ) none Set.univ)) $$ [CX7 HO A17]
  · isplitr; · iexact I17
    isplitl [CX7]; · iexact CX7
    isplitl [HO]; · iexact HO
    isplitr; · iexact Hlev
    iexact A17
  iintro ⟨HO, A17, #Q17, HX7⟩
  try rw [ret_bind']
  try sl_step
  unfold held
  sl_exec_parts
  -- S, block 7: the dead load and the store of the rounded reduced block, through the block held
  iapply (wp_load 𝒱₀ (c : Thread nD τ) none Set.univ (m := sM) (S_load_own c 7)) $$ HS7; iintro HS7
  iapply (wp_store 𝒱₀ (c : Thread nD τ) none Set.univ (m := sM) (r := (Rect.unit (s := S256x2048) (k0_off5 c (BitVec.ofNat 32 (128 * 7))) S256x128.size (k0_off5_inb c 7))) (Mk := Finset.univ) (S_store_own c 7)) $$ HS7; iintro HS7
  try rw [ret_bind']
  try sl_step
  sl_exec_parts
  -- the reduced block 7, staged, to the neighbour's S
  ihave HS7' := (Entails.of_eq (pointsTo_congr (g := Sbuf m c) (by intro i hi; exact S_store m c 7 f3 i hi))) $$ HS7
  ihave HS7' := (show (((sM.access (Rect.unit (s := S256x2048) (k0_off5 c (BitVec.ofNat 32 (128 * 7))) S256x128.size (k0_off5_inb c 7)) : View sig .tc _ _ _).loc (c : Thread nD τ) ↦[(sOwn c 7).view.set]{fullShare} Sbuf m c) : sProp 𝕄) ⊢ held (sOwn c 7) c (Sbuf m c) from Entails.of_eq rfl) $$ HS7'
  rw [show oYn c 1 = oYn c 0 + tallyAt (dCell (yn c) 3 7) () NS from rfl]
  iapply (send_y m K c _ (dev18_eq c) 7 fn7 (oYn c 0) _) $$ [HS7' HN7 HO TZ7 TY7]
  · isplitr; · iexact I27
    isplitr; · iexact IY7
    isplitl [HS7']; · iexact HS7'
    isplitl [HN7]; · iexact HN7
    isplitl [HO]; · iexact HO
    isplitl [TZ7]; · iexact TZ7
    isplitr; · iexact R27
    isplitl [TY7]; · iexact TY7
    iexact RY7
  iintro ⟨CZ7, HO⟩
  ihave CZ7 := (Entails.of_eq (hid_eq _).symm) $$ CZ7
  try rw [ret_bind']
  try sl_step
  sl_exec_parts
  rw [show oYn c 0 = (0 : CellTallies nD τ sig Unit) from rfl]
  -- the neighbour's block 0 has landed in S
  ihave CY0 := (Entails.of_eq (hid_eq _)) $$ CY0
  iapply (wait_yr m K c 0 0 _ (by rw [MayWait_zero]; iintro -; iempintro) (wpE_waitDma2_eq 𝒱₀ (c : Thread nD τ) none Set.univ)) $$ [CY0 HO A30]
  · isplitr; · iexact I30
    isplitl [CY0]; · iexact CY0
    isplitl [HO]; · iexact HO
    isplitr; · iexact Hlev
    iexact A30
  iintro ⟨HO, A30, #Q30, HT0⟩
  try rw [ret_bind']
  -- S, block 0 of the other half: read back through the block that landed
  iapply (wp_load 𝒱₀ (c : Thread nD τ) none Set.univ (m := sM) (S_load_oth c 0)) $$ HT0; iintro HT0
  try rw [ret_bind']
  try sl_step
  sl_exec_parts
  -- the neighbour's block 1 has landed in S
  ihave CY1 := (Entails.of_eq (hid_eq _)) $$ CY1
  iapply (wait_yr m K c 1 0 _ (by rw [MayWait_zero]; iintro -; iempintro) (wpE_waitDma2_eq 𝒱₀ (c : Thread nD τ) none Set.univ)) $$ [CY1 HO A31]
  · isplitr; · iexact I31
    isplitl [CY1]; · iexact CY1
    isplitl [HO]; · iexact HO
    isplitr; · iexact Hlev
    iexact A31
  iintro ⟨HO, A31, #Q31, HT1⟩
  try rw [ret_bind']
  -- S, block 1 of the other half: read back through the block that landed
  iapply (wp_load 𝒱₀ (c : Thread nD τ) none Set.univ (m := sM) (S_load_oth c 1)) $$ HT1; iintro HT1
  try rw [ret_bind']
  try sl_step
  sl_exec_parts
  -- the neighbour's block 2 has landed in S
  ihave CY2 := (Entails.of_eq (hid_eq _)) $$ CY2
  iapply (wait_yr m K c 2 0 _ (by rw [MayWait_zero]; iintro -; iempintro) (wpE_waitDma2_eq 𝒱₀ (c : Thread nD τ) none Set.univ)) $$ [CY2 HO A32]
  · isplitr; · iexact I32
    isplitl [CY2]; · iexact CY2
    isplitl [HO]; · iexact HO
    isplitr; · iexact Hlev
    iexact A32
  iintro ⟨HO, A32, #Q32, HT2⟩
  try rw [ret_bind']
  -- S, block 2 of the other half: read back through the block that landed
  iapply (wp_load 𝒱₀ (c : Thread nD τ) none Set.univ (m := sM) (S_load_oth c 2)) $$ HT2; iintro HT2
  try rw [ret_bind']
  try sl_step
  sl_exec_parts
  -- the neighbour's block 3 has landed in S
  ihave CY3 := (Entails.of_eq (hid_eq _)) $$ CY3
  iapply (wait_yr m K c 3 0 _ (by rw [MayWait_zero]; iintro -; iempintro) (wpE_waitDma2_eq 𝒱₀ (c : Thread nD τ) none Set.univ)) $$ [CY3 HO A33]
  · isplitr; · iexact I33
    isplitl [CY3]; · iexact CY3
    isplitl [HO]; · iexact HO
    isplitr; · iexact Hlev
    iexact A33
  iintro ⟨HO, A33, #Q33, HT3⟩
  try rw [ret_bind']
  -- S, block 3 of the other half: read back through the block that landed
  iapply (wp_load 𝒱₀ (c : Thread nD τ) none Set.univ (m := sM) (S_load_oth c 3)) $$ HT3; iintro HT3
  try rw [ret_bind']
  try sl_step
  sl_exec_parts
  -- the neighbour's block 4 has landed in S
  ihave CY4 := (Entails.of_eq (hid_eq _)) $$ CY4
  iapply (wait_yr m K c 4 0 _ (by rw [MayWait_zero]; iintro -; iempintro) (wpE_waitDma2_eq 𝒱₀ (c : Thread nD τ) none Set.univ)) $$ [CY4 HO A34]
  · isplitr; · iexact I34
    isplitl [CY4]; · iexact CY4
    isplitl [HO]; · iexact HO
    isplitr; · iexact Hlev
    iexact A34
  iintro ⟨HO, A34, #Q34, HT4⟩
  try rw [ret_bind']
  -- S, block 4 of the other half: read back through the block that landed
  iapply (wp_load 𝒱₀ (c : Thread nD τ) none Set.univ (m := sM) (S_load_oth c 4)) $$ HT4; iintro HT4
  try rw [ret_bind']
  try sl_step
  sl_exec_parts
  -- the neighbour's block 5 has landed in S
  ihave CY5 := (Entails.of_eq (hid_eq _)) $$ CY5
  iapply (wait_yr m K c 5 0 _ (by rw [MayWait_zero]; iintro -; iempintro) (wpE_waitDma2_eq 𝒱₀ (c : Thread nD τ) none Set.univ)) $$ [CY5 HO A35]
  · isplitr; · iexact I35
    isplitl [CY5]; · iexact CY5
    isplitl [HO]; · iexact HO
    isplitr; · iexact Hlev
    iexact A35
  iintro ⟨HO, A35, #Q35, HT5⟩
  try rw [ret_bind']
  -- S, block 5 of the other half: read back through the block that landed
  iapply (wp_load 𝒱₀ (c : Thread nD τ) none Set.univ (m := sM) (S_load_oth c 5)) $$ HT5; iintro HT5
  try rw [ret_bind']
  try sl_step
  sl_exec_parts
  -- the neighbour's block 6 has landed in S
  ihave CY6 := (Entails.of_eq (hid_eq _)) $$ CY6
  iapply (wait_yr m K c 6 0 _ (by rw [MayWait_zero]; iintro -; iempintro) (wpE_waitDma2_eq 𝒱₀ (c : Thread nD τ) none Set.univ)) $$ [CY6 HO A36]
  · isplitr; · iexact I36
    isplitl [CY6]; · iexact CY6
    isplitl [HO]; · iexact HO
    isplitr; · iexact Hlev
    iexact A36
  iintro ⟨HO, A36, #Q36, HT6⟩
  try rw [ret_bind']
  -- S, block 6 of the other half: read back through the block that landed
  iapply (wp_load 𝒱₀ (c : Thread nD τ) none Set.univ (m := sM) (S_load_oth c 6)) $$ HT6; iintro HT6
  try rw [ret_bind']
  try sl_step
  sl_exec_parts
  -- the neighbour's block 7 has landed in S
  ihave CY7 := (Entails.of_eq (hid_eq _)) $$ CY7
  iapply (wait_yr m K c 7 0 _ (by rw [MayWait_zero]; iintro -; iempintro) (wpE_waitDma2_eq 𝒱₀ (c : Thread nD τ) none Set.univ)) $$ [CY7 HO A37]
  · isplitr; · iexact I37
    isplitl [CY7]; · iexact CY7
    isplitl [HO]; · iexact HO
    isplitr; · iexact Hlev
    iexact A37
  iintro ⟨HO, A37, #Q37, HT7⟩
  try rw [ret_bind']
  -- S, block 7 of the other half: read back through the block that landed
  iapply (wp_load 𝒱₀ (c : Thread nD τ) none Set.univ (m := sM) (S_load_oth c 7)) $$ HT7; iintro HT7
  try rw [ret_bind']
  try sl_step
  sl_exec_parts
  ihave CS0 := (Entails.of_eq (hid_eq _)) $$ CS0
  iapply (wait_xs m K c 0 0 _ (by rw [MayWait_zero]; iintro -; iempintro) (wpE_waitDma2_eq 𝒱₀ (c : Thread nD τ) none Set.univ)) $$ [CS0 HO A00]
  · isplitr; · iexact I00
    isplitl [CS0]; · iexact CS0
    isplitl [HO]; · iexact HO
    isplitr; · iexact Hlev
    iexact A00
  iintro ⟨HO, A00, #Q00, HPb0⟩
  try rw [ret_bind']
  try sl_exec_parts
  ihave CZ0 := (Entails.of_eq (hid_eq _)) $$ CZ0
  iapply (wait_ys m K c 0 0 _ (by rw [MayWait_zero]; iintro -; iempintro) (wpE_waitDma2_eq 𝒱₀ (c : Thread nD τ) none Set.univ)) $$ [CZ0 HO A20]
  · isplitr; · iexact I20
    isplitl [CZ0]; · iexact CZ0
    isplitl [HO]; · iexact HO
    isplitr; · iexact Hlev
    iexact A20
  iintro ⟨HO, A20, #Q20, HSb0⟩
  try rw [ret_bind']
  try sl_exec_parts
  ihave CS1 := (Entails.of_eq (hid_eq _)) $$ CS1
  iapply (wait_xs m K c 1 0 _ (by rw [MayWait_zero]; iintro -; iempintro) (wpE_waitDma2_eq 𝒱₀ (c : Thread nD τ) none Set.univ)) $$ [CS1 HO A01]
  · isplitr; · iexact I01
    isplitl [CS1]; · iexact CS1
    isplitl [HO]; · iexact HO
    isplitr; · iexact Hlev
    iexact A01
  iintro ⟨HO, A01, #Q01, HPb1⟩
  try rw [ret_bind']
  try sl_exec_parts
  ihave CZ1 := (Entails.of_eq (hid_eq _)) $$ CZ1
  iapply (wait_ys m K c 1 0 _ (by rw [MayWait_zero]; iintro -; iempintro) (wpE_waitDma2_eq 𝒱₀ (c : Thread nD τ) none Set.univ)) $$ [CZ1 HO A21]
  · isplitr; · iexact I21
    isplitl [CZ1]; · iexact CZ1
    isplitl [HO]; · iexact HO
    isplitr; · iexact Hlev
    iexact A21
  iintro ⟨HO, A21, #Q21, HSb1⟩
  try rw [ret_bind']
  try sl_exec_parts
  ihave CS2 := (Entails.of_eq (hid_eq _)) $$ CS2
  iapply (wait_xs m K c 2 0 _ (by rw [MayWait_zero]; iintro -; iempintro) (wpE_waitDma2_eq 𝒱₀ (c : Thread nD τ) none Set.univ)) $$ [CS2 HO A02]
  · isplitr; · iexact I02
    isplitl [CS2]; · iexact CS2
    isplitl [HO]; · iexact HO
    isplitr; · iexact Hlev
    iexact A02
  iintro ⟨HO, A02, #Q02, HPb2⟩
  try rw [ret_bind']
  try sl_exec_parts
  ihave CZ2 := (Entails.of_eq (hid_eq _)) $$ CZ2
  iapply (wait_ys m K c 2 0 _ (by rw [MayWait_zero]; iintro -; iempintro) (wpE_waitDma2_eq 𝒱₀ (c : Thread nD τ) none Set.univ)) $$ [CZ2 HO A22]
  · isplitr; · iexact I22
    isplitl [CZ2]; · iexact CZ2
    isplitl [HO]; · iexact HO
    isplitr; · iexact Hlev
    iexact A22
  iintro ⟨HO, A22, #Q22, HSb2⟩
  try rw [ret_bind']
  try sl_exec_parts
  ihave CS3 := (Entails.of_eq (hid_eq _)) $$ CS3
  iapply (wait_xs m K c 3 0 _ (by rw [MayWait_zero]; iintro -; iempintro) (wpE_waitDma2_eq 𝒱₀ (c : Thread nD τ) none Set.univ)) $$ [CS3 HO A03]
  · isplitr; · iexact I03
    isplitl [CS3]; · iexact CS3
    isplitl [HO]; · iexact HO
    isplitr; · iexact Hlev
    iexact A03
  iintro ⟨HO, A03, #Q03, HPb3⟩
  try rw [ret_bind']
  try sl_exec_parts
  ihave CZ3 := (Entails.of_eq (hid_eq _)) $$ CZ3
  iapply (wait_ys m K c 3 0 _ (by rw [MayWait_zero]; iintro -; iempintro) (wpE_waitDma2_eq 𝒱₀ (c : Thread nD τ) none Set.univ)) $$ [CZ3 HO A23]
  · isplitr; · iexact I23
    isplitl [CZ3]; · iexact CZ3
    isplitl [HO]; · iexact HO
    isplitr; · iexact Hlev
    iexact A23
  iintro ⟨HO, A23, #Q23, HSb3⟩
  try rw [ret_bind']
  try sl_exec_parts
  ihave CS4 := (Entails.of_eq (hid_eq _)) $$ CS4
  iapply (wait_xs m K c 4 0 _ (by rw [MayWait_zero]; iintro -; iempintro) (wpE_waitDma2_eq 𝒱₀ (c : Thread nD τ) none Set.univ)) $$ [CS4 HO A04]
  · isplitr; · iexact I04
    isplitl [CS4]; · iexact CS4
    isplitl [HO]; · iexact HO
    isplitr; · iexact Hlev
    iexact A04
  iintro ⟨HO, A04, #Q04, HPb4⟩
  try rw [ret_bind']
  try sl_exec_parts
  ihave CZ4 := (Entails.of_eq (hid_eq _)) $$ CZ4
  iapply (wait_ys m K c 4 0 _ (by rw [MayWait_zero]; iintro -; iempintro) (wpE_waitDma2_eq 𝒱₀ (c : Thread nD τ) none Set.univ)) $$ [CZ4 HO A24]
  · isplitr; · iexact I24
    isplitl [CZ4]; · iexact CZ4
    isplitl [HO]; · iexact HO
    isplitr; · iexact Hlev
    iexact A24
  iintro ⟨HO, A24, #Q24, HSb4⟩
  try rw [ret_bind']
  try sl_exec_parts
  ihave CS5 := (Entails.of_eq (hid_eq _)) $$ CS5
  iapply (wait_xs m K c 5 0 _ (by rw [MayWait_zero]; iintro -; iempintro) (wpE_waitDma2_eq 𝒱₀ (c : Thread nD τ) none Set.univ)) $$ [CS5 HO A05]
  · isplitr; · iexact I05
    isplitl [CS5]; · iexact CS5
    isplitl [HO]; · iexact HO
    isplitr; · iexact Hlev
    iexact A05
  iintro ⟨HO, A05, #Q05, HPb5⟩
  try rw [ret_bind']
  try sl_exec_parts
  ihave CZ5 := (Entails.of_eq (hid_eq _)) $$ CZ5
  iapply (wait_ys m K c 5 0 _ (by rw [MayWait_zero]; iintro -; iempintro) (wpE_waitDma2_eq 𝒱₀ (c : Thread nD τ) none Set.univ)) $$ [CZ5 HO A25]
  · isplitr; · iexact I25
    isplitl [CZ5]; · iexact CZ5
    isplitl [HO]; · iexact HO
    isplitr; · iexact Hlev
    iexact A25
  iintro ⟨HO, A25, #Q25, HSb5⟩
  try rw [ret_bind']
  try sl_exec_parts
  ihave CS6 := (Entails.of_eq (hid_eq _)) $$ CS6
  iapply (wait_xs m K c 6 0 _ (by rw [MayWait_zero]; iintro -; iempintro) (wpE_waitDma2_eq 𝒱₀ (c : Thread nD τ) none Set.univ)) $$ [CS6 HO A06]
  · isplitr; · iexact I06
    isplitl [CS6]; · iexact CS6
    isplitl [HO]; · iexact HO
    isplitr; · iexact Hlev
    iexact A06
  iintro ⟨HO, A06, #Q06, HPb6⟩
  try rw [ret_bind']
  try sl_exec_parts
  ihave CZ6 := (Entails.of_eq (hid_eq _)) $$ CZ6
  iapply (wait_ys m K c 6 0 _ (by rw [MayWait_zero]; iintro -; iempintro) (wpE_waitDma2_eq 𝒱₀ (c : Thread nD τ) none Set.univ)) $$ [CZ6 HO A26]
  · isplitr; · iexact I26
    isplitl [CZ6]; · iexact CZ6
    isplitl [HO]; · iexact HO
    isplitr; · iexact Hlev
    iexact A26
  iintro ⟨HO, A26, #Q26, HSb6⟩
  try rw [ret_bind']
  try sl_exec_parts
  ihave CS7 := (Entails.of_eq (hid_eq _)) $$ CS7
  iapply (wait_xs m K c 7 0 _ (by rw [MayWait_zero]; iintro -; iempintro) (wpE_waitDma2_eq 𝒱₀ (c : Thread nD τ) none Set.univ)) $$ [CS7 HO A07]
  · isplitr; · iexact I07
    isplitl [CS7]; · iexact CS7
    isplitl [HO]; · iexact HO
    isplitr; · iexact Hlev
    iexact A07
  iintro ⟨HO, A07, #Q07, HPb7⟩
  try rw [ret_bind']
  try sl_exec_parts
  ihave CZ7 := (Entails.of_eq (hid_eq _)) $$ CZ7
  iapply (wait_ys m K c 7 0 _ (by rw [MayWait_zero]; iintro -; iempintro) (wpE_waitDma2_eq 𝒱₀ (c : Thread nD τ) none Set.univ)) $$ [CZ7 HO A27]
  · isplitr; · iexact I27
    isplitl [CZ7]; · iexact CZ7
    isplitl [HO]; · iexact HO
    isplitr; · iexact Hlev
    iexact A27
  iintro ⟨HO, A27, #Q27, HSb7⟩
  try rw [ret_bind']
  imod (close_own m K c 0 0) $$ [A00] with Z00
  · isplitr; · iexact I00
    iexact A00
  imod (close_own m K c 0 1) $$ [A01] with Z01
  · isplitr; · iexact I01
    iexact A01
  imod (close_own m K c 0 2) $$ [A02] with Z02
  · isplitr; · iexact I02
    iexact A02
  imod (close_own m K c 0 3) $$ [A03] with Z03
  · isplitr; · iexact I03
    iexact A03
  imod (close_own m K c 0 4) $$ [A04] with Z04
  · isplitr; · iexact I04
    iexact A04
  imod (close_own m K c 0 5) $$ [A05] with Z05
  · isplitr; · iexact I05
    iexact A05
  imod (close_own m K c 0 6) $$ [A06] with Z06
  · isplitr; · iexact I06
    iexact A06
  imod (close_own m K c 0 7) $$ [A07] with Z07
  · isplitr; · iexact I07
    iexact A07
  imod (close_own m K c 1 0) $$ [A10] with Z10
  · isplitr; · iexact I10
    iexact A10
  imod (close_own m K c 1 1) $$ [A11] with Z11
  · isplitr; · iexact I11
    iexact A11
  imod (close_own m K c 1 2) $$ [A12] with Z12
  · isplitr; · iexact I12
    iexact A12
  imod (close_own m K c 1 3) $$ [A13] with Z13
  · isplitr; · iexact I13
    iexact A13
  imod (close_own m K c 1 4) $$ [A14] with Z14
  · isplitr; · iexact I14
    iexact A14
  imod (close_own m K c 1 5) $$ [A15] with Z15
  · isplitr; · iexact I15
    iexact A15
  imod (close_own m K c 1 6) $$ [A16] with Z16
  · isplitr; · iexact I16
    iexact A16
  imod (close_own m K c 1 7) $$ [A17] with Z17
  · isplitr; · iexact I17
    iexact A17
  imod (close_own m K c 2 0) $$ [A20] with Z20
  · isplitr; · iexact I20
    iexact A20
  imod (close_own m K c 2 1) $$ [A21] with Z21
  · isplitr; · iexact I21
    iexact A21
  imod (close_own m K c 2 2) $$ [A22] with Z22
  · isplitr; · iexact I22
    iexact A22
  imod (close_own m K c 2 3) $$ [A23] with Z23
  · isplitr; · iexact I23
    iexact A23
  imod (close_own m K c 2 4) $$ [A24] with Z24
  · isplitr; · iexact I24
    iexact A24
  imod (close_own m K c 2 5) $$ [A25] with Z25
  · isplitr; · iexact I25
    iexact A25
  imod (close_own m K c 2 6) $$ [A26] with Z26
  · isplitr; · iexact I26
    iexact A26
  imod (close_own m K c 2 7) $$ [A27] with Z27
  · isplitr; · iexact I27
    iexact A27
  imod (close_own m K c 3 0) $$ [A30] with Z30
  · isplitr; · iexact I30
    iexact A30
  imod (close_own m K c 3 1) $$ [A31] with Z31
  · isplitr; · iexact I31
    iexact A31
  imod (close_own m K c 3 2) $$ [A32] with Z32
  · isplitr; · iexact I32
    iexact A32
  imod (close_own m K c 3 3) $$ [A33] with Z33
  · isplitr; · iexact I33
    iexact A33
  imod (close_own m K c 3 4) $$ [A34] with Z34
  · isplitr; · iexact I34
    iexact A34
  imod (close_own m K c 3 5) $$ [A35] with Z35
  · isplitr; · iexact I35
    iexact A35
  imod (close_own m K c 3 6) $$ [A36] with Z36
  · isplitr; · iexact I36
    iexact A36
  imod (close_own m K c 3 7) $$ [A37] with Z37
  · isplitr; · iexact I37
    iexact A37
  try sl_step
  ihave HT0 := (show ((sM.view.loc (c : Thread nD τ) ↦[(sOth c 0).view.set]{fullShare} Sbuf m c) : sProp 𝕄) ⊢ held (sOth c 0) c (Sbuf m c) from Entails.of_eq rfl) $$ HT0
  ihave HT1 := (show ((sM.view.loc (c : Thread nD τ) ↦[(sOth c 1).view.set]{fullShare} Sbuf m c) : sProp 𝕄) ⊢ held (sOth c 1) c (Sbuf m c) from Entails.of_eq rfl) $$ HT1
  ihave HT2 := (show ((sM.view.loc (c : Thread nD τ) ↦[(sOth c 2).view.set]{fullShare} Sbuf m c) : sProp 𝕄) ⊢ held (sOth c 2) c (Sbuf m c) from Entails.of_eq rfl) $$ HT2
  ihave HT3 := (show ((sM.view.loc (c : Thread nD τ) ↦[(sOth c 3).view.set]{fullShare} Sbuf m c) : sProp 𝕄) ⊢ held (sOth c 3) c (Sbuf m c) from Entails.of_eq rfl) $$ HT3
  ihave HT4 := (show ((sM.view.loc (c : Thread nD τ) ↦[(sOth c 4).view.set]{fullShare} Sbuf m c) : sProp 𝕄) ⊢ held (sOth c 4) c (Sbuf m c) from Entails.of_eq rfl) $$ HT4
  ihave HT5 := (show ((sM.view.loc (c : Thread nD τ) ↦[(sOth c 5).view.set]{fullShare} Sbuf m c) : sProp 𝕄) ⊢ held (sOth c 5) c (Sbuf m c) from Entails.of_eq rfl) $$ HT5
  ihave HT6 := (show ((sM.view.loc (c : Thread nD τ) ↦[(sOth c 6).view.set]{fullShare} Sbuf m c) : sProp 𝕄) ⊢ held (sOth c 6) c (Sbuf m c) from Entails.of_eq rfl) $$ HT6
  ihave HT7 := (show ((sM.view.loc (c : Thread nD τ) ↦[(sOth c 7).view.set]{fullShare} Sbuf m c) : sProp 𝕄) ⊢ held (sOth c 7) c (Sbuf m c) from Entails.of_eq rfl) $$ HT7
  -- what the body hands back
  unfold bodyPost Φ₁ scratch Dat.owesAt Pipeline.owesWithin
  rw [show (dats m 0 c).owed t0_0.succ = 0 from rfl]
  isplitl [HPb0 HPb1 HPb2 HPb3 HPb4 HPb5 HPb6 HPb7 Hw HX0 HX1 HX2 HX3 HX4 HX5 HX6 HX7 HSb0 HSb1 HSb2 HSb3 HSb4 HSb5 HSb6 HSb7 HT0 HT1 HT2 HT3 HT4 HT5 HT6 HT7 Z00 Z01 Z02 Z03 Z04 Z05 Z06 Z07 Z10 Z11 Z12 Z13 Z14 Z15 Z16 Z17 Z20 Z21 Z22 Z23 Z24 Z25 Z26 Z27 Z30 Z31 Z32 Z33 Z34 Z35 Z36 Z37]
  · isplitl [HPb0 HPb1 HPb2 HPb3 HPb4 HPb5 HPb6 HPb7 Hw HX0 HX1 HX2 HX3 HX4 HX5 HX6 HX7 HSb0 HSb1 HSb2 HSb3 HSb4 HSb5 HSb6 HSb7 HT0 HT1 HT2 HT3 HT4 HT5 HT6 HT7]
    · isplitl [HPb0 HPb1 HPb2 HPb3 HPb4 HPb5 HPb6 HPb7]
      · iexists (Pbuf m c)
        iapply (split_P c (Pbuf m c)).2
        rw [bigSep_fin8]
        isplitl [HPb0]; · iexact HPb0
        isplitl [HPb1]; · iexact HPb1
        isplitl [HPb2]; · iexact HPb2
        isplitl [HPb3]; · iexact HPb3
        isplitl [HPb4]; · iexact HPb4
        isplitl [HPb5]; · iexact HPb5
        isplitl [HPb6]; · iexact HPb6
        iexact HPb7
      isplitl [Hw]
      · iexists _; unfold held; iexact Hw
      isplitl [HX0 HX1 HX2 HX3 HX4 HX5 HX6 HX7]
      · iexists (Pbuf m (xp c))
        iapply (split_X c (Pbuf m (xp c))).2
        rw [bigSep_fin8]
        isplitl [HX0]; · iexact HX0
        isplitl [HX1]; · iexact HX1
        isplitl [HX2]; · iexact HX2
        isplitl [HX3]; · iexact HX3
        isplitl [HX4]; · iexact HX4
        isplitl [HX5]; · iexact HX5
        isplitl [HX6]; · iexact HX6
        iexact HX7
      · iexists (Sbuf m c)
        iapply (split_S c (Sbuf m c)).2
        isplitl [HT0 HT1 HT2 HT3 HT4 HT5 HT6 HT7]
        · rw [bigSep_fin8]
          isplitl [HT0]; · iexact HT0
          isplitl [HT1]; · iexact HT1
          isplitl [HT2]; · iexact HT2
          isplitl [HT3]; · iexact HT3
          isplitl [HT4]; · iexact HT4
          isplitl [HT5]; · iexact HT5
          isplitl [HT6]; · iexact HT6
          iexact HT7
        · rw [bigSep_fin8]
          isplitl [HSb0]; · iexact HSb0
          isplitl [HSb1]; · iexact HSb1
          isplitl [HSb2]; · iexact HSb2
          isplitl [HSb3]; · iexact HSb3
          isplitl [HSb4]; · iexact HSb4
          isplitl [HSb5]; · iexact HSb5
          isplitl [HSb6]; · iexact HSb6
          iexact HSb7
    · simp only [bigSep_kr, bigSep_fin4, bigSep_fin8]
      isplitl [Z00 Z01 Z02 Z03 Z04 Z05 Z06 Z07]
      · isplitl [Z00]; · iexact Z00
        isplitl [Z01]; · iexact Z01
        isplitl [Z02]; · iexact Z02
        isplitl [Z03]; · iexact Z03
        isplitl [Z04]; · iexact Z04
        isplitl [Z05]; · iexact Z05
        isplitl [Z06]; · iexact Z06
        iexact Z07
      isplitl [Z10 Z11 Z12 Z13 Z14 Z15 Z16 Z17]
      · isplitl [Z10]; · iexact Z10
        isplitl [Z11]; · iexact Z11
        isplitl [Z12]; · iexact Z12
        isplitl [Z13]; · iexact Z13
        isplitl [Z14]; · iexact Z14
        isplitl [Z15]; · iexact Z15
        isplitl [Z16]; · iexact Z16
        iexact Z17
      isplitl [Z20 Z21 Z22 Z23 Z24 Z25 Z26 Z27]
      · isplitl [Z20]; · iexact Z20
        isplitl [Z21]; · iexact Z21
        isplitl [Z22]; · iexact Z22
        isplitl [Z23]; · iexact Z23
        isplitl [Z24]; · iexact Z24
        isplitl [Z25]; · iexact Z25
        isplitl [Z26]; · iexact Z26
        iexact Z27
      · isplitl [Z30]; · iexact Z30
        isplitl [Z31]; · iexact Z31
        isplitl [Z32]; · iexact Z32
        isplitl [Z33]; · iexact Z33
        isplitl [Z34]; · iexact Z34
        isplitl [Z35]; · iexact Z35
        isplitl [Z36]; · iexact Z36
        iexact Z37
  isplitl [HO]
  · iexists _
    isplitr
    rotate_left
    · iexact HO
    · ipureintro; exact fun _ _ => Or.inl trivial
  isplitl [Ha]
  · iexists _
    isplitr; · (ipureintro; rfl)
    unfold held; iexact Ha
  isplitl [Hb]
  · iexists _
    isplitr; · (ipureintro; rfl)
    unfold held; iexact Hb
  iexists _
  isplitr
  · ipureintro
    exact Eq.trans rfl (O_writes m c g2)
  unfold held; iexact Ho

/-- The pipeline's obligation for the one grid point, on every device. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) (fun _ => bodyPost m c)
  exact sound_body m c

end Cert.KernelIdeal.Rs

end
-- ==== Proof.Word.Partners.lean ====
/-
  The mesh is 2 × 2 × 4; device number d has coordinates (d / 8, (d / 4) % 2, d % 4). Every device talks to two
  others: the one that differs from it in the first coordinate only, and the one that differs in the second
  coordinate only. Both maps are involutions without fixed points, they commute, and they never meet. Every
  device number the kernel computes for a signal or a copy is one of the two.
-/
import proofs.«900391_g7700000000000392_dist_rsdw_v7x_xyz2x2x4_x_m512_d512_f2048_f32_1_alg».proof.Proof.Gen.Kernel

noncomputable section

namespace Cert.Kernel.Rs

open Cert.Kernel Cert.Kernel.Gen
open Idealize.ShloMosaic

/-- The device across the first mesh axis: first coordinate flipped, the others kept. -/
def xp (c : Dev nD) : Dev nD := ⟨k0_dev1 c, k0_dev1_lt c⟩
/-- The device across the second mesh axis: second coordinate flipped, the others kept. -/
def yn (c : Dev nD) : Dev nD := ⟨k0_dev2 c, k0_dev2_lt c⟩

theorem xp_val (c : Dev nD) : (xp c).val = (4 * ((c.val / 4) % 2) + (c.val % 4) + 8) - 8 * (c.val / 8) := k0_dev1_eq c
theorem yn_val (c : Dev nD) : (yn c).val = (8 * (c.val / 8) + (c.val % 4) + 4) - 4 * ((c.val / 4) % 2) := k0_dev2_eq c

theorem xp_xp (c : Dev nD) : xp (xp c) = c := by
  apply Fin.ext; rw [xp_val, xp_val]; have h : c.val < 16 := c.isLt; omega
theorem yn_yn (c : Dev nD) : yn (yn c) = c := by
  apply Fin.ext; rw [yn_val, yn_val]; have h : c.val < 16 := c.isLt; omega
theorem xp_yn (c : Dev nD) : xp (yn c) = yn (xp c) := by
  apply Fin.ext; rw [xp_val, yn_val, yn_val, xp_val]; have h : c.val < 16 := c.isLt; omega
theorem xp_ne (c : Dev nD) : xp c ≠ c := fun e => by
  have := congrArg Fin.val e; rw [xp_val] at this; have h : c.val < 16 := c.isLt; omega
theorem yn_ne (c : Dev nD) : yn c ≠ c := fun e => by
  have := congrArg Fin.val e; rw [yn_val] at this; have h : c.val < 16 := c.isLt; omega
theorem xp_ne_yn (c : Dev nD) : xp c ≠ yn c := fun e => by
  have := congrArg Fin.val e; rw [xp_val, yn_val] at this; have h : c.val < 16 := c.isLt; omega

/-- Flipping the first coordinate, as a permutation of the devices. -/
def xpE : Dev nD ≃ Dev nD := ⟨xp, xp, xp_xp, xp_xp⟩
/-- Flipping the second coordinate, as a permutation of the devices. -/
def ynE : Dev nD ≃ Dev nD := ⟨yn, yn, yn_yn, yn_yn⟩

/-- The first coordinate of a device (which half of the contracted axis, and which half of the result's rows, it holds). -/
def mx (c : Dev nD) : ℕ := c.val / 8
/-- The second coordinate of a device (which half of the result's columns it reduces). -/
def my (c : Dev nD) : ℕ := (c.val / 4) % 2

theorem mx_lt (c : Dev nD) : mx c < 2 := by unfold mx; have h : c.val < 16 := c.isLt; omega
theorem my_lt (c : Dev nD) : my c < 2 := by unfold my; omega
theorem mx_xp (c : Dev nD) : mx (xp c) = 1 - mx c := by unfold mx; rw [xp_val]; have h : c.val < 16 := c.isLt; omega
theorem my_xp (c : Dev nD) : my (xp c) = my c := by unfold my; rw [xp_val]; have h : c.val < 16 := c.isLt; omega
theorem mx_yn (c : Dev nD) : mx (yn c) = mx c := by unfold mx; rw [yn_val]; have h : c.val < 16 := c.isLt; omega
theorem my_yn (c : Dev nD) : my (yn c) = 1 - my c := by unfold my; rw [yn_val]; have h : c.val < 16 := c.isLt; omega

/-! The device numbers of the two signals and the sixteen copies. -/
theorem dev1_eq (c : Dev nD) : (⟨k0_dev1 c, k0_dev1_lt c⟩ : Dev nD) = xp c := rfl
theorem dev2_eq (c : Dev nD) : (⟨k0_dev2 c, k0_dev2_lt c⟩ : Dev nD) = yn c := rfl
theorem dev3_eq (c : Dev nD) : (⟨k0_dev3 c, k0_dev3_lt c⟩ : Dev nD) = xp c := Fin.ext ((k0_dev3_eq c).trans (k0_dev1_eq c).symm)
theorem dev4_eq (c : Dev nD) : (⟨k0_dev4 c, k0_dev4_lt c⟩ : Dev nD) = xp c := Fin.ext ((k0_dev4_eq c).trans (k0_dev1_eq c).symm)
theorem dev5_eq (c : Dev nD) : (⟨k0_dev5 c, k0_dev5_lt c⟩ : Dev nD) = xp c := Fin.ext ((k0_dev5_eq c).trans (k0_dev1_eq c).symm)
theorem dev6_eq (c : Dev nD) : (⟨k0_dev6 c, k0_dev6_lt c⟩ : Dev nD) = xp c := Fin.ext ((k0_dev6_eq c).trans (k0_dev1_eq c).symm)
theorem dev7_eq (c : Dev nD) : (⟨k0_dev7 c, k0_dev7_lt c⟩ : Dev nD) = xp c := Fin.ext ((k0_dev7_eq c).trans (k0_dev1_eq c).symm)
theorem dev8_eq (c : Dev nD) : (⟨k0_dev8 c, k0_dev8_lt c⟩ : Dev nD) = xp c := Fin.ext ((k0_dev8_eq c).trans (k0_dev1_eq c).symm)
theorem dev9_eq (c : Dev nD) : (⟨k0_dev9 c, k0_dev9_lt c⟩ : Dev nD) = xp c := Fin.ext ((k0_dev9_eq c).trans (k0_dev1_eq c).symm)
theorem dev10_eq (c : Dev nD) : (⟨k0_dev10 c, k0_dev10_lt c⟩ : Dev nD) = xp c := Fin.ext ((k0_dev10_eq c).trans (k0_dev1_eq c).symm)
theorem dev11_eq (c : Dev nD) : (⟨k0_dev11 c, k0_dev11_lt c⟩ : Dev nD) = yn c := Fin.ext ((k0_dev11_eq c).trans (k0_dev2_eq c).symm)
theorem dev12_eq (c : Dev nD) : (⟨k0_dev12 c, k0_dev12_lt c⟩ : Dev nD) = yn c := Fin.ext ((k0_dev12_eq c).trans (k0_dev2_eq c).symm)
theorem dev13_eq (c : Dev nD) : (⟨k0_dev13 c, k0_dev13_lt c⟩ : Dev nD) = yn c := Fin.ext ((k0_dev13_eq c).trans (k0_dev2_eq c).symm)
theorem dev14_eq (c : Dev nD) : (⟨k0_dev14 c, k0_dev14_lt c⟩ : Dev nD) = yn c := Fin.ext ((k0_dev14_eq c).trans (k0_dev2_eq c).symm)
theorem dev15_eq (c : Dev nD) : (⟨k0_dev15 c, k0_dev15_lt c⟩ : Dev nD) = yn c := Fin.ext ((k0_dev15_eq c).trans (k0_dev2_eq c).symm)
theorem dev16_eq (c : Dev nD) : (⟨k0_dev16 c, k0_dev16_lt c⟩ : Dev nD) = yn c := Fin.ext ((k0_dev16_eq c).trans (k0_dev2_eq c).symm)
theorem dev17_eq (c : Dev nD) : (⟨k0_dev17 c, k0_dev17_lt c⟩ : Dev nD) = yn c := Fin.ext ((k0_dev17_eq c).trans (k0_dev2_eq c).symm)
theorem dev18_eq (c : Dev nD) : (⟨k0_dev18 c, k0_dev18_lt c⟩ : Dev nD) = yn c := Fin.ext ((k0_dev18_eq c).trans (k0_dev2_eq c).symm)

end Cert.Kernel.Rs

end
-- ==== Proof.Word.Protocol.lean ====
/-
  The protocol of the kernel, as data.

  Every device holds four scratch buffers: P (its partial products for the rows its partner across the first axis
  reduces), W (its partial products for its own rows), X (where that partner's P lands) and S (the reduced block,
  rounded, both column halves: its own half written by itself, the other half landing from its neighbour across the
  second axis). P, W and X are 256 x 1024, S is 256 x 2048; all traffic moves in column blocks of 128 columns,
  eight per half.

  Cells. The barrier cell has one round with two duties: one unit from the partner across the first axis, handing
  over its X, and one unit from the neighbour across the second axis, handing over the half of its S this device
  writes. Each of the 32 copy cells has one round with one duty: a send cell gives the source block back once it is
  read, a receive cell hands over the destination block holding what was sent.

  Every block is stated against ONE function per buffer (`Pbuf`, `Wbuf`, `Sbuf`): the partner's `Pbuf` is what lands in
  X, and `Sbuf` is the same function for a device and its neighbour across the second axis.
-/
import proofs.«900391_g7700000000000392_dist_rsdw_v7x_xyz2x2x4_x_m512_d512_f2048_f32_1_alg».proof.Proof.Word.Partners
import proofs.«900391_g7700000000000392_dist_rsdw_v7x_xyz2x2x4_x_m512_d512_f2048_f32_1_alg».proof.Proof.Gen.Kernel.Launch
import proofs.«900391_g7700000000000392_dist_rsdw_v7x_xyz2x2x4_x_m512_d512_f2048_f32_1_alg».proof.Proof.Gen.Kernel.Frame
import Idealize.ShloMosaic.Lib.ValueIdx
import Idealize.ShloMosaic.Lib.Pipeline.Launch
import Idealize.ShloMosaic.Lib.Pipeline.Kit
import Idealize.ShloMosaic.Lib.Tactic

noncomputable section

namespace Cert.Kernel.Rs

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own rounds beside the kernel's (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Buffers, column blocks, cells -/

abbrev aM : Memref sig .tc .vmem S512x512 .f32 := Memref.whole cc0_stg0_0
abbrev bM : Memref sig .tc .vmem S512x2048 .f32 := Memref.whole cc0_stg1_0
abbrev oM : Memref sig .tc .vmem S256x2048 .f32 := Memref.whole cc0_stg2_0
abbrev pM : Memref sig .tc .vmem S256x1024 .bf16 := Memref.whole cc0_scratch0
abbrev wM : Memref sig .tc .vmem S256x1024 .f32 := Memref.whole cc0_scratch1
abbrev xM : Memref sig .tc .vmem S256x1024 .bf16 := Memref.whole cc0_scratch2
abbrev sM : Memref sig .tc .vmem S256x2048 .bf16 := Memref.whole cc0_scratch3

theorem blk_inb : ∀ r : Fin 8, ∀ a, (![0, 128 * r.val] : Fin 2 → Nat) a + S256x128.size a ≤ S256x1024.size a := by decide
theorem wide_inb : ∀ j : Fin 16, ∀ a, (![0, 128 * j.val] : Fin 2 → Nat) a + S256x128.size a ≤ S256x2048.size a := by decide

/-- Column block `r` of a 256 x 1024 buffer. -/
abbrev blk (r : Fin 8) : Rect S256x1024 := Rect.unit (s := S256x1024) ![0, 128 * r.val] S256x128.size (blk_inb r)
/-- Column block `j` of a 256 x 2048 buffer: blocks 0..7 the first column half, 8..15 the second. -/
abbrev wide (j : Fin 16) : Rect S256x2048 := Rect.unit (s := S256x2048) ![0, 128 * j.val] S256x128.size (wide_inb j)

/-- The wide block a device reduces itself (`own`) and the one its neighbour across the second axis sends it (`oth`). -/
def own (c : Dev nD) (r : Fin 8) : Fin 16 := ⟨8 * my c + r.val, by have := my_lt c; have := r.isLt; omega⟩
def oth (c : Dev nD) (r : Fin 8) : Fin 16 := ⟨8 * (1 - my c) + r.val, by have := r.isLt; omega⟩

/-- The 32 copy semaphores of a device, by family (0 send / 1 receive across the first axis, 2 send / 3 receive across
    the second) and column block. -/
def dS (k : Fin 4) (r : Fin 8) : DmaSem sig := ⟨3 + 8 * k.val + r.val, by have := k.isLt; have := r.isLt; show 3 + 8 * k.val + r.val < 35; omega⟩

abbrev barS : Sem sig := (SemArray.scalar (sig.barrier 0 rfl) : Sems sig S_).sem

abbrev barCell (c : Dev nD) : GSem nD τ sig := ((c : Thread nD τ), .reg barS)
abbrev dCell (c : Dev nD) (k : Fin 4) (r : Fin 8) : GSem nD τ sig := ((c : Thread nD τ), .dma (dS k r))

/-- The units of a copy into a block of X, and of a copy into a block of S. -/
abbrev NX : ℕ := (xM.slice (blk 0) (fun _ => rfl) : Memref sig .tc .vmem S256x128 .bf16).view.dmaCredit
abbrev NS : ℕ := (sM.slice (wide 0) (fun _ => rfl) : Memref sig .tc .vmem S256x128 .bf16).view.dmaCredit
theorem NX_pos : 0 < NX := View.dmaCredit_pos _ (by decide)
theorem NS_pos : 0 < NS := View.dmaCredit_pos _ (by decide)
/-- The units of family `k`'s copies. -/
def NK (k : Fin 4) : ℕ := if k.val < 2 then NX else NS
theorem NK_pos (k : Fin 4) : 0 < NK k := by unfold NK; split; exact NX_pos; exact NS_pos

/-! ## What is computed, block by block -/

/-- A 256 x 128 block of partial products (this device's 512 rows of the contracted axis), rounded to the narrow format. -/
def pProd (v : Vec F S512x256 .f32) (w : Vec F S512x128 .f32) : FVec F S256x128 .bf16 :=
  shapeCast S256x128 (truncf .bf16 (matmul dot_S512x256_S512x128_S256x128_0_0_1_1_n_n none (shapeCast S512x256 v shapeCasts_S512x256_S512x256)
    (shapeCast S512x128 w shapeCasts_S512x128_S512x128) (constant S256x128 .f32 0x00000000#32)) bitsLt_bf16_f32) shapeCasts_S256x128_S256x128
/-- The 256 x 1024 partial products of the device's own rows, kept wide. -/
def wProd (v : Vec F S512x256 .f32) (w : Vec F S512x1024 .f32) : FVec F S256x1024 .f32 :=
  shapeCast S256x1024 (matmul dot_S512x256_S512x1024_S256x1024_0_0_1_1_n_n none (shapeCast S512x256 v shapeCasts_S512x256_S512x256)
    (shapeCast S512x1024 w shapeCasts_S512x1024_S512x1024) (constant S256x1024 .f32 0x00000000#32)) shapeCasts_S256x1024_S256x1024
/-- Own partial products plus the partner's: the reduced block. -/
def red (a : Vec F S256x128 .f32) (b : Vec F S256x128 .bf16) : FVec F S256x128 .f32 := addf a (extf .f32 b bitsLt_bf16_f32)
/-- The reduced block rounded, as it is staged for the neighbour. -/
def redN (a : Vec F S256x128 .f32) (b : Vec F S256x128 .bf16) : FVec F S256x128 .bf16 :=
  shapeCast S256x128 (truncf .bf16 (red a b) bitsLt_bf16_f32) shapeCasts_S256x128_S256x128
/-- A staged block read back wide. -/
def widen (v : Vec F S256x128 .bf16) : FVec F S256x128 .f32 := extf .f32 v bitsLt_bf16_f32

/-- Device `c`'s blocks of the two arguments, as staged. -/
def argA (c : Dev nD) : (cc0_stg0_0 : Ref sig .tc).ty.Contents (Elt F) :=
  (win0_0.blk t0_0).view.read (Elt F) (m ((c : Thread nD τ).loc main_arg0))
def argB (c : Dev nD) : (cc0_stg1_0 : Ref sig .tc).ty.Contents (Elt F) :=
  (win0_1.blk t0_0).view.read (Elt F) (m ((c : Thread nD τ).loc main_arg1))

/-- The 256 columns of the first argument that belong to the partner's rows of the result / to the device's own. -/
def ldAp (c : Dev nD) : Vec F S512x256 .f32 :=
  aM.view.readAt (Elt F) (Rect.unit (s := S512x512) (k0_off1 c) S512x256.size (k0_off1_inb c)).toLoadRect (argA m c)
def ldAo (c : Dev nD) : Vec F S512x256 .f32 :=
  aM.view.readAt (Elt F) (Rect.unit (s := S512x512) (k0_off3 c) S512x256.size (k0_off3_inb c)).toLoadRect (argA m c)
/-- Column block `r` of the device's column half of the second argument, and that whole half. -/
def ldBr (c : Dev nD) (r : Fin 8) : Vec F S512x128 .f32 :=
  bM.view.readAt (Elt F) (Rect.unit (s := S512x2048) (k0_off2 c (BitVec.ofNat 32 (128 * r.val))) S512x128.size (k0_off2_inb c r)).toLoadRect (argB m c)
def ldBh (c : Dev nD) : Vec F S512x1024 .f32 :=
  bM.view.readAt (Elt F) (Rect.unit (s := S512x2048) (k0_off4 c) S512x1024.size (k0_off4_inb c)).toLoadRect (argB m c)

theorem row_lt {n : ℕ} (i : (⟨2, ![256, n]⟩ : Shape).Idx) : (i 0).val < 256 := (i 0).isLt
theorem col1024_lt (i : S256x1024.Idx) : (i 1).val < 1024 := (i 1).isLt
theorem col2048_lt (i : S256x2048.Idx) : (i 1).val < 2048 := (i 1).isLt

/-- An index of a 256 x 128 block from a row and a column inside the block. -/
def bix (p : ℕ) (hp : p < 256) (q : ℕ) : S256x128.Idx := ValueIdx.ix2 ⟨p, hp⟩ ⟨q % 128, Nat.mod_lt _ (by decide)⟩

/-- P of device `c`: column block `r` is the rounded product of the partner's columns of the first argument with column
    block `r` of the device's half of the second. -/
def Pbuf (c : Dev nD) : (cc0_scratch0 : Ref sig .tc).ty.Contents (Elt F) := fun i =>
  pProd (ldAp m c) (ldBr m c ⟨(i 1).val / 128, by have := col1024_lt i; omega⟩) (bix (i 0).val (row_lt i) (i 1).val)
/-- W of device `c`. -/
def Wbuf (c : Dev nD) : (cc0_scratch1 : Ref sig .tc).ty.Contents (Elt F) := wProd (ldAo m c) (ldBh m c)
/-- Reduced block `r` of device `c`: block `r` of its W plus block `r` of its partner's P. -/
def redBlk (c : Dev nD) (r : Fin 8) : FVec F S256x128 .f32 :=
  red (wM.view.readAt (Elt F) (blk r).toLoadRect (Wbuf m c)) (xM.view.readAt (Elt F) (blk r).toLoadRect (Pbuf m (xp c)))
/-- Of a device and its neighbour across the second axis, the one that reduces column half `h`. -/
def halfOf (c : Dev nD) (h : ℕ) : Dev nD := if my c = h then c else yn c
/-- S: wide block `j` is block `j % 8` of the device reducing half `j / 8`, rounded. The same function for a device and
    its neighbour across the second axis. -/
def Sbuf (c : Dev nD) : (cc0_scratch3 : Ref sig .tc).ty.Contents (Elt F) := fun i =>
  shapeCast S256x128 (truncf .bf16 (redBlk m (halfOf c ((i 1).val / 1024)) ⟨((i 1).val / 128) % 8, Nat.mod_lt _ (by decide)⟩) bitsLt_bf16_f32) shapeCasts_S256x128_S256x128
    (bix (i 0).val (row_lt i) (i 1).val)
/-- The result block of device `c`: its own column half unrounded, the other half read back from S. -/
def Obuf (c : Dev nD) : (cc0_stg2_0 : Ref sig .tc).ty.Contents (Elt F) := fun i =>
  if (i 1).val / 1024 = my c then redBlk m c ⟨((i 1).val / 128) % 8, Nat.mod_lt _ (by decide)⟩ (bix (i 0).val (row_lt i) (i 1).val)
  else widen (sM.view.readAt (Elt F) (wide ⟨(i 1).val / 128, by have := col2048_lt i; omega⟩).toLoadRect (Sbuf m c)) (bix (i 0).val (row_lt i) (i 1).val)

/-! ## Regional assertions -/

/-- Device `c` holds the part of a buffer a memref views, at contents `f`. -/
def held {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

/-- Block `r` of P and of X; the block of S a device writes and sends (`sOwn`), and the one that lands (`sOth`). -/
abbrev pBlk (r : Fin 8) : Memref sig .tc .vmem S256x128 .bf16 := pM.slice (blk r) (fun _ => rfl)
abbrev xBlk (r : Fin 8) : Memref sig .tc .vmem S256x128 .bf16 := xM.slice (blk r) (fun _ => rfl)
abbrev sOwn (c : Dev nD) (r : Fin 8) : Memref sig .tc .vmem S256x128 .bf16 :=
  sM.slice (Rect.unit (s := S256x2048) (k0_off6 c (BitVec.ofNat 32 (128 * r.val))) S256x128.size (k0_off6_inb c r)) (fun _ => rfl)
abbrev sOth (c : Dev nD) (r : Fin 8) : Memref sig .tc .vmem S256x128 .bf16 :=
  sM.slice (Rect.unit (s := S256x2048) (k0_off7 c (BitVec.ofNat 32 (128 * r.val))) S256x128.size (k0_off7_inb c r)) (fun _ => rfl)

/-! ## The schedule -/

/-- What the partner across the first axis hands over with its barrier unit: its X, and that its eight receive cells
    across the first axis are at their round. -/
def barPayX (c : Dev nD) : sProp 𝕄 :=
  iprop((∃ f, held xM (xp c) f) ∗ bigSep Finset.univ fun r : Fin 8 => reached ER (dCell (xp c) 1 r) 0)
/-- What the neighbour across the second axis hands over: the eight blocks of its S this device writes, and that its
    eight receive cells across the second axis are at their round. -/
def barPayY (c : Dev nD) : sProp 𝕄 :=
  iprop((bigSep Finset.univ fun r : Fin 8 => iprop(∃ f, held (sOwn c r) (yn c) f)) ∗ bigSep Finset.univ fun r : Fin 8 => reached ER (dCell (yn c) 3 r) 0)

/-- What a copy cell's unit hands its owner. -/
def copyPay (c : Dev nD) (k : Fin 4) (r : Fin 8) : sProp 𝕄 :=
  match k with
  | 0 => held (pBlk r) c (Pbuf m c)
  | 1 => held (xBlk r) c (Pbuf m (xp c))
  | 2 => held (sOwn c r) c (Sbuf m c)
  | 3 => held (sOth c r) c (Sbuf m c)

/-- The family and the column block of a copy semaphore, read off its number. -/
def kOf (q : DmaSem sig) : Fin 4 := ⟨((q.val - 3) / 8) % 4, Nat.mod_lt _ (by decide)⟩
def rOf (q : DmaSem sig) : Fin 8 := ⟨(q.val - 3) % 8, Nat.mod_lt _ (by decide)⟩
theorem kOf_dS (k : Fin 4) (r : Fin 8) : kOf (dS k r) = k := by
  apply Fin.ext; show ((3 + 8 * k.val + r.val - 3) / 8) % 4 = k.val; have := k.isLt; have := r.isLt; omega
theorem rOf_dS (k : Fin 4) (r : Fin 8) : rOf (dS k r) = r := by
  apply Fin.ext; show (3 + 8 * k.val + r.val - 3) % 8 = r.val; have := k.isLt; have := r.isLt; omega
theorem dS_inj {k k' : Fin 4} {r r' : Fin 8} (h : dS k r = dS k' r') : k = k' ∧ r = r' :=
  ⟨by rw [← kOf_dS k r, h, kOf_dS], by rw [← rOf_dS k r, h, rOf_dS]⟩

abbrev IsBar (g : GSem nD τ sig) : Prop := g.1.2 = .tc ∧ g.2 = .reg barS
abbrev IsCopy (g : GSem nD τ sig) : Prop := g.1.2 = .tc ∧ ∃ k : Fin 4, ∃ r : Fin 8, g.2 = .dma (dS k r)

/-- One round per cell. The barrier cell: duty `false` one unit from the partner across the first axis, duty `true` one
    unit from the neighbour across the second. A copy cell: the one duty `false`, the block's units. -/
def sched : Rounds.Schedule (GSem nD τ sig) Bool 𝕄 where
  duties g r := if r = 0 ∧ IsBar g then Finset.univ else if r = 0 ∧ IsCopy g then {false} else ∅
  unitless _ := False
  amount g _ _ := match g.2 with
    | .reg _ => 1
    | .dma q => NK (kOf q)
  payload g _ d :=
    match g.2 with
    | .reg _ => if d then barPayY g.1.1 else barPayX g.1.1
    | .dma q => copyPay m g.1.1 (kOf q) (rOf q)
  amount_pos g _ _ _ := by
    cases g.2 with
    | reg _ => exact Nat.one_pos
    | dma q => exact NK_pos _

end Cert.Kernel.Rs

end
-- ==== Proof.Word.Tables.lean ====
/-
  The schedule read cell by cell: which duties a cell's one round has, how many units each brings, how many the
  round expects in all, and what each hands the cell's owner. The barrier cell expects two units (one from each of the
  two devices that signal it); a copy cell expects the units of one 256 x 128 block.
-/
import proofs.«900391_g7700000000000392_dist_rsdw_v7x_xyz2x2x4_x_m512_d512_f2048_f32_1_alg».proof.Proof.Word.Protocol

noncomputable section

namespace Cert.Kernel.Rs

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Tables
variable (c : Dev nD) (k : Fin 4) (r : Fin 8)

theorem copy_ne_bar (q : DmaSem sig) : (SemLoc.dma q : SemLoc sig) ≠ .reg barS := fun h => by cases h
theorem not_bar_copy : ¬ IsBar (dCell c k r) := fun h => copy_ne_bar _ h.2

theorem duties_bar : (sched (F := F) m).duties (barCell c) 0 = Finset.univ := by dsimp only [sched]; exact if_pos ⟨rfl, rfl, rfl⟩
theorem duties_copy : (sched (F := F) m).duties (dCell c k r) 0 = {false} := by
  dsimp only [sched]; rw [if_neg (fun h => not_bar_copy c k r h.2)]; exact if_pos ⟨rfl, rfl, k, r, rfl⟩
theorem duties_later (g : GSem nD τ sig) : ∀ n, 1 ≤ n → (sched (F := F) m).duties g n = ∅ :=
  fun n hn => by dsimp only [sched]; rw [if_neg fun h => by omega, if_neg fun h => by omega]

theorem amount_bar (d : Bool) : (sched (F := F) m).amount (barCell c) 0 d = 1 := rfl
theorem amount_copy (d : Bool) : (sched (F := F) m).amount (dCell c k r) 0 d = NK k := by
  show NK (kOf (dS k r)) = NK k; rw [kOf_dS]

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_copy : (sched (F := F) m).expect (dCell c k r) 0 = NK k := by
  unfold Schedule.expect Schedule.amountOf; rw [duties_copy, Finset.sum_singleton, amount_copy]

theorem payload_bar_true : (sched (F := F) m).payload (barCell c) 0 true = barPayY c := rfl
theorem payload_bar_false : (sched (F := F) m).payload (barCell c) 0 false = barPayX c := rfl
theorem payload_copy (d : Bool) : (sched (F := F) m).payload (dCell c k r) 0 d = copyPay m c k r := by
  show copyPay m c (kOf (dS k r)) (rOf (dS k r)) = copyPay m c k r; rw [kOf_dS, rOf_dS]

/-- The barrier round with no duty taken yet: both payloads. -/
theorem rest_bar : bigSep ((sched (F := F) m).duties (barCell c) 0 \ ∅) (fun d => (sched (F := F) m).payload (barCell c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_copy : bigSep ((sched (F := F) m).duties (dCell c k r) 0 \ ∅) (fun d => (sched (F := F) m).payload (dCell c k r) 0 d) = copyPay m c k r := by
  rw [Finset.sdiff_empty, duties_copy, bigSep_singleton, payload_copy]

end Tables

instance held_storable {sp : Space} {s : Shape} {e : EltTy} (M : Memref sig .tc sp s e) (c : Dev nD) (f) :
    BI.Storable (upEmb : UEmb _ 𝕄) (held (F := F) M c f) := by unfold held; infer_instance

instance copyPay_storable (c : Dev nD) (k : Fin 4) (r : Fin 8) : BI.Storable (upEmb : UEmb _ 𝕄) (copyPay (F := F) m c k r) := by
  unfold copyPay; split <;> infer_instance

instance sched_payload_storable (g : GSem nD τ sig) (n : ℕ) (d : Bool) :
    BI.Storable (upEmb : UEmb _ 𝕄) ((sched (F := F) m).payload g n d) := by
  show BI.Storable upEmb (match g.2 with | .reg _ => if d then barPayY g.1.1 else barPayX g.1.1 | .dma q => copyPay m g.1.1 (kOf q) (rOf q))
  unfold barPayX barPayY
  (repeat' split) <;> infer_instance

end Cert.Kernel.Rs

end
-- ==== Proof.Word.Ghost.lean ====
/-
  What a device starts its body with, and what it leaves.

  Owed at launch, in the order it is paid: one unit to each of the two barrier cells it signals, the units of eight
  blocks to its partner's receive cells across the first axis, and of eight blocks to its neighbour's receive cells
  across the second axis. Levels: staging and send cells lowest, the barrier above them, the receive cells across the
  first axis above the barrier, those across the second axis on top; a device waits on a cell only while everything it
  still owes sits strictly higher, so no cycle of waits can form.
-/
import proofs.«900391_g7700000000000392_dist_rsdw_v7x_xyz2x2x4_x_m512_d512_f2048_f32_1_alg».proof.Proof.Word.Tables

noncomputable section

namespace Cert.Kernel.Rs

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Owed at launch; levels -/

def oX (c : Dev nD) : CellTallies nD τ sig Unit := ∑ r : Fin 8, tallyAt (dCell (xp c) 1 r) () NX
def oY (c : Dev nD) : CellTallies nD τ sig Unit := ∑ r : Fin 8, tallyAt (dCell (yn c) 3 r) () NS
/-- Summed so that the first payment (the signal across the first axis) is the last summand, the second the one before
    it, then the copies across the first axis, then those across the second. -/
def O₀ (c : Dev nD) : CellTallies nD τ sig Unit := oY c + oX c + tallyAt (barCell (yn c)) () 1 + tallyAt (barCell (xp c)) () 1

def L (g : GSem nD τ sig) : Finset Unit := if g.1.2 = .tc then {()} else ∅
/-- The level of a copy cell by family: send cells 0, receive across the first axis 2, receive across the second 3. -/
def lvK : Fin 4 → ℕ := ![0, 2, 0, 3]
def lv (g : GSem nD τ sig) (_ : Unit) : ℕ := match g.2 with
  | .reg _ => 1
  | .dma q => if 3 ≤ q.val then lvK (kOf q) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_copy (c : Dev nD) (k : Fin 4) (r : Fin 8) : lv (dCell c k r) () = lvK k := by
  show (if 3 ≤ (dS k r).val then lvK (kOf (dS k r)) else 0) = lvK k
  rw [if_pos (by show 3 ≤ 3 + 8 * k.val + r.val; omega), kOf_dS]

/-! ## The ghost state a body starts from -/

section Ghost
variable (K : GSem nD τ sig → ℕ) (c : Dev nD)

/-- The invariants a device's body opens: its own 33 cells, the two barrier cells it signals, and the sixteen receive
    cells it copies onto. -/
def invs : sProp 𝕄 :=
  iprop(cellInv ER (sched m) (K (barCell c)) (barCell c)
    ∗ (bigSep Finset.univ fun kr : Fin 4 × Fin 8 => cellInv ER (sched m) (K (dCell c kr.1 kr.2)) (dCell c kr.1 kr.2))
    ∗ cellInv ER (sched m) (K (barCell (xp c))) (barCell (xp c)) ∗ cellInv ER (sched m) (K (barCell (yn c))) (barCell (yn c))
    ∗ (bigSep Finset.univ fun r : Fin 8 => cellInv ER (sched m) (K (dCell (xp c) 1 r)) (dCell (xp c) 1 r))
    ∗ (bigSep Finset.univ fun r : Fin 8 => cellInv ER (sched m) (K (dCell (yn c) 3 r)) (dCell (yn c) 3 r)))

/-- Its positions: round 0 of each of its own cells, nothing taken. -/
def poss : sProp 𝕄 :=
  iprop(atPos ER (barCell c) 0 ∅ 0 ∗ bigSep Finset.univ fun kr : Fin 4 × Fin 8 => atPos ER (dCell c kr.1 kr.2) 0 ∅ 0)

/-- Round 0 reached: of the cells it pays, and of its own copy cells (which it tells its two peers about). -/
def marks : sProp 𝕄 :=
  iprop(reached ER (barCell (xp c)) 0 ∗ reached ER (barCell (yn c)) 0
    ∗ (bigSep Finset.univ fun kr : Fin 4 × Fin 8 => reached ER (dCell c kr.1 kr.2) 0)
    ∗ (bigSep Finset.univ fun r : Fin 8 => reached ER (dCell (xp c) 1 r) 0)
    ∗ (bigSep Finset.univ fun r : Fin 8 => reached ER (dCell (yn c) 3 r) 0))

/-- The tokens of the duties it pays: its unit on each peer's barrier cell, the sixteen receive duties of its copies,
    and the sixteen send duties of its own send cells. -/
def payToks : sProp 𝕄 :=
  iprop(dutyTok ER (barCell (xp c)) 0 false ∗ dutyTok ER (barCell (yn c)) 0 true
    ∗ (bigSep Finset.univ fun r : Fin 8 => dutyTok ER (dCell (xp c) 1 r) 0 false)
    ∗ (bigSep Finset.univ fun r : Fin 8 => dutyTok ER (dCell (yn c) 3 r) 0 false)
    ∗ (bigSep Finset.univ fun r : Fin 8 => dutyTok ER (dCell c 0 r) 0 false)
    ∗ (bigSep Finset.univ fun r : Fin 8 => dutyTok ER (dCell c 2 r) 0 false))

def ghost : sProp 𝕄 := iprop(invs m K c ∗ poss c ∗ marks c ∗ payToks c)

instance invs_persistent : BI.Persistent (invs m K c) := by unfold invs; infer_instance
instance marks_persistent : BI.Persistent (marks (F := F) c) := by unfold marks; infer_instance

end Ghost

/-- The credit a device's waits consume: two units on its barrier cell, a block's units on each receive cell. -/
def creds (c : Dev nD) : sProp 𝕄 :=
  iprop(cred (tallyAt (barCell c) () 2)
    ∗ (bigSep Finset.univ fun r : Fin 8 => cred (tallyAt (dCell c 1 r) () NX))
    ∗ (bigSep Finset.univ fun r : Fin 8 => cred (tallyAt (dCell c 3 r) () NS)))

/-- What the launch deals a device besides its buffers. -/
def start (c : Dev nD) : sProp 𝕄 := iprop((∃ K, ghost m K c) ∗ creds c ∗ levAts L lv)

/-- The four scratch buffers, whole, at some contents. -/
def scratch (c : Dev nD) : sProp 𝕄 :=
  iprop((∃ f, held pM c f) ∗ (∃ f, held wM c f) ∗ (∃ f, held xM c f) ∗ (∃ f, held sM c f))

/-- Before the one grid point: the launch's deal and the scratch buffers. After it: the scratch buffers again and the
    32 copy semaphores back at zero. -/
def Φ₀ (c : Dev nD) : sProp 𝕄 := iprop(start m c ∗ scratch c)
def Φ₁ (c : Dev nD) : sProp 𝕄 := iprop(scratch (F := F) c ∗ bigSep Finset.univ fun kr : Fin 4 × Fin 8 => semVal (dCell c kr.1 kr.2) 0)

/-! ## The pipeline's proof data -/

abbrev 𝒱₀ : Variants := Variants.none

/-- The argument windows' staging buffers keep the arguments' blocks; the result window's ends at `Obuf`. -/
def dats (_ : Fin 1) (c : Dev nD) : Dat τ (Elt F) Unit ℕ UU ℕ cfg0 c where
  A w := m ((cfg0.win w).arr.view.loc (c : Thread nD τ))
  after w _ := match w with
    | ⟨0, _⟩ => argA m c
    | ⟨1, _⟩ => argB m c
    | ⟨2, _⟩ => Obuf m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Kernel.Rs

end
-- ==== Proof.Word.Levels.lean ====
/-
  The level evidence of the waits. A staging or send cell sits at level 0, the barrier cell at 1, a receive cell across
  the first axis at 2, one across the second axis at 3. Everything a device owes at launch sits at level 1 or higher;
  at its barrier wait it owes only receive cells (levels 2 and 3); at a wait on a receive cell across the first axis it
  owes only receive cells across the second (level 3). So every wait is strictly below what is still owed.
-/
import proofs.«900391_g7700000000000392_dist_rsdw_v7x_xyz2x2x4_x_m512_d512_f2048_f32_1_alg».proof.Proof.Word.Ghost

noncomputable section

namespace Cert.Kernel.Rs

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the owed tallies are positive -/

omit [FloatOps F] in
theorem oX_pos {c : Dev nD} {g : GSem nD τ sig} {u : Unit} (h : 0 < oX c g u) : ∃ r : Fin 8, g = dCell (xp c) 1 r := by
  unfold oX at h
  obtain ⟨r, _, hr⟩ := Pipeline.sum_pos_exists h
  exact ⟨r, (Pipeline.tallyAt_pos hr).1⟩

omit [FloatOps F] in
theorem oY_pos {c : Dev nD} {g : GSem nD τ sig} {u : Unit} (h : 0 < oY c g u) : ∃ r : Fin 8, g = dCell (yn c) 3 r := by
  unfold oY at h
  obtain ⟨r, _, hr⟩ := Pipeline.sum_pos_exists h
  exact ⟨r, (Pipeline.tallyAt_pos hr).1⟩

omit [FloatOps F] in
theorem O₀_pos {c : Dev nD} {g : GSem nD τ sig} {u : Unit} (h : 0 < O₀ c g u) :
    (∃ r : Fin 8, g = dCell (yn c) 3 r) ∨ (∃ r : Fin 8, g = dCell (xp c) 1 r) ∨ g = barCell (yn c) ∨ g = barCell (xp c) := by
  unfold O₀ at h
  rcases Pipeline.add_pos_cases h with h | h
  · rcases Pipeline.add_pos_cases h with h | h
    · rcases Pipeline.add_pos_cases h with h | h
      · exact Or.inl (oY_pos h)
      · exact Or.inr (Or.inl (oX_pos h))
    · exact Or.inr (Or.inr (Or.inl (Pipeline.tallyAt_pos h).1))
  · exact Or.inr (Or.inr (Or.inr (Pipeline.tallyAt_pos h).1))

omit [FloatOps F] in
theorem lv_stage (c : Dev nD) (q : DmaSem sig) (hq : q.val < 3) : lv ((c : Thread nD τ), .dma q) () = 0 := by
  show (if 3 ≤ q.val then lvK (kOf q) else 0) = 0
  rw [if_neg (by omega)]

omit [FloatOps F] in
theorem mem_L (c : Dev nD) (sm : SemLoc sig) : () ∈ L ((c : Thread nD τ), sm) := by
  rw [L_tc]; exact Finset.mem_singleton_self _

/-! ## The waits -/

omit [FloatOps F] in
/-- A wait on a staging cell (level 0), owing the launch's dues or nothing. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (mem_L c _) (fun g u hg => ?_)
    obtain ⟨⟩ := u
    rw [lv_stage c q hq]
    rcases O₀_pos hg with ⟨r, rfl⟩ | ⟨r, rfl⟩ | rfl | rfl
    · exact ⟨mem_L _ _, by rw [lv_copy]; decide⟩
    · exact ⟨mem_L _ _, by rw [lv_copy]; decide⟩
    · exact ⟨mem_L _ _, by rw [lv_bar]; decide⟩
    · exact ⟨mem_L _ _, by rw [lv_bar]; decide⟩
  · rw [MayWait_zero]; iintro -; iempintro

omit [FloatOps F] in
/-- The barrier wait (level 1): only the copies' receive duties are still owed (levels 2 and 3). -/
theorem mayWait_bar (c : Dev nD) :
    (levAts L lv : sProp 𝕄) ⊢ MayWait (c : Thread nD τ) (.reg barS) () (oY c + oX c) := by
  refine Pipeline.mayWait_of_levAts (mem_L c _) (fun g u hg => ?_)
  obtain ⟨⟩ := u
  rw [show lv ((c : Thread nD τ), .reg barS) () = 1 from rfl]
  rcases Pipeline.add_pos_cases hg with h | h
  · obtain ⟨r, rfl⟩ := oY_pos h
    exact ⟨mem_L _ _, by rw [lv_copy]; decide⟩
  · obtain ⟨r, rfl⟩ := oX_pos h
    exact ⟨mem_L _ _, by rw [lv_copy]; decide⟩

omit [FloatOps F] in
/-- A wait on a receive cell across the first axis (level 2), owing only receive duties across the second (level 3). -/
theorem mayWait_xrecv (c : Dev nD) (r : Fin 8) (O : CellTallies nD τ sig Unit) (hO : ∀ g u, 0 < O g u → ∃ r' : Fin 8, g = dCell (yn c) 3 r') :
    (levAts L lv : sProp 𝕄) ⊢ MayWait (c : Thread nD τ) (.dma (dS 1 r)) () O := by
  refine Pipeline.mayWait_of_levAts (mem_L c _) (fun g u hg => ?_)
  obtain ⟨⟩ := u
  obtain ⟨r', rfl⟩ := hO g () hg
  exact ⟨mem_L _ _, by rw [show lv ((c : Thread nD τ), .dma (dS 1 r)) () = lvK 1 from lv_copy c 1 r, lv_copy]; decide⟩

end Cert.Kernel.Rs

end
-- ==== Proof.Word.Launch.lean ====
/-
  The launch. Taking each device's body as proved, the whole program runs: the launch element funds every cell's round
  state, positions and duty tokens; each device's 33 cells are put under invariants; the tokens are dealt to the devices
  that pay them (a barrier duty and a receive duty go to the partner across the first axis or the neighbour across the
  second, both involutions of the mesh); the launch credit of what the sixteen devices owe is exactly each device's own
  waits; and the final arrays are read off the proof data.
-/
import proofs.«900391_g7700000000000392_dist_rsdw_v7x_xyz2x2x4_x_m512_d512_f2048_f32_1_alg».proof.Proof.Word.Levels
import proofs.«900391_g7700000000000392_dist_rsdw_v7x_xyz2x2x4_x_m512_d512_f2048_f32_1_alg».proof.Proof.Gen.Kernel.Points

noncomputable section

namespace Cert.Kernel.Rs

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the cells of the protocol -/

/-- The 32 scoped copy semaphores, by family and block. -/
abbrev osem : Fin 4 × Fin 8 → SemLoc sig := fun kr => .dma (dS kr.1 kr.2)

theorem ownSemFacts : Pipeline.OwnSemFacts cfg0.spec osem := by decide

theorem share_eq (c : Dev nD) (w : Fin cfg0.W) : (dats (F := F) m 0 c).share w = fullShare := by unfold Dat.share; split <;> rfl

/-- A device's cells: the barrier cell, then the 32 copy cells. -/
abbrev csem : Unit ⊕ Fin 4 × Fin 8 → SemLoc sig := fun | .inl _ => .reg barS | .inr kr => .dma (dS kr.1 kr.2)
abbrev kcell (cj : Dev nD × (Unit ⊕ Fin 4 × Fin 8)) : GSem nD τ sig := ((cj.1 : Thread nD τ), csem cj.2)

theorem csem_injective : Function.Injective csem := by
  rintro (_ | ⟨k, r⟩) (_ | ⟨k', r'⟩) h
  · rfl
  · exact absurd h.symm (copy_ne_bar _)
  · exact absurd h (copy_ne_bar _)
  · obtain ⟨hk, hr⟩ := dS_inj (SemLoc.dma.inj h); subst hk; subst hr; rfl

theorem kcell_injective : Function.Injective (kcell : Dev nD × (Unit ⊕ Fin 4 × Fin 8) → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_injective h2]

def allCells : Finset (GSem nD τ sig) := Finset.univ.map ⟨kcell, kcell_injective⟩

/-- The duty tokens as minted: a device's barrier duties `false` and `true`, and the one duty of each copy cell. -/
abbrev tokOf (cj : Dev nD × (Bool ⊕ Fin 4 × Fin 8)) : GSem nD τ sig × ℕ × Bool := match cj.2 with
  | .inl d => (barCell cj.1, 0, d)
  | .inr kr => (dCell cj.1 kr.1 kr.2, 0, false)

theorem tokOf_injective : Function.Injective (tokOf : Dev nD × (Bool ⊕ Fin 4 × Fin 8) → GSem nD τ sig × ℕ × Bool) := by
  rintro ⟨c, j⟩ ⟨c', j'⟩ h
  have h1 : c = c' := by
    have := congrArg (fun x : GSem nD τ sig × ℕ × Bool => x.1.1.1) h
    rcases j with d | kr <;> rcases j' with d' | kr' <;> exact this
  subst h1
  have : j = j' := by
    rcases j with d | ⟨k, r⟩ <;> rcases j' with d' | ⟨k', r'⟩
    · exact congrArg Sum.inl (congrArg (fun x : GSem nD τ sig × ℕ × Bool => x.2.2) h)
    · exact absurd (congrArg (fun x : GSem nD τ sig × ℕ × Bool => x.1.2) h).symm (copy_ne_bar _)
    · exact absurd (congrArg (fun x : GSem nD τ sig × ℕ × Bool => x.1.2) h) (copy_ne_bar _)
    · obtain ⟨hk, hr⟩ := dS_inj (SemLoc.dma.inj (congrArg (fun x : GSem nD τ sig × ℕ × Bool => x.1.2) h)); subst hk; subst hr; rfl
  subst this; rfl

def allToks : Finset (GSem nD τ sig × ℕ × Bool) := Finset.univ.map ⟨tokOf, tokOf_injective⟩

/-- The launch element: the pipeline's own, beside the protocol's. -/
def u₀ : UU :=
  (initOf (Pipeline.cells cfgs cellOf_inj) (Pipeline.launchToks cfgs cellOf_inj), initOf allCells allToks)

/-- An assertion at each of a device's 33 cells. -/
def perCell (Φ : GSem nD τ sig → sProp 𝕄) (c : Dev nD) : sProp 𝕄 :=
  iprop(Φ (barCell c) ∗ bigSep Finset.univ fun kr : Fin 4 × Fin 8 => Φ (dCell c kr.1 kr.2))

/-- The duty tokens of device `c`'s own cells. -/
def toks (c : Dev nD) : sProp 𝕄 :=
  iprop((dutyTok ER (barCell c) 0 false ∗ dutyTok ER (barCell c) 0 true) ∗ bigSep Finset.univ fun kr : Fin 4 × Fin 8 => dutyTok ER (dCell c kr.1 kr.2) 0 false)

/-- What the launch element deals device `c`. -/
def G (c : Dev nD) : sProp 𝕄 :=
  iprop(perCell (fun g => roundState ER (sched m) g 0) c ∗ perCell (fun g => atPos ER g 0 ∅ 0) c ∗ perCell (fun g => reached ER g 0) c ∗ toks c)

/-- What the global step makes of it. -/
def G' (c : Dev nD) : sProp 𝕄 := iprop(∃ K, ghost m K c)

omit [FloatOps F] in
theorem bigSep_cells (Φ : GSem nD τ sig → sProp 𝕄) : bigSep allCells Φ = bigSep Finset.univ fun c : Dev nD => perCell Φ c := by
  unfold allCells; rw [bigSep_map, bigSep_univ_prod]
  exact bigSep_congr fun c _ => by
    unfold perCell; rw [bigSep_univ_sum, bigSep_univ_of_subsingleton ()]; rfl

omit [FloatOps F] in
theorem bigSep_bool (Φ : Bool → sProp 𝕄) : bigSep Finset.univ Φ = iprop(Φ false ∗ Φ true) := by
  rw [bigSep_univ_eq_bigSepL [false, true] (by decide) (by decide), bigSepL_cons_cons, bigSepL_singleton]
  rfl

omit [FloatOps F] in
theorem bigSep_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by
    unfold toks; rw [bigSep_univ_sum, bigSep_bool]; rfl

theorem fund_cells : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (Entails.of_eq (bigSep_cells fun g => roundState ER (sched m) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq bigSep_toks) $$ Htok
  unfold G; simp only [bigSep_sep']
  isplitl [Hst']; · iexact Hst'
  isplitl [Hat']; · iexact Hat'
  isplitl [Hr']; · iexact Hr'
  iexact Htok'

/-! ## The global step: invariants on every cell, tokens to their payers -/

omit [FloatOps F] in
/-- The barrier semaphore is the one unscoped semaphore of a device. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (perCell (fun g => semVal g 0) c : sProp 𝕄) := by
  rw [unscopedSems0_eq]; unfold perCell Pipeline.ownSems0
  iintro ⟨HS, HB⟩
  isplitl [HB]; · iexact HB
  iexact HS

/-- Every cell at counter zero with its round state goes under an invariant, at names gathered into one function. -/
theorem cells_alloc :
    iprop((bigSep allCells fun g => semVal g 0) ∗ bigSep allCells fun g => roundState ER (sched m) g 0)
      ⊢ (|={Set.univ}=> ∃ K : GSem nD τ sig → ℕ, bigSep allCells fun g => cellInv ER (sched m) (K g) g : sProp 𝕄) := by
  iintro H
  imod (show iprop((bigSep allCells fun g => semVal g 0) ∗ bigSep allCells fun g => roundState ER (sched m) g 0)
      ⊢ (|={Set.univ}=> bigSep allCells fun g => iprop(∃ κ : ℕ, cellInv ER (sched m) κ g) : sProp 𝕄) from by
        rw [← bigSep_sep']
        exact (bigSep_mono fun g _ => (Rounds.body_intro ER (sched m) g).trans inv_alloc).trans (bigSep_fupd _ _)) $$ H with H
  imodintro
  iapply (BI.bigSep_exists_pi allCells (fun (g : GSem nD τ sig) (κ : ℕ) => (cellInv ER (sched m) κ g : sProp 𝕄)))
  iexact H

/-- The persistent records of the launch: every cell's invariant and that its round 0 is reached. -/
def records (K : GSem nD τ sig → ℕ) : sProp 𝕄 :=
  iprop((bigSep allCells fun g => cellInv ER (sched m) (K g) g) ∗ bigSep allCells fun g => reached ER g 0)

instance records_persistent (K : GSem nD τ sig → ℕ) : BI.Persistent (records m K) := by unfold records; infer_instance

omit [FloatOps F] in
theorem mem_cells_bar (c : Dev nD) : barCell c ∈ allCells := Finset.mem_map.mpr ⟨(c, .inl ()), Finset.mem_univ _, rfl⟩
omit [FloatOps F] in
theorem mem_cells_copy (c : Dev nD) (k : Fin 4) (r : Fin 8) : dCell c k r ∈ allCells := Finset.mem_map.mpr ⟨(c, .inr (k, r)), Finset.mem_univ _, rfl⟩

theorem inv_at (K : GSem nD τ sig → ℕ) (g : GSem nD τ sig) (hg : g ∈ allCells) :
    (bigSep allCells fun g => (cellInv ER (sched m) (K g) g : sProp 𝕄)) ⊢ cellInv ER (sched m) (K g) g := bigSep_elim hg
theorem invs_at (K : GSem nD τ sig → ℕ) {I : Type} [DecidableEq I] (s : Finset I) (f : I → GSem nD τ sig) (hf : ∀ i, f i ∈ allCells) :
    (bigSep allCells fun g => (cellInv ER (sched m) (K g) g : sProp 𝕄)) ⊢ bigSep s fun i => cellInv ER (sched m) (K (f i)) (f i) :=
  BI.bigSep_intro_persistent fun i _ => inv_at m K (f i) (hf i)
omit [FloatOps F] in
theorem reached_at (g : GSem nD τ sig) (hg : g ∈ allCells) :
    (bigSep allCells fun g => (reached ER g 0 : sProp 𝕄)) ⊢ reached ER g 0 := bigSep_elim hg
omit [FloatOps F] in
theorem reacheds_at {I : Type} [DecidableEq I] (s : Finset I) (f : I → GSem nD τ sig) (hf : ∀ i, f i ∈ allCells) :
    (bigSep allCells fun g => (reached ER g 0 : sProp 𝕄)) ⊢ bigSep s fun i => reached ER (f i) 0 :=
  BI.bigSep_intro_persistent fun i _ => reached_at (f i) (hf i)

theorem invs_intro (K : GSem nD τ sig → ℕ) (c : Dev nD) :
    (bigSep allCells fun g => (cellInv ER (sched m) (K g) g : sProp 𝕄)) ⊢ invs m K c := by
  unfold invs
  iintro #HI
  isplitr; · iapply (inv_at m K _ (mem_cells_bar c)); iexact HI
  isplitr; · iapply (invs_at m K Finset.univ (fun kr : Fin 4 × Fin 8 => dCell c kr.1 kr.2) fun kr => mem_cells_copy c kr.1 kr.2); iexact HI
  isplitr; · iapply (inv_at m K _ (mem_cells_bar (xp c))); iexact HI
  isplitr; · iapply (inv_at m K _ (mem_cells_bar (yn c))); iexact HI
  isplitr; · iapply (invs_at m K Finset.univ (fun r : Fin 8 => dCell (xp c) 1 r) fun r => mem_cells_copy (xp c) 1 r); iexact HI
  iapply (invs_at m K Finset.univ (fun r : Fin 8 => dCell (yn c) 3 r) fun r => mem_cells_copy (yn c) 3 r); iexact HI

omit [FloatOps F] in
theorem marks_intro (c : Dev nD) : (bigSep allCells fun g => (reached ER g 0 : sProp 𝕄)) ⊢ marks c := by
  unfold marks
  iintro #HR
  isplitr; · iapply (reached_at _ (mem_cells_bar (xp c))); iexact HR
  isplitr; · iapply (reached_at _ (mem_cells_bar (yn c))); iexact HR
  isplitr; · iapply (reacheds_at Finset.univ (fun kr : Fin 4 × Fin 8 => dCell c kr.1 kr.2) fun kr => mem_cells_copy c kr.1 kr.2); iexact HR
  isplitr; · iapply (reacheds_at Finset.univ (fun r : Fin 8 => dCell (xp c) 1 r) fun r => mem_cells_copy (xp c) 1 r); iexact HR
  iapply (reacheds_at Finset.univ (fun r : Fin 8 => dCell (yn c) 3 r) fun r => mem_cells_copy (yn c) 3 r); iexact HR

/-- The records, a device's positions and the tokens it pays with make its ghost state. -/
theorem ghost_intro (K : GSem nD τ sig → ℕ) (c : Dev nD) : iprop(records m K ∗ poss c ∗ payToks c) ⊢ G' m c := by
  unfold records G' ghost
  iintro ⟨⟨#HI, #HR⟩, Hp, Ht⟩
  iexists K
  isplitr; · iapply (invs_intro m K c); iexact HI
  isplitl [Hp]; · iexact Hp
  isplitr; · iapply (marks_intro c); iexact HR
  iexact Ht

omit [FloatOps F] in
theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A device's own tokens, family by family. -/
theorem toks_eq (c : Dev nD) : (toks c : sProp 𝕄) = iprop((dutyTok ER (barCell c) 0 false ∗ dutyTok ER (barCell c) 0 true)
    ∗ (bigSep Finset.univ fun r : Fin 8 => dutyTok ER (dCell c 0 r) 0 false) ∗ (bigSep Finset.univ fun r : Fin 8 => dutyTok ER (dCell c 1 r) 0 false)
    ∗ (bigSep Finset.univ fun r : Fin 8 => dutyTok ER (dCell c 2 r) 0 false) ∗ (bigSep Finset.univ fun r : Fin 8 => dutyTok ER (dCell c 3 r) 0 false)) := by
  unfold toks; rw [bigSep_univ_prod, bigSep_four]

omit [FloatOps F] in
/-- The tokens dealt to their payers: a barrier cell's duty `false` and the receive duties across the first axis go to the
    partner across the first axis, the duty `true` and the receive duties across the second axis to the neighbour across
    the second; the send duties stay. Both maps are involutions of the mesh. -/
theorem toks_around : (bigSep Finset.univ fun c : Dev nD => (toks c : sProp 𝕄)) ⊢ bigSep Finset.univ fun c : Dev nD => payToks c := by
  rw [bigSep_congr fun c _ => toks_eq c]
  unfold payToks
  simp only [bigSep_sep']
  rw [bigSep_univ_equiv xpE (fun c : Dev nD => (dutyTok ER (barCell c) 0 false : sProp 𝕄)),
    bigSep_univ_equiv ynE (fun c : Dev nD => (dutyTok ER (barCell c) 0 true : sProp 𝕄)),
    bigSep_univ_equiv xpE (fun c : Dev nD => (bigSep Finset.univ fun r : Fin 8 => dutyTok ER (dCell c 1 r) 0 false : sProp 𝕄)),
    bigSep_univ_equiv ynE (fun c : Dev nD => (bigSep Finset.univ fun r : Fin 8 => dutyTok ER (dCell c 3 r) 0 false : sProp 𝕄))]
  iintro ⟨⟨H1, H2⟩, H3, H4, H5, H6⟩
  isplitl [H1]; · iexact H1
  isplitl [H2]; · iexact H2
  isplitl [H4]; · iexact H4
  isplitl [H6]; · iexact H6
  isplitl [H3]; · iexact H3
  iexact H5

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem core_split (c : Dev nD) :
    iprop(Pipeline.ownSems0 (Ix := Unit) (Name := ℕ) (U := UU) (Lvl := ℕ) (Val := Elt F) (τ := τ) osem c ∗ unscopedSems0 c ∗ G m c)
      ⊢ iprop(perCell (fun g => semVal g 0) c ∗ perCell (fun g => roundState ER (sched m) g 0) c ∗ perCell (fun g => atPos ER g 0 ∅ 0) c
          ∗ perCell (fun g => reached ER g 0) c ∗ toks c) := by
  unfold G
  iintro ⟨Hos, Hus, Hst, Hat, Hr, Htok⟩
  isplitl [Hos Hus]
  · iapply (sems0_eq (F := F) c); isplitl [Hos] <;> iassumption
  isplitl [Hst]; · iexact Hst
  isplitl [Hat]; · iexact Hat
  isplitl [Hr]; · iexact Hr
  iexact Htok

theorem glob_regroup :
    (bigSep Finset.univ fun c : Dev nD => iprop(perCell (fun g => semVal g 0) c ∗ perCell (fun g => roundState ER (sched m) g 0) c ∗ perCell (fun g => atPos ER g 0 ∅ 0) c
          ∗ perCell (fun g => reached ER g 0) c ∗ toks c) : sProp 𝕄)
      ⊢ |={Set.univ}=> bigSep Finset.univ (G' m) := by
  simp only [bigSep_sep']
  rw [← bigSep_cells (fun g => semVal g 0), ← bigSep_cells (fun g => roundState ER (sched m) g 0), ← bigSep_cells (fun g => reached ER g 0)]
  iintro ⟨Hv, Hst, Hat, #HR, Htok⟩
  imod (cells_alloc m) $$ [Hv Hst] with ⟨%K, #HI⟩
  · isplitl [Hv] <;> iassumption
  imodintro
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (poss c : sProp 𝕄)) (fun c => payToks c)).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  (bigSep_mono fun c _ => core_split m c).trans (glob_regroup m)

/-! ## The launch credit -/

omit [FloatOps F] in
/-- The receive duties across the second axis, owed by every device to its neighbour, are each device's own credit. -/
theorem cred_oY (c : Dev nD) : (Pipeline.launchCred oY c : sProp 𝕄) ⊢ bigSep Finset.univ fun r : Fin 8 => cred (tallyAt (dCell c 3 r) () NS) := by
  have e : (oY : Dev nD → CellTallies nD τ sig Unit)
      = fun d => ∑ r ∈ (Finset.univ : Finset (Fin 8)), (fun (r : Fin 8) (d : Dev nD) => (tallyAt (dCell (yn d) 3 r) () NS : CellTallies nD τ sig Unit)) r d := rfl
  rw [e, Pipeline.launchCred_sum]
  exact bigSep_mono fun r _ => Pipeline.launchCred_tallyAt (.dma (dS 3 r)) yn yn yn_yn yn_yn () NS c

omit [FloatOps F] in
/-- The receive duties across the first axis likewise, through the partner map. -/
theorem cred_oX (c : Dev nD) : (Pipeline.launchCred oX c : sProp 𝕄) ⊢ bigSep Finset.univ fun r : Fin 8 => cred (tallyAt (dCell c 1 r) () NX) := by
  have e : (oX : Dev nD → CellTallies nD τ sig Unit)
      = fun d => ∑ r ∈ (Finset.univ : Finset (Fin 8)), (fun (r : Fin 8) (d : Dev nD) => (tallyAt (dCell (xp d) 1 r) () NX : CellTallies nD τ sig Unit)) r d := rfl
  rw [e, Pipeline.launchCred_sum]
  exact bigSep_mono fun r _ => Pipeline.launchCred_tallyAt (.dma (dS 1 r)) xp xp xp_xp xp_xp () NX c

omit [FloatOps F] in
theorem cred_two (c : Dev nD) : iprop(cred (tallyAt (barCell c) () 1) ∗ cred (tallyAt (barCell c) () 1)) ⊢ (cred (tallyAt (barCell c) () 2) : sProp 𝕄) := by
  rw [show (tallyAt (barCell c) () 2 : CellTallies nD τ sig Unit) = tallyAt (barCell c) () 1 + tallyAt (barCell c) () 1 from (tallyAt_add _ _ 1 1).symm]
  exact (cred_add _ _).2

omit [FloatOps F] in
/-- What the sixteen devices owe at launch is, device by device, the credit of its own waits. -/
theorem creds_intro (c : Dev nD) : (Pipeline.launchCred O₀ c : sProp 𝕄) ⊢ creds c := by
  have e : (O₀ : Dev nD → CellTallies nD τ sig Unit)
      = fun d => ((oY d + oX d) + tallyAt (barCell (yn d)) () 1) + tallyAt (barCell (xp d)) () 1 := rfl
  rw [e, Pipeline.launchCred_add (fun d => (oY d + oX d) + tallyAt (barCell (yn d)) () 1) (fun d => tallyAt (barCell (xp d)) () 1),
    Pipeline.launchCred_add (fun d => oY d + oX d) (fun d => tallyAt (barCell (yn d)) () 1),
    Pipeline.launchCred_add oY oX]
  iintro ⟨⟨⟨HY, HX⟩, HBy⟩, HBx⟩
  ihave HY' := (cred_oY (F := F) c) $$ HY
  ihave HX' := (cred_oX (F := F) c) $$ HX
  ihave H1 := (Pipeline.launchCred_tallyAt (.reg barS) yn yn yn_yn yn_yn () 1 c) $$ HBy
  ihave H2 := (Pipeline.launchCred_tallyAt (.reg barS) xp xp xp_xp xp_xp () 1 c) $$ HBx
  unfold creds
  isplitl [H1 H2]
  · iapply (cred_two (F := F) c); isplitl [H1] <;> iassumption
  isplitl [HX']; · iexact HX'
  iexact HY'

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

omit [FloatOps F] in
/-- A whole buffer held is the plain points-to of the buffer. -/
theorem held_whole (b : Ref sig .tc) (c : Dev nD) (f : Buf (Elt F) ((c : Thread nD τ).loc b)) :
    held (Memref.whole b) c f = (((c : Thread nD τ).loc b) ↦{fullShare} f : sProp 𝕄) := by
  unfold held; rw [View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, ⟨%f0, H0⟩, ⟨%f1, H1⟩, ⟨%f2, H2⟩, ⟨%f3, H3⟩⟩
  isplitl [Hs]; · iexact Hs
  isplitl [H0]; · iexists f0; rw [held_whole]; iexact H0
  isplitl [H1]; · iexists f1; rw [held_whole]; iexact H1
  isplitl [H2]; · iexists f2; rw [held_whole]; iexact H2
  iexists f3; rw [held_whole]; iexact H3

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scratch Pipeline.ownSems0
  iintro ⟨⟨⟨%f0, H0⟩, ⟨%f1, H1⟩, ⟨%f2, H2⟩, ⟨%f3, H3⟩⟩, Hz⟩
  isplitr; · iempintro
  isplitl [Hz]; · iexact Hz
  isplitl [H0]; · iexists f0; rw [← held_whole]; iexact H0
  isplitl [H1]; · iexists f1; rw [← held_whole]; iexact H1
  isplitl [H2]; · iexists f2; rw [← held_whole]; iexact H2
  iexists f3; rw [← held_whole]; iexact H3

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- With every device's body proved: from any memory with every counter at zero, every weakly fair execution of the
    program on the sixteen devices terminates, and every final state has each windowed array at the proof data's final
    contents. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays -/

/-- The result array ends as the result block the body leaves: the one point writes the whole staging buffer back. -/
theorem final_out (c : Dev nD) :
    (dats (F := F) m 0 c).arrAt (2 : Fin 3) cfg0.N = (Obuf m c : Buf (Elt F) ((c.tc : Thread nD τ).loc main_v1)) := by
  rw [show cfg0.N = (t0_0 : Fin cfg0.N).val + 1 from rfl, Dat.arrAt_succ, flush0_2, if_pos rfl]
  exact Memref.write_access_unit_zero_univ (Elt F) main_v1 (funext fun a => by fin_cases a <;> rfl) _ _ _

/-- The argument arrays are never written. -/
theorem final_arg0 (c : Dev nD) : (dats (F := F) m 0 c).arrAt (0 : Fin 3) cfg0.N = m ((c.tc : Thread nD τ).loc main_arg0) :=
  (dats (F := F) m 0 c).arrAt_in (0 : Fin 3) rfl _
theorem final_arg1 (c : Dev nD) : (dats (F := F) m 0 c).arrAt (1 : Fin 3) cfg0.N = m ((c.tc : Thread nD τ).loc main_arg1) :=
  (dats (F := F) m 0 c).arrAt_in (1 : Fin 3) rfl _

/-- The run with its strongest post: on every device the result array holds the result block, a pure function of the
    arguments as launched, and both argument arrays hold what they held. -/
theorem run (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = (Obuf m c : Buf (Elt F) ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c (2 : Fin 3)).trans (final_out m c), (h c (0 : Fin 3)).trans (final_arg0 m c), (h c (1 : Fin 3)).trans (final_arg1 m c)⟩)
    (run_main m ρ hbody)

end Cert.Kernel.Rs

end
-- ==== Proof.Word.Blocks.lean ====
/-
  A buffer held whole is the same as its column blocks held one by one.

  The 256 x 1024 buffers fall into eight blocks of 128 columns, the 256 x 2048 buffer into sixteen: the eight of the
  column half a device reduces itself and the eight of the half that lands from its neighbour across the second axis.
  What the neighbour calls its own half is this device's other half. A block copied between equally placed blocks of two
  buffers of one shape carries the source's values to the same indices.
-/
import proofs.«900391_g7700000000000392_dist_rsdw_v7x_xyz2x2x4_x_m512_d512_f2048_f32_1_alg».proof.Proof.Word.Ghost

noncomputable section

namespace Cert.Kernel.Rs

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The blocks of S, named three ways -/

/-- The block a device writes and sends is wide block `own c r`; the one that lands is wide block `oth c r`. -/
theorem off6_own (c : Dev nD) (r : Fin 8) : k0_off6 c (BitVec.ofNat 32 (128 * r.val)) = ![0, 128 * (own c r).val] := by
  have e : 1024 * ((c.val / 4) % 2) + 128 * r.val = 128 * (own c r).val := by
    show _ = 128 * (8 * my c + r.val); unfold my; omega
  rw [k0_off6_eq, e]
theorem off7_oth (c : Dev nD) (r : Fin 8) : k0_off7 c (BitVec.ofNat 32 (128 * r.val)) = ![0, 128 * (oth c r).val] := by
  have e : (128 * r.val + 1024) - 1024 * ((c.val / 4) % 2) = 128 * (oth c r).val := by
    show _ = 128 * (8 * (1 - my c) + r.val); unfold my; omega
  rw [k0_off7_eq, e]
theorem sOwn_eq_wide (c : Dev nD) (r : Fin 8) : sOwn c r = sM.slice (wide (own c r)) (fun _ => rfl) := by
  exact Memref.slice_unit_congr _ (off6_own c r) _ _ _ _
theorem sOth_eq_wide (c : Dev nD) (r : Fin 8) : sOth c r = sM.slice (wide (oth c r)) (fun _ => rfl) := by
  exact Memref.slice_unit_congr _ (off7_oth c r) _ _ _ _
/-- The neighbour's own half is this device's other half, and conversely. -/
theorem own_yn (c : Dev nD) (r : Fin 8) : own (yn c) r = oth c r := by
  apply Fin.ext; show 8 * my (yn c) + r.val = 8 * (1 - my c) + r.val; rw [my_yn]
theorem oth_yn (c : Dev nD) (r : Fin 8) : oth (yn c) r = own c r := by
  apply Fin.ext; show 8 * (1 - my (yn c)) + r.val = 8 * my c + r.val; rw [my_yn]; have := my_lt c; omega
theorem sOwn_yn (c : Dev nD) (r : Fin 8) : sOwn (yn c) r = sOth c r := by
  rw [sOwn_eq_wide, sOth_eq_wide, own_yn]
theorem sOth_yn (c : Dev nD) (r : Fin 8) : sOth (yn c) r = sOwn c r := by
  rw [sOth_eq_wide, sOwn_eq_wide, oth_yn]

/-- Blocks of S at equal offsets are held by the same assertion (the contents are the whole buffer's either way). -/
theorem held_sSlice_congr {off off' : Fin S256x2048.rank → ℕ} (h : off = off') (p : ∀ a, off a + S256x128.size a ≤ S256x2048.size a)
    (p' : ∀ a, off' a + S256x128.size a ≤ S256x2048.size a) (d : Dev nD) (g : (cc0_scratch3 : Ref sig .tc).ty.Contents (Elt F)) :
    held (F := F) (sM.slice (Rect.unit (s := S256x2048) off S256x128.size p) (fun _ => rfl)) d g
      = held (sM.slice (Rect.unit (s := S256x2048) off' S256x128.size p') (fun _ => rfl)) d g := by
  subst h; rfl
theorem held_sOwn (c d : Dev nD) (r : Fin 8) (g : (cc0_scratch3 : Ref sig .tc).ty.Contents (Elt F)) :
    held (F := F) (sOwn c r) d g = held (sM.slice (wide (own c r)) (fun _ => rfl)) d g :=
  held_sSlice_congr (off6_own c r) _ _ d g
theorem held_sOth (c d : Dev nD) (r : Fin 8) (g : (cc0_scratch3 : Ref sig .tc).ty.Contents (Elt F)) :
    held (F := F) (sOth c r) d g = held (sM.slice (wide (oth c r)) (fun _ => rfl)) d g :=
  held_sSlice_congr (off7_oth c r) _ _ d g
theorem held_sOth_yn (c d : Dev nD) (r : Fin 8) (g : (cc0_scratch3 : Ref sig .tc).ty.Contents (Elt F)) : held (F := F) (sOth (yn c) r) d g = held (sOwn c r) d g :=
  (held_sOth (yn c) d r g).trans
    ((congrArg (fun j => held (F := F) (sM.slice (wide j) (fun _ => rfl)) d g) (oth_yn c r)).trans (held_sOwn c d r g).symm)
theorem held_sOwn_yn (c d : Dev nD) (r : Fin 8) (g : (cc0_scratch3 : Ref sig .tc).ty.Contents (Elt F)) : held (F := F) (sOwn (yn c) r) d g = held (sOth c r) d g :=
  (held_sOwn (yn c) d r g).trans
    ((congrArg (fun j => held (F := F) (sM.slice (wide j) (fun _ => rfl)) d g) (own_yn c r)).trans (held_sOth c d r g).symm)

/-- Of a device and its neighbour across the second axis, the one reducing a given column half is the same whichever of
    the two asks. -/
theorem halfOf_yn (c : Dev nD) (h : ℕ) (hh : h < 2) : halfOf (yn c) h = halfOf c h := by
  unfold halfOf; rw [my_yn, yn_yn]
  have := my_lt c
  by_cases e : my c = h
  · rw [if_pos e, if_neg (by omega)]
  · rw [if_neg e, if_pos (by omega)]
theorem Sbuf_yn (c : Dev nD) : Sbuf m (yn c) = Sbuf m c := by
  funext i; unfold Sbuf; rw [halfOf_yn c _ (by have := col2048_lt i; omega)]

/-! ## Whole = blocks -/

/-- Every index of a 256 x 1024 buffer lies in exactly the column block numbered by its column over 128. -/
theorem blk_disjoint (r r' : Fin 8) (h : r ≠ r') : Disjoint (blk r).set (blk r').set := by
  rw [Finset.disjoint_left]; intro i hi hi'
  have h1 : 128 * r.val ≤ (i 1).val ∧ (i 1).val < 128 * r.val + 128 := Rect.mem_set_unit.mp hi 1
  have h2 : 128 * r'.val ≤ (i 1).val ∧ (i 1).val < 128 * r'.val + 128 := Rect.mem_set_unit.mp hi' 1
  exact h (Fin.ext (by omega))
theorem blk_cover : (Finset.univ : Finset (Fin 8)).biUnion (fun r => (blk r).set) = Finset.univ := by
  ext i
  simp only [Finset.mem_biUnion, Finset.mem_univ, true_and, iff_true]
  have h0 := row_lt i; have h1 := col1024_lt i
  refine ⟨⟨(i 1).val / 128, by omega⟩, Rect.mem_set_unit.mpr (Fin.forall_fin_two.mpr ⟨?_, ?_⟩)⟩
  · show 0 ≤ (i 0).val ∧ (i 0).val < 0 + 256; omega
  · show 128 * ((i 1).val / 128) ≤ (i 1).val ∧ (i 1).val < 128 * ((i 1).val / 128) + 128; omega
/-- Likewise the sixteen column blocks of a 256 x 2048 buffer. -/
theorem wide_disjoint (j j' : Fin 16) (h : j ≠ j') : Disjoint (wide j).set (wide j').set := by
  rw [Finset.disjoint_left]; intro i hi hi'
  have h1 : 128 * j.val ≤ (i 1).val ∧ (i 1).val < 128 * j.val + 128 := Rect.mem_set_unit.mp hi 1
  have h2 : 128 * j'.val ≤ (i 1).val ∧ (i 1).val < 128 * j'.val + 128 := Rect.mem_set_unit.mp hi' 1
  exact h (Fin.ext (by omega))
theorem wide_cover : (Finset.univ : Finset (Fin 16)).biUnion (fun j => (wide j).set) = Finset.univ := by
  ext i
  simp only [Finset.mem_biUnion, Finset.mem_univ, true_and, iff_true]
  have h0 := row_lt i; have h1 := col2048_lt i
  refine ⟨⟨(i 1).val / 128, by omega⟩, Rect.mem_set_unit.mpr (Fin.forall_fin_two.mpr ⟨?_, ?_⟩)⟩
  · show 0 ≤ (i 0).val ∧ (i 0).val < 0 + 256; omega
  · show 128 * ((i 1).val / 128) ≤ (i 1).val ∧ (i 1).val < 128 * ((i 1).val / 128) + 128; omega

/-- A whole buffer held is held rectangle by rectangle, for any finite family of pairwise disjoint rectangles that
    covers it. -/
theorem held_whole_split {T : Type} [Fintype T] (b : Ref sig .tc) (R : T → Rect b.ty.shape) (hR : ∀ t a, (R t).stride a = 1)
    (hd : ∀ t t', t ≠ t' → Disjoint (R t).set (R t').set) (hc : (Finset.univ : Finset T).biUnion (fun t => (R t).set) = Finset.univ)
    (c : Dev nD) (f : Buf (Elt F) ((Memref.whole b : Memref sig .tc _ _ _).view.loc (c : Thread nD τ))) :
    held (F := F) (Memref.whole b) c f = bigSep Finset.univ fun t => held ((Memref.whole b).slice (R t) (hR t)) c f := by
  have key := pointsTo_biUnion (Val := Elt F) (Ix := Unit) (Name := ℕ) (U := UU) (Lvl := ℕ)
    (ℓ := (Memref.whole b : Memref sig .tc _ _ _).view.loc (c : Thread nD τ)) (q := fullShare) (f := f)
    (Finset.univ : Finset T) (fun t => (R t).set) (fun t _ t' _ h => hd t t' h)
  rw [hc] at key
  unfold held
  rw [show (Memref.whole b : Memref sig .tc _ _ _).view.set = Finset.univ from View.set_whole b]
  refine key.trans (bigSep_congr fun t _ => ?_)
  rw [show ((Memref.whole b : Memref sig .tc _ _ _).slice (R t) (hR t)).view.set = (R t).set from View.set_slice_whole b (R t)]

/-- The sixteen wide blocks, counted as a device's other eight and its own eight. -/
def half (c : Dev nD) : Fin 8 ⊕ Fin 8 → Fin 16 := Sum.elim (oth c) (own c)
theorem half_bij (c : Dev nD) : Function.Bijective (half c) := by
  refine (Fintype.bijective_iff_injective_and_card _).mpr ⟨?_, by simp⟩
  have hm := my_lt c
  intro t t' h
  have h' : (half c t).val = (half c t').val := congrArg Fin.val h
  rcases t with r | r <;> rcases t' with r' | r'
  · have e : 8 * (1 - my c) + r.val = 8 * (1 - my c) + r'.val := h'
    exact congrArg Sum.inl (Fin.ext (by omega))
  · have e : 8 * (1 - my c) + r.val = 8 * my c + r'.val := h'
    have := r.isLt; have := r'.isLt; omega
  · have e : 8 * my c + r.val = 8 * (1 - my c) + r'.val := h'
    have := r.isLt; have := r'.isLt; omega
  · have e : 8 * my c + r.val = 8 * my c + r'.val := h'
    exact congrArg Sum.inr (Fin.ext (by omega))

theorem split_P (c : Dev nD) (f : Buf (Elt F) (pM.view.loc (c : Thread nD τ))) :
    held (F := F) pM c f ⊣⊢ bigSep Finset.univ fun r : Fin 8 => held (pBlk r) c f :=
  BiEntails.of_eq (held_whole_split cc0_scratch0 blk (fun _ _ => rfl) blk_disjoint blk_cover c f)
theorem split_X (c : Dev nD) (f : Buf (Elt F) (xM.view.loc (c : Thread nD τ))) :
    held (F := F) xM c f ⊣⊢ bigSep Finset.univ fun r : Fin 8 => held (xBlk r) c f :=
  BiEntails.of_eq (held_whole_split cc0_scratch2 blk (fun _ _ => rfl) blk_disjoint blk_cover c f)
theorem split_S (c : Dev nD) (f : Buf (Elt F) (sM.view.loc (c : Thread nD τ))) :
    held (F := F) sM c f ⊣⊢ iprop((bigSep Finset.univ fun r : Fin 8 => held (sOth c r) c f) ∗ bigSep Finset.univ fun r : Fin 8 => held (sOwn c r) c f) := by
  refine BiEntails.of_eq ?_
  have e1 := held_whole_split (F := F) cc0_scratch3 wide (fun _ _ => rfl) wide_disjoint wide_cover c f
  have e2 := bigSep_univ_equiv (M := 𝕄) (Equiv.ofBijective (half c) (half_bij c))
    (fun j : Fin 16 => held (F := F) (sM.slice (wide j) (fun _ => rfl)) c f)
  have e3 := bigSep_univ_sum (M := 𝕄) (fun t : Fin 8 ⊕ Fin 8 => held (F := F) (sM.slice (wide (half c t)) (fun _ => rfl)) c f)
  have hoth : ∀ r : Fin 8, held (F := F) (sOth c r) c f = held (sM.slice (wide (half c (.inl r))) (fun _ => rfl)) c f :=
    fun r => held_sOth c c r f
  have hown : ∀ r : Fin 8, held (F := F) (sOwn c r) c f = held (sM.slice (wide (half c (.inr r))) (fun _ => rfl)) c f :=
    fun r => held_sOwn c c r f
  simp only [hoth, hown]
  exact e1.trans (e2.trans e3)

/-! ## A landed block holds the source's values -/

theorem land_X (r : Fin 8) (g : (cc0_scratch0 : Ref sig .tc).ty.Contents (Elt F)) (fd : (cc0_scratch2 : Ref sig .tc).ty.Contents (Elt F)) :
    ∀ i ∈ (xBlk r).view.set, (xBlk r).view.write (Elt F) fd ((pBlk r).view.read (Elt F) g) Finset.univ i = g i := by
  intro i hi
  have e : (pBlk r).view.read (Elt F) g = (xBlk r).view.read (Elt F) g := rfl
  rw [e, View.write_read_eq_piecewise]
  exact Finset.piecewise_eq_of_mem _ _ _ hi
theorem land_S (c : Dev nD) (r : Fin 8) (g fd : (cc0_scratch3 : Ref sig .tc).ty.Contents (Elt F)) :
    ∀ i ∈ (sOwn c r).view.set, (sOwn c r).view.write (Elt F) fd ((sOwn c r).view.read (Elt F) g) Finset.univ i = g i := by
  intro i hi
  rw [View.write_read_eq_piecewise]
  exact Finset.piecewise_eq_of_mem _ _ _ hi

end Cert.Kernel.Rs

end
-- ==== Proof.Word.Steps.lean ====
/-
  The protocol's steps, one lemma each: the two barrier signals, the barrier wait, a copy across either axis, a wait on
  one of the device's own copy cells, and the closing of such a cell once its one round is over.
-/
import proofs.«900391_g7700000000000392_dist_rsdw_v7x_xyz2x2x4_x_m512_d512_f2048_f32_1_alg».proof.Proof.Word.Levels
import proofs.«900391_g7700000000000392_dist_rsdw_v7x_xyz2x2x4_x_m512_d512_f2048_f32_1_alg».proof.Proof.Word.Blocks

set_option maxRecDepth 8000

noncomputable section

namespace Cert.Kernel.Rs

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps
variable (K : GSem nD τ sig → ℕ) (c : Dev nD)

/-- The signal across the first axis: one unit on the partner's barrier cell; with it go X, whole, and the word that
    the eight receive cells across the first axis are at their round. -/
theorem sig_x (n : Dev nD) (hn : n = xp c) (f : Buf (Elt F) (xM.view.loc (c : Thread nD τ))) (O : CellTallies nD τ sig Unit) (W : Waits sig Unit)
    {α : Type} {Q : α → sProp 𝕄} {k : PUnit → Prog (TpuEff nD τ sig (Elt F) Λ₀ .tc) α} :
    iprop(cellInv ER (sched m) (K (barCell (xp c))) (barCell (xp c)) ∗ owes (c : Thread nD τ) (O + tallyAt (barCell (xp c)) () 1) W
        ∗ dutyTok ER (barCell (xp c)) 0 false ∗ held xM c f ∗ (bigSep Finset.univ fun r : Fin 8 => reached ER (dCell c 1 r) 0)
        ∗ reached ER (barCell (xp c)) 0)
      ⊢ iprop((owes (c : Thread nD τ) O W -∗ wp frame (wpE (defs₀ (F := F)) 𝒱₀ c none) Set.univ (k ⟨⟩) Q)
          -∗ wp frame (wpE (defs₀ (F := F)) 𝒱₀ c none) Set.univ (.op (.semSignal ((n : Dev nD) : Thread nD τ) barS 1) k) Q) := by
  subst hn
  iintro ⟨#HI, HO, Ht, Hx, #Hm, #Hr⟩ Hk
  iapply (Rounds.wp_signal 𝒱₀ ER (sched m) (c : Thread nD τ) none (dst := (xp c : Thread nD τ)) (κ := K (barCell (xp c)))
      (d := false) (by rw [duties_bar]; exact Finset.mem_univ _) (amount_bar m (xp c) false) () O rfl) $$ [HO Ht Hx]
  · isplitr; · iexact HI
    isplitl [HO]; · iexact HO
    isplitl [Ht]; · iexact Ht
    isplitl [Hx]
    · rw [payload_bar_false]; unfold barPayX; rw [xp_xp]
      isplitl [Hx]; · iexists f; iexact Hx
      iexact Hm
    · iexact Hr
  iexact Hk

/-- The signal across the second axis: one unit on the neighbour's barrier cell; with it go the eight blocks of S that
    land from that neighbour, and the word that the eight receive cells across the second axis are at their round. -/
theorem sig_y (n : Dev nD) (hn : n = yn c) (O : CellTallies nD τ sig Unit) (W : Waits sig Unit)
    {α : Type} {Q : α → sProp 𝕄} {k : PUnit → Prog (TpuEff nD τ sig (Elt F) Λ₀ .tc) α} :
    iprop(cellInv ER (sched m) (K (barCell (yn c))) (barCell (yn c)) ∗ owes (c : Thread nD τ) (O + tallyAt (barCell (yn c)) () 1) W
        ∗ dutyTok ER (barCell (yn c)) 0 true ∗ (bigSep Finset.univ fun r : Fin 8 => iprop(∃ f, held (sOwn (yn c) r) c f))
        ∗ (bigSep Finset.univ fun r : Fin 8 => reached ER (dCell c 3 r) 0)
        ∗ reached ER (barCell (yn c)) 0)
      ⊢ iprop((owes (c : Thread nD τ) O W -∗ wp frame (wpE (defs₀ (F := F)) 𝒱₀ c none) Set.univ (k ⟨⟩) Q)
          -∗ wp frame (wpE (defs₀ (F := F)) 𝒱₀ c none) Set.univ (.op (.semSignal ((n : Dev nD) : Thread nD τ) barS 1) k) Q) := by
  subst hn
  iintro ⟨#HI, HO, Ht, Hs, #Hm, #Hr⟩ Hk
  iapply (Rounds.wp_signal 𝒱₀ ER (sched m) (c : Thread nD τ) none (dst := (yn c : Thread nD τ)) (κ := K (barCell (yn c)))
      (d := true) (by rw [duties_bar]; exact Finset.mem_univ _) (amount_bar m (yn c) true) () O rfl) $$ [HO Ht Hs]
  · isplitr; · iexact HI
    isplitl [HO]; · iexact HO
    isplitl [Ht]; · iexact Ht
    isplitl [Hs]
    · rw [payload_bar_true]; unfold barPayY; rw [yn_yn]
      isplitl [Hs]; · iexact Hs
      iexact Hm
    · iexact Hr
  iexact Hk

/-- The wait for the barrier's two units while the sixteen copies are still owed: the partner's X and the neighbour's
    eight blocks come with them, and the words about their receive cells. -/
theorem wait_bar (W : Waits sig Unit) {α : Type} {Q : α → sProp 𝕄} {k : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.reg barS) 2 Kk) :
    iprop(cellInv ER (sched m) (K (barCell c)) (barCell c) ∗ cred (tallyAt (barCell c) () 2) ∗ owes (c : Thread nD τ) (oY c + oX c) W
        ∗ levAts L lv ∗ atPos ER (barCell c) 0 ∅ 0)
      ⊢ iprop(((owes (c : Thread nD τ) (oY c + oX c) (insert (SemLoc.reg barS, ()) W)
              ∗ atPos ER (barCell c) 1 ∅ 0 ∗ reached ER (barCell c) 1 ∗ barPayX c ∗ barPayY c)
            -∗ wp frame (wpE (defs₀ (F := F)) 𝒱₀ c none) Set.univ (k ⟨⟩) Q)
          -∗ wp frame (wpE (defs₀ (F := F)) 𝒱₀ c none) Set.univ (.op w k) Q) := by
  iintro ⟨#HI, Hc, HO, #Hlev, Hat⟩ Hk
  iapply (Rounds.wp_wait_rest_token 𝒱₀ ER (sched m) (c : Thread nD τ) none (κ := K (barCell c))
      hw (Set.mem_univ _) () (O := oY c + oX c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, Hr, Hpay⟩
  iapply Hk
  isplitl [HO]; · iexact HO
  isplitl [Hat]; · iexact Hat
  isplitl [Hr]; · iexact Hr
  iapply (Entails.of_eq (rest_bar m c)) $$ Hpay

end Steps

section Copies
variable (K : GSem nD τ sig → ℕ) (c : Dev nD)

theorem NK0 : NK 0 = NX := rfl
theorem NK1 : NK 1 = NX := rfl
theorem NK2 : NK 2 = NS := rfl
theorem NK3 : NK 3 = NS := rfl

/-- A copy across the first axis: block `r` of P into block `r` of the partner's X. The partner's receive cell is paid
    (the landed block holds this device's P there), and this device's send cell (P's block comes back once read). -/
theorem send_x (n : Dev nD) (hn : n = xp c) (r : Fin 8)
    {hsc : (xBlk r : Memref sig (Dev.tc n : Thread nD τ).2.kind .vmem S256x128 .bf16).view.ref.isScScratch = false}
    {hsrc : (pBlk r).view.WordExact} {hdst : (xBlk r).view.WordExact}
    {hsem : DmaTarget.Typed .vmem (.dma (dS 1 r)) (.remote (Dev.tc n : Thread nD τ) (xBlk r) (.dma (dS 0 r)) hsc)}
    {α : Type} {Q : α → sProp 𝕄} {k : PUnit → Prog (TpuEff nD τ sig (Elt F) Λ₀ .tc) α}
    (fn : Buf (Elt F) ((xBlk r).view.loc (xp c : Thread nD τ))) (O : CellTallies nD τ sig Unit) (W : Waits sig Unit) :
    iprop(cellInv ER (sched m) (K (dCell c 0 r)) (dCell c 0 r) ∗ cellInv ER (sched m) (K (dCell (xp c) 1 r)) (dCell (xp c) 1 r)
        ∗ held (pBlk r) c (Pbuf m c) ∗ held (xBlk r) (xp c) fn
        ∗ owes (c : Thread nD τ) (O + tallyAt (dCell (xp c) 1 r) () NX) W
        ∗ dutyTok ER (dCell c 0 r) 0 false ∗ reached ER (dCell c 0 r) 0
        ∗ dutyTok ER (dCell (xp c) 1 r) 0 false ∗ reached ER (dCell (xp c) 1 r) 0)
      ⊢ iprop(((cred (tallyAt (dCell c 0 r) () NX) ∗ owes (c : Thread nD τ) O W) -∗ wp frame (wpE (defs₀ (F := F)) 𝒱₀ c none) Set.univ (k ⟨⟩) Q)
          -∗ wp frame (wpE (defs₀ (F := F)) 𝒱₀ c none) Set.univ (.op (.enqueueDma (pBlk r) (.remote (Dev.tc n : Thread nD τ) (xBlk r) (.dma (dS 0 r)) hsc) (.dma (dS 1 r)) hsrc hdst hsem) k) Q) := by
  subst hn
  unfold held
  exact Rounds.wp_send_pointsTo 𝒱₀ ER (sched m) (c : Thread nD τ) none (κ₁ := K (dCell c 0 r)) (κ₂ := K (dCell (xp c) 1 r))
    (r₁ := 0) (r₂ := 0) (d₁ := false) (d₂ := false) (fd := fn)
    (by rw [duties_copy]; exact Finset.mem_singleton_self _) (by rw [duties_copy]; exact Finset.mem_singleton_self _)
    () () NX rfl ((amount_copy m c 0 r false).trans NK0) ((amount_copy m (xp c) 1 r false).trans NK1) O rfl (W := W)
    (by rw [payload_copy]; exact BI.Entails.refl _)
    (by rw [payload_copy]; show _ ⊢ held (xBlk r) (xp c) (Pbuf m (xp (xp c))); rw [xp_xp]; unfold held
        exact Entails.of_eq (pointsTo_congr (land_X r (Pbuf m c) fn)))

/-- A copy across the second axis: the block of S this device has just reduced, into the same block of the neighbour's
    S (its other half). -/
theorem send_y (n : Dev nD) (hn : n = yn c) (r : Fin 8)
    {hsc : (sOwn c r : Memref sig (Dev.tc n : Thread nD τ).2.kind .vmem S256x128 .bf16).view.ref.isScScratch = false}
    {hsrc : (sOwn c r).view.WordExact} {hdst : (sOwn c r).view.WordExact}
    {hsem : DmaTarget.Typed .vmem (.dma (dS 3 r)) (.remote (Dev.tc n : Thread nD τ) (sOwn c r) (.dma (dS 2 r)) hsc)}
    {α : Type} {Q : α → sProp 𝕄} {k : PUnit → Prog (TpuEff nD τ sig (Elt F) Λ₀ .tc) α}
    (fn : Buf (Elt F) ((sOwn c r).view.loc (yn c : Thread nD τ))) (O : CellTallies nD τ sig Unit) (W : Waits sig Unit) :
    iprop(cellInv ER (sched m) (K (dCell c 2 r)) (dCell c 2 r) ∗ cellInv ER (sched m) (K (dCell (yn c) 3 r)) (dCell (yn c) 3 r)
        ∗ held (sOwn c r) c (Sbuf m c) ∗ held (sOwn c r) (yn c) fn
        ∗ owes (c : Thread nD τ) (O + tallyAt (dCell (yn c) 3 r) () NS) W
        ∗ dutyTok ER (dCell c 2 r) 0 false ∗ reached ER (dCell c 2 r) 0
        ∗ dutyTok ER (dCell (yn c) 3 r) 0 false ∗ reached ER (dCell (yn c) 3 r) 0)
      ⊢ iprop(((cred (tallyAt (dCell c 2 r) () NS) ∗ owes (c : Thread nD τ) O W) -∗ wp frame (wpE (defs₀ (F := F)) 𝒱₀ c none) Set.univ (k ⟨⟩) Q)
          -∗ wp frame (wpE (defs₀ (F := F)) 𝒱₀ c none) Set.univ (.op (.enqueueDma (sOwn c r) (.remote (Dev.tc n : Thread nD τ) (sOwn c r) (.dma (dS 2 r)) hsc) (.dma (dS 3 r)) hsrc hdst hsem) k) Q) := by
  subst hn
  unfold held
  exact Rounds.wp_send_pointsTo 𝒱₀ ER (sched m) (c : Thread nD τ) none (κ₁ := K (dCell c 2 r)) (κ₂ := K (dCell (yn c) 3 r))
    (r₁ := 0) (r₂ := 0) (d₁ := false) (d₂ := false) (fd := fn)
    (by rw [duties_copy]; exact Finset.mem_singleton_self _) (by rw [duties_copy]; exact Finset.mem_singleton_self _)
    () () NS rfl ((amount_copy m c 2 r false).trans NK2) ((amount_copy m (yn c) 3 r false).trans NK3) O rfl (W := W)
    (by rw [payload_copy]; exact BI.Entails.refl _)
    (by rw [payload_copy]; show _ ⊢ held (sOth (yn c) r) (yn c) (Sbuf m (yn c)); rw [held_sOth_yn, Sbuf_yn]; unfold held
        exact Entails.of_eq (pointsTo_congr (land_S c r (Sbuf m c) fn)))

/-- A wait on one of the device's own copy cells for its round's units: the round's payload comes with it. -/
theorem wait_own (k : Fin 4) (r : Fin 8) (O : CellTallies nD τ sig Unit) (W : Waits sig Unit)
    (hmay : (levAts L lv : sProp 𝕄) ⊢ MayWait (c : Thread nD τ) (.dma (dS k r)) () O)
    {α : Type} {Q : α → sProp 𝕄} {kk : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dS k r)) (NK k) Kk) :
    iprop(cellInv ER (sched m) (K (dCell c k r)) (dCell c k r) ∗ cred (tallyAt (dCell c k r) () (NK k)) ∗ owes (c : Thread nD τ) O W
        ∗ levAts L lv ∗ atPos ER (dCell c k r) 0 ∅ 0)
      ⊢ iprop(((owes (c : Thread nD τ) O (insert (SemLoc.dma (dS k r), ()) W)
              ∗ atPos ER (dCell c k r) 1 ∅ 0 ∗ reached ER (dCell c k r) 1 ∗ copyPay m c k r)
            -∗ wp frame (wpE (defs₀ (F := F)) 𝒱₀ c none) Set.univ (kk ⟨⟩) Q)
          -∗ wp frame (wpE (defs₀ (F := F)) 𝒱₀ c none) Set.univ (.op w kk) Q) := by
  iintro ⟨#HI, Hc, HO, #Hlev, Hat⟩ Hk
  iapply (Rounds.wp_wait_rest_token 𝒱₀ ER (sched m) (c : Thread nD τ) none (κ := K (dCell c k r))
      hw (Set.mem_univ _) () (O := O) (W := W) (R := 0) (m := 0) (T := ∅)
      (by rw [Nat.zero_add, expect_copy])) $$ [Hc HO Hat]
  · isplitr; · iexact HI
    isplitl [Hc]; · iexact Hc
    isplitl [HO]; · iexact HO
    isplitr; · iapply hmay; iexact Hlev
    iexact Hat
  iintro ⟨HO, Hat, Hr, Hpay⟩
  iapply Hk
  isplitl [HO]; · iexact HO
  isplitl [Hat]; · iexact Hat
  isplitl [Hr]; · iexact Hr
  iapply (Entails.of_eq (rest_copy m c k r)) $$ Hpay

/-- An own copy cell whose one round is over is closed: its counter, at zero, is the device's again. -/
theorem close_own (k : Fin 4) (r : Fin 8) :
    iprop(cellInv ER (sched m) (K (dCell c k r)) (dCell c k r) ∗ atPos ER (dCell c k r) 1 ∅ 0) ⊢ |={Set.univ}=> (semVal (dCell c k r) 0 : sProp 𝕄) := by
  iintro ⟨#HI, Hat⟩
  imod (Rounds.cell_close ER (sched m) (Set.mem_univ (K (dCell c k r))) (fun h => h) (R := 0 + 1) (duties_later m (dCell c k r))) $$ [Hat] with Hz
  · isplitr; · iexact HI
    iexact Hat
  imodintro; iexact Hz

end Copies

end Cert.Kernel.Rs

end
-- ==== Proof.Word.Owed.lean ====
/-
  What a device still owes after its first payments: the copies not yet issued, as a sum whose last summand is the next
  one to be issued. While it waits for block r across the first axis it owes only copies across the second axis, which
  sit on a higher level.
-/
import proofs.«900391_g7700000000000392_dist_rsdw_v7x_xyz2x2x4_x_m512_d512_f2048_f32_1_alg».proof.Proof.Word.Levels

noncomputable section

namespace Cert.Kernel.Rs

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The units of the copy of block `j % 8` across the first / the second axis. -/
def tXn (c : Dev nD) (j : ℕ) : CellTallies nD τ sig Unit := tallyAt (dCell (xp c) 1 ⟨j % 8, Nat.mod_lt _ (by decide)⟩) () NX
def tYn (c : Dev nD) (j : ℕ) : CellTallies nD τ sig Unit := tallyAt (dCell (yn c) 3 ⟨j % 8, Nat.mod_lt _ (by decide)⟩) () NS

/-- The last `n` blocks' copies still owed, block `8 - n` the last summand. -/
def oXn (c : Dev nD) : ℕ → CellTallies nD τ sig Unit
  | 0 => 0
  | n + 1 => oXn c n + tXn c (7 - n)
def oYn (c : Dev nD) : ℕ → CellTallies nD τ sig Unit
  | 0 => 0
  | n + 1 => oYn c n + tYn c (7 - n)

theorem oX_eq (c : Dev nD) : oX c = oXn c 8 := by
  unfold oX
  rw [Fin.sum_univ_eight]
  show _ = 0 + tXn c 7 + tXn c 6 + tXn c 5 + tXn c 4 + tXn c 3 + tXn c 2 + tXn c 1 + tXn c 0
  rw [zero_add]
  show tallyAt (dCell (xp c) 1 0) () NX + tallyAt (dCell (xp c) 1 1) () NX + tallyAt (dCell (xp c) 1 2) () NX + tallyAt (dCell (xp c) 1 3) () NX
      + tallyAt (dCell (xp c) 1 4) () NX + tallyAt (dCell (xp c) 1 5) () NX + tallyAt (dCell (xp c) 1 6) () NX + tallyAt (dCell (xp c) 1 7) () NX
    = tallyAt (dCell (xp c) 1 7) () NX + tallyAt (dCell (xp c) 1 6) () NX + tallyAt (dCell (xp c) 1 5) () NX + tallyAt (dCell (xp c) 1 4) () NX
      + tallyAt (dCell (xp c) 1 3) () NX + tallyAt (dCell (xp c) 1 2) () NX + tallyAt (dCell (xp c) 1 1) () NX + tallyAt (dCell (xp c) 1 0) () NX
  abel
theorem oY_eq (c : Dev nD) : oY c = oYn c 8 := by
  unfold oY
  rw [Fin.sum_univ_eight]
  show _ = 0 + tYn c 7 + tYn c 6 + tYn c 5 + tYn c 4 + tYn c 3 + tYn c 2 + tYn c 1 + tYn c 0
  rw [zero_add]
  show tallyAt (dCell (yn c) 3 0) () NS + tallyAt (dCell (yn c) 3 1) () NS + tallyAt (dCell (yn c) 3 2) () NS + tallyAt (dCell (yn c) 3 3) () NS
      + tallyAt (dCell (yn c) 3 4) () NS + tallyAt (dCell (yn c) 3 5) () NS + tallyAt (dCell (yn c) 3 6) () NS + tallyAt (dCell (yn c) 3 7) () NS
    = tallyAt (dCell (yn c) 3 7) () NS + tallyAt (dCell (yn c) 3 6) () NS + tallyAt (dCell (yn c) 3 5) () NS + tallyAt (dCell (yn c) 3 4) () NS
      + tallyAt (dCell (yn c) 3 3) () NS + tallyAt (dCell (yn c) 3 2) () NS + tallyAt (dCell (yn c) 3 1) () NS + tallyAt (dCell (yn c) 3 0) () NS
  abel

/-- Whatever is still owed across the second axis sits on the neighbour's receive cells there. -/
theorem oYn_pos (c : Dev nD) : ∀ n : ℕ, ∀ (g : GSem nD τ sig) (u : Unit), 0 < oYn c n g u → ∃ r' : Fin 8, g = dCell (yn c) 3 r'
  | 0, g, u, h => by simp [oYn] at h
  | n + 1, g, u, h => by
    rcases Pipeline.add_pos_cases (show 0 < (oYn c n + tYn c (7 - n)) g u from h) with h | h
    · exact oYn_pos c n g u h
    · unfold tYn at h
      rw [tallyAt_apply] at h
      by_cases hh : g = dCell (yn c) 3 ⟨(7 - n) % 8, Nat.mod_lt _ (by decide)⟩ ∧ u = ()
      · exact ⟨_, hh.1⟩
      · rw [if_neg hh] at h; exact absurd h (Nat.lt_irrefl 0)

/-- The level evidence for the wait on block `r` across the first axis, owing the last `n` copies across the second. -/
theorem mayWait_xr (c : Dev nD) (r : Fin 8) (n : ℕ) :
    (levAts L lv : sProp 𝕄) ⊢ MayWait (c : Thread nD τ) (.dma (dS 1 r)) () (oYn c n) :=
  mayWait_xrecv c r (oYn c n) (oYn_pos c n)

end Cert.Kernel.Rs

end
-- ==== Proof.Word.BufferValues.lean ====
/-
  What the kernel's stores leave in its buffers, for any float instance.

  Every buffer here is a whole buffer and every store goes through a rectangle of consecutive rows and columns.
  An entry inside the rectangle takes the payload at (row − row offset, column − column offset); an entry outside
  keeps what it held. P is written by eight stores, one per 128-column block, which together tile it; W by one
  store over the whole buffer; a block of S and a block of the result by one store each, which fixes that block
  and leaves every other entry alone.
-/
import proofs.«900391_g7700000000000392_dist_rsdw_v7x_xyz2x2x4_x_m512_d512_f2048_f32_1_alg».proof.Proof.Word.Protocol
import Idealize.ShloMosaic.Lib.Writes
import Idealize.ShloMosaic.Lib.ValueIdx

noncomputable section

namespace Cert.Kernel.Rs

open Cert.Kernel Cert.Kernel.Gen

open Idealize.ShloMosaic
open Idealize.ShloMosaic.TcCoe
open Idealize.ShloMosaic.ValueIdx

variable {F : FTy → Type} [FloatOps F]

/-! ## A store through a rectangle of a whole buffer, entry by entry -/

/-- Inside the rectangle the entry takes the payload at its coordinates relative to the rectangle's corner. -/
theorem write_whole_unit_hit {sig : RefSig} {κ : Kind} {Val : EltTy → Type} (b : Ref sig κ)
    (off size : Fin b.ty.shape.rank → Nat) (inb : ∀ a, off a + size a ≤ b.ty.shape.size a) (f : b.ty.Contents Val)
    (w : (⟨b.ty.shape.rank, size⟩ : Shape).Idx → Val b.ty.elt) (i : b.ty.shape.Idx)
    (y : (⟨b.ty.shape.rank, size⟩ : Shape).Idx) (h : ∀ a, (i a).val = off a + (y a).val) :
    ((Memref.whole b).access (Rect.unit off size inb) : View sig κ _ _ _).write Val f w Finset.univ i = w y := by
  have hi : i = ((Memref.whole b).access (Rect.unit off size inb) : View sig κ _ _ _).emb y :=
    funext fun a => Fin.ext (by show (i a).val = off a + 1 * (y a).val; rw [h a]; omega)
  rw [hi, View.write_emb_of_mem _ _ (Finset.mem_univ y)]
  rfl

/-- Outside the rectangle — beside it on some axis — the entry keeps what it held. -/
theorem write_whole_unit_miss {sig : RefSig} {κ : Kind} {Val : EltTy → Type} (b : Ref sig κ)
    (off size : Fin b.ty.shape.rank → Nat) (inb : ∀ a, off a + size a ≤ b.ty.shape.size a) (f : b.ty.Contents Val)
    (w : (⟨b.ty.shape.rank, size⟩ : Shape).Idx → Val b.ty.elt) (i : b.ty.shape.Idx) (a : Fin b.ty.shape.rank)
    (h : (i a).val < off a ∨ off a + size a ≤ (i a).val) :
    ((Memref.whole b).access (Rect.unit off size inb) : View sig κ _ _ _).write Val f w Finset.univ i = f i := by
  refine View.write_of_not_mem _ _ _ ?_
  rw [View.setOn_univ]
  show i ∉ ((View.whole b).slice (Rect.unit off size inb)).set
  rw [View.set_slice_whole, Rect.mem_set_unit]
  intro hall
  have := hall a
  omega

/-- Stores through rectangles of a whole buffer, each of whose payloads is its rectangle of ONE array G, and whose
    rectangles together cover the buffer, leave G — whatever the buffer held before. -/
theorem writes_whole_eq {sig : RefSig} {κ : Kind} {Val : EltTy → Type} (b : Ref sig κ) (f : b.ty.Contents Val)
    (L : List (View.Piece Val b.ty.shape b.ty.elt)) (G : b.ty.Contents Val)
    (hG : ∀ p ∈ L, ∀ x : p.1.shape.Idx, p.2 x = G (p.1.emb x)) (hc : ∀ y : b.ty.shape.Idx, ∃ p ∈ L, y ∈ p.1.set) :
    (View.whole b).writes Val f L = G := by
  funext y
  exact View.read_writes_apply_of_pieces (View.whole b) f G L hG y (hc y)

variable (m : (ℓ : Loc nD τ sig) → Buf (Elt F) ℓ)

/-! ## P: eight column blocks -/

theorem pProd_congr (A : Vec F S512x256 .f32) (c : Dev nD) {r r' : Fin 8} {x x' : S256x128.Idx} (hr : r = r') (hx : x = x') :
    pProd A (ldBr m c r) x = pProd A (ldBr m c r') x' := by
  subst hr hx; rfl

/-- P at the entry (x 0, 128 r + x 1) of column block r is that block's product at x. -/
theorem Pbuf_emb (c : Dev nD) (r : Fin 8) (o : ℕ) (ho : o = 128 * r.val)
    (inb : ∀ a, (![0, o] : Fin 2 → ℕ) a + S256x128.size a ≤ S256x1024.size a) (x : S256x128.Idx) :
    Pbuf m c ((Rect.unit (s := S256x1024) ![0, o] S256x128.size inb).emb x) = pProd (ldAp m c) (ldBr m c r) x := by
  subst ho
  have h0 := idx2_lt0 x
  have h1 := idx2_lt1 x
  unfold Pbuf
  refine pProd_congr m (ldAp m c) c (Fin.ext ?_) (funext fun a => Fin.ext ?_)
  · show (128 * r.val + 1 * (x 1).val) / 128 = r.val
    omega
  · match a with
    | ⟨0, _⟩ => show 0 + 1 * (x 0).val = (x 0).val; omega
    | ⟨1, _⟩ => show (128 * r.val + 1 * (x 1).val) % 128 = (x 1).val; omega

/-- Whatever the buffer held before, after the eight stores (listed last store first) it holds P. -/
theorem P_writes (c : Dev nD) (f0 : (cc0_scratch0 : Ref sig .tc).ty.Contents (Elt F)) :
    pM.view.writes (Elt F) f0
      ([⟨Rect.unit (s := S256x1024) ![0, 896] S256x128.size inb_S256x1024_S256x128_0_896, pProd (ldAp m c) (ldBr m c 7)⟩,
        ⟨Rect.unit (s := S256x1024) ![0, 768] S256x128.size inb_S256x1024_S256x128_0_768, pProd (ldAp m c) (ldBr m c 6)⟩,
        ⟨Rect.unit (s := S256x1024) ![0, 640] S256x128.size inb_S256x1024_S256x128_0_640, pProd (ldAp m c) (ldBr m c 5)⟩,
        ⟨Rect.unit (s := S256x1024) ![0, 512] S256x128.size inb_S256x1024_S256x128_0_512, pProd (ldAp m c) (ldBr m c 4)⟩,
        ⟨Rect.unit (s := S256x1024) ![0, 384] S256x128.size inb_S256x1024_S256x128_0_384, pProd (ldAp m c) (ldBr m c 3)⟩,
        ⟨Rect.unit (s := S256x1024) ![0, 256] S256x128.size inb_S256x1024_S256x128_0_256, pProd (ldAp m c) (ldBr m c 2)⟩,
        ⟨Rect.unit (s := S256x1024) ![0, 128] S256x128.size inb_S256x1024_S256x128_0_128, pProd (ldAp m c) (ldBr m c 1)⟩,
        ⟨Rect.unit (s := S256x1024) ![0, 0] S256x128.size inb_S256x1024_S256x128_0_0, pProd (ldAp m c) (ldBr m c 0)⟩]
        : List (View.Piece (Elt F) S256x1024 .bf16))
      = Pbuf m c := by
  refine writes_whole_eq cc0_scratch0 f0 _ (Pbuf m c) ?_ ?_
  · refine List.forall_mem_cons.2 ⟨fun x => (Pbuf_emb m c 7 896 rfl inb_S256x1024_S256x128_0_896 x).symm, ?_⟩
    refine List.forall_mem_cons.2 ⟨fun x => (Pbuf_emb m c 6 768 rfl inb_S256x1024_S256x128_0_768 x).symm, ?_⟩
    refine List.forall_mem_cons.2 ⟨fun x => (Pbuf_emb m c 5 640 rfl inb_S256x1024_S256x128_0_640 x).symm, ?_⟩
    refine List.forall_mem_cons.2 ⟨fun x => (Pbuf_emb m c 4 512 rfl inb_S256x1024_S256x128_0_512 x).symm, ?_⟩
    refine List.forall_mem_cons.2 ⟨fun x => (Pbuf_emb m c 3 384 rfl inb_S256x1024_S256x128_0_384 x).symm, ?_⟩
    refine List.forall_mem_cons.2 ⟨fun x => (Pbuf_emb m c 2 256 rfl inb_S256x1024_S256x128_0_256 x).symm, ?_⟩
    refine List.forall_mem_cons.2 ⟨fun x => (Pbuf_emb m c 1 128 rfl inb_S256x1024_S256x128_0_128 x).symm, ?_⟩
    refine List.forall_mem_cons.2 ⟨fun x => (Pbuf_emb m c 0 0 rfl inb_S256x1024_S256x128_0_0 x).symm, ?_⟩
    exact fun _ h => absurd h List.not_mem_nil
  · exact View.cover_of_tiled _ S256x128.size rfl

/-! ## W: one store over the whole buffer -/

/-- Whatever the buffer held before, after the store it holds W. -/
theorem W_write (c : Dev nD) (f1 : (cc0_scratch1 : Ref sig .tc).ty.Contents (Elt F)) :
    ((wM.access (Rect.unit (s := S256x1024) ![0, 0] S256x1024.size inb_S256x1024_S256x1024_0_0) : View sig .tc _ _ _).write (Elt F) f1
      (wProd (ldAo m c) (ldBh m c)) Finset.univ) = Wbuf m c :=
  Memref.write_access_unit_zero_univ (Elt F) cc0_scratch1
    (funext fun a => by match a with | ⟨0, _⟩ => rfl | ⟨1, _⟩ => rfl) inb_S256x1024_S256x1024_0_0 f1 (wProd (ldAo m c) (ldBh m c))

/-! ## S and the result: one column block per store -/

theorem redBlk_congr (c : Dev nD) {r r' : Fin 8} {y y' : S256x128.Idx} (hr : r = r') (hy : y = y') :
    redBlk m c r y = redBlk m c r' y' := by
  subst hr hy; rfl

theorem sN_congr {e e' : Dev nD} {r r' : Fin 8} {y y' : S256x128.Idx} (he : e = e') (hr : r = r') (hy : y = y') :
    (shapeCast S256x128 (truncf .bf16 (redBlk m e r) bitsLt_bf16_f32) shapeCasts_S256x128_S256x128 : FVec F S256x128 .bf16) y
      = (shapeCast S256x128 (truncf .bf16 (redBlk m e' r') bitsLt_bf16_f32) shapeCasts_S256x128_S256x128 : FVec F S256x128 .bf16) y' := by
  subst he hr hy; rfl

theorem widen_congr (S : (cc0_scratch3 : Ref sig .tc).ty.Contents (Elt F)) (off : Fin 2 → ℕ)
    (inb : ∀ a, off a + S256x128.size a ≤ S256x2048.size a) (j : Fin 16) (hoff : off = ![0, 128 * j.val])
    {y y' : S256x128.Idx} (hy : y = y') :
    widen (sM.view.readAt (Elt F) (Rect.unit (s := S256x2048) off S256x128.size inb).toLoadRect S) y
      = widen (sM.view.readAt (Elt F) (wide j).toLoadRect S) y' := by
  subst hoff hy; rfl

/-- The device that reduces its own column half is itself. -/
theorem halfOf_self (c : Dev nD) (h : ℕ) (hh : my c = h) : halfOf c h = c := by
  unfold halfOf; rw [if_pos hh]

/-- The store of the rounded reduced block r into the device's own half of S: on that block the buffer then holds S. -/
theorem S_store (c : Dev nD) (r : Fin 8) (f : (cc0_scratch3 : Ref sig .tc).ty.Contents (Elt F)) :
    ∀ i ∈ (sOwn c r).view.set,
      ((sM.access (Rect.unit (s := S256x2048) (k0_off5 c (BitVec.ofNat 32 (128 * r.val))) S256x128.size (k0_off5_inb c r)) : View sig .tc _ _ _).write (Elt F) f
        (redN (wM.view.readAt (Elt F) (blk r).toLoadRect (Wbuf m c)) (xM.view.readAt (Elt F) (blk r).toLoadRect (Pbuf m (xp c)))) Finset.univ) i
        = Sbuf m c i := by
  intro i hi
  have hi' : i ∈ ((View.whole cc0_scratch3).slice (Rect.unit (s := S256x2048) (k0_off6 c (BitVec.ofNat 32 (128 * r.val))) S256x128.size (k0_off6_inb c r))).set := hi
  rw [View.set_slice_whole, Rect.mem_set_unit, k0_off6_eq] at hi'
  have b1 : 1024 * ((c.val / 4) % 2) + 128 * r.val ≤ (i 1).val ∧ (i 1).val < 1024 * ((c.val / 4) % 2) + 128 * r.val + 128 := hi' 1
  have h0 : (i 0).val < 256 := (i 0).isLt
  have hr := r.isLt
  refine (write_whole_unit_hit cc0_scratch3 (k0_off5 c (BitVec.ofNat 32 (128 * r.val))) S256x128.size (k0_off5_inb c r) f _ i
    (ix2 ⟨(i 0).val, h0⟩ ⟨(i 1).val % 128, Nat.mod_lt _ (by decide)⟩) ?_).trans ?_
  · rw [k0_off5_eq]
    intro a
    match a with
    | ⟨0, _⟩ => show (i 0).val = 0 + (i 0).val; omega
    | ⟨1, _⟩ => show (i 1).val = 1024 * ((c.val / 4) % 2) + 128 * r.val + (i 1).val % 128; omega
  · unfold Sbuf
    show (shapeCast S256x128 (truncf .bf16 (redBlk m c r) bitsLt_bf16_f32) shapeCasts_S256x128_S256x128 : FVec F S256x128 .bf16) _ = _
    refine sN_congr m (halfOf_self c _ (by unfold my; omega)).symm (Fin.ext ?_) rfl
    show r.val = ((i 1).val / 128) % 8
    omega

/-- The store of the reduced block r into the device's own half of the result: that block then holds the result,
    every other entry is unchanged. -/
theorem O_store_own (c : Dev nD) (r : Fin 8) (f : (cc0_stg2_0 : Ref sig .tc).ty.Contents (Elt F)) :
    let f' := ((oM.access (Rect.unit (s := S256x2048) (k0_off5 c (BitVec.ofNat 32 (128 * r.val))) S256x128.size (k0_off5_inb c r)) : View sig .tc _ _ _).write (Elt F) f
      (red (wM.view.readAt (Elt F) (blk r).toLoadRect (Wbuf m c)) (xM.view.readAt (Elt F) (blk r).toLoadRect (Pbuf m (xp c)))) Finset.univ)
    (∀ i : S256x2048.Idx, (i 1).val / 128 = 8 * my c + r.val → f' i = Obuf m c i)
      ∧ (∀ i : S256x2048.Idx, (i 1).val / 128 ≠ 8 * my c + r.val → f' i = f i) := by
  intro f'
  have hr := r.isLt
  have hmy := my_lt c
  refine ⟨fun i h => ?_, fun i h => ?_⟩
  · have h0 : (i 0).val < 256 := (i 0).isLt
    unfold my at h hmy
    refine (write_whole_unit_hit cc0_stg2_0 (k0_off5 c (BitVec.ofNat 32 (128 * r.val))) S256x128.size (k0_off5_inb c r) f _ i
      (ix2 ⟨(i 0).val, h0⟩ ⟨(i 1).val % 128, Nat.mod_lt _ (by decide)⟩) ?_).trans ?_
    · rw [k0_off5_eq]
      intro a
      match a with
      | ⟨0, _⟩ => show (i 0).val = 0 + (i 0).val; omega
      | ⟨1, _⟩ => show (i 1).val = 1024 * ((c.val / 4) % 2) + 128 * r.val + (i 1).val % 128; omega
    · unfold Obuf
      show redBlk m c r _ = _
      rw [if_pos (show (i 1).val / 1024 = my c by unfold my; omega)]
      refine redBlk_congr m c (Fin.ext ?_) rfl
      show r.val = ((i 1).val / 128) % 8
      omega
  · unfold my at h hmy
    refine write_whole_unit_miss cc0_stg2_0 (k0_off5 c (BitVec.ofNat 32 (128 * r.val))) S256x128.size (k0_off5_inb c r) f _ i 1 ?_
    rw [k0_off5_eq]
    show (i 1).val < 1024 * ((c.val / 4) % 2) + 128 * r.val ∨ 1024 * ((c.val / 4) % 2) + 128 * r.val + 128 ≤ (i 1).val
    omega

/-- The store of block r of the other half, read back from S and widened: that block then holds the result, every
    other entry is unchanged. -/
theorem O_store_oth (c : Dev nD) (r : Fin 8) (f : (cc0_stg2_0 : Ref sig .tc).ty.Contents (Elt F)) :
    let f' := ((oM.access (Rect.unit (s := S256x2048) (k0_off8 c (BitVec.ofNat 32 (128 * r.val))) S256x128.size (k0_off8_inb c r)) : View sig .tc _ _ _).write (Elt F) f
      (widen (sM.view.readAt (Elt F) (Rect.unit (s := S256x2048) (k0_off8 c (BitVec.ofNat 32 (128 * r.val))) S256x128.size (k0_off8_inb c r)).toLoadRect (Sbuf m c))) Finset.univ)
    (∀ i : S256x2048.Idx, (i 1).val / 128 = 8 * (1 - my c) + r.val → f' i = Obuf m c i)
      ∧ (∀ i : S256x2048.Idx, (i 1).val / 128 ≠ 8 * (1 - my c) + r.val → f' i = f i) := by
  intro f'
  have hr := r.isLt
  have hmy := my_lt c
  refine ⟨fun i h => ?_, fun i h => ?_⟩
  · have h0 : (i 0).val < 256 := (i 0).isLt
    have h1 : (i 1).val < 2048 := (i 1).isLt
    unfold my at h hmy
    refine (write_whole_unit_hit cc0_stg2_0 (k0_off8 c (BitVec.ofNat 32 (128 * r.val))) S256x128.size (k0_off8_inb c r) f _ i
      (ix2 ⟨(i 0).val, h0⟩ ⟨(i 1).val % 128, Nat.mod_lt _ (by decide)⟩) ?_).trans ?_
    · rw [k0_off8_eq]
      intro a
      match a with
      | ⟨0, _⟩ => show (i 0).val = 0 + (i 0).val; omega
      | ⟨1, _⟩ => show (i 1).val = (128 * r.val + 1024) - 1024 * ((c.val / 4) % 2) + (i 1).val % 128; omega
    · unfold Obuf
      rw [if_neg (show ¬ (i 1).val / 1024 = my c by unfold my; omega)]
      refine widen_congr (Sbuf m c) _ _ ⟨(i 1).val / 128, by omega⟩ ?_ rfl
      rw [k0_off8_eq]
      exact congrArg (fun t => (![0, t] : Fin 2 → ℕ)) (by show (128 * r.val + 1024) - 1024 * ((c.val / 4) % 2) = 128 * ((i 1).val / 128); omega)
  · unfold my at h hmy
    refine write_whole_unit_miss cc0_stg2_0 (k0_off8 c (BitVec.ofNat 32 (128 * r.val))) S256x128.size (k0_off8_inb c r) f _ i 1 ?_
    rw [k0_off8_eq]
    show (i 1).val < (128 * r.val + 1024) - 1024 * ((c.val / 4) % 2) ∨ (128 * r.val + 1024) - 1024 * ((c.val / 4) % 2) + 128 ≤ (i 1).val
    omega

/-- Contents that agree with the result at every entry are the result. -/
theorem O_cover (c : Dev nD) (g : (cc0_stg2_0 : Ref sig .tc).ty.Contents (Elt F)) (h : ∀ i : S256x2048.Idx, g i = Obuf m c i) :
    g = Obuf m c := funext h

end Cert.Kernel.Rs

end
-- ==== Proof.Word.Boxes.lean ====
/-
  Reading and writing one column block of S through the whole buffer.

  A load or a store through the whole 256 x 2048 buffer at a rectangle touches exactly the entries of that rectangle.
  The rectangle the device stores its reduced block r through, and reads it back through, is the block of its own
  column half it later sends; the rectangle it reads the other half's block r through is the block that lands from its
  neighbour across the second axis. So holding just that block is enough for the access.
-/
import proofs.«900391_g7700000000000392_dist_rsdw_v7x_xyz2x2x4_x_m512_d512_f2048_f32_1_alg».proof.Proof.Word.Blocks

noncomputable section

namespace Cert.Kernel.Rs

open Cert.Kernel Cert.Kernel.Gen

open Idealize.ShloMosaic
open Idealize.ShloMosaic.TcCoe

/-- Through a whole buffer, the entries under a set of indices are those indices. -/
theorem setOn_whole {sig : RefSig} {κ : Kind} (b : Ref sig κ) (M : Finset b.ty.shape.Idx) : (View.whole b).setOn M = M :=
  Finset.map_refl

/-- Through a whole buffer, the entries under a rectangle are the rectangle's. -/
theorem set_access_whole_unit {sig : RefSig} {κ : Kind} (b : Ref sig κ) (R : Rect b.ty.shape) :
    (((Memref.whole b).access R : View sig κ _ _ _)).setOn Finset.univ = R.set := by
  rw [View.setOn_univ]; exact View.set_slice_whole b R

/-- The rectangle of the own-half store and load of block r is the block the device sends. -/
theorem rect5_eq_rect6 (c : Dev nD) (r : Fin 8) :
    Rect.unit (s := S256x2048) (k0_off5 c (BitVec.ofNat 32 (128 * r.val))) S256x128.size (k0_off5_inb c r)
      = Rect.unit (s := S256x2048) (k0_off6 c (BitVec.ofNat 32 (128 * r.val))) S256x128.size (k0_off6_inb c r) :=
  Rect.unit_congr ((k0_off5_eq c r).trans (k0_off6_eq c r).symm) _ _
/-- The rectangle of the other-half load of block r is the block that lands. -/
theorem rect8_eq_rect7 (c : Dev nD) (r : Fin 8) :
    Rect.unit (s := S256x2048) (k0_off8 c (BitVec.ofNat 32 (128 * r.val))) S256x128.size (k0_off8_inb c r)
      = Rect.unit (s := S256x2048) (k0_off7 c (BitVec.ofNat 32 (128 * r.val))) S256x128.size (k0_off7_inb c r) :=
  Rect.unit_congr ((k0_off8_eq c r).trans (k0_off7_eq c r).symm) _ _

theorem sOwn_set (c : Dev nD) (r : Fin 8) :
    (sOwn c r).view.set = (Rect.unit (s := S256x2048) (k0_off6 c (BitVec.ofNat 32 (128 * r.val))) S256x128.size (k0_off6_inb c r)).set :=
  View.set_slice_whole cc0_scratch3 _
theorem sOth_set (c : Dev nD) (r : Fin 8) :
    (sOth c r).view.set = (Rect.unit (s := S256x2048) (k0_off7 c (BitVec.ofNat 32 (128 * r.val))) S256x128.size (k0_off7_inb c r)).set :=
  View.set_slice_whole cc0_scratch3 _

/-- The load of the device's own block r of S touches only that block. -/
theorem S_load_own (c : Dev nD) (r : Fin 8) :
    sM.view.setOn (Rect.unit (s := S256x2048) (k0_off5 c (BitVec.ofNat 32 (128 * r.val))) S256x128.size (k0_off5_inb c r)).toLoadRect.set
      ⊆ (sOwn c r).view.set := by
  rw [sOwn_set, ← rect5_eq_rect6]
  exact Finset.subset_of_eq (setOn_whole cc0_scratch3 _)

/-- The store of the device's own block r of S touches only that block. -/
theorem S_store_own (c : Dev nD) (r : Fin 8) :
    ((sM.access (Rect.unit (s := S256x2048) (k0_off5 c (BitVec.ofNat 32 (128 * r.val))) S256x128.size (k0_off5_inb c r)) : View sig .tc _ _ _)).setOn Finset.univ
      ⊆ (sOwn c r).view.set := by
  rw [sOwn_set, ← rect5_eq_rect6]
  exact Finset.subset_of_eq (set_access_whole_unit cc0_scratch3 _)

/-- The load of the other half's block r of S touches only the block that landed. -/
theorem S_load_oth (c : Dev nD) (r : Fin 8) :
    sM.view.setOn (Rect.unit (s := S256x2048) (k0_off8 c (BitVec.ofNat 32 (128 * r.val))) S256x128.size (k0_off8_inb c r)).toLoadRect.set
      ⊆ (sOth c r).view.set := by
  rw [sOth_set, ← rect8_eq_rect7]
  exact Finset.subset_of_eq (setOn_whole cc0_scratch3 _)

/-- A block of S and S itself are parts of the same buffer of the same device. -/
example (c : Dev nD) (r : Fin 8) : (sOwn c r).view.loc (c : Thread nD τ) = sM.view.loc (c : Thread nD τ) := rfl
example (c : Dev nD) (r : Fin 8) : (sOth c r).view.loc (c : Thread nD τ) = sM.view.loc (c : Thread nD τ) := rfl

end Cert.Kernel.Rs

end
-- ==== Proof.Word.ResultWrites.lean ====
/-
  The result buffer after the body's sixteen stores.

  The stores go through sixteen rectangles of 128 columns: eight in the device's own column half (block r at column
  1024 my + 128 r, holding the reduced block r) and eight in the other half (block r at column 1024 (1 − my) + 128 r,
  holding block r of that half read back from S and widened). Every entry of the 256 x 2048 buffer lies in exactly one
  of the sixteen, and each payload is its rectangle of the result; so whatever the buffer held before, it then holds
  the result.
-/
import proofs.«900391_g7700000000000392_dist_rsdw_v7x_xyz2x2x4_x_m512_d512_f2048_f32_1_alg».proof.Proof.Word.BufferValues

noncomputable section

namespace Cert.Kernel.Rs

open Cert.Kernel Cert.Kernel.Gen

open Idealize.ShloMosaic
open Idealize.ShloMosaic.TcCoe
open Idealize.ShloMosaic.ValueIdx

variable {F : FTy → Type} [FloatOps F]

/-- The rectangle of block r of the device's own column half, and of the other half. -/
abbrev R5 (c : Dev nD) (r : Fin 8) : Rect S256x2048 :=
  Rect.unit (s := S256x2048) (k0_off5 c (BitVec.ofNat 32 (128 * r.val))) S256x128.size (k0_off5_inb c r)
abbrev R8 (c : Dev nD) (r : Fin 8) : Rect S256x2048 :=
  Rect.unit (s := S256x2048) (k0_off8 c (BitVec.ofNat 32 (128 * r.val))) S256x128.size (k0_off8_inb c r)

variable (m : (ℓ : Loc nD τ sig) → Buf (Elt F) ℓ)

/-- The store of block r of the own half, and of the other half: rectangle and payload. -/
def pc5 (c : Dev nD) (r : Fin 8) : View.Piece (Elt F) S256x2048 .f32 :=
  ⟨R5 c r, red (wM.view.readAt (Elt F) (blk r).toLoadRect (Wbuf m c)) (xM.view.readAt (Elt F) (blk r).toLoadRect (Pbuf m (xp c)))⟩
def pc8 (c : Dev nD) (r : Fin 8) : View.Piece (Elt F) S256x2048 .f32 :=
  ⟨R8 c r, widen (sM.view.readAt (Elt F) (R8 c r).toLoadRect (Sbuf m c))⟩

/-- The result at an entry of block r of the own half is the reduced block r there. -/
theorem Obuf_own_of (c : Dev nD) (r : Fin 8) (i : S256x2048.Idx) (x : S256x128.Idx) (h0 : (i 0).val = (x 0).val)
    (h1 : (i 1).val = 1024 * ((c.val / 4) % 2) + 128 * r.val + (x 1).val) : Obuf m c i = redBlk m c r x := by
  have hx1 := idx2_lt1 x
  have hr := r.isLt
  unfold Obuf
  rw [if_pos (show (i 1).val / 1024 = my c by unfold my; omega)]
  refine redBlk_congr m c (Fin.ext ?_) (funext fun a => Fin.ext ?_)
  · show ((i 1).val / 128) % 8 = r.val
    omega
  · match a with
    | ⟨0, _⟩ => show (i 0).val = (x 0).val; omega
    | ⟨1, _⟩ => show (i 1).val % 128 = (x 1).val; omega

/-- The result at an entry of block r of the other half is block r of that half of S there, widened. -/
theorem Obuf_oth_of (c : Dev nD) (r : Fin 8) (i : S256x2048.Idx) (x : S256x128.Idx) (h0 : (i 0).val = (x 0).val)
    (h1 : (i 1).val = (128 * r.val + 1024) - 1024 * ((c.val / 4) % 2) + (x 1).val) :
    Obuf m c i = widen (sM.view.readAt (Elt F) (R8 c r).toLoadRect (Sbuf m c)) x := by
  have hx1 := idx2_lt1 x
  have hr := r.isLt
  have hi1 := col2048_lt i
  unfold Obuf
  rw [if_neg (show ¬ (i 1).val / 1024 = my c by unfold my; omega)]
  refine (widen_congr (Sbuf m c) _ (k0_off8_inb c r) ⟨(i 1).val / 128, by omega⟩ ?_ (funext fun a => Fin.ext ?_)).symm
  · rw [k0_off8_eq]
    exact congrArg (fun t => (![0, t] : Fin 2 → ℕ)) (by
      show (128 * r.val + 1024) - 1024 * ((c.val / 4) % 2) = 128 * ((i 1).val / 128); omega)
  · match a with
    | ⟨0, _⟩ => show (x 0).val = (i 0).val; omega
    | ⟨1, _⟩ => show (x 1).val = (i 1).val % 128; omega

/-- Each store's payload is its rectangle of the result. -/
theorem pc5_agrees (c : Dev nD) (r : Fin 8) (x : S256x128.Idx) : (pc5 m c r).2 x = Obuf m c ((pc5 m c r).1.emb x) := by
  refine (Obuf_own_of m c r ((R5 c r).emb x) x ?_ ?_).symm
  · show (k0_off5 c (BitVec.ofNat 32 (128 * r.val))) 0 + 1 * (x 0).val = (x 0).val
    rw [k0_off5_eq]
    show 0 + 1 * (x 0).val = (x 0).val
    omega
  · show (k0_off5 c (BitVec.ofNat 32 (128 * r.val))) 1 + 1 * (x 1).val = _
    rw [k0_off5_eq]
    show 1024 * ((c.val / 4) % 2) + 128 * r.val + 1 * (x 1).val = _
    omega
theorem pc8_agrees (c : Dev nD) (r : Fin 8) (x : S256x128.Idx) : (pc8 m c r).2 x = Obuf m c ((pc8 m c r).1.emb x) := by
  refine (Obuf_oth_of m c r ((R8 c r).emb x) x ?_ ?_).symm
  · show (k0_off8 c (BitVec.ofNat 32 (128 * r.val))) 0 + 1 * (x 0).val = (x 0).val
    rw [k0_off8_eq]
    show 0 + 1 * (x 0).val = (x 0).val
    omega
  · show (k0_off8 c (BitVec.ofNat 32 (128 * r.val))) 1 + 1 * (x 1).val = _
    rw [k0_off8_eq]
    show (128 * r.val + 1024) - 1024 * ((c.val / 4) % 2) + 1 * (x 1).val = _
    omega

/-- The eight block numbers, in the order the list of stores names them. -/
def rs : List (Fin 8) := [7, 6, 5, 4, 3, 2, 1, 0]
theorem mem_rs : ∀ r : Fin 8, r ∈ rs := by decide

/-- Every entry lies in the rectangle of block (column / 128) % 8 of the half column / 1024. -/
theorem mem_R5 (c : Dev nD) (y : S256x2048.Idx) (h : (y 1).val / 1024 = my c) :
    y ∈ (R5 c ⟨((y 1).val / 128) % 8, Nat.mod_lt _ (by decide)⟩).set := by
  have h0 := row_lt y
  unfold my at h
  refine Rect.mem_set_unit.mpr ?_
  rw [k0_off5_eq]
  intro a
  match a with
  | ⟨0, _⟩ => show 0 ≤ (y 0).val ∧ (y 0).val < 0 + 256; omega
  | ⟨1, _⟩ =>
    show 1024 * ((c.val / 4) % 2) + 128 * (((y 1).val / 128) % 8) ≤ (y 1).val
      ∧ (y 1).val < 1024 * ((c.val / 4) % 2) + 128 * (((y 1).val / 128) % 8) + 128
    omega
theorem mem_R8 (c : Dev nD) (y : S256x2048.Idx) (h : ¬ (y 1).val / 1024 = my c) :
    y ∈ (R8 c ⟨((y 1).val / 128) % 8, Nat.mod_lt _ (by decide)⟩).set := by
  have h0 := row_lt y
  have h1 := col2048_lt y
  unfold my at h
  refine Rect.mem_set_unit.mpr ?_
  rw [k0_off8_eq]
  intro a
  match a with
  | ⟨0, _⟩ => show 0 ≤ (y 0).val ∧ (y 0).val < 0 + 256; omega
  | ⟨1, _⟩ =>
    show (128 * (((y 1).val / 128) % 8) + 1024) - 1024 * ((c.val / 4) % 2) ≤ (y 1).val
      ∧ (y 1).val < (128 * (((y 1).val / 128) % 8) + 1024) - 1024 * ((c.val / 4) % 2) + 128
    omega

/-- Whatever the buffer held before, after the sixteen stores it holds the result (the list by block numbers). -/
theorem O_writes_list (c : Dev nD) (g2 : (cc0_stg2_0 : Ref sig .tc).ty.Contents (Elt F)) :
    oM.view.writes (Elt F) g2 (rs.map (pc8 m c) ++ rs.map (pc5 m c)) = Obuf m c := by
  refine writes_whole_eq cc0_stg2_0 g2 _ (Obuf m c) ?_ ?_
  · intro p hp
    rcases List.mem_append.mp hp with h | h
    · obtain ⟨r, -, rfl⟩ := List.mem_map.mp h
      exact pc8_agrees m c r
    · obtain ⟨r, -, rfl⟩ := List.mem_map.mp h
      exact pc5_agrees m c r
  · intro y
    by_cases h : (y 1).val / 1024 = my c
    · exact ⟨pc5 m c ⟨((y 1).val / 128) % 8, Nat.mod_lt _ (by decide)⟩,
        List.mem_append_right _ (List.mem_map_of_mem (mem_rs _)), mem_R5 c y h⟩
    · exact ⟨pc8 m c ⟨((y 1).val / 128) % 8, Nat.mod_lt _ (by decide)⟩,
        List.mem_append_left _ (List.mem_map_of_mem (mem_rs _)), mem_R8 c y h⟩

/-- The same with the sixteen stores written out, the last store first: the second phase's eight (blocks 7 … 0 of the
    other half), then the first phase's eight (blocks 7 … 0 of the own half). -/
theorem O_writes (c : Dev nD) (g2 : (cc0_stg2_0 : Ref sig .tc).ty.Contents (Elt F)) :
    oM.view.writes (Elt F) g2
      ([⟨R8 c 7, widen (sM.view.readAt (Elt F) (R8 c 7).toLoadRect (Sbuf m c))⟩,
        ⟨R8 c 6, widen (sM.view.readAt (Elt F) (R8 c 6).toLoadRect (Sbuf m c))⟩,
        ⟨R8 c 5, widen (sM.view.readAt (Elt F) (R8 c 5).toLoadRect (Sbuf m c))⟩,
        ⟨R8 c 4, widen (sM.view.readAt (Elt F) (R8 c 4).toLoadRect (Sbuf m c))⟩,
        ⟨R8 c 3, widen (sM.view.readAt (Elt F) (R8 c 3).toLoadRect (Sbuf m c))⟩,
        ⟨R8 c 2, widen (sM.view.readAt (Elt F) (R8 c 2).toLoadRect (Sbuf m c))⟩,
        ⟨R8 c 1, widen (sM.view.readAt (Elt F) (R8 c 1).toLoadRect (Sbuf m c))⟩,
        ⟨R8 c 0, widen (sM.view.readAt (Elt F) (R8 c 0).toLoadRect (Sbuf m c))⟩,
        ⟨R5 c 7, red (wM.view.readAt (Elt F) (blk 7).toLoadRect (Wbuf m c)) (xM.view.readAt (Elt F) (blk 7).toLoadRect (Pbuf m (xp c)))⟩,
        ⟨R5 c 6, red (wM.view.readAt (Elt F) (blk 6).toLoadRect (Wbuf m c)) (xM.view.readAt (Elt F) (blk 6).toLoadRect (Pbuf m (xp c)))⟩,
        ⟨R5 c 5, red (wM.view.readAt (Elt F) (blk 5).toLoadRect (Wbuf m c)) (xM.view.readAt (Elt F) (blk 5).toLoadRect (Pbuf m (xp c)))⟩,
        ⟨R5 c 4, red (wM.view.readAt (Elt F) (blk 4).toLoadRect (Wbuf m c)) (xM.view.readAt (Elt F) (blk 4).toLoadRect (Pbuf m (xp c)))⟩,
        ⟨R5 c 3, red (wM.view.readAt (Elt F) (blk 3).toLoadRect (Wbuf m c)) (xM.view.readAt (Elt F) (blk 3).toLoadRect (Pbuf m (xp c)))⟩,
        ⟨R5 c 2, red (wM.view.readAt (Elt F) (blk 2).toLoadRect (Wbuf m c)) (xM.view.readAt (Elt F) (blk 2).toLoadRect (Pbuf m (xp c)))⟩,
        ⟨R5 c 1, red (wM.view.readAt (Elt F) (blk 1).toLoadRect (Wbuf m c)) (xM.view.readAt (Elt F) (blk 1).toLoadRect (Pbuf m (xp c)))⟩,
        ⟨R5 c 0, red (wM.view.readAt (Elt F) (blk 0).toLoadRect (Wbuf m c)) (xM.view.readAt (Elt F) (blk 0).toLoadRect (Pbuf m (xp c)))⟩]
        : List (View.Piece (Elt F) S256x2048 .f32))
      = Obuf m c :=
  O_writes_list m c g2

end Cert.Kernel.Rs

end
-- ==== Proof.Word.Body.lean ====
/-
  One device's body, from what the launch deals it to what it hands back.

  In program order: the eight blocks of partial products for the partner's rows are computed into P; the device signals
  both peers and waits for both (after which the partner's X and the neighbour's half of S are its to write); P goes to
  the partner block by block; the device's own partial products are computed into W; for each block, once the partner's
  block has landed in X, the reduced block W + X is written to the result's own column half and, rounded, to S, and S's
  block goes to the neighbour; for each block, once the neighbour's block has landed in S, it is widened into the result's
  other column half; finally all sixteen send cells are waited for. What is left: the result buffer holding `Obuf`, the
  scratch buffers whole again, every copy cell closed, nothing owed.
-/
import proofs.«900391_g7700000000000392_dist_rsdw_v7x_xyz2x2x4_x_m512_d512_f2048_f32_1_alg».proof.Proof.Word.Steps
import proofs.«900391_g7700000000000392_dist_rsdw_v7x_xyz2x2x4_x_m512_d512_f2048_f32_1_alg».proof.Proof.Word.Owed
import proofs.«900391_g7700000000000392_dist_rsdw_v7x_xyz2x2x4_x_m512_d512_f2048_f32_1_alg».proof.Proof.Word.BufferValues
import proofs.«900391_g7700000000000392_dist_rsdw_v7x_xyz2x2x4_x_m512_d512_f2048_f32_1_alg».proof.Proof.Word.Boxes
import proofs.«900391_g7700000000000392_dist_rsdw_v7x_xyz2x2x4_x_m512_d512_f2048_f32_1_alg».proof.Proof.Word.ResultWrites
import proofs.«900391_g7700000000000392_dist_rsdw_v7x_xyz2x2x4_x_m512_d512_f2048_f32_1_alg».proof.Proof.Gen.Kernel.Skeleton
import proofs.«900391_g7700000000000392_dist_rsdw_v7x_xyz2x2x4_x_m512_d512_f2048_f32_1_alg».proof.Proof.Gen.Kernel.Points

set_option maxRecDepth 16384

noncomputable section

namespace Cert.Kernel.Rs

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-! ## Separating conjunctions over the eight blocks and the four families, written out -/

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_kr (Φ : Fin 4 × Fin 8 → sProp 𝕄) :
    bigSep Finset.univ Φ = bigSep Finset.univ fun k : Fin 4 => bigSep Finset.univ fun r : Fin 8 => Φ (k, r) :=
  bigSep_univ_prod Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ ((Memref.whole b).view.loc (c : Thread nD τ) ↦[(Memref.whole b).view.set]{fullShare} f)) := by
  unfold owns; simp only [View.read_whole]

set_option allowUnsafeReducibility true in
attribute [local reducible] held

/-- A copy cell's payload, family by family. -/
theorem copyPay0 (c : Dev nD) (r : Fin 8) : copyPay m c 0 r = held (pBlk r) c (Pbuf m c) := rfl
theorem copyPay1 (c : Dev nD) (r : Fin 8) : copyPay m c 1 r = held (xBlk r) c (Pbuf m (xp c)) := rfl
theorem copyPay2 (c : Dev nD) (r : Fin 8) : copyPay m c 2 r = held (sOwn c r) c (Sbuf m c) := rfl
theorem copyPay3 (c : Dev nD) (r : Fin 8) : copyPay m c 3 r = held (sOth c r) c (Sbuf m c) := rfl

/-- The wait on a send cell across the first axis: block `r` of P comes back. -/
theorem wait_xs (K : GSem nD τ sig → ℕ) (c : Dev nD) (r : Fin 8) (O : CellTallies nD τ sig Unit) (W : Waits sig Unit)
    (hmay : (levAts L lv : sProp 𝕄) ⊢ MayWait (c : Thread nD τ) (.dma (dS 0 r)) () O)
    {α : Type} {Q : α → sProp 𝕄} {kk : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dS 0 r)) (pBlk r).view.dmaCredit Kk) :
    iprop(cellInv ER (sched m) (K (dCell c 0 r)) (dCell c 0 r) ∗ cred (tallyAt (dCell c 0 r) () NX) ∗ owes (c : Thread nD τ) O W
        ∗ levAts L lv ∗ atPos ER (dCell c 0 r) 0 ∅ 0)
      ⊢ iprop(((owes (c : Thread nD τ) O (insert (SemLoc.dma (dS 0 r), ()) W)
              ∗ atPos ER (dCell c 0 r) 1 ∅ 0 ∗ reached ER (dCell c 0 r) 1 ∗ held (pBlk r) c (Pbuf m c))
            -∗ wp frame (wpE (defs₀ (F := F)) 𝒱₀ c none) Set.univ (kk ⟨⟩) Q)
          -∗ wp frame (wpE (defs₀ (F := F)) 𝒱₀ c none) Set.univ (.op w kk) Q) :=
  wait_own m K c 0 r O W hmay hw
/-- The wait on a receive cell across the first axis: block `r` of X holds the partner's P. -/
theorem wait_xr (K : GSem nD τ sig → ℕ) (c : Dev nD) (r : Fin 8) (O : CellTallies nD τ sig Unit) (W : Waits sig Unit)
    (hmay : (levAts L lv : sProp 𝕄) ⊢ MayWait (c : Thread nD τ) (.dma (dS 1 r)) () O)
    {α : Type} {Q : α → sProp 𝕄} {kk : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dS 1 r)) (xBlk r).view.dmaCredit Kk) :
    iprop(cellInv ER (sched m) (K (dCell c 1 r)) (dCell c 1 r) ∗ cred (tallyAt (dCell c 1 r) () NX) ∗ owes (c : Thread nD τ) O W
        ∗ levAts L lv ∗ atPos ER (dCell c 1 r) 0 ∅ 0)
      ⊢ iprop(((owes (c : Thread nD τ) O (insert (SemLoc.dma (dS 1 r), ()) W)
              ∗ atPos ER (dCell c 1 r) 1 ∅ 0 ∗ reached ER (dCell c 1 r) 1 ∗ held (xBlk r) c (Pbuf m (xp c)))
            -∗ wp frame (wpE (defs₀ (F := F)) 𝒱₀ c none) Set.univ (kk ⟨⟩) Q)
          -∗ wp frame (wpE (defs₀ (F := F)) 𝒱₀ c none) Set.univ (.op w kk) Q) :=
  wait_own m K c 1 r O W hmay hw
/-- The wait on a send cell across the second axis: the device's own block `r` of S comes back. -/
theorem wait_ys (K : GSem nD τ sig → ℕ) (c : Dev nD) (r : Fin 8) (O : CellTallies nD τ sig Unit) (W : Waits sig Unit)
    (hmay : (levAts L lv : sProp 𝕄) ⊢ MayWait (c : Thread nD τ) (.dma (dS 2 r)) () O)
    {α : Type} {Q : α → sProp 𝕄} {kk : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dS 2 r)) (sOwn c r).view.dmaCredit Kk) :
    iprop(cellInv ER (sched m) (K (dCell c 2 r)) (dCell c 2 r) ∗ cred (tallyAt (dCell c 2 r) () NS) ∗ owes (c : Thread nD τ) O W
        ∗ levAts L lv ∗ atPos ER (dCell c 2 r) 0 ∅ 0)
      ⊢ iprop(((owes (c : Thread nD τ) O (insert (SemLoc.dma (dS 2 r), ()) W)
              ∗ atPos ER (dCell c 2 r) 1 ∅ 0 ∗ reached ER (dCell c 2 r) 1 ∗ held (sOwn c r) c (Sbuf m c))
            -∗ wp frame (wpE (defs₀ (F := F)) 𝒱₀ c none) Set.univ (kk ⟨⟩) Q)
          -∗ wp frame (wpE (defs₀ (F := F)) 𝒱₀ c none) Set.univ (.op w kk) Q) :=
  wait_own m K c 2 r O W hmay hw
/-- The wait on a receive cell across the second axis: the other block `r` of S holds the neighbour's reduced block. -/
theorem wait_yr (K : GSem nD τ sig → ℕ) (c : Dev nD) (r : Fin 8) (O : CellTallies nD τ sig Unit) (W : Waits sig Unit)
    (hmay : (levAts L lv : sProp 𝕄) ⊢ MayWait (c : Thread nD τ) (.dma (dS 3 r)) () O)
    {α : Type} {Q : α → sProp 𝕄} {kk : PUnit → Prog (TpuEff nD τ sig (Elt F) Λ₀ .tc) α}
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (dS 3 r)) (sOth c r).view.dmaCredit Kk) :
    iprop(cellInv ER (sched m) (K (dCell c 3 r)) (dCell c 3 r) ∗ cred (tallyAt (dCell c 3 r) () NS) ∗ owes (c : Thread nD τ) O W
        ∗ levAts L lv ∗ atPos ER (dCell c 3 r) 0 ∅ 0)
      ⊢ iprop(((owes (c : Thread nD τ) O (insert (SemLoc.dma (dS 3 r), ()) W)
              ∗ atPos ER (dCell c 3 r) 1 ∅ 0 ∗ reached ER (dCell c 3 r) 1 ∗ held (sOth c r) c (Sbuf m c))
            -∗ wp frame (wpE (defs₀ (F := F)) 𝒱₀ c none) Set.univ (kk ⟨⟩) Q)
          -∗ wp frame (wpE (defs₀ (F := F)) 𝒱₀ c none) Set.univ (.op w kk) Q) :=
  wait_own m K c 3 r O W hmay hw

/-- An assertion set aside: the same assertion, under a name nothing looks through. -/
def hid (P : sProp 𝕄) : sProp 𝕄 := P
theorem hid_eq (P : sProp 𝕄) : hid (F := F) P = P := rfl
attribute [local irreducible] hid

/-- Sequencing after a returned value continues with that value. -/
theorem ret_bind' {E : Type → Type} {α β : Type} (a : α) (k : α → Prog E β) : (Prog.ret a).bind k = k a := rfl

/-- S split for the barrier: the half that lands from the neighbour, at whatever it holds, and the half the device keeps. -/
theorem give_half (c : Dev nD) (f : Buf (Elt F) (sM.view.loc (c : Thread nD τ))) :
    held (F := F) sM c f ⊢ iprop((bigSep Finset.univ fun r : Fin 8 => iprop(∃ f', held (sOwn (yn c) r) c f')) ∗ bigSep Finset.univ fun r : Fin 8 => held (sOwn c r) c f) := by
  refine (split_S c f).1.trans (sep_mono_left (bigSep_mono fun r _ => ?_))
  rw [← held_sOwn_yn]
  show (held (sOwn (yn c) r) c f : sProp 𝕄) ⊢ iprop(∃ f', held (sOwn (yn c) r) c f')
  iintro H; iexists f; iexact H

/-- What the body starts from, as the pipeline hands it over. -/
def bodyPre (c : Dev nD) : sProp 𝕄 :=
  iprop(Φ₀ m c ∗ (dats m 0 c).owesAt () t0_0.castSucc
    ∗ (∃ d f, ⌜f = (dats m 0 c).before (0 : Fin 3) t0_0 d⌝ ∗ held aM c f)
    ∗ (∃ d f, ⌜f = (dats m 0 c).before (1 : Fin 3) t0_0 d⌝ ∗ held bM c f)
    ∗ (∃ d f, ⌜f = (dats m 0 c).before (2 : Fin 3) t0_0 d⌝ ∗ held oM c f))

/-- What the body hands back. -/
def bodyPost (c : Dev nD) : sProp 𝕄 :=
  iprop(Φ₁ (F := F) c ∗ (dats m 0 c).owesAt () t0_0.succ
    ∗ (∃ f, ⌜f = (dats m 0 c).after (0 : Fin 3) t0_0⌝ ∗ held aM c f)
    ∗ (∃ f, ⌜f = (dats m 0 c).after (1 : Fin 3) t0_0⌝ ∗ held bM c f)
    ∗ (∃ f, ⌜f = (dats m 0 c).after (2 : Fin 3) t0_0⌝ ∗ held oM c f))

set_option maxHeartbeats 16000000 in
/-- The body, stepped in program order from what the launch deals the device to what it hands back. -/
theorem sound_body (c : Dev nD) :
    bodyPre m c
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) (fun _ => bodyPost m c) := by
  unfold bodyPre Φ₀ start ghost invs poss marks payToks creds scratch
  simp only [bigSep_kr, bigSep_fin4, bigSep_fin8]
  iintro ⟨⟨⟨⟨%K, ⟨⟨#IB, ⟨⟨#I00, #I01, #I02, #I03, #I04, #I05, #I06, #I07⟩, ⟨#I10, #I11, #I12, #I13, #I14, #I15, #I16, #I17⟩, ⟨#I20, #I21, #I22, #I23, #I24, #I25, #I26, #I27⟩, ⟨#I30, #I31, #I32, #I33, #I34, #I35, #I36, #I37⟩⟩, #IBX, #IBY, ⟨#IX0, #IX1, #IX2, #IX3, #IX4, #IX5, #IX6, #IX7⟩, ⟨#IY0, #IY1, #IY2, #IY3, #IY4, #IY5, #IY6, #IY7⟩⟩, ⟨AB, ⟨⟨A00, A01, A02, A03, A04, A05, A06, A07⟩, ⟨A10, A11, A12, A13, A14, A15, A16, A17⟩, ⟨A20, A21, A22, A23, A24, A25, A26, A27⟩, ⟨A30, A31, A32, A33, A34, A35, A36, A37⟩⟩⟩, ⟨#RBX, #RBY, ⟨⟨#R00, #R01, #R02, #R03, #R04, #R05, #R06, #R07⟩, ⟨#R10, #R11, #R12, #R13, #R14, #R15, #R16, #R17⟩, ⟨#R20, #R21, #R22, #R23, #R24, #R25, #R26, #R27⟩, ⟨#R30, #R31, #R32, #R33, #R34, #R35, #R36, #R37⟩⟩, ⟨#RX0, #RX1, #RX2, #RX3, #RX4, #RX5, #RX6, #RX7⟩, ⟨#RY0, #RY1, #RY2, #RY3, #RY4, #RY5, #RY6, #RY7⟩⟩, ⟨TBX, TBY, ⟨TX0, TX1, TX2, TX3, TX4, TX5, TX6, TX7⟩, ⟨TY0, TY1, TY2, TY3, TY4, TY5, TY6, TY7⟩, ⟨TS0, TS1, TS2, TS3, TS4, TS5, TS6, TS7⟩, ⟨TZ0, TZ1, TZ2, TZ3, TZ4, TZ5, TZ6, TZ7⟩⟩⟩⟩, ⟨CB, ⟨CX0, CX1, CX2, CX3, CX4, CX5, CX6, CX7⟩, ⟨CY0, CY1, CY2, CY3, CY4, CY5, CY6, CY7⟩⟩, #Hlev⟩, ⟨⟨%f0, Hp⟩, ⟨%f1, Hw⟩, ⟨%f2, Hx⟩, ⟨%f3, Hs⟩⟩⟩, HO, ⟨%d0, %g0, %hg0, Ha⟩, ⟨%d1, %g1, %hg1, Hb⟩, ⟨%d2, %g2, %hg2, Ho⟩⟩
  unfold Dat.owesAt Pipeline.owesWithin
  icases HO with ⟨%W, %hW, HO⟩
  rw [show (dats m 0 c).owed t0_0.castSucc = O₀ c from rfl]
  ihave CY0 := (Entails.of_eq (hid_eq _).symm) $$ CY0
  ihave CY1 := (Entails.of_eq (hid_eq _).symm) $$ CY1
  ihave CY2 := (Entails.of_eq (hid_eq _).symm) $$ CY2
  ihave CY3 := (Entails.of_eq (hid_eq _).symm) $$ CY3
  ihave CY4 := (Entails.of_eq (hid_eq _).symm) $$ CY4
  ihave CY5 := (Entails.of_eq (hid_eq _).symm) $$ CY5
  ihave CY6 := (Entails.of_eq (hid_eq _).symm) $$ CY6
  ihave CY7 := (Entails.of_eq (hid_eq _).symm) $$ CY7
  unfold held
  have hA0 : g0 = argA m c := by rw [hg0]; unfold Dat.before; rw [if_pos (fetch0_0 t0_0)]; rfl
  have hB0 : g1 = argB m c := by rw [hg1]; unfold Dat.before; rw [if_pos (fetch0_1 t0_0)]; rfl
  subst hA0 hB0
  sl_unfold [cc0_body]
  sl_exec_parts
  -- the handshake: one unit to each of the two peers' barrier cells, then the wait for two
  unfold O₀
  iapply (sig_x m K c _ (dev1_eq c) f2 (oY c + oX c + tallyAt (barCell (yn c)) () 1) W) $$ [HO TBX Hx]
  · isplitr; · iexact IBX
    isplitl [HO]; · iexact HO
    isplitl [TBX]; · iexact TBX
    isplitl [Hx]; · unfold held; iexact Hx
    isplitr
    · rw [bigSep_fin8]
      isplitr; · iexact R10
      isplitr; · iexact R11
      isplitr; · iexact R12
      isplitr; · iexact R13
      isplitr; · iexact R14
      isplitr; · iexact R15
      isplitr; · iexact R16
      iexact R17
    iexact RBX
  iintro HO
  sl_step
  sl_exec_parts
  -- the second signal: the half of S that lands from the neighbour goes with it
  ihave Hsplit := (show (sM.view.loc (c : Thread nD τ) ↦[sM.view.set]{fullShare} f3 : sProp 𝕄) ⊢ _ from give_half c f3) $$ Hs
  icases Hsplit with ⟨Hgive, Hown⟩
  iapply (sig_y m K c _ (dev2_eq c) (oY c + oX c) W) $$ [HO TBY Hgive]
  · isplitr; · iexact IBY
    isplitl [HO]; · iexact HO
    isplitl [TBY]; · iexact TBY
    isplitl [Hgive]; · iexact Hgive
    isplitr
    · rw [bigSep_fin8]
      isplitr; · iexact R30
      isplitr; · iexact R31
      isplitr; · iexact R32
      isplitr; · iexact R33
      isplitr; · iexact R34
      isplitr; · iexact R35
      isplitr; · iexact R36
      iexact R37
    iexact RBY
  iintro HO
  sl_step
  sl_exec_parts
  -- the wait for both peers
  iapply (wait_bar m K c W (wpE_semWait_eq 𝒱₀ (c : Thread nD τ) none Set.univ)) $$ [CB HO AB]
  · isplitr; · iexact IB
    isplitl [CB]; · iexact CB
    isplitl [HO]; · iexact HO
    isplitr; · iexact Hlev
    iexact AB
  iintro ⟨HO, AB, #RB1, HbX, HbY⟩
  unfold barPayX barPayY
  icases HbX with ⟨⟨%fX, HXp⟩, -⟩
  icases HbY with ⟨HSn, -⟩
  sl_step
  -- everything in blocks: the partner's X, the neighbour's half of S, this device's P and its half of S
  ihave HXs := ((split_X (xp c) fX).1.trans (Entails.of_eq (bigSep_fin8 _))) $$ HXp
  icases HXs with ⟨HXP0, HXP1, HXP2, HXP3, HXP4, HXP5, HXP6, HXP7⟩
  ihave HSns := (Entails.of_eq (bigSep_fin8 _)) $$ HSn
  icases HSns with ⟨⟨%fn0, HN0⟩, ⟨%fn1, HN1⟩, ⟨%fn2, HN2⟩, ⟨%fn3, HN3⟩, ⟨%fn4, HN4⟩, ⟨%fn5, HN5⟩, ⟨%fn6, HN6⟩, ⟨%fn7, HN7⟩⟩
  ihave HSos := (Entails.of_eq (bigSep_fin8 _)) $$ Hown
  icases HSos with ⟨HS0, HS1, HS2, HS3, HS4, HS5, HS6, HS7⟩
  ihave Hp' := (Entails.of_eq (pointsTo_congr (g := Pbuf m c) (by intro i _; exact congrFun ((show _ = pM.view.writes (Elt F) f0 ([⟨Rect.unit (s := S256x1024) ![0, 896] S256x128.size inb_S256x1024_S256x128_0_896, pProd (ldAp m c) (ldBr m c 7)⟩,
      ⟨Rect.unit (s := S256x1024) ![0, 768] S256x128.size inb_S256x1024_S256x128_0_768, pProd (ldAp m c) (ldBr m c 6)⟩,
      ⟨Rect.unit (s := S256x1024) ![0, 640] S256x128.size inb_S256x1024_S256x128_0_640, pProd (ldAp m c) (ldBr m c 5)⟩,
      ⟨Rect.unit (s := S256x1024) ![0, 512] S256x128.size inb_S256x1024_S256x128_0_512, pProd (ldAp m c) (ldBr m c 4)⟩,
      ⟨Rect.unit (s := S256x1024) ![0, 384] S256x128.size inb_S256x1024_S256x128_0_384, pProd (ldAp m c) (ldBr m c 3)⟩,
      ⟨Rect.unit (s := S256x1024) ![0, 256] S256x128.size inb_S256x1024_S256x128_0_256, pProd (ldAp m c) (ldBr m c 2)⟩,
      ⟨Rect.unit (s := S256x1024) ![0, 128] S256x128.size inb_S256x1024_S256x128_0_128, pProd (ldAp m c) (ldBr m c 1)⟩,
      ⟨Rect.unit (s := S256x1024) ![0, 0] S256x128.size inb_S256x1024_S256x128_0_0, pProd (ldAp m c) (ldBr m c 0)⟩] : List (View.Piece (Elt F) S256x1024 .bf16)) from rfl).trans (P_writes m c f0)) i))) $$ Hp
  ihave HPs := ((show (pM.view.loc (c : Thread nD τ) ↦[pM.view.set]{fullShare} Pbuf m c : sProp 𝕄) ⊢ _ from (split_P c (Pbuf m c)).1).trans (Entails.of_eq (bigSep_fin8 _))) $$ Hp'
  icases HPs with ⟨HP0, HP1, HP2, HP3, HP4, HP5, HP6, HP7⟩
  rw [oX_eq c, oY_eq c]
  -- block 0 of P to the partner's X
  rw [show oYn c 8 + oXn c 8 = (oYn c 8 + oXn c 7) + tallyAt (dCell (xp c) 1 0) () NX from (add_assoc _ _ _).symm]
  iapply (send_x m K c _ (dev3_eq c) 0 fX (oYn c 8 + oXn c 7) _) $$ [HP0 HXP0 HO TS0 TX0]
  · isplitr; · iexact I00
    isplitr; · iexact IX0
    isplitl [HP0]; · iexact HP0
    isplitl [HXP0]; · iexact HXP0
    isplitl [HO]; · iexact HO
    isplitl [TS0]; · iexact TS0
    isplitr; · iexact R00
    isplitl [TX0]; · iexact TX0
    iexact RX0
  iintro ⟨CS0, HO⟩
  ihave CS0 := (Entails.of_eq (hid_eq _).symm) $$ CS0
  try rw [ret_bind']
  try sl_step
  sl_exec_parts
  -- block 1 of P to the partner's X
  rw [show oYn c 8 + oXn c 7 = (oYn c 8 + oXn c 6) + tallyAt (dCell (xp c) 1 1) () NX from (add_assoc _ _ _).symm]
  iapply (send_x m K c _ (dev4_eq c) 1 fX (oYn c 8 + oXn c 6) _) $$ [HP1 HXP1 HO TS1 TX1]
  · isplitr; · iexact I01
    isplitr; · iexact IX1
    isplitl [HP1]; · iexact HP1
    isplitl [HXP1]; · iexact HXP1
    isplitl [HO]; · iexact HO
    isplitl [TS1]; · iexact TS1
    isplitr; · iexact R01
    isplitl [TX1]; · iexact TX1
    iexact RX1
  iintro ⟨CS1, HO⟩
  ihave CS1 := (Entails.of_eq (hid_eq _).symm) $$ CS1
  try rw [ret_bind']
  try sl_step
  sl_exec_parts
  -- block 2 of P to the partner's X
  rw [show oYn c 8 + oXn c 6 = (oYn c 8 + oXn c 5) + tallyAt (dCell (xp c) 1 2) () NX from (add_assoc _ _ _).symm]
  iapply (send_x m K c _ (dev5_eq c) 2 fX (oYn c 8 + oXn c 5) _) $$ [HP2 HXP2 HO TS2 TX2]
  · isplitr; · iexact I02
    isplitr; · iexact IX2
    isplitl [HP2]; · iexact HP2
    isplitl [HXP2]; · iexact HXP2
    isplitl [HO]; · iexact HO
    isplitl [TS2]; · iexact TS2
    isplitr; · iexact R02
    isplitl [TX2]; · iexact TX2
    iexact RX2
  iintro ⟨CS2, HO⟩
  ihave CS2 := (Entails.of_eq (hid_eq _).symm) $$ CS2
  try rw [ret_bind']
  try sl_step
  sl_exec_parts
  -- block 3 of P to the partner's X
  rw [show oYn c 8 + oXn c 5 = (oYn c 8 + oXn c 4) + tallyAt (dCell (xp c) 1 3) () NX from (add_assoc _ _ _).symm]
  iapply (send_x m K c _ (dev6_eq c) 3 fX (oYn c 8 + oXn c 4) _) $$ [HP3 HXP3 HO TS3 TX3]
  · isplitr; · iexact I03
    isplitr; · iexact IX3
    isplitl [HP3]; · iexact HP3
    isplitl [HXP3]; · iexact HXP3
    isplitl [HO]; · iexact HO
    isplitl [TS3]; · iexact TS3
    isplitr; · iexact R03
    isplitl [TX3]; · iexact TX3
    iexact RX3
  iintro ⟨CS3, HO⟩
  ihave CS3 := (Entails.of_eq (hid_eq _).symm) $$ CS3
  try rw [ret_bind']
  try sl_step
  sl_exec_parts
  -- block 4 of P to the partner's X
  rw [show oYn c 8 + oXn c 4 = (oYn c 8 + oXn c 3) + tallyAt (dCell (xp c) 1 4) () NX from (add_assoc _ _ _).symm]
  iapply (send_x m K c _ (dev7_eq c) 4 fX (oYn c 8 + oXn c 3) _) $$ [HP4 HXP4 HO TS4 TX4]
  · isplitr; · iexact I04
    isplitr; · iexact IX4
    isplitl [HP4]; · iexact HP4
    isplitl [HXP4]; · iexact HXP4
    isplitl [HO]; · iexact HO
    isplitl [TS4]; · iexact TS4
    isplitr; · iexact R04
    isplitl [TX4]; · iexact TX4
    iexact RX4
  iintro ⟨CS4, HO⟩
  ihave CS4 := (Entails.of_eq (hid_eq _).symm) $$ CS4
  try rw [ret_bind']
  try sl_step
  sl_exec_parts
  -- block 5 of P to the partner's X
  rw [show oYn c 8 + oXn c 3 = (oYn c 8 + oXn c 2) + tallyAt (dCell (xp c) 1 5) () NX from (add_assoc _ _ _).symm]
  iapply (send_x m K c _ (dev8_eq c) 5 fX (oYn c 8 + oXn c 2) _) $$ [HP5 HXP5 HO TS5 TX5]
  · isplitr; · iexact I05
    isplitr; · iexact IX5
    isplitl [HP5]; · iexact HP5
    isplitl [HXP5]; · iexact HXP5
    isplitl [HO]; · iexact HO
    isplitl [TS5]; · iexact TS5
    isplitr; · iexact R05
    isplitl [TX5]; · iexact TX5
    iexact RX5
  iintro ⟨CS5, HO⟩
  ihave CS5 := (Entails.of_eq (hid_eq _).symm) $$ CS5
  try rw [ret_bind']
  try sl_step
  sl_exec_parts
  -- block 6 of P to the partner's X
  rw [show oYn c 8 + oXn c 2 = (oYn c 8 + oXn c 1) + tallyAt (dCell (xp c) 1 6) () NX from (add_assoc _ _ _).symm]
  iapply (send_x m K c _ (dev9_eq c) 6 fX (oYn c 8 + oXn c 1) _) $$ [HP6 HXP6 HO TS6 TX6]
  · isplitr; · iexact I06
    isplitr; · iexact IX6
    isplitl [HP6]; · iexact HP6
    isplitl [HXP6]; · iexact HXP6
    isplitl [HO]; · iexact HO
    isplitl [TS6]; · iexact TS6
    isplitr; · iexact R06
    isplitl [TX6]; · iexact TX6
    iexact RX6
  iintro ⟨CS6, HO⟩
  ihave CS6 := (Entails.of_eq (hid_eq _).symm) $$ CS6
  try rw [ret_bind']
  try sl_step
  sl_exec_parts
  -- block 7 of P to the partner's X
  rw [show oYn c 8 + oXn c 1 = (oYn c 8 + oXn c 0) + tallyAt (dCell (xp c) 1 7) () NX from (add_assoc _ _ _).symm]
  iapply (send_x m K c _ (dev10_eq c) 7 fX (oYn c 8 + oXn c 0) _) $$ [HP7 HXP7 HO TS7 TX7]
  · isplitr; · iexact I07
    isplitr; · iexact IX7
    isplitl [HP7]; · iexact HP7
    isplitl [HXP7]; · iexact HXP7
    isplitl [HO]; · iexact HO
    isplitl [TS7]; · iexact TS7
    isplitr; · iexact R07
    isplitl [TX7]; · iexact TX7
    iexact RX7
  iintro ⟨CS7, HO⟩
  ihave CS7 := (Entails.of_eq (hid_eq _).symm) $$ CS7
  try rw [ret_bind']
  try sl_step
  sl_exec_parts
  rw [show oYn c 8 + oXn c 0 = oYn c 8 from add_zero _]
  -- W holds the device's own partial products
  ihave Hw := (Entails.of_eq (pointsTo_congr (g := Wbuf m c) (by intro i _; exact congrFun ((show _ = ((wM.access (Rect.unit (s := S256x1024) ![0, 0] S256x1024.size inb_S256x1024_S256x1024_0_0) : View sig .tc _ _ _).write (Elt F) f1 (wProd (ldAo m c) (ldBh m c)) Finset.univ) from rfl).trans (W_write m c f1)) i))) $$ Hw
  -- the partner's block 0 has landed in X
  iapply (wait_xr m K c 0 (oYn c 8) _ (mayWait_xr c 0 8) (wpE_waitDma2_eq 𝒱₀ (c : Thread nD τ) none Set.univ)) $$ [CX0 HO A10]
  · isplitr; · iexact I10
    isplitl [CX0]; · iexact CX0
    isplitl [HO]; · iexact HO
    isplitr; · iexact Hlev
    iexact A10
  iintro ⟨HO, A10, #Q10, HX0⟩
  try rw [ret_bind']
  try sl_step
  unfold held
  sl_exec_parts
  -- S, block 0: the dead load and the store of the rounded reduced block, through the block held
  iapply (wp_load 𝒱₀ (c : Thread nD τ) none Set.univ (m := sM) (S_load_own c 0)) $$ HS0; iintro HS0
  iapply (wp_store 𝒱₀ (c : Thread nD τ) none Set.univ (m := sM) (r := (Rect.unit (s := S256x2048) (k0_off5 c (BitVec.ofNat 32 (128 * 0))) S256x128.size (k0_off5_inb c 0))) (Mk := Finset.univ) (S_store_own c 0)) $$ HS0; iintro HS0
  try rw [ret_bind']
  try sl_step
  sl_exec_parts
  -- the reduced block 0, staged, to the neighbour's S
  ihave HS0' := (Entails.of_eq (pointsTo_congr (g := Sbuf m c) (by intro i hi; exact S_store m c 0 f3 i hi))) $$ HS0
  ihave HS0' := (show (((sM.access (Rect.unit (s := S256x2048) (k0_off5 c (BitVec.ofNat 32 (128 * 0))) S256x128.size (k0_off5_inb c 0)) : View sig .tc _ _ _).loc (c : Thread nD τ) ↦[(sOwn c 0).view.set]{fullShare} Sbuf m c) : sProp 𝕄) ⊢ held (sOwn c 0) c (Sbuf m c) from Entails.of_eq rfl) $$ HS0'
  rw [show oYn c 8 = oYn c 7 + tallyAt (dCell (yn c) 3 0) () NS from rfl]
  iapply (send_y m K c _ (dev11_eq c) 0 fn0 (oYn c 7) _) $$ [HS0' HN0 HO TZ0 TY0]
  · isplitr; · iexact I20
    isplitr; · iexact IY0
    isplitl [HS0']; · iexact HS0'
    isplitl [HN0]; · iexact HN0
    isplitl [HO]; · iexact HO
    isplitl [TZ0]; · iexact TZ0
    isplitr; · iexact R20
    isplitl [TY0]; · iexact TY0
    iexact RY0
  iintro ⟨CZ0, HO⟩
  ihave CZ0 := (Entails.of_eq (hid_eq _).symm) $$ CZ0
  try rw [ret_bind']
  try sl_step
  sl_exec_parts
  -- the partner's block 1 has landed in X
  iapply (wait_xr m K c 1 (oYn c 7) _ (mayWait_xr c 1 7) (wpE_waitDma2_eq 𝒱₀ (c : Thread nD τ) none Set.univ)) $$ [CX1 HO A11]
  · isplitr; · iexact I11
    isplitl [CX1]; · iexact CX1
    isplitl [HO]; · iexact HO
    isplitr; · iexact Hlev
    iexact A11
  iintro ⟨HO, A11, #Q11, HX1⟩
  try rw [ret_bind']
  try sl_step
  unfold held
  sl_exec_parts
  -- S, block 1: the dead load and the store of the rounded reduced block, through the block held
  iapply (wp_load 𝒱₀ (c : Thread nD τ) none Set.univ (m := sM) (S_load_own c 1)) $$ HS1; iintro HS1
  iapply (wp_store 𝒱₀ (c : Thread nD τ) none Set.univ (m := sM) (r := (Rect.unit (s := S256x2048) (k0_off5 c (BitVec.ofNat 32 (128 * 1))) S256x128.size (k0_off5_inb c 1))) (Mk := Finset.univ) (S_store_own c 1)) $$ HS1; iintro HS1
  try rw [ret_bind']
  try sl_step
  sl_exec_parts
  -- the reduced block 1, staged, to the neighbour's S
  ihave HS1' := (Entails.of_eq (pointsTo_congr (g := Sbuf m c) (by intro i hi; exact S_store m c 1 f3 i hi))) $$ HS1
  ihave HS1' := (show (((sM.access (Rect.unit (s := S256x2048) (k0_off5 c (BitVec.ofNat 32 (128 * 1))) S256x128.size (k0_off5_inb c 1)) : View sig .tc _ _ _).loc (c : Thread nD τ) ↦[(sOwn c 1).view.set]{fullShare} Sbuf m c) : sProp 𝕄) ⊢ held (sOwn c 1) c (Sbuf m c) from Entails.of_eq rfl) $$ HS1'
  rw [show oYn c 7 = oYn c 6 + tallyAt (dCell (yn c) 3 1) () NS from rfl]
  iapply (send_y m K c _ (dev12_eq c) 1 fn1 (oYn c 6) _) $$ [HS1' HN1 HO TZ1 TY1]
  · isplitr; · iexact I21
    isplitr; · iexact IY1
    isplitl [HS1']; · iexact HS1'
    isplitl [HN1]; · iexact HN1
    isplitl [HO]; · iexact HO
    isplitl [TZ1]; · iexact TZ1
    isplitr; · iexact R21
    isplitl [TY1]; · iexact TY1
    iexact RY1
  iintro ⟨CZ1, HO⟩
  ihave CZ1 := (Entails.of_eq (hid_eq _).symm) $$ CZ1
  try rw [ret_bind']
  try sl_step
  sl_exec_parts
  -- the partner's block 2 has landed in X
  iapply (wait_xr m K c 2 (oYn c 6) _ (mayWait_xr c 2 6) (wpE_waitDma2_eq 𝒱₀ (c : Thread nD τ) none Set.univ)) $$ [CX2 HO A12]
  · isplitr; · iexact I12
    isplitl [CX2]; · iexact CX2
    isplitl [HO]; · iexact HO
    isplitr; · iexact Hlev
    iexact A12
  iintro ⟨HO, A12, #Q12, HX2⟩
  try rw [ret_bind']
  try sl_step
  unfold held
  sl_exec_parts
  -- S, block 2: the dead load and the store of the rounded reduced block, through the block held
  iapply (wp_load 𝒱₀ (c : Thread nD τ) none Set.univ (m := sM) (S_load_own c 2)) $$ HS2; iintro HS2
  iapply (wp_store 𝒱₀ (c : Thread nD τ) none Set.univ (m := sM) (r := (Rect.unit (s := S256x2048) (k0_off5 c (BitVec.ofNat 32 (128 * 2))) S256x128.size (k0_off5_inb c 2))) (Mk := Finset.univ) (S_store_own c 2)) $$ HS2; iintro HS2
  try rw [ret_bind']
  try sl_step
  sl_exec_parts
  -- the reduced block 2, staged, to the neighbour's S
  ihave HS2' := (Entails.of_eq (pointsTo_congr (g := Sbuf m c) (by intro i hi; exact S_store m c 2 f3 i hi))) $$ HS2
  ihave HS2' := (show (((sM.access (Rect.unit (s := S256x2048) (k0_off5 c (BitVec.ofNat 32 (128 * 2))) S256x128.size (k0_off5_inb c 2)) : View sig .tc _ _ _).loc (c : Thread nD τ) ↦[(sOwn c 2).view.set]{fullShare} Sbuf m c) : sProp 𝕄) ⊢ held (sOwn c 2) c (Sbuf m c) from Entails.of_eq rfl) $$ HS2'
  rw [show oYn c 6 = oYn c 5 + tallyAt (dCell (yn c) 3 2) () NS from rfl]
  iapply (send_y m K c _ (dev13_eq c) 2 fn2 (oYn c 5) _) $$ [HS2' HN2 HO TZ2 TY2]
  · isplitr; · iexact I22
    isplitr; · iexact IY2
    isplitl [HS2']; · iexact HS2'
    isplitl [HN2]; · iexact HN2
    isplitl [HO]; · iexact HO
    isplitl [TZ2]; · iexact TZ2
    isplitr; · iexact R22
    isplitl [TY2]; · iexact TY2
    iexact RY2
  iintro ⟨CZ2, HO⟩
  ihave CZ2 := (Entails.of_eq (hid_eq _).symm) $$ CZ2
  try rw [ret_bind']
  try sl_step
  sl_exec_parts
  -- the partner's block 3 has landed in X
  iapply (wait_xr m K c 3 (oYn c 5) _ (mayWait_xr c 3 5) (wpE_waitDma2_eq 𝒱₀ (c : Thread nD τ) none Set.univ)) $$ [CX3 HO A13]
  · isplitr; · iexact I13
    isplitl [CX3]; · iexact CX3
    isplitl [HO]; · iexact HO
    isplitr; · iexact Hlev
    iexact A13
  iintro ⟨HO, A13, #Q13, HX3⟩
  try rw [ret_bind']
  try sl_step
  unfold held
  sl_exec_parts
  -- S, block 3: the dead load and the store of the rounded reduced block, through the block held
  iapply (wp_load 𝒱₀ (c : Thread nD τ) none Set.univ (m := sM) (S_load_own c 3)) $$ HS3; iintro HS3
  iapply (wp_store 𝒱₀ (c : Thread nD τ) none Set.univ (m := sM) (r := (Rect.unit (s := S256x2048) (k0_off5 c (BitVec.ofNat 32 (128 * 3))) S256x128.size (k0_off5_inb c 3))) (Mk := Finset.univ) (S_store_own c 3)) $$ HS3; iintro HS3
  try rw [ret_bind']
  try sl_step
  sl_exec_parts
  -- the reduced block 3, staged, to the neighbour's S
  ihave HS3' := (Entails.of_eq (pointsTo_congr (g := Sbuf m c) (by intro i hi; exact S_store m c 3 f3 i hi))) $$ HS3
  ihave HS3' := (show (((sM.access (Rect.unit (s := S256x2048) (k0_off5 c (BitVec.ofNat 32 (128 * 3))) S256x128.size (k0_off5_inb c 3)) : View sig .tc _ _ _).loc (c : Thread nD τ) ↦[(sOwn c 3).view.set]{fullShare} Sbuf m c) : sProp 𝕄) ⊢ held (sOwn c 3) c (Sbuf m c) from Entails.of_eq rfl) $$ HS3'
  rw [show oYn c 5 = oYn c 4 + tallyAt (dCell (yn c) 3 3) () NS from rfl]
  iapply (send_y m K c _ (dev14_eq c) 3 fn3 (oYn c 4) _) $$ [HS3' HN3 HO TZ3 TY3]
  · isplitr; · iexact I23
    isplitr; · iexact IY3
    isplitl [HS3']; · iexact HS3'
    isplitl [HN3]; · iexact HN3
    isplitl [HO]; · iexact HO
    isplitl [TZ3]; · iexact TZ3
    isplitr; · iexact R23
    isplitl [TY3]; · iexact TY3
    iexact RY3
  iintro ⟨CZ3, HO⟩
  ihave CZ3 := (Entails.of_eq (hid_eq _).symm) $$ CZ3
  try rw [ret_bind']
  try sl_step
  sl_exec_parts
  -- the partner's block 4 has landed in X
  iapply (wait_xr m K c 4 (oYn c 4) _ (mayWait_xr c 4 4) (wpE_waitDma2_eq 𝒱₀ (c : Thread nD τ) none Set.univ)) $$ [CX4 HO A14]
  · isplitr; · iexact I14
    isplitl [CX4]; · iexact CX4
    isplitl [HO]; · iexact HO
    isplitr; · iexact Hlev
    iexact A14
  iintro ⟨HO, A14, #Q14, HX4⟩
  try rw [ret_bind']
  try sl_step
  unfold held
  sl_exec_parts
  -- S, block 4: the dead load and the store of the rounded reduced block, through the block held
  iapply (wp_load 𝒱₀ (c : Thread nD τ) none Set.univ (m := sM) (S_load_own c 4)) $$ HS4; iintro HS4
  iapply (wp_store 𝒱₀ (c : Thread nD τ) none Set.univ (m := sM) (r := (Rect.unit (s := S256x2048) (k0_off5 c (BitVec.ofNat 32 (128 * 4))) S256x128.size (k0_off5_inb c 4))) (Mk := Finset.univ) (S_store_own c 4)) $$ HS4; iintro HS4
  try rw [ret_bind']
  try sl_step
  sl_exec_parts
  -- the reduced block 4, staged, to the neighbour's S
  ihave HS4' := (Entails.of_eq (pointsTo_congr (g := Sbuf m c) (by intro i hi; exact S_store m c 4 f3 i hi))) $$ HS4
  ihave HS4' := (show (((sM.access (Rect.unit (s := S256x2048) (k0_off5 c (BitVec.ofNat 32 (128 * 4))) S256x128.size (k0_off5_inb c 4)) : View sig .tc _ _ _).loc (c : Thread nD τ) ↦[(sOwn c 4).view.set]{fullShare} Sbuf m c) : sProp 𝕄) ⊢ held (sOwn c 4) c (Sbuf m c) from Entails.of_eq rfl) $$ HS4'
  rw [show oYn c 4 = oYn c 3 + tallyAt (dCell (yn c) 3 4) () NS from rfl]
  iapply (send_y m K c _ (dev15_eq c) 4 fn4 (oYn c 3) _) $$ [HS4' HN4 HO TZ4 TY4]
  · isplitr; · iexact I24
    isplitr; · iexact IY4
    isplitl [HS4']; · iexact HS4'
    isplitl [HN4]; · iexact HN4
    isplitl [HO]; · iexact HO
    isplitl [TZ4]; · iexact TZ4
    isplitr; · iexact R24
    isplitl [TY4]; · iexact TY4
    iexact RY4
  iintro ⟨CZ4, HO⟩
  ihave CZ4 := (Entails.of_eq (hid_eq _).symm) $$ CZ4
  try rw [ret_bind']
  try sl_step
  sl_exec_parts
  -- the partner's block 5 has landed in X
  iapply (wait_xr m K c 5 (oYn c 3) _ (mayWait_xr c 5 3) (wpE_waitDma2_eq 𝒱₀ (c : Thread nD τ) none Set.univ)) $$ [CX5 HO A15]
  · isplitr; · iexact I15
    isplitl [CX5]; · iexact CX5
    isplitl [HO]; · iexact HO
    isplitr; · iexact Hlev
    iexact A15
  iintro ⟨HO, A15, #Q15, HX5⟩
  try rw [ret_bind']
  try sl_step
  unfold held
  sl_exec_parts
  -- S, block 5: the dead load and the store of the rounded reduced block, through the block held
  iapply (wp_load 𝒱₀ (c : Thread nD τ) none Set.univ (m := sM) (S_load_own c 5)) $$ HS5; iintro HS5
  iapply (wp_store 𝒱₀ (c : Thread nD τ) none Set.univ (m := sM) (r := (Rect.unit (s := S256x2048) (k0_off5 c (BitVec.ofNat 32 (128 * 5))) S256x128.size (k0_off5_inb c 5))) (Mk := Finset.univ) (S_store_own c 5)) $$ HS5; iintro HS5
  try rw [ret_bind']
  try sl_step
  sl_exec_parts
  -- the reduced block 5, staged, to the neighbour's S
  ihave HS5' := (Entails.of_eq (pointsTo_congr (g := Sbuf m c) (by intro i hi; exact S_store m c 5 f3 i hi))) $$ HS5
  ihave HS5' := (show (((sM.access (Rect.unit (s := S256x2048) (k0_off5 c (BitVec.ofNat 32 (128 * 5))) S256x128.size (k0_off5_inb c 5)) : View sig .tc _ _ _).loc (c : Thread nD τ) ↦[(sOwn c 5).view.set]{fullShare} Sbuf m c) : sProp 𝕄) ⊢ held (sOwn c 5) c (Sbuf m c) from Entails.of_eq rfl) $$ HS5'
  rw [show oYn c 3 = oYn c 2 + tallyAt (dCell (yn c) 3 5) () NS from rfl]
  iapply (send_y m K c _ (dev16_eq c) 5 fn5 (oYn c 2) _) $$ [HS5' HN5 HO TZ5 TY5]
  · isplitr; · iexact I25
    isplitr; · iexact IY5
    isplitl [HS5']; · iexact HS5'
    isplitl [HN5]; · iexact HN5
    isplitl [HO]; · iexact HO
    isplitl [TZ5]; · iexact TZ5
    isplitr; · iexact R25
    isplitl [TY5]; · iexact TY5
    iexact RY5
  iintro ⟨CZ5, HO⟩
  ihave CZ5 := (Entails.of_eq (hid_eq _).symm) $$ CZ5
  try rw [ret_bind']
  try sl_step
  sl_exec_parts
  -- the partner's block 6 has landed in X
  iapply (wait_xr m K c 6 (oYn c 2) _ (mayWait_xr c 6 2) (wpE_waitDma2_eq 𝒱₀ (c : Thread nD τ) none Set.univ)) $$ [CX6 HO A16]
  · isplitr; · iexact I16
    isplitl [CX6]; · iexact CX6
    isplitl [HO]; · iexact HO
    isplitr; · iexact Hlev
    iexact A16
  iintro ⟨HO, A16, #Q16, HX6⟩
  try rw [ret_bind']
  try sl_step
  unfold held
  sl_exec_parts
  -- S, block 6: the dead load and the store of the rounded reduced block, through the block held
  iapply (wp_load 𝒱₀ (c : Thread nD τ) none Set.univ (m := sM) (S_load_own c 6)) $$ HS6; iintro HS6
  iapply (wp_store 𝒱₀ (c : Thread nD τ) none Set.univ (m := sM) (r := (Rect.unit (s := S256x2048) (k0_off5 c (BitVec.ofNat 32 (128 * 6))) S256x128.size (k0_off5_inb c 6))) (Mk := Finset.univ) (S_store_own c 6)) $$ HS6; iintro HS6
  try rw [ret_bind']
  try sl_step
  sl_exec_parts
  -- the reduced block 6, staged, to the neighbour's S
  ihave HS6' := (Entails.of_eq (pointsTo_congr (g := Sbuf m c) (by intro i hi; exact S_store m c 6 f3 i hi))) $$ HS6
  ihave HS6' := (show (((sM.access (Rect.unit (s := S256x2048) (k0_off5 c (BitVec.ofNat 32 (128 * 6))) S256x128.size (k0_off5_inb c 6)) : View sig .tc _ _ _).loc (c : Thread nD τ) ↦[(sOwn c 6).view.set]{fullShare} Sbuf m c) : sProp 𝕄) ⊢ held (sOwn c 6) c (Sbuf m c) from Entails.of_eq rfl) $$ HS6'
  rw [show oYn c 2 = oYn c 1 + tallyAt (dCell (yn c) 3 6) () NS from rfl]
  iapply (send_y m K c _ (dev17_eq c) 6 fn6 (oYn c 1) _) $$ [HS6' HN6 HO TZ6 TY6]
  · isplitr; · iexact I26
    isplitr; · iexact IY6
    isplitl [HS6']; · iexact HS6'
    isplitl [HN6]; · iexact HN6
    isplitl [HO]; · iexact HO
    isplitl [TZ6]; · iexact TZ6
    isplitr; · iexact R26
    isplitl [TY6]; · iexact TY6
    iexact RY6
  iintro ⟨CZ6, HO⟩
  ihave CZ6 := (Entails.of_eq (hid_eq _).symm) $$ CZ6
  try rw [ret_bind']
  try sl_step
  sl_exec_parts
  -- the partner's block 7 has landed in X
  iapply (wait_xr m K c 7 (oYn c 1) _ (mayWait_xr c 7 1) (wpE_waitDma2_eq 𝒱₀ (c : Thread nD τ) none Set.univ)) $$ [CX7 HO A17]
  · isplitr; · iexact I17
    isplitl [CX7]; · iexact CX7
    isplitl [HO]; · iexact HO
    isplitr; · iexact Hlev
    iexact A17
  iintro ⟨HO, A17, #Q17, HX7⟩
  try rw [ret_bind']
  try sl_step
  unfold held
  sl_exec_parts
  -- S, block 7: the dead load and the store of the rounded reduced block, through the block held
  iapply (wp_load 𝒱₀ (c : Thread nD τ) none Set.univ (m := sM) (S_load_own c 7)) $$ HS7; iintro HS7
  iapply (wp_store 𝒱₀ (c : Thread nD τ) none Set.univ (m := sM) (r := (Rect.unit (s := S256x2048) (k0_off5 c (BitVec.ofNat 32 (128 * 7))) S256x128.size (k0_off5_inb c 7))) (Mk := Finset.univ) (S_store_own c 7)) $$ HS7; iintro HS7
  try rw [ret_bind']
  try sl_step
  sl_exec_parts
  -- the reduced block 7, staged, to the neighbour's S
  ihave HS7' := (Entails.of_eq (pointsTo_congr (g := Sbuf m c) (by intro i hi; exact S_store m c 7 f3 i hi))) $$ HS7
  ihave HS7' := (show (((sM.access (Rect.unit (s := S256x2048) (k0_off5 c (BitVec.ofNat 32 (128 * 7))) S256x128.size (k0_off5_inb c 7)) : View sig .tc _ _ _).loc (c : Thread nD τ) ↦[(sOwn c 7).view.set]{fullShare} Sbuf m c) : sProp 𝕄) ⊢ held (sOwn c 7) c (Sbuf m c) from Entails.of_eq rfl) $$ HS7'
  rw [show oYn c 1 = oYn c 0 + tallyAt (dCell (yn c) 3 7) () NS from rfl]
  iapply (send_y m K c _ (dev18_eq c) 7 fn7 (oYn c 0) _) $$ [HS7' HN7 HO TZ7 TY7]
  · isplitr; · iexact I27
    isplitr; · iexact IY7
    isplitl [HS7']; · iexact HS7'
    isplitl [HN7]; · iexact HN7
    isplitl [HO]; · iexact HO
    isplitl [TZ7]; · iexact TZ7
    isplitr; · iexact R27
    isplitl [TY7]; · iexact TY7
    iexact RY7
  iintro ⟨CZ7, HO⟩
  ihave CZ7 := (Entails.of_eq (hid_eq _).symm) $$ CZ7
  try rw [ret_bind']
  try sl_step
  sl_exec_parts
  rw [show oYn c 0 = (0 : CellTallies nD τ sig Unit) from rfl]
  -- the neighbour's block 0 has landed in S
  ihave CY0 := (Entails.of_eq (hid_eq _)) $$ CY0
  iapply (wait_yr m K c 0 0 _ (by rw [MayWait_zero]; iintro -; iempintro) (wpE_waitDma2_eq 𝒱₀ (c : Thread nD τ) none Set.univ)) $$ [CY0 HO A30]
  · isplitr; · iexact I30
    isplitl [CY0]; · iexact CY0
    isplitl [HO]; · iexact HO
    isplitr; · iexact Hlev
    iexact A30
  iintro ⟨HO, A30, #Q30, HT0⟩
  try rw [ret_bind']
  -- S, block 0 of the other half: read back through the block that landed
  iapply (wp_load 𝒱₀ (c : Thread nD τ) none Set.univ (m := sM) (S_load_oth c 0)) $$ HT0; iintro HT0
  try rw [ret_bind']
  try sl_step
  sl_exec_parts
  -- the neighbour's block 1 has landed in S
  ihave CY1 := (Entails.of_eq (hid_eq _)) $$ CY1
  iapply (wait_yr m K c 1 0 _ (by rw [MayWait_zero]; iintro -; iempintro) (wpE_waitDma2_eq 𝒱₀ (c : Thread nD τ) none Set.univ)) $$ [CY1 HO A31]
  · isplitr; · iexact I31
    isplitl [CY1]; · iexact CY1
    isplitl [HO]; · iexact HO
    isplitr; · iexact Hlev
    iexact A31
  iintro ⟨HO, A31, #Q31, HT1⟩
  try rw [ret_bind']
  -- S, block 1 of the other half: read back through the block that landed
  iapply (wp_load 𝒱₀ (c : Thread nD τ) none Set.univ (m := sM) (S_load_oth c 1)) $$ HT1; iintro HT1
  try rw [ret_bind']
  try sl_step
  sl_exec_parts
  -- the neighbour's block 2 has landed in S
  ihave CY2 := (Entails.of_eq (hid_eq _)) $$ CY2
  iapply (wait_yr m K c 2 0 _ (by rw [MayWait_zero]; iintro -; iempintro) (wpE_waitDma2_eq 𝒱₀ (c : Thread nD τ) none Set.univ)) $$ [CY2 HO A32]
  · isplitr; · iexact I32
    isplitl [CY2]; · iexact CY2
    isplitl [HO]; · iexact HO
    isplitr; · iexact Hlev
    iexact A32
  iintro ⟨HO, A32, #Q32, HT2⟩
  try rw [ret_bind']
  -- S, block 2 of the other half: read back through the block that landed
  iapply (wp_load 𝒱₀ (c : Thread nD τ) none Set.univ (m := sM) (S_load_oth c 2)) $$ HT2; iintro HT2
  try rw [ret_bind']
  try sl_step
  sl_exec_parts
  -- the neighbour's block 3 has landed in S
  ihave CY3 := (Entails.of_eq (hid_eq _)) $$ CY3
  iapply (wait_yr m K c 3 0 _ (by rw [MayWait_zero]; iintro -; iempintro) (wpE_waitDma2_eq 𝒱₀ (c : Thread nD τ) none Set.univ)) $$ [CY3 HO A33]
  · isplitr; · iexact I33
    isplitl [CY3]; · iexact CY3
    isplitl [HO]; · iexact HO
    isplitr; · iexact Hlev
    iexact A33
  iintro ⟨HO, A33, #Q33, HT3⟩
  try rw [ret_bind']
  -- S, block 3 of the other half: read back through the block that landed
  iapply (wp_load 𝒱₀ (c : Thread nD τ) none Set.univ (m := sM) (S_load_oth c 3)) $$ HT3; iintro HT3
  try rw [ret_bind']
  try sl_step
  sl_exec_parts
  -- the neighbour's block 4 has landed in S
  ihave CY4 := (Entails.of_eq (hid_eq _)) $$ CY4
  iapply (wait_yr m K c 4 0 _ (by rw [MayWait_zero]; iintro -; iempintro) (wpE_waitDma2_eq 𝒱₀ (c : Thread nD τ) none Set.univ)) $$ [CY4 HO A34]
  · isplitr; · iexact I34
    isplitl [CY4]; · iexact CY4
    isplitl [HO]; · iexact HO
    isplitr; · iexact Hlev
    iexact A34
  iintro ⟨HO, A34, #Q34, HT4⟩
  try rw [ret_bind']
  -- S, block 4 of the other half: read back through the block that landed
  iapply (wp_load 𝒱₀ (c : Thread nD τ) none Set.univ (m := sM) (S_load_oth c 4)) $$ HT4; iintro HT4
  try rw [ret_bind']
  try sl_step
  sl_exec_parts
  -- the neighbour's block 5 has landed in S
  ihave CY5 := (Entails.of_eq (hid_eq _)) $$ CY5
  iapply (wait_yr m K c 5 0 _ (by rw [MayWait_zero]; iintro -; iempintro) (wpE_waitDma2_eq 𝒱₀ (c : Thread nD τ) none Set.univ)) $$ [CY5 HO A35]
  · isplitr; · iexact I35
    isplitl [CY5]; · iexact CY5
    isplitl [HO]; · iexact HO
    isplitr; · iexact Hlev
    iexact A35
  iintro ⟨HO, A35, #Q35, HT5⟩
  try rw [ret_bind']
  -- S, block 5 of the other half: read back through the block that landed
  iapply (wp_load 𝒱₀ (c : Thread nD τ) none Set.univ (m := sM) (S_load_oth c 5)) $$ HT5; iintro HT5
  try rw [ret_bind']
  try sl_step
  sl_exec_parts
  -- the neighbour's block 6 has landed in S
  ihave CY6 := (Entails.of_eq (hid_eq _)) $$ CY6
  iapply (wait_yr m K c 6 0 _ (by rw [MayWait_zero]; iintro -; iempintro) (wpE_waitDma2_eq 𝒱₀ (c : Thread nD τ) none Set.univ)) $$ [CY6 HO A36]
  · isplitr; · iexact I36
    isplitl [CY6]; · iexact CY6
    isplitl [HO]; · iexact HO
    isplitr; · iexact Hlev
    iexact A36
  iintro ⟨HO, A36, #Q36, HT6⟩
  try rw [ret_bind']
  -- S, block 6 of the other half: read back through the block that landed
  iapply (wp_load 𝒱₀ (c : Thread nD τ) none Set.univ (m := sM) (S_load_oth c 6)) $$ HT6; iintro HT6
  try rw [ret_bind']
  try sl_step
  sl_exec_parts
  -- the neighbour's block 7 has landed in S
  ihave CY7 := (Entails.of_eq (hid_eq _)) $$ CY7
  iapply (wait_yr m K c 7 0 _ (by rw [MayWait_zero]; iintro -; iempintro) (wpE_waitDma2_eq 𝒱₀ (c : Thread nD τ) none Set.univ)) $$ [CY7 HO A37]
  · isplitr; · iexact I37
    isplitl [CY7]; · iexact CY7
    isplitl [HO]; · iexact HO
    isplitr; · iexact Hlev
    iexact A37
  iintro ⟨HO, A37, #Q37, HT7⟩
  try rw [ret_bind']
  -- S, block 7 of the other half: read back through the block that landed
  iapply (wp_load 𝒱₀ (c : Thread nD τ) none Set.univ (m := sM) (S_load_oth c 7)) $$ HT7; iintro HT7
  try rw [ret_bind']
  try sl_step
  sl_exec_parts
  ihave CS0 := (Entails.of_eq (hid_eq _)) $$ CS0
  iapply (wait_xs m K c 0 0 _ (by rw [MayWait_zero]; iintro -; iempintro) (wpE_waitDma2_eq 𝒱₀ (c : Thread nD τ) none Set.univ)) $$ [CS0 HO A00]
  · isplitr; · iexact I00
    isplitl [CS0]; · iexact CS0
    isplitl [HO]; · iexact HO
    isplitr; · iexact Hlev
    iexact A00
  iintro ⟨HO, A00, #Q00, HPb0⟩
  try rw [ret_bind']
  try sl_exec_parts
  ihave CZ0 := (Entails.of_eq (hid_eq _)) $$ CZ0
  iapply (wait_ys m K c 0 0 _ (by rw [MayWait_zero]; iintro -; iempintro) (wpE_waitDma2_eq 𝒱₀ (c : Thread nD τ) none Set.univ)) $$ [CZ0 HO A20]
  · isplitr; · iexact I20
    isplitl [CZ0]; · iexact CZ0
    isplitl [HO]; · iexact HO
    isplitr; · iexact Hlev
    iexact A20
  iintro ⟨HO, A20, #Q20, HSb0⟩
  try rw [ret_bind']
  try sl_exec_parts
  ihave CS1 := (Entails.of_eq (hid_eq _)) $$ CS1
  iapply (wait_xs m K c 1 0 _ (by rw [MayWait_zero]; iintro -; iempintro) (wpE_waitDma2_eq 𝒱₀ (c : Thread nD τ) none Set.univ)) $$ [CS1 HO A01]
  · isplitr; · iexact I01
    isplitl [CS1]; · iexact CS1
    isplitl [HO]; · iexact HO
    isplitr; · iexact Hlev
    iexact A01
  iintro ⟨HO, A01, #Q01, HPb1⟩
  try rw [ret_bind']
  try sl_exec_parts
  ihave CZ1 := (Entails.of_eq (hid_eq _)) $$ CZ1
  iapply (wait_ys m K c 1 0 _ (by rw [MayWait_zero]; iintro -; iempintro) (wpE_waitDma2_eq 𝒱₀ (c : Thread nD τ) none Set.univ)) $$ [CZ1 HO A21]
  · isplitr; · iexact I21
    isplitl [CZ1]; · iexact CZ1
    isplitl [HO]; · iexact HO
    isplitr; · iexact Hlev
    iexact A21
  iintro ⟨HO, A21, #Q21, HSb1⟩
  try rw [ret_bind']
  try sl_exec_parts
  ihave CS2 := (Entails.of_eq (hid_eq _)) $$ CS2
  iapply (wait_xs m K c 2 0 _ (by rw [MayWait_zero]; iintro -; iempintro) (wpE_waitDma2_eq 𝒱₀ (c : Thread nD τ) none Set.univ)) $$ [CS2 HO A02]
  · isplitr; · iexact I02
    isplitl [CS2]; · iexact CS2
    isplitl [HO]; · iexact HO
    isplitr; · iexact Hlev
    iexact A02
  iintro ⟨HO, A02, #Q02, HPb2⟩
  try rw [ret_bind']
  try sl_exec_parts
  ihave CZ2 := (Entails.of_eq (hid_eq _)) $$ CZ2
  iapply (wait_ys m K c 2 0 _ (by rw [MayWait_zero]; iintro -; iempintro) (wpE_waitDma2_eq 𝒱₀ (c : Thread nD τ) none Set.univ)) $$ [CZ2 HO A22]
  · isplitr; · iexact I22
    isplitl [CZ2]; · iexact CZ2
    isplitl [HO]; · iexact HO
    isplitr; · iexact Hlev
    iexact A22
  iintro ⟨HO, A22, #Q22, HSb2⟩
  try rw [ret_bind']
  try sl_exec_parts
  ihave CS3 := (Entails.of_eq (hid_eq _)) $$ CS3
  iapply (wait_xs m K c 3 0 _ (by rw [MayWait_zero]; iintro -; iempintro) (wpE_waitDma2_eq 𝒱₀ (c : Thread nD τ) none Set.univ)) $$ [CS3 HO A03]
  · isplitr; · iexact I03
    isplitl [CS3]; · iexact CS3
    isplitl [HO]; · iexact HO
    isplitr; · iexact Hlev
    iexact A03
  iintro ⟨HO, A03, #Q03, HPb3⟩
  try rw [ret_bind']
  try sl_exec_parts
  ihave CZ3 := (Entails.of_eq (hid_eq _)) $$ CZ3
  iapply (wait_ys m K c 3 0 _ (by rw [MayWait_zero]; iintro -; iempintro) (wpE_waitDma2_eq 𝒱₀ (c : Thread nD τ) none Set.univ)) $$ [CZ3 HO A23]
  · isplitr; · iexact I23
    isplitl [CZ3]; · iexact CZ3
    isplitl [HO]; · iexact HO
    isplitr; · iexact Hlev
    iexact A23
  iintro ⟨HO, A23, #Q23, HSb3⟩
  try rw [ret_bind']
  try sl_exec_parts
  ihave CS4 := (Entails.of_eq (hid_eq _)) $$ CS4
  iapply (wait_xs m K c 4 0 _ (by rw [MayWait_zero]; iintro -; iempintro) (wpE_waitDma2_eq 𝒱₀ (c : Thread nD τ) none Set.univ)) $$ [CS4 HO A04]
  · isplitr; · iexact I04
    isplitl [CS4]; · iexact CS4
    isplitl [HO]; · iexact HO
    isplitr; · iexact Hlev
    iexact A04
  iintro ⟨HO, A04, #Q04, HPb4⟩
  try rw [ret_bind']
  try sl_exec_parts
  ihave CZ4 := (Entails.of_eq (hid_eq _)) $$ CZ4
  iapply (wait_ys m K c 4 0 _ (by rw [MayWait_zero]; iintro -; iempintro) (wpE_waitDma2_eq 𝒱₀ (c : Thread nD τ) none Set.univ)) $$ [CZ4 HO A24]
  · isplitr; · iexact I24
    isplitl [CZ4]; · iexact CZ4
    isplitl [HO]; · iexact HO
    isplitr; · iexact Hlev
    iexact A24
  iintro ⟨HO, A24, #Q24, HSb4⟩
  try rw [ret_bind']
  try sl_exec_parts
  ihave CS5 := (Entails.of_eq (hid_eq _)) $$ CS5
  iapply (wait_xs m K c 5 0 _ (by rw [MayWait_zero]; iintro -; iempintro) (wpE_waitDma2_eq 𝒱₀ (c : Thread nD τ) none Set.univ)) $$ [CS5 HO A05]
  · isplitr; · iexact I05
    isplitl [CS5]; · iexact CS5
    isplitl [HO]; · iexact HO
    isplitr; · iexact Hlev
    iexact A05
  iintro ⟨HO, A05, #Q05, HPb5⟩
  try rw [ret_bind']
  try sl_exec_parts
  ihave CZ5 := (Entails.of_eq (hid_eq _)) $$ CZ5
  iapply (wait_ys m K c 5 0 _ (by rw [MayWait_zero]; iintro -; iempintro) (wpE_waitDma2_eq 𝒱₀ (c : Thread nD τ) none Set.univ)) $$ [CZ5 HO A25]
  · isplitr; · iexact I25
    isplitl [CZ5]; · iexact CZ5
    isplitl [HO]; · iexact HO
    isplitr; · iexact Hlev
    iexact A25
  iintro ⟨HO, A25, #Q25, HSb5⟩
  try rw [ret_bind']
  try sl_exec_parts
  ihave CS6 := (Entails.of_eq (hid_eq _)) $$ CS6
  iapply (wait_xs m K c 6 0 _ (by rw [MayWait_zero]; iintro -; iempintro) (wpE_waitDma2_eq 𝒱₀ (c : Thread nD τ) none Set.univ)) $$ [CS6 HO A06]
  · isplitr; · iexact I06
    isplitl [CS6]; · iexact CS6
    isplitl [HO]; · iexact HO
    isplitr; · iexact Hlev
    iexact A06
  iintro ⟨HO, A06, #Q06, HPb6⟩
  try rw [ret_bind']
  try sl_exec_parts
  ihave CZ6 := (Entails.of_eq (hid_eq _)) $$ CZ6
  iapply (wait_ys m K c 6 0 _ (by rw [MayWait_zero]; iintro -; iempintro) (wpE_waitDma2_eq 𝒱₀ (c : Thread nD τ) none Set.univ)) $$ [CZ6 HO A26]
  · isplitr; · iexact I26
    isplitl [CZ6]; · iexact CZ6
    isplitl [HO]; · iexact HO
    isplitr; · iexact Hlev
    iexact A26
  iintro ⟨HO, A26, #Q26, HSb6⟩
  try rw [ret_bind']
  try sl_exec_parts
  ihave CS7 := (Entails.of_eq (hid_eq _)) $$ CS7
  iapply (wait_xs m K c 7 0 _ (by rw [MayWait_zero]; iintro -; iempintro) (wpE_waitDma2_eq 𝒱₀ (c : Thread nD τ) none Set.univ)) $$ [CS7 HO A07]
  · isplitr; · iexact I07
    isplitl [CS7]; · iexact CS7
    isplitl [HO]; · iexact HO
    isplitr; · iexact Hlev
    iexact A07
  iintro ⟨HO, A07, #Q07, HPb7⟩
  try rw [ret_bind']
  try sl_exec_parts
  ihave CZ7 := (Entails.of_eq (hid_eq _)) $$ CZ7
  iapply (wait_ys m K c 7 0 _ (by rw [MayWait_zero]; iintro -; iempintro) (wpE_waitDma2_eq 𝒱₀ (c : Thread nD τ) none Set.univ)) $$ [CZ7 HO A27]
  · isplitr; · iexact I27
    isplitl [CZ7]; · iexact CZ7
    isplitl [HO]; · iexact HO
    isplitr; · iexact Hlev
    iexact A27
  iintro ⟨HO, A27, #Q27, HSb7⟩
  try rw [ret_bind']
  imod (close_own m K c 0 0) $$ [A00] with Z00
  · isplitr; · iexact I00
    iexact A00
  imod (close_own m K c 0 1) $$ [A01] with Z01
  · isplitr; · iexact I01
    iexact A01
  imod (close_own m K c 0 2) $$ [A02] with Z02
  · isplitr; · iexact I02
    iexact A02
  imod (close_own m K c 0 3) $$ [A03] with Z03
  · isplitr; · iexact I03
    iexact A03
  imod (close_own m K c 0 4) $$ [A04] with Z04
  · isplitr; · iexact I04
    iexact A04
  imod (close_own m K c 0 5) $$ [A05] with Z05
  · isplitr; · iexact I05
    iexact A05
  imod (close_own m K c 0 6) $$ [A06] with Z06
  · isplitr; · iexact I06
    iexact A06
  imod (close_own m K c 0 7) $$ [A07] with Z07
  · isplitr; · iexact I07
    iexact A07
  imod (close_own m K c 1 0) $$ [A10] with Z10
  · isplitr; · iexact I10
    iexact A10
  imod (close_own m K c 1 1) $$ [A11] with Z11
  · isplitr; · iexact I11
    iexact A11
  imod (close_own m K c 1 2) $$ [A12] with Z12
  · isplitr; · iexact I12
    iexact A12
  imod (close_own m K c 1 3) $$ [A13] with Z13
  · isplitr; · iexact I13
    iexact A13
  imod (close_own m K c 1 4) $$ [A14] with Z14
  · isplitr; · iexact I14
    iexact A14
  imod (close_own m K c 1 5) $$ [A15] with Z15
  · isplitr; · iexact I15
    iexact A15
  imod (close_own m K c 1 6) $$ [A16] with Z16
  · isplitr; · iexact I16
    iexact A16
  imod (close_own m K c 1 7) $$ [A17] with Z17
  · isplitr; · iexact I17
    iexact A17
  imod (close_own m K c 2 0) $$ [A20] with Z20
  · isplitr; · iexact I20
    iexact A20
  imod (close_own m K c 2 1) $$ [A21] with Z21
  · isplitr; · iexact I21
    iexact A21
  imod (close_own m K c 2 2) $$ [A22] with Z22
  · isplitr; · iexact I22
    iexact A22
  imod (close_own m K c 2 3) $$ [A23] with Z23
  · isplitr; · iexact I23
    iexact A23
  imod (close_own m K c 2 4) $$ [A24] with Z24
  · isplitr; · iexact I24
    iexact A24
  imod (close_own m K c 2 5) $$ [A25] with Z25
  · isplitr; · iexact I25
    iexact A25
  imod (close_own m K c 2 6) $$ [A26] with Z26
  · isplitr; · iexact I26
    iexact A26
  imod (close_own m K c 2 7) $$ [A27] with Z27
  · isplitr; · iexact I27
    iexact A27
  imod (close_own m K c 3 0) $$ [A30] with Z30
  · isplitr; · iexact I30
    iexact A30
  imod (close_own m K c 3 1) $$ [A31] with Z31
  · isplitr; · iexact I31
    iexact A31
  imod (close_own m K c 3 2) $$ [A32] with Z32
  · isplitr; · iexact I32
    iexact A32
  imod (close_own m K c 3 3) $$ [A33] with Z33
  · isplitr; · iexact I33
    iexact A33
  imod (close_own m K c 3 4) $$ [A34] with Z34
  · isplitr; · iexact I34
    iexact A34
  imod (close_own m K c 3 5) $$ [A35] with Z35
  · isplitr; · iexact I35
    iexact A35
  imod (close_own m K c 3 6) $$ [A36] with Z36
  · isplitr; · iexact I36
    iexact A36
  imod (close_own m K c 3 7) $$ [A37] with Z37
  · isplitr; · iexact I37
    iexact A37
  try sl_step
  ihave HT0 := (show ((sM.view.loc (c : Thread nD τ) ↦[(sOth c 0).view.set]{fullShare} Sbuf m c) : sProp 𝕄) ⊢ held (sOth c 0) c (Sbuf m c) from Entails.of_eq rfl) $$ HT0
  ihave HT1 := (show ((sM.view.loc (c : Thread nD τ) ↦[(sOth c 1).view.set]{fullShare} Sbuf m c) : sProp 𝕄) ⊢ held (sOth c 1) c (Sbuf m c) from Entails.of_eq rfl) $$ HT1
  ihave HT2 := (show ((sM.view.loc (c : Thread nD τ) ↦[(sOth c 2).view.set]{fullShare} Sbuf m c) : sProp 𝕄) ⊢ held (sOth c 2) c (Sbuf m c) from Entails.of_eq rfl) $$ HT2
  ihave HT3 := (show ((sM.view.loc (c : Thread nD τ) ↦[(sOth c 3).view.set]{fullShare} Sbuf m c) : sProp 𝕄) ⊢ held (sOth c 3) c (Sbuf m c) from Entails.of_eq rfl) $$ HT3
  ihave HT4 := (show ((sM.view.loc (c : Thread nD τ) ↦[(sOth c 4).view.set]{fullShare} Sbuf m c) : sProp 𝕄) ⊢ held (sOth c 4) c (Sbuf m c) from Entails.of_eq rfl) $$ HT4
  ihave HT5 := (show ((sM.view.loc (c : Thread nD τ) ↦[(sOth c 5).view.set]{fullShare} Sbuf m c) : sProp 𝕄) ⊢ held (sOth c 5) c (Sbuf m c) from Entails.of_eq rfl) $$ HT5
  ihave HT6 := (show ((sM.view.loc (c : Thread nD τ) ↦[(sOth c 6).view.set]{fullShare} Sbuf m c) : sProp 𝕄) ⊢ held (sOth c 6) c (Sbuf m c) from Entails.of_eq rfl) $$ HT6
  ihave HT7 := (show ((sM.view.loc (c : Thread nD τ) ↦[(sOth c 7).view.set]{fullShare} Sbuf m c) : sProp 𝕄) ⊢ held (sOth c 7) c (Sbuf m c) from Entails.of_eq rfl) $$ HT7
  -- what the body hands back
  unfold bodyPost Φ₁ scratch Dat.owesAt Pipeline.owesWithin
  rw [show (dats m 0 c).owed t0_0.succ = 0 from rfl]
  isplitl [HPb0 HPb1 HPb2 HPb3 HPb4 HPb5 HPb6 HPb7 Hw HX0 HX1 HX2 HX3 HX4 HX5 HX6 HX7 HSb0 HSb1 HSb2 HSb3 HSb4 HSb5 HSb6 HSb7 HT0 HT1 HT2 HT3 HT4 HT5 HT6 HT7 Z00 Z01 Z02 Z03 Z04 Z05 Z06 Z07 Z10 Z11 Z12 Z13 Z14 Z15 Z16 Z17 Z20 Z21 Z22 Z23 Z24 Z25 Z26 Z27 Z30 Z31 Z32 Z33 Z34 Z35 Z36 Z37]
  · isplitl [HPb0 HPb1 HPb2 HPb3 HPb4 HPb5 HPb6 HPb7 Hw HX0 HX1 HX2 HX3 HX4 HX5 HX6 HX7 HSb0 HSb1 HSb2 HSb3 HSb4 HSb5 HSb6 HSb7 HT0 HT1 HT2 HT3 HT4 HT5 HT6 HT7]
    · isplitl [HPb0 HPb1 HPb2 HPb3 HPb4 HPb5 HPb6 HPb7]
      · iexists (Pbuf m c)
        iapply (split_P c (Pbuf m c)).2
        rw [bigSep_fin8]
        isplitl [HPb0]; · iexact HPb0
        isplitl [HPb1]; · iexact HPb1
        isplitl [HPb2]; · iexact HPb2
        isplitl [HPb3]; · iexact HPb3
        isplitl [HPb4]; · iexact HPb4
        isplitl [HPb5]; · iexact HPb5
        isplitl [HPb6]; · iexact HPb6
        iexact HPb7
      isplitl [Hw]
      · iexists _; unfold held; iexact Hw
      isplitl [HX0 HX1 HX2 HX3 HX4 HX5 HX6 HX7]
      · iexists (Pbuf m (xp c))
        iapply (split_X c (Pbuf m (xp c))).2
        rw [bigSep_fin8]
        isplitl [HX0]; · iexact HX0
        isplitl [HX1]; · iexact HX1
        isplitl [HX2]; · iexact HX2
        isplitl [HX3]; · iexact HX3
        isplitl [HX4]; · iexact HX4
        isplitl [HX5]; · iexact HX5
        isplitl [HX6]; · iexact HX6
        iexact HX7
      · iexists (Sbuf m c)
        iapply (split_S c (Sbuf m c)).2
        isplitl [HT0 HT1 HT2 HT3 HT4 HT5 HT6 HT7]
        · rw [bigSep_fin8]
          isplitl [HT0]; · iexact HT0
          isplitl [HT1]; · iexact HT1
          isplitl [HT2]; · iexact HT2
          isplitl [HT3]; · iexact HT3
          isplitl [HT4]; · iexact HT4
          isplitl [HT5]; · iexact HT5
          isplitl [HT6]; · iexact HT6
          iexact HT7
        · rw [bigSep_fin8]
          isplitl [HSb0]; · iexact HSb0
          isplitl [HSb1]; · iexact HSb1
          isplitl [HSb2]; · iexact HSb2
          isplitl [HSb3]; · iexact HSb3
          isplitl [HSb4]; · iexact HSb4
          isplitl [HSb5]; · iexact HSb5
          isplitl [HSb6]; · iexact HSb6
          iexact HSb7
    · simp only [bigSep_kr, bigSep_fin4, bigSep_fin8]
      isplitl [Z00 Z01 Z02 Z03 Z04 Z05 Z06 Z07]
      · isplitl [Z00]; · iexact Z00
        isplitl [Z01]; · iexact Z01
        isplitl [Z02]; · iexact Z02
        isplitl [Z03]; · iexact Z03
        isplitl [Z04]; · iexact Z04
        isplitl [Z05]; · iexact Z05
        isplitl [Z06]; · iexact Z06
        iexact Z07
      isplitl [Z10 Z11 Z12 Z13 Z14 Z15 Z16 Z17]
      · isplitl [Z10]; · iexact Z10
        isplitl [Z11]; · iexact Z11
        isplitl [Z12]; · iexact Z12
        isplitl [Z13]; · iexact Z13
        isplitl [Z14]; · iexact Z14
        isplitl [Z15]; · iexact Z15
        isplitl [Z16]; · iexact Z16
        iexact Z17
      isplitl [Z20 Z21 Z22 Z23 Z24 Z25 Z26 Z27]
      · isplitl [Z20]; · iexact Z20
        isplitl [Z21]; · iexact Z21
        isplitl [Z22]; · iexact Z22
        isplitl [Z23]; · iexact Z23
        isplitl [Z24]; · iexact Z24
        isplitl [Z25]; · iexact Z25
        isplitl [Z26]; · iexact Z26
        iexact Z27
      · isplitl [Z30]; · iexact Z30
        isplitl [Z31]; · iexact Z31
        isplitl [Z32]; · iexact Z32
        isplitl [Z33]; · iexact Z33
        isplitl [Z34]; · iexact Z34
        isplitl [Z35]; · iexact Z35
        isplitl [Z36]; · iexact Z36
        iexact Z37
  isplitl [HO]
  · iexists _
    isplitr
    rotate_left
    · iexact HO
    · ipureintro; exact fun _ _ => Or.inl trivial
  isplitl [Ha]
  · iexists _
    isplitr; · (ipureintro; rfl)
    unfold held; iexact Ha
  isplitl [Hb]
  · iexists _
    isplitr; · (ipureintro; rfl)
    unfold held; iexact Hb
  iexists _
  isplitr
  · ipureintro
    exact Eq.trans rfl (O_writes m c g2)
  unfold held; iexact Ho

/-- The pipeline's obligation for the one grid point, on every device. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6 cc0_scratch7) (fun _ => bodyPost m c)
  exact sound_body m c

end Cert.Kernel.Rs

end
-- ==== Proof.ValueLoads.lean ====
/-
  What the kernel's loads read, entry by entry.

  Every buffer here is a whole buffer, and every load goes through a rectangle of consecutive rows and columns:
  the entry at (k, j) of what is loaded is the buffer's entry at (row offset + k, column offset + j). The device's
  staged block of an argument is the argument as the device holds it. The four loads of the arguments are: the 256
  columns of the first argument that belong to the partner's rows of the result (columns from 256 − 256 mx, mx the
  device's first mesh coordinate), the 256 that belong to its own (from 256 mx), one 128-column block of the device's
  column half of the second argument (from 1024 my + 128 r, my the second mesh coordinate), and that whole half
  (from 1024 my).
-/
import proofs.«900391_g7700000000000392_dist_rsdw_v7x_xyz2x2x4_x_m512_d512_f2048_f32_1_alg».proof.Proof.Protocol
import Idealize.ShloMosaic.Lib.Pipeline.Value

noncomputable section

open scoped BigOperators

namespace Cert.KernelIdeal.RsValue

open Cert.KernelIdeal Cert.KernelIdeal.Gen Cert.KernelIdeal.Rs
open Idealize.ShloMosaic Idealize.ShloMosaic.TcCoe Idealize.ShloMosaic.ValueIdx

/-- A load through a unit-stride rectangle of a whole buffer reads the buffer at offset + coordinate. -/
theorem readAt_whole_unit_apply {sig : RefSig} {κ : Kind} {Val : EltTy → Type} (b : Ref sig κ)
    (off size : Fin b.ty.shape.rank → Nat) (inb : ∀ a, off a + size a ≤ b.ty.shape.size a) (f : b.ty.Contents Val)
    (x : (⟨b.ty.shape.rank, size⟩ : Shape).Idx) (y : b.ty.shape.Idx) (h : ∀ a, (y a).val = off a + (x a).val) :
    (Memref.whole b).view.readAt Val (Rect.unit off size inb).toLoadRect f x = f y := by
  rw [View.readAt_apply, View.read_apply]
  show f _ = f y
  refine congrArg f (funext fun a => Fin.ext ?_)
  show off a + 1 * (x a).val = (y a).val
  rw [h a]; omega

variable (m : (ℓ : Loc nD τ sig) → Buf (Elt Ideal) ℓ)

theorem argA_apply (c : Dev nD) (i : S512x512.Idx) : argA (F := Ideal) m c i = m ((c : Thread nD τ).loc main_arg0) i := by
  unfold argA
  rw [View.read_apply]
  show m ((c : Thread nD τ).loc main_arg0) _ = _
  refine congrArg (m ((c : Thread nD τ).loc main_arg0)) (funext fun a => Fin.ext ?_)
  exact win0_0.rect_emb_val_of_index_zero t0_0 a rfl i

theorem argB_apply (c : Dev nD) (i : S512x2048.Idx) : argB (F := Ideal) m c i = m ((c : Thread nD τ).loc main_arg1) i := by
  unfold argB
  rw [View.read_apply]
  show m ((c : Thread nD τ).loc main_arg1) _ = _
  refine congrArg (m ((c : Thread nD τ).loc main_arg1)) (funext fun a => Fin.ext ?_)
  exact win0_1.rect_emb_val_of_index_zero t0_0 a rfl i

theorem ldAp_apply (c : Dev nD) (k : Fin 512) (p : Fin 256) :
    ldAp (F := Ideal) m c (ix2 k p) = argA (F := Ideal) m c (ix2 k ⟨256 - 256 * (c.val / 8) + p.val, by have := p.isLt; omega⟩) := by
  unfold ldAp
  refine readAt_whole_unit_apply cc0_stg0_0 (k0_off1 c) S512x256.size (k0_off1_inb c) (argA (F := Ideal) m c) (ix2 k p) _ ?_
  rw [k0_off1_eq]
  intro a
  match a with
  | ⟨0, _⟩ => show k.val = 0 + k.val; omega
  | ⟨1, _⟩ => rfl

theorem ldAo_apply (c : Dev nD) (k : Fin 512) (p : Fin 256) :
    ldAo (F := Ideal) m c (ix2 k p) = argA (F := Ideal) m c (ix2 k ⟨256 * (c.val / 8) + p.val, by have := p.isLt; have h : c.val < 16 := c.isLt; omega⟩) := by
  unfold ldAo
  refine readAt_whole_unit_apply cc0_stg0_0 (k0_off3 c) S512x256.size (k0_off3_inb c) (argA (F := Ideal) m c) (ix2 k p) _ ?_
  rw [k0_off3_eq]
  intro a
  match a with
  | ⟨0, _⟩ => show k.val = 0 + k.val; omega
  | ⟨1, _⟩ => rfl

theorem ldBr_apply (c : Dev nD) (r : Fin 8) (k : Fin 512) (t : Fin 128) :
    ldBr (F := Ideal) m c r (ix2 k t)
      = argB (F := Ideal) m c (ix2 k ⟨1024 * ((c.val / 4) % 2) + 128 * r.val + t.val, by have := t.isLt; have := r.isLt; omega⟩) := by
  unfold ldBr
  refine readAt_whole_unit_apply cc0_stg1_0 (k0_off2 c (BitVec.ofNat 32 (128 * r.val))) S512x128.size (k0_off2_inb c r) (argB (F := Ideal) m c) (ix2 k t) _ ?_
  rw [k0_off2_eq]
  intro a
  match a with
  | ⟨0, _⟩ => show k.val = 0 + k.val; omega
  | ⟨1, _⟩ => rfl

theorem ldBh_apply (c : Dev nD) (k : Fin 512) (q : Fin 1024) :
    ldBh (F := Ideal) m c (ix2 k q)
      = argB (F := Ideal) m c (ix2 k ⟨1024 * ((c.val / 4) % 2) + q.val, by have := q.isLt; omega⟩) := by
  unfold ldBh
  refine readAt_whole_unit_apply cc0_stg1_0 (k0_off4 c) S512x1024.size (k0_off4_inb c) (argB (F := Ideal) m c) (ix2 k q) _ ?_
  rw [k0_off4_eq]
  intro a
  match a with
  | ⟨0, _⟩ => show k.val = 0 + k.val; omega
  | ⟨1, _⟩ => rfl

end Cert.KernelIdeal.RsValue

end
-- ==== Proof.ValueProd.lean ====
/-
  The kernel's two products, entry by entry.

  Both contract axis 0 of both operands — the device's 512 rows of the contracted axis — into a zero accumulator:
  entry (p, t) of the product is the sum over k < 512 of  left[k, p] * right[k, t]. Changing the float format and
  casting a shape to itself change nothing on extended reals.
-/
import proofs.«900391_g7700000000000392_dist_rsdw_v7x_xyz2x2x4_x_m512_d512_f2048_f32_1_alg».proof.Proof.Protocol
import Idealize.ShloMosaic.Lib.Pipeline.Value
import Idealize.ShloMosaic.PureOps.Ideal.Laws

noncomputable section

open scoped BigOperators

namespace Cert.KernelIdeal.RsValue

open Cert.KernelIdeal Cert.KernelIdeal.Gen Cert.KernelIdeal.Rs
open Idealize.ShloMosaic Idealize.ShloMosaic.TcCoe Idealize.ShloMosaic.ValueIdx

/-! The two contractions. Both contract axis 0 of both operands (the device's 512 rows of the contracted axis):
    the result's row is the left operand's column, the result's column the right operand's column. -/

abbrev DP := dot_S512x256_S512x128_S256x128_0_0_1_1_n_n
abbrev DW := dot_S512x256_S512x1024_S256x1024_0_0_1_1_n_n

theorem lhsP_1 (i : S256x128.Idx) (q : DP.contr.Idx) : (DP.lhsIdx i q 1).val = (i 0).val := by
  unfold DotDims.lhsIdx
  rw [dif_neg (show ¬(1 : Fin S512x256.rank) ∈ DP.lhsBatch by decide), dif_pos (show (1 : Fin S512x256.rank) ∈ DP.lhsNonContracting by decide)]
  rfl
theorem rhsP_1 (i : S256x128.Idx) (q : DP.contr.Idx) : (DP.rhsIdx i q 1).val = (i 1).val := by
  unfold DotDims.rhsIdx
  rw [dif_neg (show ¬(1 : Fin S512x128.rank) ∈ DP.rhsBatch by decide), dif_pos (show (1 : Fin S512x128.rank) ∈ DP.rhsNonContracting by decide)]
  rfl
theorem lhsW_1 (i : S256x1024.Idx) (q : DW.contr.Idx) : (DW.lhsIdx i q 1).val = (i 0).val := by
  unfold DotDims.lhsIdx
  rw [dif_neg (show ¬(1 : Fin S512x256.rank) ∈ DW.lhsBatch by decide), dif_pos (show (1 : Fin S512x256.rank) ∈ DW.lhsNonContracting by decide)]
  rfl
theorem rhsW_1 (i : S256x1024.Idx) (q : DW.contr.Idx) : (DW.rhsIdx i q 1).val = (i 1).val := by
  unfold DotDims.rhsIdx
  rw [dif_neg (show ¬(1 : Fin S512x1024.rank) ∈ DW.rhsBatch by decide), dif_pos (show (1 : Fin S512x1024.rank) ∈ DW.rhsNonContracting by decide)]
  rfl

/-- The narrow product block at an entry: the sum over the device's 512 rows. -/
theorem pProd_apply (v : Vec Ideal S512x256 .f32) (w : Vec Ideal S512x128 .f32) (p : Fin 256) (t : Fin 128) :
    pProd (F := Ideal) v w (ix2 p t) = ∑ k : Fin 512, v (ix2 k p) * w (ix2 k t) := by
  unfold pProd
  rw [shapeCast_self, shapeCast_self, shapeCast_self]
  show FloatOps.matmul (F := Ideal) (φ₁ := .f32) (φ₂ := .f32) DP none v w (constant S256x128 .f32 0x00000000#32) (ix2 p t) = _
  rw [Ideal.matmul_constant_zero_apply, ← Equiv.sum_comp (contrEquiv1 DP 512 rfl rfl).symm]
  refine Finset.sum_congr rfl fun k _ => ?_
  have hk := contrEquiv1_symm_val DP 512 rfl rfl k
  have el : DP.lhsIdx (ix2 p t) ((contrEquiv1 DP 512 rfl rfl).symm k) = ix2 k p :=
    funext fun a => Fin.ext (by
      match a with
      | ⟨0, _⟩ => exact (DP.lhsIdx_val_of_single rfl _ _).trans hk
      | ⟨1, _⟩ => exact lhsP_1 _ _)
  have er : DP.rhsIdx (ix2 p t) ((contrEquiv1 DP 512 rfl rfl).symm k) = ix2 k t :=
    funext fun a => Fin.ext (by
      match a with
      | ⟨0, _⟩ => exact (DP.rhsIdx_val_of_single rfl _ _).trans hk
      | ⟨1, _⟩ => exact rhsP_1 _ _)
  rw [el, er]

/-- The wide product block at an entry: the sum over the device's 512 rows. -/
theorem wProd_apply (v : Vec Ideal S512x256 .f32) (w : Vec Ideal S512x1024 .f32) (p : Fin 256) (q : Fin 1024) :
    wProd (F := Ideal) v w (ix2 p q) = ∑ k : Fin 512, v (ix2 k p) * w (ix2 k q) := by
  unfold wProd
  rw [shapeCast_self, shapeCast_self, shapeCast_self]
  show FloatOps.matmul (F := Ideal) (φ₁ := .f32) (φ₂ := .f32) DW none v w (constant S256x1024 .f32 0x00000000#32) (ix2 p q) = _
  rw [Ideal.matmul_constant_zero_apply, ← Equiv.sum_comp (contrEquiv1 DW 512 rfl rfl).symm]
  refine Finset.sum_congr rfl fun k _ => ?_
  have hk := contrEquiv1_symm_val DW 512 rfl rfl k
  have el : DW.lhsIdx (ix2 p q) ((contrEquiv1 DW 512 rfl rfl).symm k) = ix2 k p :=
    funext fun a => Fin.ext (by
      match a with
      | ⟨0, _⟩ => exact (DW.lhsIdx_val_of_single rfl _ _).trans hk
      | ⟨1, _⟩ => exact lhsW_1 _ _)
  have er : DW.rhsIdx (ix2 p q) ((contrEquiv1 DW 512 rfl rfl).symm k) = ix2 k q :=
    funext fun a => Fin.ext (by
      match a with
      | ⟨0, _⟩ => exact (DW.rhsIdx_val_of_single rfl _ _).trans hk
      | ⟨1, _⟩ => exact rhsW_1 _ _)
  rw [el, er]

end Cert.KernelIdeal.RsValue

end
-- ==== Proof.ValueBlocks.lean ====
/-
  The kernel's buffers, entry by entry, in terms of the device's staged blocks A (of the first argument, 512 x 512)
  and B (of the second, 512 x 2048).

    P[p, q] = ∑ k < 512,  A[k, 256 − 256 mx + p] * B[k, 1024 my + q]        (for the partner's rows of the result)
    W[p, q] = ∑ k < 512,  A[k, 256 mx + p]       * B[k, 1024 my + q]        (for the device's own rows)
    reduced block r at (p, t) = W[p, 128 r + t] + (the partner's P)[p, 128 r + t]
    S[p, q] = O[p, q] = reduced block (q / 128) % 8, at (p, q % 128), of the device — this one or its neighbour
              across the second axis — that reduces column half q / 1024.
-/
import proofs.«900391_g7700000000000392_dist_rsdw_v7x_xyz2x2x4_x_m512_d512_f2048_f32_1_alg».proof.Proof.ValueLoads
import proofs.«900391_g7700000000000392_dist_rsdw_v7x_xyz2x2x4_x_m512_d512_f2048_f32_1_alg».proof.Proof.ValueProd

noncomputable section

open scoped BigOperators

namespace Cert.KernelIdeal.RsValue

open Cert.KernelIdeal Cert.KernelIdeal.Gen Cert.KernelIdeal.Rs
open Idealize.ShloMosaic Idealize.ShloMosaic.TcCoe Idealize.ShloMosaic.ValueIdx

variable (m : (ℓ : Loc nD τ sig) → Buf (Elt Ideal) ℓ)

/-! ## The scratch buffers at an entry, in terms of the device's staged argument blocks -/

/-- Device c's staged blocks of the two arguments, and its P and W, as arrays of extended reals. -/
abbrev aA (c : Dev nD) : S512x512.Idx → EReal := argA (F := Ideal) m c
abbrev aB (c : Dev nD) : S512x2048.Idx → EReal := argB (F := Ideal) m c
abbrev bP (c : Dev nD) : S256x1024.Idx → EReal := Pbuf (F := Ideal) m c
abbrev bW (c : Dev nD) : S256x1024.Idx → EReal := Wbuf (F := Ideal) m c
abbrev bR (c : Dev nD) (r : Fin 8) : S256x128.Idx → EReal := redBlk (F := Ideal) m c r

/-- P of device c at (p, q): the device's 512 rows, the partner's columns of the first argument, column q of the
    device's half of the second. -/
theorem Pbuf_apply (c : Dev nD) (p : Fin 256) (q : Fin 1024) :
    bP m c (ix2 p q)
      = ∑ k : Fin 512, aA m c (ix2 k ⟨256 - 256 * mx c + p.val, by have := p.isLt; omega⟩)
          * aB m c (ix2 k ⟨1024 * my c + q.val, by have := q.isLt; have := my_lt c; omega⟩) := by
  show pProd (F := Ideal) (ldAp m c) (ldBr m c ⟨q.val / 128, by have := q.isLt; omega⟩) (ix2 p ⟨q.val % 128, Nat.mod_lt _ (by decide)⟩) = _
  rw [pProd_apply]
  refine Finset.sum_congr rfl fun k _ => ?_
  rw [ldAp_apply, ldBr_apply]
  refine congrArg₂ (· * ·) rfl (congrArg (aB m c) (congrArg (ix2 k) (Fin.ext ?_)))
  show 1024 * ((c.val / 4) % 2) + 128 * (q.val / 128) + q.val % 128 = 1024 * ((c.val / 4) % 2) + q.val
  omega

/-- W of device c at (p, q): the device's 512 rows, its own columns of the first argument, column q of its half of
    the second. -/
theorem Wbuf_apply (c : Dev nD) (p : Fin 256) (q : Fin 1024) :
    bW m c (ix2 p q)
      = ∑ k : Fin 512, aA m c (ix2 k ⟨256 * mx c + p.val, by have := p.isLt; have := mx_lt c; omega⟩)
          * aB m c (ix2 k ⟨1024 * my c + q.val, by have := q.isLt; have := my_lt c; omega⟩) := by
  show wProd (F := Ideal) (ldAo m c) (ldBh m c) (ix2 p q) = _
  rw [wProd_apply]
  refine Finset.sum_congr rfl fun k _ => ?_
  rw [ldAo_apply, ldBh_apply]
  rfl

/-- Column block r of a 256 x 1024 buffer at (p, t) is the buffer at (p, 128 r + t). -/
theorem blkW_read (f : (cc0_scratch1 : Ref sig .tc).ty.Contents (Elt Ideal)) (r : Fin 8) (p : Fin 256) (t : Fin 128) :
    wM.view.readAt (Elt Ideal) (blk r).toLoadRect f (ix2 p t) = f (ix2 p ⟨128 * r.val + t.val, by have := r.isLt; have := t.isLt; omega⟩) := by
  refine readAt_whole_unit_apply cc0_scratch1 ![0, 128 * r.val] S256x128.size (blk_inb r) f (ix2 p t) _ ?_
  intro a
  match a with
  | ⟨0, _⟩ => show p.val = 0 + p.val; omega
  | ⟨1, _⟩ => rfl
theorem blkX_read (f : (cc0_scratch2 : Ref sig .tc).ty.Contents (Elt Ideal)) (r : Fin 8) (p : Fin 256) (t : Fin 128) :
    xM.view.readAt (Elt Ideal) (blk r).toLoadRect f (ix2 p t) = f (ix2 p ⟨128 * r.val + t.val, by have := r.isLt; have := t.isLt; omega⟩) := by
  refine readAt_whole_unit_apply cc0_scratch2 ![0, 128 * r.val] S256x128.size (blk_inb r) f (ix2 p t) _ ?_
  intro a
  match a with
  | ⟨0, _⟩ => show p.val = 0 + p.val; omega
  | ⟨1, _⟩ => rfl
/-- Column block j of a 256 x 2048 buffer at (p, t) is the buffer at (p, 128 j + t). -/
theorem wideS_read (f : (cc0_scratch3 : Ref sig .tc).ty.Contents (Elt Ideal)) (j : Fin 16) (p : Fin 256) (t : Fin 128) :
    sM.view.readAt (Elt Ideal) (wide j).toLoadRect f (ix2 p t) = f (ix2 p ⟨128 * j.val + t.val, by have := j.isLt; have := t.isLt; omega⟩) := by
  refine readAt_whole_unit_apply cc0_scratch3 ![0, 128 * j.val] S256x128.size (wide_inb j) f (ix2 p t) _ ?_
  intro a
  match a with
  | ⟨0, _⟩ => show p.val = 0 + p.val; omega
  | ⟨1, _⟩ => rfl

/-- The reduced block r of device c at (p, t): its own W plus its partner's P, both at (p, 128 r + t). -/
theorem redBlk_apply (c : Dev nD) (r : Fin 8) (p : Fin 256) (t : Fin 128) :
    bR m c r (ix2 p t)
      = bW m c (ix2 p ⟨128 * r.val + t.val, by have := r.isLt; have := t.isLt; omega⟩)
        + bP m (xp c) (ix2 p ⟨128 * r.val + t.val, by have := r.isLt; have := t.isLt; omega⟩) := by
  show red (F := Ideal) (wM.view.readAt (Elt Ideal) (blk r).toLoadRect (Wbuf m c)) (xM.view.readAt (Elt Ideal) (blk r).toLoadRect (Pbuf m (xp c))) (ix2 p t) = _
  unfold red
  rw [addf_apply, extf_apply, blkW_read, blkX_read]

/-- S at (p, q): block (q / 128) % 8 of the device that reduces column half q / 1024. -/
theorem Sbuf_apply (c : Dev nD) (p : Fin 256) (q : Fin 2048) :
    (Sbuf (F := Ideal) m c : S256x2048.Idx → EReal) (ix2 p q)
      = bR m (halfOf c (q.val / 1024)) ⟨(q.val / 128) % 8, Nat.mod_lt _ (by decide)⟩ (ix2 p ⟨q.val % 128, Nat.mod_lt _ (by decide)⟩) := by
  show shapeCast S256x128 (truncf .bf16 (redBlk (F := Ideal) m (halfOf c (q.val / 1024)) ⟨(q.val / 128) % 8, Nat.mod_lt _ (by decide)⟩) bitsLt_bf16_f32) shapeCasts_S256x128_S256x128
      (ix2 p ⟨q.val % 128, Nat.mod_lt _ (by decide)⟩) = _
  rw [shapeCast_self]
  rfl

/-- The result block at (p, q), either half: block (q / 128) % 8 of the device that reduces column half q / 1024. -/
theorem Obuf_apply (c : Dev nD) (p : Fin 256) (q : Fin 2048) :
    (Obuf (F := Ideal) m c : S256x2048.Idx → EReal) (ix2 p q)
      = bR m (halfOf c (q.val / 1024)) ⟨(q.val / 128) % 8, Nat.mod_lt _ (by decide)⟩ (ix2 p ⟨q.val % 128, Nat.mod_lt _ (by decide)⟩) := by
  show (if q.val / 1024 = my c then redBlk (F := Ideal) m c ⟨(q.val / 128) % 8, Nat.mod_lt _ (by decide)⟩ (ix2 p ⟨q.val % 128, Nat.mod_lt _ (by decide)⟩)
      else widen (sM.view.readAt (Elt Ideal) (wide ⟨q.val / 128, by have := q.isLt; omega⟩).toLoadRect (Sbuf (F := Ideal) m c)) (ix2 p ⟨q.val % 128, Nat.mod_lt _ (by decide)⟩)) = _
  by_cases h : q.val / 1024 = my c
  · rw [if_pos h]
    unfold halfOf
    rw [if_pos h.symm]
  · rw [if_neg h]
    unfold widen
    rw [extf_apply, wideS_read]
    have e : (⟨128 * (q.val / 128) + q.val % 128, by have := q.isLt; omega⟩ : Fin 2048) = q := Fin.ext (by show 128 * (q.val / 128) + q.val % 128 = q.val; omega)
    exact (congrArg (fun q' => (Sbuf (F := Ideal) m c : S256x2048.Idx → EReal) (ix2 p q')) e).trans (Sbuf_apply m c p q)

end Cert.KernelIdeal.RsValue

end
-- ==== Proof.ValueSpec.lean ====
/-
  The value the kernel and the reference both compute, as one function of the two whole arrays.

  The arrays are x : [1024, 512] and dy : [1024, 2048] of extended reals; the result is the [512, 2048] array
  R = transpose(x) · dy, entry by entry  R[i, j] = ∑ over the 1024 rows k of  x[k, i] * dy[k, j].

  The one law the comparison needs is that this sum over 1024 rows is the sum over one half of the rows plus the
  sum over the other half, in either order: addition of extended reals is commutative and associative, so no
  entry has to be finite.
-/
import Idealize.ShloMosaic.Lib.ValueIdx
import Mathlib.Algebra.BigOperators.Fin

noncomputable section

open scoped BigOperators

namespace Cert.KernelIdeal.RsValue

open Idealize.ShloMosaic Idealize.ShloMosaic.ValueIdx

/-- The result array: entry (i, j) is the sum over the 1024 rows k of x[k, i] * dy[k, j]. -/
def G (x : (⟨2, ![1024, 512]⟩ : Shape).Idx → EReal) (dy : (⟨2, ![1024, 2048]⟩ : Shape).Idx → EReal) :
    (⟨2, ![512, 2048]⟩ : Shape).Idx → EReal :=
  fun i => ∑ k : Fin 1024, x (ix2 k (i 0)) * dy (ix2 k (i 1))

/-- The result at explicit coordinates. -/
theorem G_ix2 (x : (⟨2, ![1024, 512]⟩ : Shape).Idx → EReal) (dy : (⟨2, ![1024, 2048]⟩ : Shape).Idx → EReal)
    (i : Fin 512) (j : Fin 2048) : G x dy (ix2 i j) = ∑ k : Fin 1024, x (ix2 k i) * dy (ix2 k j) := rfl

/-- A sum over 1024 rows is the sum over the half numbered a (rows 512 a … 512 a + 511) plus the sum over the
    other half, whichever half comes first. -/
theorem sum_halves {M : Type*} [AddCommMonoid M] (f : Fin 1024 → M) (a : ℕ) (ha : a < 2) :
    (∑ k : Fin 512, f ⟨512 * a + k.val, by have := k.isLt; omega⟩)
      + (∑ k : Fin 512, f ⟨512 * (1 - a) + k.val, by have := k.isLt; omega⟩) = ∑ k : Fin 1024, f k := by
  have split : ∑ k : Fin 1024, f k
      = (∑ k : Fin 512, f ⟨k.val, by have := k.isLt; omega⟩) + ∑ k : Fin 512, f ⟨512 + k.val, by have := k.isLt; omega⟩ :=
    Fin.sum_univ_add (a := 512) (b := 512) f
  rw [split]
  interval_cases a
  · rfl
  · exact add_comm _ _

end Cert.KernelIdeal.RsValue

end
-- ==== Proof.ValueKernel.lean ====
/-
  The kernel's result block is its block of the specification.

  The whole arrays x : [1024, 512] and dy : [1024, 2048] are cut in two along their rows by the first mesh axis:
  the device with first coordinate mx holds rows 512 mx … 512 mx + 511 of both. Its result block is rows
  256 mx … 256 mx + 255 of the [512, 2048] result.

  At (p, q) of the result block, with h = q / 1024 the column half and e the device (this one or its neighbour
  across the second axis) whose second coordinate is h: the entry is e's reduced block, which is e's own partial
  products — over rows 512 mx … of the contracted axis — plus those of e's partner across the first axis — over
  the other 512 rows —, both for row 256 mx + p of the result and column q. The two halves of the contracted
  axis together are all 1024 rows, in whichever order: addition of extended reals is commutative.
-/
import proofs.«900391_g7700000000000392_dist_rsdw_v7x_xyz2x2x4_x_m512_d512_f2048_f32_1_alg».proof.Proof.ValueBlocks
import proofs.«900391_g7700000000000392_dist_rsdw_v7x_xyz2x2x4_x_m512_d512_f2048_f32_1_alg».proof.Proof.ValueSpec
import Idealize.ShloMosaic.Lib.Layout

noncomputable section

open scoped BigOperators

namespace Cert.KernelIdeal.RsValue

open Cert.KernelIdeal Cert.KernelIdeal.Gen Cert.KernelIdeal.Rs
open Idealize.ShloMosaic Idealize.ShloMosaic.TcCoe Idealize.ShloMosaic.ValueIdx

variable (m : (ℓ : Loc nD τ sig) → Buf (Elt Ideal) ℓ)

/-! ## From the devices' blocks to the whole arrays -/

variable (X : (⟨2, ![1024, 512]⟩ : Shape).Idx → EReal) (Y : (⟨2, ![1024, 2048]⟩ : Shape).Idx → EReal)

theorem ix2_congr {n0 n1 : ℕ} {a a' : Fin n0} {b b' : Fin n1} (ha : a.val = a'.val) (hb : b.val = b'.val) :
    ix2 a b = ix2 a' b' := by
  rw [Fin.ext ha, Fin.ext hb]

/-- Along an axis cut by the first mesh axis alone, device c holds block c / 8. -/
theorem meshLin_rows : ∀ c : Fin 16, Layout.meshLin [2, 2, 4] c.val [0] = c.val / 8 := by decide

/-- Device c's block of the first whole array: row k of the block is row 512 (c / 8) + k of the array. -/
theorem blockX_apply (c : Dev nD) (k : Fin 512) (j : Fin 512) :
    (Layout.blockN ⟨2, ![512, 512]⟩ ⟨2, ![1024, 512]⟩ (Layout.meshBlock [2, 2, 4] ![[0], []] c) X) (ix2 k j)
      = X (ix2 ⟨512 * mx c + k.val, by have := k.isLt; have := mx_lt c; omega⟩ j) := by
  show X _ = X _
  refine congrArg X (funext fun a => Fin.ext ?_)
  match a with
  | ⟨0, _⟩ =>
    show Layout.meshLin [2, 2, 4] c.val [0] * 512 + k.val = 512 * (c.val / 8) + k.val
    rw [meshLin_rows c]; omega
  | ⟨1, _⟩ =>
    show 0 * 512 + j.val = j.val
    omega
/-- The same for the second whole array. -/
theorem blockY_apply (c : Dev nD) (k : Fin 512) (j : Fin 2048) :
    (Layout.blockN ⟨2, ![512, 2048]⟩ ⟨2, ![1024, 2048]⟩ (Layout.meshBlock [2, 2, 4] ![[0], []] c) Y) (ix2 k j)
      = Y (ix2 ⟨512 * mx c + k.val, by have := k.isLt; have := mx_lt c; omega⟩ j) := by
  show Y _ = Y _
  refine congrArg Y (funext fun a => Fin.ext ?_)
  match a with
  | ⟨0, _⟩ =>
    show Layout.meshLin [2, 2, 4] c.val [0] * 512 + k.val = 512 * (c.val / 8) + k.val
    rw [meshLin_rows c]; omega
  | ⟨1, _⟩ =>
    show 0 * 2048 + j.val = j.val
    omega

/-- Of a device and its neighbour across the second axis, the one that reduces column half h has the same first
    coordinate and second coordinate h. -/
theorem mx_halfOf (c : Dev nD) (h : ℕ) : mx (halfOf c h) = mx c := by
  unfold halfOf; split
  · rfl
  · exact mx_yn c
theorem my_halfOf (c : Dev nD) (h : ℕ) (hh : h < 2) : my (halfOf c h) = h := by
  unfold halfOf; split
  · assumption
  · rw [my_yn]; have := my_lt c; omega

section
variable (hX : ∀ c : Dev nD, m ((c.tc : Thread nD τ).loc main_arg0)
    = Layout.blockN ⟨2, ![512, 512]⟩ ⟨2, ![1024, 512]⟩ (Layout.meshBlock [2, 2, 4] ![[0], []] c) X)
  (hY : ∀ c : Dev nD, m ((c.tc : Thread nD τ).loc main_arg1)
    = Layout.blockN ⟨2, ![512, 2048]⟩ ⟨2, ![1024, 2048]⟩ (Layout.meshBlock [2, 2, 4] ![[0], []] c) Y)
include hX hY

theorem argA_X (c : Dev nD) (k : Fin 512) (j : Fin 512) :
    aA m c (ix2 k j) = X (ix2 ⟨512 * mx c + k.val, by have := k.isLt; have := mx_lt c; omega⟩ j) := by
  show argA (F := Ideal) m c (ix2 k j) = _
  rw [argA_apply, hX c]
  exact blockX_apply X c k j
theorem argB_Y (c : Dev nD) (k : Fin 512) (j : Fin 2048) :
    aB m c (ix2 k j) = Y (ix2 ⟨512 * mx c + k.val, by have := k.isLt; have := mx_lt c; omega⟩ j) := by
  show argB (F := Ideal) m c (ix2 k j) = _
  rw [argB_apply, hY c]
  exact blockY_apply Y c k j

/-- The reduced block r of device c is the specification at the device's rows of the result (256 mx + p) and the
    device's column half (1024 my + 128 r + t): its own 512 rows of the contracted axis, plus its partner's, are all
    1024. -/
theorem redBlk_G (c : Dev nD) (r : Fin 8) (p : Fin 256) (t : Fin 128) :
    bR m c r (ix2 p t)
      = G X Y (ix2 ⟨256 * mx c + p.val, by have := p.isLt; have := mx_lt c; omega⟩
          ⟨1024 * my c + 128 * r.val + t.val, by have := r.isLt; have := t.isLt; have := my_lt c; omega⟩) := by
  rw [redBlk_apply, Wbuf_apply, Pbuf_apply, G_ix2]
  refine Eq.trans ?_ (sum_halves (fun k : Fin 1024 => X (ix2 k ⟨256 * mx c + p.val, by have := p.isLt; have := mx_lt c; omega⟩)
      * Y (ix2 k ⟨1024 * my c + 128 * r.val + t.val, by have := r.isLt; have := t.isLt; have := my_lt c; omega⟩)) (mx c) (mx_lt c))
  refine congrArg₂ (· + ·) (Finset.sum_congr rfl fun k _ => ?_) (Finset.sum_congr rfl fun k _ => ?_)
  · rw [argA_X m X Y hX hY, argB_Y m X Y hX hY]
    exact congrArg₂ (· * ·) rfl (congrArg Y (ix2_congr rfl (by
      show 1024 * my c + (128 * r.val + t.val) = 1024 * my c + 128 * r.val + t.val; omega)))
  · rw [argA_X m X Y hX hY, argB_Y m X Y hX hY]
    exact congrArg₂ (· * ·)
      (congrArg X (ix2_congr (by show 512 * mx (xp c) + k.val = 512 * (1 - mx c) + k.val; rw [mx_xp])
        (by show 256 - 256 * mx (xp c) + p.val = 256 * mx c + p.val; rw [mx_xp]; have := mx_lt c; omega)))
      (congrArg Y (ix2_congr (by show 512 * mx (xp c) + k.val = 512 * (1 - mx c) + k.val; rw [mx_xp])
        (by show 1024 * my (xp c) + (128 * r.val + t.val) = 1024 * my c + 128 * r.val + t.val; rw [my_xp]; omega)))

/-- THE KERNEL'S VALUE: device c's result block is its block (rows 256 mx … 256 mx + 255) of the specification. -/
theorem kernel_eq (c : Dev nD) :
    (Obuf (F := Ideal) m c : S256x2048.Idx → EReal)
      = Layout.blockN ⟨2, ![256, 2048]⟩ ⟨2, ![512, 2048]⟩ (Layout.meshBlock [2, 2, 4] ![[0], []] c) (G X Y) := by
  funext i
  obtain ⟨p, q, rfl⟩ : ∃ (p : Fin 256) (q : Fin 2048), i = ix2 p q := ⟨i 0, i 1, eq_ix2 i⟩
  rw [Obuf_apply, redBlk_G m X Y hX hY]
  show G X Y _ = G X Y _
  refine congrArg (G X Y) (funext fun a => Fin.ext ?_)
  have hq : q.val < 2048 := q.isLt
  match a with
  | ⟨0, _⟩ =>
    show 256 * mx (halfOf c (q.val / 1024)) + p.val = Layout.meshLin [2, 2, 4] c.val [0] * 256 + p.val
    rw [mx_halfOf, meshLin_rows c]; unfold mx; omega
  | ⟨1, _⟩ =>
    show 1024 * my (halfOf c (q.val / 1024)) + 128 * ((q.val / 128) % 8) + q.val % 128 = 0 * 2048 + q.val
    rw [my_halfOf c _ (by omega)]; omega

end

end Cert.KernelIdeal.RsValue

end
-- ==== Proof.ValueRef.lean ====
/-
  The reference program computes the specification.

  The reference transposes x to [512, 1024] and contracts its second axis with the first axis of dy: entry (i, j)
  is the sum over k of transpose(x)[i, k] * dy[k, j], and transpose(x)[i, k] is x[k, i].
-/
import proofs.«900391_g7700000000000392_dist_rsdw_v7x_xyz2x2x4_x_m512_d512_f2048_f32_1_alg».proof.Proof.Gen.ReferenceIdeal.Read
import proofs.«900391_g7700000000000392_dist_rsdw_v7x_xyz2x2x4_x_m512_d512_f2048_f32_1_alg».proof.Proof.ValueSpec

noncomputable section

open scoped BigOperators

namespace Cert.KernelIdeal.RsValue

open Idealize.ShloMosaic Idealize.ShloMosaic.ValueIdx
open Cert.ReferenceIdeal Cert.ReferenceIdeal.Gen

/-- The reference's result, as its run states it, is the specification of its two arguments. -/
theorem ref_eq (x0 : (⟨S1024x512, .f32⟩ : BufTy).Contents (Elt Ideal)) (x1 : (⟨S1024x2048, .f32⟩ : BufTy).Contents (Elt Ideal)) :
    (Host.dotGeneral (F := Ideal) (φ₁ := .f32) (φ₂ := .f32) dot_S512x1024_S1024x2048_S512x2048_1_0_0_1_n_n none
        (transpose S512x1024 [1, 0] x0 Facts₀.transposes_S1024x512_S512x1024_1_0) x1
        : (⟨S512x2048, .f32⟩ : BufTy).Contents (Elt Ideal))
      = G x0 x1 := by
  rw [Read.val_main_v1_eq]
  funext i
  rw [Read.val_main_v1_apply]
  refine Finset.sum_congr rfl fun k _ => ?_
  rw [Read.val_main_v0_apply]
  have el : Read.idx_main_v0 (Read.lidx_main_v1 i k) = ix2 k (i 0) :=
    funext fun a => Fin.ext (by match a with | ⟨0, _⟩ => rfl | ⟨1, _⟩ => rfl)
  have er : Read.ridx_main_v1 i k = ix2 k (i 1) :=
    funext fun a => Fin.ext (by match a with | ⟨0, _⟩ => rfl | ⟨1, _⟩ => rfl)
  rw [el, er]
  rfl

end Cert.KernelIdeal.RsValue

end
-- ==== Proof.Claims.lean ====
/-
  The five parts of the claim, one theorem each.

  The frames. The kernel on its sixteen devices, read at words and read at extended reals, runs from any memory and
  leaves both argument arrays as they were: this is the run of the whole program — every device's body proved, the launch
  joining them — with the result's value dropped. The reference's frame is its own run with the result dropped.

  The idealization rewrote no operation, so there is nothing to preserve.

  The value, at extended reals. The reference's result is R = transpose(x) · dy of its two whole arrays; device c's
  result block is its block of rows of R, because its argument buffers are its blocks of x and dy; and the arguments
  of both programs end unchanged.
-/
import proofs.«900391_g7700000000000392_dist_rsdw_v7x_xyz2x2x4_x_m512_d512_f2048_f32_1_alg».proof.Defs
import proofs.«900391_g7700000000000392_dist_rsdw_v7x_xyz2x2x4_x_m512_d512_f2048_f32_1_alg».proof.Proof.Launch
import proofs.«900391_g7700000000000392_dist_rsdw_v7x_xyz2x2x4_x_m512_d512_f2048_f32_1_alg».proof.Proof.Body
import proofs.«900391_g7700000000000392_dist_rsdw_v7x_xyz2x2x4_x_m512_d512_f2048_f32_1_alg».proof.Proof.Word.Launch
import proofs.«900391_g7700000000000392_dist_rsdw_v7x_xyz2x2x4_x_m512_d512_f2048_f32_1_alg».proof.Proof.Word.Body
import proofs.«900391_g7700000000000392_dist_rsdw_v7x_xyz2x2x4_x_m512_d512_f2048_f32_1_alg».proof.Proof.ValueKernel
import proofs.«900391_g7700000000000392_dist_rsdw_v7x_xyz2x2x4_x_m512_d512_f2048_f32_1_alg».proof.Proof.ValueRef
import proofs.«900391_g7700000000000392_dist_rsdw_v7x_xyz2x2x4_x_m512_d512_f2048_f32_1_alg».proof.Proof.Gen.ReferenceIdeal.Run
import proofs.«900391_g7700000000000392_dist_rsdw_v7x_xyz2x2x4_x_m512_d512_f2048_f32_1_alg».proof.Proof.Gen.Pre_finite_inputs_Kernel
import proofs.«900391_g7700000000000392_dist_rsdw_v7x_xyz2x2x4_x_m512_d512_f2048_f32_1_alg».proof.Proof.Gen.Pre_finite_inputs_ReferenceIdeal

noncomputable section

namespace Cert.Proof

open Idealize.ShloMosaic Idealize.SL.Sem

/-- The kernel at words runs and leaves its arguments unchanged. -/
theorem frameKernel : _root_.Cert.frame_Kernel := fun m ρ _ =>
  (θ_run (Cert.Kernel.defs (F := Bits)) _ _).mono (fun _ h c => (h c).2)
    (Cert.Kernel.Rs.run (F := Bits) m ρ (Cert.Kernel.Rs.body_obligation m))

/-- The kernel at extended reals runs and leaves its arguments unchanged. -/
theorem frameKernelIdeal : _root_.Cert.frame_KernelIdeal := fun m ρ _ =>
  (θ_run (Cert.KernelIdeal.defs (F := Ideal)) _ _).mono (fun _ h c => (h c).2)
    (Cert.KernelIdeal.Rs.run (F := Ideal) m ρ (Cert.KernelIdeal.Rs.body_obligation m))

/-- The reference runs and leaves its arguments unchanged. -/
theorem frameReferenceIdeal : _root_.Cert.frame_ReferenceIdeal := fun m ρ _ =>
  (θ_run (Cert.ReferenceIdeal.defs (F := Ideal)) _ _).mono (fun _ h c => (h c).2) (Cert.ReferenceIdeal.Value.run (F := Ideal) m ρ)

/-- No operation was rewritten. -/
theorem preserves : _root_.Cert.preserves_Kernel_KernelIdeal := trivial

/-- Both programs run; the reference's result is R = transpose(x) · dy, each device's result block is its block of R,
    and all arguments end unchanged. -/
theorem algebraic : _root_.Cert.algebraic_KernelIdeal_ReferenceIdeal := fun m ρ m' ρ' _ hagree =>
  ⟨Cert.KernelIdeal.RsValue.G
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun _ h c => ⟨(h c).1.trans (Cert.KernelIdeal.RsValue.kernel_eq m _ _ (fun c => (hagree c).1) (fun c => (hagree c).2) c), (h c).2⟩)
      (Cert.KernelIdeal.Rs.run (F := Ideal) m ρ (Cert.KernelIdeal.Rs.body_obligation m)),
    (θ_run (Cert.ReferenceIdeal.defs (F := Ideal)) _ _).mono
      (fun _ h => ⟨(h 0).1.trans (Cert.KernelIdeal.RsValue.ref_eq _ _), (h 0).2⟩)
      (Cert.ReferenceIdeal.Value.run (F := Ideal) m' ρ')⟩

end Cert.Proof

end
-- ==== Proof.lean ====
/-
  The certificate's claim: the kernel on its sixteen devices, at words and at extended reals, and the reference on one
  device each run and leave their arguments unchanged; the idealization rewrote nothing; and at extended reals each
  device's result block is its block of rows of the reference's result, R = transpose(x) · dy. The five parts are
  proved one by one in the module imported last; here they are joined under the witnesses of the facts the programs and
  the precondition state.
-/
import proofs.«900391_g7700000000000392_dist_rsdw_v7x_xyz2x2x4_x_m512_d512_f2048_f32_1_alg».proof.Defs
import proofs.«900391_g7700000000000392_dist_rsdw_v7x_xyz2x2x4_x_m512_d512_f2048_f32_1_alg».proof.Proof.Gen.Kernel
import proofs.«900391_g7700000000000392_dist_rsdw_v7x_xyz2x2x4_x_m512_d512_f2048_f32_1_alg».proof.Proof.Gen.Kernel.Skeleton
import proofs.«900391_g7700000000000392_dist_rsdw_v7x_xyz2x2x4_x_m512_d512_f2048_f32_1_alg».proof.Proof.Gen.Kernel.Launch
import proofs.«900391_g7700000000000392_dist_rsdw_v7x_xyz2x2x4_x_m512_d512_f2048_f32_1_alg».proof.Proof.Gen.Kernel.Points
import proofs.«900391_g7700000000000392_dist_rsdw_v7x_xyz2x2x4_x_m512_d512_f2048_f32_1_alg».proof.Proof.Gen.Kernel.Frame
import proofs.«900391_g7700000000000392_dist_rsdw_v7x_xyz2x2x4_x_m512_d512_f2048_f32_1_alg».proof.Proof.Gen.KernelIdeal
import proofs.«900391_g7700000000000392_dist_rsdw_v7x_xyz2x2x4_x_m512_d512_f2048_f32_1_alg».proof.Proof.Gen.KernelIdeal.Skeleton
import proofs.«900391_g7700000000000392_dist_rsdw_v7x_xyz2x2x4_x_m512_d512_f2048_f32_1_alg».proof.Proof.Gen.KernelIdeal.Launch
import proofs.«900391_g7700000000000392_dist_rsdw_v7x_xyz2x2x4_x_m512_d512_f2048_f32_1_alg».proof.Proof.Gen.KernelIdeal.Points
import proofs.«900391_g7700000000000392_dist_rsdw_v7x_xyz2x2x4_x_m512_d512_f2048_f32_1_alg».proof.Proof.Gen.KernelIdeal.Frame
import proofs.«900391_g7700000000000392_dist_rsdw_v7x_xyz2x2x4_x_m512_d512_f2048_f32_1_alg».proof.Proof.Gen.ReferenceIdeal
import proofs.«900391_g7700000000000392_dist_rsdw_v7x_xyz2x2x4_x_m512_d512_f2048_f32_1_alg».proof.Proof.Gen.ReferenceIdeal.Read
import proofs.«900391_g7700000000000392_dist_rsdw_v7x_xyz2x2x4_x_m512_d512_f2048_f32_1_alg».proof.Proof.Gen.ReferenceIdeal.Run
import proofs.«900391_g7700000000000392_dist_rsdw_v7x_xyz2x2x4_x_m512_d512_f2048_f32_1_alg».proof.Proof.Gen.Pre_finite_inputs_Kernel
import proofs.«900391_g7700000000000392_dist_rsdw_v7x_xyz2x2x4_x_m512_d512_f2048_f32_1_alg».proof.Proof.Gen.Pre_finite_inputs_ReferenceIdeal
import proofs.«900391_g7700000000000392_dist_rsdw_v7x_xyz2x2x4_x_m512_d512_f2048_f32_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frameKernel, frameKernelIdeal, frameReferenceIdeal, preserves, algebraic⟩

end Cert.Proof

end
